-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 99999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S100000x128 : Shape := ⟨2, ![100000, 128]⟩
abbrev S50x4096 : Shape := ⟨2, ![50, 4096]⟩
abbrev S50x32x128 : Shape := ⟨3, ![50, 32, 128]⟩
abbrev S4096x6400 : Shape := ⟨2, ![4096, 6400]⟩
abbrev S50x128 : Shape := ⟨2, ![50, 128]⟩
abbrev S5x128x128 : Shape := ⟨3, ![5, 128, 128]⟩
abbrev S_ : Shape := ⟨0, ![]⟩
abbrev S50x1x128 : Shape := ⟨3, ![50, 1, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Table → Nat
  | .hbm => 5
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S50x4096, .i32⟩
  | .hbm, ⟨3, _⟩ => ⟨S50x32x128, .i32⟩
  | .hbm, ⟨4, _⟩ => ⟨S4096x6400, .f32⟩
  | .local .scVector .vmem, ⟨0, _⟩ => ⟨S50x128, .i32⟩
  | .local .scVector .vmem, ⟨1, _⟩ => ⟨S5x128x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_35_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_36_r0 : BitVec 32 := 0#32
  ![0, v1.toNat, 0]
@[reducible] def k0_t1_loop : Scf.Loop 32 :=
  let c0_i32_13 : BitVec 32 := 0#32
  let c10_i32 : BitVec 32 := 10#32
  let v13 : BitVec 32 := Scalar.addi c0_i32_13 c10_i32
  let c1_i32_14 : BitVec 32 := 1#32
  ⟨c0_i32_13, v13, c1_i32_14⟩
def k0_cond1 (k0_t1 : Fin k0_t1_loop.trips) : BitVec 1 :=
  let c0_i32_13 : BitVec 32 := 0#32
  let c1_i32_14 : BitVec 32 := 1#32
  let arg17 : BitVec 32 := Scf.iv c0_i32_13 c1_i32_14 k0_t1
  let c0_i32_36 : BitVec 32 := 0#32
  let v34 : BitVec 1 := Scalar.cmpi .sgt arg17 c0_i32_36
  let v35 : BitVec 32 := Scalar.extui v34
  let c0_i32_37 : BitVec 32 := 0#32
  let v36 : BitVec 1 := Scalar.cmpi .ne v35 c0_i32_37
  v36

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_158 : BitVec 32 := 0#32
  ![v2.toNat, 0]
def k0_off3 (k0_t1 : Fin k0_t1_loop.trips) (c0_i32_35 : BitVec 32) : Fin 2 → Nat :=
  let c5_i32 : BitVec 32 := 5#32
  let c0_i32_13 : BitVec 32 := 0#32
  let c1_i32_14 : BitVec 32 := 1#32
  let arg17 : BitVec 32 := Scf.iv c0_i32_13 c1_i32_14 k0_t1
  let v32 : BitVec 32 := Scalar.muli c5_i32 arg17
  let v33 : BitVec 32 := Scalar.addi v32 c0_i32_35
  let c2_i32_38 : BitVec 32 := 2#32
  let v37 : BitVec 32 := Scalar.addi v33 c2_i32_38
  let c0_i32_42 : BitVec 32 := 0#32
  ![v37.toNat, 0]
def k0_off4 (i : grid0.Coords) (k0_t1 : Fin k0_t1_loop.trips) (c0_i32_35 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c5_i32 : BitVec 32 := 5#32
  let c0_i32_13 : BitVec 32 := 0#32
  let c1_i32_14 : BitVec 32 := 1#32
  let arg17 : BitVec 32 := Scf.iv c0_i32_13 c1_i32_14 k0_t1
  let v32 : BitVec 32 := Scalar.muli c5_i32 arg17
  let v33 : BitVec 32 := Scalar.addi v32 c0_i32_35
  let c128_i32_52 : BitVec 32 := 128#32
  let v48 : BitVec 32 := Scalar.muli v33 c128_i32_52
  ![v2.toNat, v48.toNat]
def k0_cond2 (k0_t1 : Fin k0_t1_loop.trips) : BitVec 1 :=
  let c0_i32_13 : BitVec 32 := 0#32
  let c1_i32_14 : BitVec 32 := 1#32
  let arg17 : BitVec 32 := Scf.iv c0_i32_13 c1_i32_14 k0_t1
  let c0_i32_60 : BitVec 32 := 0#32
  let v57 : BitVec 1 := Scalar.cmpi .sgt arg17 c0_i32_60
  let v58 : BitVec 32 := Scalar.extui v57
  let c0_i32_61 : BitVec 32 := 0#32
  let v59 : BitVec 1 := Scalar.cmpi .ne v58 c0_i32_61
  v59

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_158 : BitVec 32 := 0#32
  ![v2.toNat, 0]
def k0_cond3 (k0_t1 : Fin k0_t1_loop.trips) : BitVec 1 :=
  let c0_i32_13 : BitVec 32 := 0#32
  let c1_i32_14 : BitVec 32 := 1#32
  let arg17 : BitVec 32 := Scf.iv c0_i32_13 c1_i32_14 k0_t1
  let c0_i32_84 : BitVec 32 := 0#32
  let v80 : BitVec 1 := Scalar.cmpi .sgt arg17 c0_i32_84
  let v81 : BitVec 32 := Scalar.extui v80
  let c0_i32_85 : BitVec 32 := 0#32
  let v82 : BitVec 1 := Scalar.cmpi .ne v81 c0_i32_85
  v82

def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_158 : BitVec 32 := 0#32
  ![v2.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_111 : BitVec 32 := 0#32
  ![v2.toNat, 0]
def k0_cond4 (k0_t1 : Fin k0_t1_loop.trips) : BitVec 1 :=
  let c5_i32_106 : BitVec 32 := 5#32
  let c0_i32_13 : BitVec 32 := 0#32
  let c1_i32_14 : BitVec 32 := 1#32
  let arg17 : BitVec 32 := Scf.iv c0_i32_13 c1_i32_14 k0_t1
  let v101 : BitVec 32 := Scalar.muli c5_i32_106 arg17
  let c3_i32_107 : BitVec 32 := 3#32
  let v102 : BitVec 32 := Scalar.addi v101 c3_i32_107
  let c2_i32_115 : BitVec 32 := 2#32
  let v109 : BitVec 32 := Scalar.addi v102 c2_i32_115
  let c50_i32 : BitVec 32 := 50#32
  let v110 : BitVec 1 := Scalar.cmpi .slt v109 c50_i32
  let v111 : BitVec 32 := Scalar.extui v110
  let c0_i32_116 : BitVec 32 := 0#32
  let v112 : BitVec 1 := Scalar.cmpi .ne v111 c0_i32_116
  v112

def k0_off8 (k0_t1 : Fin k0_t1_loop.trips) : Fin 2 → Nat :=
  let c5_i32_106 : BitVec 32 := 5#32
  let c0_i32_13 : BitVec 32 := 0#32
  let c1_i32_14 : BitVec 32 := 1#32
  let arg17 : BitVec 32 := Scf.iv c0_i32_13 c1_i32_14 k0_t1
  let v101 : BitVec 32 := Scalar.muli c5_i32_106 arg17
  let c3_i32_107 : BitVec 32 := 3#32
  let v102 : BitVec 32 := Scalar.addi v101 c3_i32_107
  let c2_i32_155 : BitVec 32 := 2#32
  let v149 : BitVec 32 := Scalar.addi v102 c2_i32_155
  let c0_i32_159 : BitVec 32 := 0#32
  ![v149.toNat, 0]
def k0_cond5 (k0_t1 : Fin k0_t1_loop.trips) : BitVec 1 :=
  let c5_i32_130 : BitVec 32 := 5#32
  let c0_i32_13 : BitVec 32 := 0#32
  let c1_i32_14 : BitVec 32 := 1#32
  let arg17 : BitVec 32 := Scf.iv c0_i32_13 c1_i32_14 k0_t1
  let v125 : BitVec 32 := Scalar.muli c5_i32_130 arg17
  let c4_i32_131 : BitVec 32 := 4#32
  let v126 : BitVec 32 := Scalar.addi v125 c4_i32_131
  let c2_i32_139 : BitVec 32 := 2#32
  let v133 : BitVec 32 := Scalar.addi v126 c2_i32_139
  let c50_i32_140 : BitVec 32 := 50#32
  let v134 : BitVec 1 := Scalar.cmpi .slt v133 c50_i32_140
  let v135 : BitVec 32 := Scalar.extui v134
  let c0_i32_141 : BitVec 32 := 0#32
  let v136 : BitVec 1 := Scalar.cmpi .ne v135 c0_i32_141
  v136

def k0_off9 (k0_t1 : Fin k0_t1_loop.trips) : Fin 2 → Nat :=
  let c5_i32_130 : BitVec 32 := 5#32
  let c0_i32_13 : BitVec 32 := 0#32
  let c1_i32_14 : BitVec 32 := 1#32
  let arg17 : BitVec 32 := Scf.iv c0_i32_13 c1_i32_14 k0_t1
  let v125 : BitVec 32 := Scalar.muli c5_i32_130 arg17
  let c4_i32_131 : BitVec 32 := 4#32
  let v126 : BitVec 32 := Scalar.addi v125 c4_i32_131
  let c2_i32_155 : BitVec 32 := 2#32
  let v149 : BitVec 32 := Scalar.addi v126 c2_i32_155
  let c0_i32_159 : BitVec 32 := 0#32
  ![v149.toNat, 0]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_19 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  shapeCasts_S50x4096_S50x32x128 : S50x4096.ShapeCasts S50x32x128
  reshapes_S50x128_S50x1x128 : S50x1x128.numel = S50x128.numel ∧ (2 ≤ S50x128.rank ∧ 2 ≤ S50x1x128.rank)
  inb_S5x128x128_S1x128x128_0_0_0 : ∀ a, (![0, 0, 0] : Fin 3 → Nat) a + S1x128x128.size a ≤ S5x128x128.size a
  squeezes_S1x128x128_S128x128 : S1x128x128.Squeezes S128x128
  inb_S50x128_S1x128_0_0 : ∀ a, (![0, 0] : Fin 2 → Nat) a + S1x128.size a ≤ S50x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S5x128x128_S1x128x128_1_0_0 : ∀ a, (![1, 0, 0] : Fin 3 → Nat) a + S1x128x128.size a ≤ S5x128x128.size a
  inb_S50x128_S1x128_1_0 : ∀ a, (![1, 0] : Fin 2 → Nat) a + S1x128.size a ≤ S50x128.size a
  inb_S5x128x128_S1x128x128_2_0_0 : ∀ a, (![2, 0, 0] : Fin 3 → Nat) a + S1x128x128.size a ≤ S5x128x128.size a
  inb_S5x128x128_S1x128x128_3_0_0 : ∀ a, (![3, 0, 0] : Fin 3 → Nat) a + S1x128x128.size a ≤ S5x128x128.size a
  inb_S5x128x128_S1x128x128_4_0_0 : ∀ a, (![4, 0, 0] : Fin 3 → Nat) a + S1x128x128.size a ≤ S5x128x128.size a
  hcc0_scratch2 : 0 + S_.numel ≤ 11
  hcc0_scratch3 : 1 + S_.numel ≤ 11
  hcc0_scratch4 : 2 + S_.numel ≤ 11
  hcc0_scratch5 : 3 + S_.numel ≤ 11
  hcc0_scratch6 : 4 + S_.numel ≤ 11
  hcc0_scratch7 : 5 + S_.numel ≤ 11
  hcc0_scratch8 : 6 + S_.numel ≤ 11
  hcc0_scratch9 : 7 + S_.numel ≤ 11
  hcc0_scratch10 : 8 + S_.numel ≤ 11
  hcc0_scratch11 : 9 + S_.numel ≤ 11
  hcc0_scoped0 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S50x1x128.size a ≤ S50x32x128.size a
  k0_t1_ok : k0_t1_loop.OK
  k0_off2_inb : ∀ (i : grid0.Coords) (k0_t1 : Fin k0_t1_loop.trips), ∀ (k0_h1 : k0_cond1 k0_t1 = 1#1), ∀ a, (k0_off2 i) a + S128x128.size a ≤ S4096x6400.size a
  k0_off3_inb : ∀ k0_t1 : Fin k0_t1_loop.trips, ∀ (r : Fin 3), ∀ a, (k0_off3 k0_t1 (BitVec.ofNat 32 r.val)) a + S1x128.size a ≤ S50x128.size a
  k0_off4_inb : ∀ (i : grid0.Coords) (k0_t1 : Fin k0_t1_loop.trips), ∀ (r : Fin 5), ∀ a, (k0_off4 i k0_t1 (BitVec.ofNat 32 r.val)) a + S128x128.size a ≤ S4096x6400.size a
  k0_off5_inb : ∀ (i : grid0.Coords) (k0_t1 : Fin k0_t1_loop.trips), ∀ (k0_h2 : k0_cond2 k0_t1 = 1#1), ∀ a, (k0_off5 i) a + S128x128.size a ≤ S4096x6400.size a
  k0_off6_inb : ∀ (i : grid0.Coords) (k0_t1 : Fin k0_t1_loop.trips), ∀ (k0_h3 : k0_cond3 k0_t1 = 1#1), ∀ a, (k0_off6 i) a + S128x128.size a ≤ S4096x6400.size a
  k0_off7_inb : ∀ i : grid0.Coords, ∀ a, (k0_off7 i) a + S128x128.size a ≤ S4096x6400.size a
  k0_off8_inb : ∀ k0_t1 : Fin k0_t1_loop.trips, ∀ (k0_h4 : k0_cond4 k0_t1 = 1#1), ∀ a, (k0_off8 k0_t1) a + S1x128.size a ≤ S50x128.size a
  k0_off9_inb : ∀ k0_t1 : Fin k0_t1_loop.trips, ∀ (k0_h5 : k0_cond5 k0_t1 = 1#1), ∀ a, (k0_off9 k0_t1) a + S1x128.size a ≤ S50x128.size a
  k0_off10_inb : ∀ i : grid0.Coords, ∀ a, (k0_off10 i) a + S128x128.size a ≤ S4096x6400.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scoped0 : DmaSems sig S_ := SemArray.consecutive 10 S_ hcc0_scoped0

class Facts : Prop extends Facts₀ where

variable [Facts]
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x6400 : Shape := ⟨2, ![4096, 6400]⟩

abbrev nBuf : Space → Nat
  | .hbm => 26
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | .hbm, ⟨25, _⟩ => ⟨S4096x6400, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  shapeCasts_S4096x50x128_S4096x6400 : S4096x50x128.ShapeCasts S4096x6400
  gather_S100000x128_S4096x50x1_S4096x50x128_2_0_n_n_0_2_1128_wf : GatherDims.WF S100000x128 S4096x50x1 S4096x50x128 [2] [0] [] [0] [] 2 ![1, 128]

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf

class Facts : Prop extends Facts₀ where

variable [Facts]
-- ==== Proof.Spec.lean ====
/-
  The function both programs compute, stated once over literal shapes and over no program: a lookup of table rows.
  For a batch of 4096 histories of 50 row numbers each and a table of 100000 rows of 128 numbers, the result has one
  row per history, holding the 50 looked-up table rows side by side: entry (b, 128·j + d) of the result is entry d of
  the table row that history b names at position j.
-/
import Idealize.ShloMosaic.PureOps
import Idealize.ShloMosaic.Lib.ValueIdx

noncomputable section

namespace Cert.Proof.Spec

open Idealize.ShloMosaic Idealize.ShloMosaic.ValueIdx

/-- The row numbers: 4096 histories of 50. -/
abbrev SIds : Shape := ⟨2, ![4096, 50]⟩
/-- The table: 100000 rows of 128. -/
abbrev STbl : Shape := ⟨2, ![100000, 128]⟩
/-- The result: 4096 rows of 50 · 128. -/
abbrev SOut : Shape := ⟨2, ![4096, 6400]⟩

/-- Every row number names a row of the table. -/
def InRange (ids : IVec SIds 32) : Prop := ∀ i, (ids i).toNat < 100000

/-- The table row a word names. Total: a word past the table is reduced modulo its height; a word in range names
    itself (`rowOf_of_lt`). -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- Which of a history's 50 positions a result column belongs to, -/
def posOf (x : Fin 6400) : Fin 50 := ⟨x.val / 128, by have := x.isLt; omega⟩
/-- and which of the looked-up row's 128 entries it is. -/
def laneOf (x : Fin 6400) : Fin 128 := ⟨x.val % 128, Nat.mod_lt _ (by decide)⟩

/-- The lookup: entry (b, 128·j + d) of the result is entry d of table row `ids (b, j)`. -/
def G {F : FTy → Type} (ids : IVec SIds 32) (tbl : FVec F STbl .f32) : FVec F SOut .f32 :=
  fun x => tbl (ix2 (rowOf (ids (ix2 (x 0) (posOf (x 1))))) (laneOf (x 1)))

theorem G_apply {F : FTy → Type} (ids : IVec SIds 32) (tbl : FVec F STbl .f32) (b : Fin 4096) (c : Fin 6400) :
    G ids tbl (ix2 b c) = tbl (ix2 (rowOf (ids (ix2 b (posOf c)))) (laneOf c)) := rfl

end Cert.Proof.Spec

end
-- ==== Proof.PreRange.lean ====
/-
  What the precondition says of the row numbers. The precondition is a conjunction of two all-reductions: every table
  entry finite, and every row number between 0 and 99999 as a signed word. Only the second half is opened here: a
  32-bit word that is at least 0 and at most 99999 read signed is below 100000 read unsigned, so every row number
  names a row of the table.
-/
import proofs.«206531_g4466765988671_cont_8to1c4_310_22_alg».proof.Proof.Gen.Pre_input_domain
import proofs.«206531_g4466765988671_cont_8to1c4_310_22_alg».proof.Proof.Spec
import Idealize.ShloMosaic.Lib.ReduceAll

noncomputable section

namespace Cert.Proof.PreRange

open Idealize.ShloMosaic Idealize.ShloMosaic.ValueIdx Cert.Pre_input_domain

/-- The rank-zero shape has one index. -/
instance : Subsingleton S_.Idx := ⟨fun _ _ => funext fun a => a.elim0⟩

/-- A word that tests at least 0 and at most 99999 as a signed word is below 100000 as an unsigned one. -/
theorem word_lt (v : BitVec 32) (e : IntOp.andi (IntOp.cmpi .sge v 0#32) (IntOp.cmpi .sle v 99999#32) = 1#1) :
    v.toNat < 100000 := by
  obtain ⟨h1, h2⟩ := IntOp.andi_eq_one.1 e
  rw [IntOp.cmpi_sge, show (0#32 : BitVec 32).toInt = 0 from by decide] at h1
  rw [IntOp.cmpi_sle, show (99999#32 : BitVec 32).toInt = 99999 from by decide] at h2
  rw [BitVec.toInt_eq_toNat_cond] at h1 h2
  have := v.isLt
  omega

/-- The precondition gives: every row number is below the table's height. -/
theorem inRange_of_pre {F : FTy → Type} [FloatOps F] (ids : IVec Cert.Pre_input_domain.S4096x50 32)
    (tbl : FVec F Cert.Pre_input_domain.S100000x128 .f32)
    (h : Cert.Pre_input_domain.fn (F := F) ids tbl = fun _ => 1#1) : Cert.Proof.Spec.InRange ids := by
  intro i
  -- the function's value at the scalar shape's one index is the conjunction of the two reductions
  have e : IntOp.andi _ _ = 1#1 := congrFun h ix0
  -- the second one is the reduction over the row numbers' tests
  have e2 := (IntOp.andi_eq_one.1 e).2
  -- so every test is 1
  have e3 := Host.reduce_andi_all _ _ _ _ ix0 e2 i
  exact word_lt (ids i) e3

end Cert.Proof.PreRange

end
-- ==== Proof.RefStages.lean ====
/-
  The reference's value, stage by stage, as pure functions of the two arguments' contents: the row numbers `ids`
  (4096 histories of 50) and the table `tbl` (100000 rows of 128). Each definition is one or two operations of the
  reference's text applied to earlier stages, so that the composed term of the whole straight line is `out ids tbl`
  and every later statement about it speaks of named stages, never of the full-size composed term.
-/
import proofs.«206531_g4466765988671_cont_8to1c4_310_22_alg».proof.Proof.Gen.ReferenceIdeal

noncomputable section

namespace Cert.Proof.RefStages

open Cert.ReferenceIdeal Cert.ReferenceIdeal.Gen Idealize.ShloMosaic

variable {F : FTy → Type} [FloatOps F]

/-- The constant 0 at every position of the row numbers. -/
def zeros : IVec S4096x50 32 := broadcastInDim S4096x50 ![] bcast_S_S4096x50 (constantI S_ 32 0#32)

/-- Which row numbers are negative. -/
def isNeg (ids : IVec S4096x50 32) : IVec S4096x50 1 := cmpi .slt ids zeros

/-- The constant 100000 (the table's height) at every position. -/
def heights : IVec S4096x50 32 := broadcastInDim S4096x50 ![] bcast_S_S4096x50 (constantI S_ 32 100000#32)

/-- The row numbers moved up by the table's height. -/
def wrapped (ids : IVec S4096x50 32) : IVec S4096x50 32 := addi ids heights

/-- The row numbers with the negative ones counted from the table's end. -/
def norm (ids : IVec S4096x50 32) : IVec S4096x50 32 := select (isNeg ids) (wrapped ids) ids

/-- The same under a trailing unit axis: the start indices of the lookup. -/
def start (ids : IVec S4096x50 32) : IVec S4096x50x1 32 :=
  broadcastInDim S4096x50x1 ![0, 1] bcast_S4096x50_S4096x50x1_0_1 (norm ids)

/-- The lower bound 0 at every start index. -/
def lo : IVec S4096x50x1 32 := broadcastInDim S4096x50x1 ![] bcast_S_S4096x50x1 (constantI S_ 32 0#32)

/-- The upper bound 99999 at every start index (a one-element vector broadcast twice). -/
def hi : IVec S4096x50x1 32 :=
  broadcastInDim S4096x50x1 ![0, 1, 2] bcast_S1x1x1_S4096x50x1_0_1_2
    (broadcastInDim S1x1x1 ![2] bcast_S1_S1x1x1_2 (constantI S1 32 99999#32))

/-- Which start indices are at least 0, -/
def geLo (ids : IVec S4096x50 32) : IVec S4096x50x1 1 := cmpi .sge (start ids) lo
/-- at most 99999, -/
def leHi (ids : IVec S4096x50 32) : IVec S4096x50x1 1 := cmpi .sle (start ids) hi
/-- and both. -/
def inside (ids : IVec S4096x50 32) : IVec S4096x50x1 1 := andi (geLo ids) (leHi ids)

/-- The conjunction over the unit axis: which positions have their start index inside the table. -/
def ok (ids : IVec S4096x50 32) : IVec S4096x50 1 :=
  Host.reduce IntOp.andi (inside ids) (constantI S_ 1 1#1) reducesTo_S4096x50x1_S4096x50_d2 h_S_

/-- The lookup: for each position the table row its start index names, the start index clamped into the table. -/
def rows (ids : IVec S4096x50 32) (tbl : FVec F S100000x128 .f32) : FVec F S4096x50x128 .f32 :=
  Host.gather gather_S100000x128_S4096x50x1_S4096x50x128_2_0_n_n_0_2_1128 tbl (start ids)

/-- The positions' verdicts repeated along each looked-up row. -/
def mask (ids : IVec S4096x50 32) : IVec S4096x50x128 1 :=
  broadcastInDim S4096x50x128 ![0, 1] bcast_S4096x50_S4096x50x128_0_1 (ok ids)

/-- The filler written where a start index is outside the table. -/
def filler : FVec F S4096x50x128 .f32 :=
  broadcastInDim S4096x50x128 ![] bcast_S_S4096x50x128 (constant S_ .f32 0x7FC00000#32)

/-- The looked-up rows, the filler where the start index was outside. -/
def taken (ids : IVec S4096x50 32) (tbl : FVec F S100000x128 .f32) : FVec F S4096x50x128 .f32 :=
  select (mask ids) (rows ids tbl) filler

/-- The result: each history's 50 looked-up rows side by side (the row-major regrouping of the last two axes). -/
def out (ids : IVec S4096x50 32) (tbl : FVec F S100000x128 .f32) : FVec F S4096x6400 .f32 :=
  shapeCast S4096x6400 (taken ids tbl) shapeCasts_S4096x50x128_S4096x6400

end Cert.Proof.RefStages

end
-- ==== Proof.RefOps.lean ====
/-
  The reference program's @main as the straight line of its 24 host operations — the 22 of the lookup function and the
  one of the selection function it calls, written at the call's buffers, then the regrouping — and its run: every weakly fair
  execution terminates with the result buffer at the composed value `RefStages.out` of the two arguments' launch
  contents, and the arguments unchanged.
-/
import proofs.«206531_g4466765988671_cont_8to1c4_310_22_alg».proof.Proof.RefStages
import Idealize.ShloMosaic.Lib.StableHlo.Run

noncomputable section

namespace Cert.Proof.RefOps

open Cert.ReferenceIdeal Cert.ReferenceIdeal.Gen Idealize.ShloMosaic Idealize.ShloMosaic.TcCoe Idealize.SL.Sem Idealize.ShloMosaic.StableHlo
open Cert.Proof

variable {F : FTy → Type} [FloatOps F]

/-- @main's operations in order, the two calls unfolded: the lookup function's lines over the buffers of its one call
    (the table is @main's second argument, the row numbers its first), the selection function's single line in their
    midst, and last the regrouping of the looked-up rows. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    reshape main_v0 main_v1 rfl shapeCasts_S4096x50x128_S4096x6400 ]

-- twenty-four binds re-associated
set_option maxRecDepth 1024 in
/-- @main is that straight line: the two functions' definitions unfolded at their calls, both sides are one chain of
    host steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

attribute [local irreducible] Host.reduce Host.gather broadcastInDim shapeCast in
set_option maxRecDepth 8192 in
/-- The fold of the operations' results at the result buffer is the composed value of the two arguments' contents:
    the fold unrolled, each operation's result decides whether the buffer read is the one it writes, and the typed
    references' transports are the identity at these literal references. The reduction, the lookup, the broadcasts and
    the regrouping stay folded meanwhile: the equation never looks inside them. -/
theorem out_eq (V : Valuation τ sig (Elt F)) :
    after ops V (main_v1 : DevRef τ sig)
      = RefStages.out (F := F) (V (main_arg0 : DevRef τ sig)) (V (main_arg1 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of @main
    terminates with the result at the composed value of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = RefStages.out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _),
      (h c main_arg1).trans (arg1_eq _)⟩)
    (run_seq scopedRefs_eq scopedSems_eq defs main (fun _ => ops) main_eq (fun _ => ops_sub) m ρ)

end Cert.Proof.RefOps

end
-- ==== Proof.RefValue.lean ====
/-
  The reference's composed value is the lookup. Read at a result index (b, c) — history b, column c = 128·j + d — and
  under the hypothesis that every row number is below the table's height:
  * the regrouping reads the rank-3 array at (b, j, d), the index with the same row-major position;
  * there the selection keeps the looked-up value, because the verdict of position (b, j) is 1: the verdict is the
    conjunction, over a unit axis, of "0 ≤ start index ≤ 99999", and every start index is a row number in range
    (a row number in range is not negative, so the wrap-around of negative row numbers leaves it alone);
  * the looked-up value at (b, j, d) is the table at row "start index clamped to [0, 99999]" — the identity on a
    start index in range — and lane d.
-/
import proofs.«206531_g4466765988671_cont_8to1c4_310_22_alg».proof.Proof.RefStages
import proofs.«206531_g4466765988671_cont_8to1c4_310_22_alg».proof.Proof.Spec
import Idealize.ShloMosaic.Lib.Pipeline.Value
import Idealize.ShloMosaic.Lib.ReduceAll

noncomputable section

namespace Cert.Proof.RefValue

open Cert.ReferenceIdeal Cert.ReferenceIdeal.Gen Idealize.ShloMosaic Idealize.ShloMosaic.ValueIdx
open Cert.Proof Cert.Proof.RefStages

variable {F : FTy → Type} [FloatOps F]

/-! ## Words -/

/-- A word below 100000 is not negative as a signed word, -/
theorem slt_zero_of_lt {w : BitVec 32} (h : w.toNat < 100000) : IntOp.cmpi .slt w 0#32 = 0#1 := by
  have hne : ¬ IntOp.cmpi .slt w 0#32 = 1#1 := by
    rw [IntOp.cmpi_slt, show (0#32 : BitVec 32).toInt = 0 from by decide, BitVec.toInt_eq_toNat_cond]
    have := w.isLt
    omega
  exact eq_zero_of_ne_one hne

/-- tests at least 0 and at most 99999, -/
theorem inside_of_lt {w : BitVec 32} (h : w.toNat < 100000) :
    IntOp.andi (IntOp.cmpi .sge w 0#32) (IntOp.cmpi .sle w 99999#32) = 1#1 := by
  rw [IntOp.andi_eq_one, IntOp.cmpi_sge, IntOp.cmpi_sle, show (0#32 : BitVec 32).toInt = 0 from by decide,
    show (99999#32 : BitVec 32).toInt = 99999 from by decide, BitVec.toInt_eq_toNat_cond]
  have := w.isLt
  omega

/-- and is its own clamp into [0, 99999]. -/
theorem clamp_of_lt {w : BitVec 32} (h : w.toNat < 100000) : min w.toInt.toNat 99999 = w.toNat := by
  rw [BitVec.toInt_eq_toNat_cond]
  have := w.isLt
  omega

/-! ## A conjunction of ones -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from the initial value 1 of an array of ones is 1 at every index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-! ## The stages at an index, the row numbers in range -/

section InRange

variable (ids : IVec S4096x50 32) (hin : Spec.InRange ids)
include hin

/-- A row number in range is left alone by the wrap-around of negative row numbers. -/
theorem norm_apply (k : S4096x50.Idx) : norm ids k = ids k := by
  show Scalar.select (IntOp.cmpi .slt (ids k) 0#32) (wrapped ids k) (ids k) = ids k
  rw [slt_zero_of_lt (hin k), select_zero]

/-- Every start index is a row number: below the table's height. -/
theorem start_lt (i : S4096x50x1.Idx) : (start ids i).toNat < 100000 := by
  unfold start broadcastInDim
  rw [norm_apply ids hin]
  exact hin _

/-- The start index of position (b, j) is the row number there. -/
theorem start_apply (b : Fin 4096) (j : Fin 50) (u : Fin 1) : start ids (ix3 b j u) = ids (ix2 b j) := by
  unfold start
  rw [broadcastInDim_apply _ _ _ (ix3 b j u) (ix2 b j) (fun a => by match a with | ⟨0, _⟩ => rfl | ⟨1, _⟩ => rfl)]
  exact norm_apply ids hin _

/-- Every start index tests inside the table, -/
theorem inside_apply (i : S4096x50x1.Idx) : inside ids i = 1#1 :=
  inside_of_lt (start_lt ids hin i)

/-- so every position's verdict is 1, -/
theorem ok_apply (k : S4096x50.Idx) : ok ids k = 1#1 :=
  reduce_andi_of_all _ _ _ _ (inside_apply ids hin) (fun _ => rfl) k

/-- and so is the verdict repeated along the looked-up row. -/
theorem mask_apply (i : S4096x50x128.Idx) : mask ids i = 1#1 := by
  unfold mask broadcastInDim
  exact ok_apply ids hin _

end InRange

/-! ## The lookup at an index -/

/-- THE LOOKUP READ AT (b, j, d): the table at the row the start index of position (b, j) names — read signed and
    clamped into [0, 99999] — and lane d. Axis 0 of the table is the looked-up one (its slice has one row, the result
    has no axis for it); axis 1 is carried whole to the result's last axis. -/
theorem gather_apply (tbl : S100000x128.Idx → F .f32) (idx : IVec S4096x50x1 32) (b : Fin 4096) (j : Fin 50) (d : Fin 128) :
    Host.gather gather_S100000x128_S4096x50x1_S4096x50x128_2_0_n_n_0_2_1128 tbl idx (ix3 b j d)
      = tbl (ix2 (⟨min (idx (ix3 b j (0 : Fin 1))).toInt.toNat 99999, by omega⟩ : Fin 100000) d) := by
  unfold Host.gather
  refine congrArg tbl (funext fun a => Fin.ext ?_)
  match a with
  | ⟨0, _⟩ =>
    show GatherDims.start gather_S100000x128_S4096x50x1_S4096x50x128_2_0_n_n_0_2_1128 (ix3 b j d) idx 0
        + GatherDims.batchCoord gather_S100000x128_S4096x50x1_S4096x50x128_2_0_n_n_0_2_1128 (ix3 b j d) 0
        + GatherDims.offCoord gather_S100000x128_S4096x50x1_S4096x50x128_2_0_n_n_0_2_1128 (ix3 b j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S100000x128_S4096x50x1_S4096x50x128_2_0_n_n_0_2_1128
      from List.mem_singleton.mpr rfl)]
    have hsi : GatherDims.siIdx gather_S100000x128_S4096x50x1_S4096x50x128_2_0_n_n_0_2_1128 (ix3 b j d)
        ⟨List.idxOf (0 : Fin 2) (GatherDims.startIndexMap gather_S100000x128_S4096x50x1_S4096x50x128_2_0_n_n_0_2_1128),
          List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start gather_S100000x128_S4096x50x1_S4096x50x128_2_0_n_n_0_2_1128 (ix3 b j d) idx 1
        + GatherDims.batchCoord gather_S100000x128_S4096x50x1_S4096x50x128_2_0_n_n_0_2_1128 (ix3 b j d) 1
        + GatherDims.offCoord gather_S100000x128_S4096x50x1_S4096x50x128_2_0_n_n_0_2_1128 (ix3 b j d) 1 = d.val
    rw [GatherDims.batchCoord_eq_zero _ _ _ List.not_mem_nil]
    have hs : GatherDims.start gather_S100000x128_S4096x50x1_S4096x50x128_2_0_n_n_0_2_1128 (ix3 b j d) idx 1 = 0 := by
      unfold GatherDims.start
      rw [dif_neg (show ¬ (1 : Fin 2) ∈ GatherDims.startIndexMap gather_S100000x128_S4096x50x1_S4096x50x128_2_0_n_n_0_2_1128
        from by decide)]
    have ho : GatherDims.offCoord gather_S100000x128_S4096x50x1_S4096x50x128_2_0_n_n_0_2_1128 (ix3 b j d) 1 = d.val := by
      unfold GatherDims.offCoord
      rw [dif_pos (show (1 : Fin 2) ∈ GatherDims.sKept gather_S100000x128_S4096x50x1_S4096x50x128_2_0_n_n_0_2_1128
        from by decide)]
      rfl
    omega

/-! ## The composed value is the lookup -/

/-- With every row number in range the reference's composed value is the lookup `Spec.G`, index by index. -/
theorem out_eq_G (ids : IVec S4096x50 32) (tbl : FVec F S100000x128 .f32) (hin : Spec.InRange ids) :
    RefStages.out (F := F) ids tbl = Spec.G (F := F) ids tbl := by
  funext x
  obtain ⟨b, c, rfl⟩ : ∃ (b : Fin 4096) (c : Fin 6400), x = ix2 b c := ⟨x 0, x 1, eq_ix2 x⟩
  rw [Spec.G_apply]
  unfold RefStages.out
  -- the regrouping: (b, c) and (b, c / 128, c % 128) have the same row-major position
  rw [shapeCast_apply (taken ids tbl) shapeCasts_S4096x50x128_S4096x6400 (ix2 b c) (ix3 b (Spec.posOf c) (Spec.laneOf c)) (by
    rw [Shape.rowMajor_val_three, Shape.rowMajor_val_two]
    show (b.val * 50 + c.val / 128) * 128 + c.val % 128 = b.val * 6400 + c.val
    omega)]
  -- the selection keeps the looked-up value
  unfold taken
  rw [select_apply, mask_apply ids hin, select_one]
  -- the looked-up value
  unfold rows
  rw [gather_apply]
  refine congrArg (fun r => tbl (ix2 r (Spec.laneOf c))) (Fin.ext ?_)
  show min (start ids (ix3 b (Spec.posOf c) (0 : Fin 1))).toInt.toNat 99999 = (Spec.rowOf (ids (ix2 b (Spec.posOf c)))).val
  rw [start_apply ids hin, clamp_of_lt (hin _), Spec.rowOf_val_of_lt (hin _)]

end Cert.Proof.RefValue

end
-- ==== Proof.RefRun.lean ====
/-
  The reference's side of the equivalence: from any memory whose row numbers are all below the table's height, every
  weakly fair execution of the reference's @main terminates with its result buffer holding the lookup `Spec.G` of the
  two arguments' launch contents, and the arguments unchanged. The run gives the result as the operations' composed
  value (RefOps); with the row numbers in range that value is the lookup (RefValue).
-/
import proofs.«206531_g4466765988671_cont_8to1c4_310_22_alg».proof.Proof.RefOps
import proofs.«206531_g4466765988671_cont_8to1c4_310_22_alg».proof.Proof.RefValue
import Idealize.ShloMosaic.PureOps.Ideal

noncomputable section

namespace Cert.Proof.RefSide

open Idealize.ShloMosaic Idealize.SL.Sem

theorem run (m : (ℓ : Loc Cert.ReferenceIdeal.nD Cert.ReferenceIdeal.τ Cert.ReferenceIdeal.sig) → Buf (Elt Ideal) ℓ)
    (g : Dev Cert.ReferenceIdeal.nD → PrngReg)
    (hin : ∀ c : Dev Cert.ReferenceIdeal.nD, Cert.Proof.Spec.InRange
      (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v1)
          = Cert.Proof.Spec.G (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (Cert.Proof.RefValue.out_eq_G (F := Ideal) _ _ (hin c)), (h c).2⟩)
    (Cert.Proof.RefOps.run (F := Ideal) m g)

end Cert.Proof.RefSide

end
-- ==== Proof.IfaceI.lean ====
/-
  The lookup kernel as the launch theorem sees it, and what passes between its threads.
  Thirty-two tasks (two cores of sixteen vector subcores; task number 2·s + c on subcore s of core c) each own 128
  consecutive rows of the result. A task copies its 50 lists of 128 row numbers into its own memory, then for each list
  gathers the 128 named table rows into one of five row buffers and copies that buffer out to the 128 × 128 block of
  the result it belongs to. The table and the array of lists are only read: every task holds a read share of each.
  The result's rows are split among the tasks. What a task hands back is its rows of the result at the lookup's value.
-/
import proofs.«206531_g4466765988671_cont_8to1c4_310_22_alg».proof.KernelIdeal
import proofs.«206531_g4466765988671_cont_8to1c4_310_22_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206531_g4466765988671_cont_8to1c4_310_22_alg».proof.Proof.Gen.KernelIdeal
import proofs.«206531_g4466765988671_cont_8to1c4_310_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The row numbers, the table, the row numbers transposed, the lists (one per position, task and row), the result. -/
abbrev iLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev vLoc (d : Dev nD) : Loc nD τ sig := (SparseCore.T d).loc main_v1
abbrev oLoc (d : Dev nD) : Loc nD τ sig := (SparseCore.T d).loc main_v2

/-! ## A task's coordinates and its rows of the result -/

abbrev cV (L : grid0.Coords) : Fin τ.nSC := (L 0).castLE hcore0
abbrev jV (L : grid0.Coords) : Fin τ.nSub := (L 1).castLE hsub0

/-- The task's number: 2 · subcore + core. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The task's 128 rows of the result, all 6400 columns. -/
theorem oTile_inb (L : grid0.Coords) : ∀ a, (![128 * wid L, 0] : Fin 2 → ℕ) a + (![128, 6400] : Fin 2 → ℕ) a ≤ S4096x6400.size a := by
  have := wid_lt L
  intro a; match a with
  | ⟨0, _⟩ => show 128 * wid L + 128 ≤ 4096; omega
  | ⟨1, _⟩ => show 0 + 6400 ≤ 6400; omega
abbrev oTileRect (L : grid0.Coords) : Rect S4096x6400 := Rect.unit (s := S4096x6400) ![128 * wid L, 0] ![128, 6400] (oTile_inb L)
abbrev oTileSet (L : grid0.Coords) : Finset S4096x6400.Idx := (oTileRect L).set

/-! ## The value a task leaves -/

/-- The lookup read off the array of lists `lst` (position, task, row) instead of the row numbers: entry
    (128·w + r, 128·j + e) of the result is entry `e` of the table row that `lst (j, w, r)` names. -/
def Gk (lst : IVec S50x32x128 32) (tbl : FVec F S100000x128 .f32) : FVec F S4096x6400 .f32 :=
  fun x => tbl (ix2 (Spec.rowOf (lst (ix3 (Spec.posOf (x 1)) (⟨(x 0).val / 128, by have := idx2_lt0 x; omega⟩ : Fin 32)
    (⟨(x 0).val % 128, Nat.mod_lt _ (by decide)⟩ : Fin 128)))) (Spec.laneOf (x 1)))

end Cert.Proof.KI

end
-- ==== Proof.TileDefsI.lean ====
/-
  One task of the lookup kernel, on one vector subcore: its semaphores and buffers, the slices it addresses, what its
  lists' scratch holds after the lists are copied in, and the rows a gather brings.
-/
import proofs.«206531_g4466765988671_cont_8to1c4_310_22_alg».proof.Proof.IfaceI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.KernelIdeal.main_v1_scv : Memref Cert.KernelIdeal.sig Kind.scVector Space.hbm Cert.KernelIdeal.S50x32x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S5x128x128 EltTy.f32)

variable [FloatOps F]
variable (d : Dev nD) (L : grid0.Coords)

/-! ## The task's own semaphores and buffers -/

/-- The task's DMA semaphore number `k`, as a cell. -/
abbrev dcell (k : DmaSem sig) : GSem nD τ sig := (V d (cV L) (jV L), SemLoc.dma k)

omit [FloatOps F] in
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide]
  repeat rw [SparseCore.bigSep_insert' (by decide)]
  rw [bigSep_singleton]

/-- The eleven DMA semaphores, as cells of the task. -/
def cellEmb : DmaSem sig ↪ GSem nD τ sig :=
  ⟨fun k => dcell d L k, fun a b h => by
    have h2 : (SemLoc.dma a : SemLoc sig) = SemLoc.dma b := (Prod.mk.inj h).2
    exact SemLoc.dma.inj h2⟩
abbrev cellsT : Finset (GSem nD τ sig) := (Finset.univ : Finset (DmaSem sig)).map (cellEmb d L)

omit [FloatOps F] in
theorem cellsT_sub : cellsT d L ⊆ ownCells (V d (cV L) (jV L)) := by
  intro g hg
  obtain ⟨k, -, rfl⟩ := Finset.mem_map.mp hg
  refine mem_ownCells.mpr ⟨rfl, ?_⟩
  exact (by decide : ∀ k : DmaSem sig, (SemLoc.dma k : SemLoc sig).isScoped .scVector = true) k

omit [FloatOps F] in
/-- The task's own semaphores: the five the gathers complete on, the five the copies out complete on, the one the
    copy of the lists completes on, and the rest. -/
theorem ownSems0_T :
    (ownSems0 (V d (cV L) (jV L)) : sProp 𝕄)
      = iprop((semVal (dcell d L cc0_scratch2.sem) 0 ∗ semVal (dcell d L cc0_scratch3.sem) 0 ∗ semVal (dcell d L cc0_scratch4.sem) 0
          ∗ semVal (dcell d L cc0_scratch5.sem) 0 ∗ semVal (dcell d L cc0_scratch6.sem) 0 ∗ semVal (dcell d L cc0_scratch7.sem) 0
          ∗ semVal (dcell d L cc0_scratch8.sem) 0 ∗ semVal (dcell d L cc0_scratch9.sem) 0 ∗ semVal (dcell d L cc0_scratch10.sem) 0
          ∗ semVal (dcell d L cc0_scratch11.sem) 0 ∗ semVal (dcell d L cc0_scoped0.sem) 0)
          ∗ bigSep (ownCells (V d (cV L) (jV L)) \ cellsT d L) fun g => semVal g 0) := by
  unfold SparseCore.Cfg.ownSems0
  rw [bigSep_sdiff_split (cellsT_sub d L), bigSep_map, bigSep_fin11]
  rfl

omit [FloatOps F] in
/-- The task's own buffers: the lists' scratch, the five row buffers' scratch, and the rest. -/
theorem ownBufs_T :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_vV (q : PosShare TreeShare) (f : Buf (Elt F) (vLoc d)) :
    ((vV).view.loc (V d (cV L) (jV L)) ↦{q} f : sProp 𝕄) = vLoc d ↦{q} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-! ## Read tokens: one read share per gather semaphore -/

omit [FloatOps F] in
/-- A points-to at share `q` is five read tokens and what remains. -/
theorem toks5 {ℓ : Loc nD τ sig} (S : Finset (Idx ℓ)) (q : PosShare TreeShare) (f : Buf (Elt F) ℓ) :
    (ℓ ↦[S]{q} f : sProp 𝕄) ⊣⊢ iprop((ℓ ↦[S]{Transfers.shareDrop q 5} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f)) := by
  have h := Transfers.pointsTo_toks_range (nD := nD) (τ := τ) (sig := sig) (Ix := HIx 1) (Val := Elt F) (Name := ℕ) (U := UU) (Lvl := ℕ) (ℓ := ℓ) (S := S) (f := f) q 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

/-! ## The lists' words name rows -/

/-- After the lists are copied into the task's scratch, every word of every one-row slice of that scratch is a word of
    the array of lists, so it names a row of the table. Stated for every slice offset and all prior contents. -/
theorem list_inb (fv : Buf (Elt F) (vLoc d)) (hin : ∀ j, (fv j).toNat < 100000)
    (off : Fin 2 → ℕ) (h : ∀ a, off a + S1x128.size a ≤ S50x128.size a)
    (hs : ∀ a, (Rect.unit (s := S50x128) off S1x128.size h).stride a = 1)
    (fs : Buf (Elt F) ((V d (cV L) (jV L)).loc cc0_scratch0)) (x : S128.Idx) :
    ((((sI).slice (Rect.unit (s := S50x128) off S1x128.size h) hs).squeeze S128 squeezes_S1x128_S128).view.read (Elt F)
        (View.write (Elt F) ((sI).reshape S50x1x128 reshapes_S50x128_S50x1x128.1 reshapes_S50x128_S50x1x128.2 (Memref.isWhole_whole _).contiguous).view fs
          (ReadAs.same.apply (View.read (Elt F) ((vV).slice (Rect.unit (s := S50x32x128) (k0_off1 L) S50x1x128.size (k0_off1_inb L)) (fun _ => rfl)).view fv))
          Finset.univ) x).toNat < 100000 := by
  have key : ∀ j, (View.write (Elt F) ((sI).reshape S50x1x128 reshapes_S50x128_S50x1x128.1 reshapes_S50x128_S50x1x128.2 (Memref.isWhole_whole _).contiguous).view fs
          (ReadAs.same.apply (View.read (Elt F) ((vV).slice (Rect.unit (s := S50x32x128) (k0_off1 L) S50x1x128.size (k0_off1_inb L)) (fun _ => rfl)).view fv))
          Finset.univ j).toNat < 100000 := by
    intro j
    show (((View.whole (cc0_scratch0 : Ref sig .scVector)).reshape S50x1x128 reshapes_S50x128_S50x1x128.1).write (Elt F) fs _ Finset.univ j).toNat < 100000
    rw [View.write_reshape_univ, View.write_whole_univ]
    show BitVec.toNat (ReadAs.same.apply (View.read (Elt F) ((vV).slice (Rect.unit (s := S50x32x128) (k0_off1 L) S50x1x128.size (k0_off1_inb L)) (fun _ => rfl)).view fv) _) < 100000
    show BitVec.toNat (View.read (Elt F) ((vV).slice (Rect.unit (s := S50x32x128) (k0_off1 L) S50x1x128.size (k0_off1_inb L)) (fun _ => rfl)).view fv _) < 100000
    rw [View.read_apply]
    exact hin _
  rw [View.read_apply]
  exact key _

/-! ## The slices the task addresses, in the program's spelling -/

/-- The table, as every gather slices it: whole. -/
abbrev tblM : Memref sig .scVector .hbm S100000x128 .f32 :=
  (xV).slice (Rect.unit (s := S100000x128) ![0, 0] S100000x128.size inb_S100000x128_S100000x128_0_0) (fun _ => rfl)
/-- One of the five row buffers: the 128 × 128 slab at `off` of the row-buffer scratch. -/
abbrev slotM (off : Fin 3 → ℕ) (h : ∀ a, off a + S1x128x128.size a ≤ S5x128x128.size a) : Memref sig .scVector .vmem S128x128 .f32 :=
  ((sR).slice (Rect.unit (s := S5x128x128) off S1x128x128.size h) (fun _ => rfl)).squeeze S128x128 squeezes_S1x128x128_S128x128
/-- One list: the row at `off` of the lists' scratch. -/
abbrev listM (off : Fin 2 → ℕ) (h : ∀ a, off a + S1x128.size a ≤ S50x128.size a) : Memref sig .scVector .vmem S128 .i32 :=
  ((sI).slice (Rect.unit (s := S50x128) off S1x128.size h) (fun _ => rfl)).squeeze S128 squeezes_S1x128_S128
/-- One 128 × 128 block of the result, at `off`. -/
abbrev chunkM (off : Fin 2 → ℕ) (h : ∀ a, off a + S128x128.size a ≤ S4096x6400.size a) : Memref sig .scVector .hbm S128x128 .f32 :=
  (oV).slice (Rect.unit (s := S4096x6400) off S128x128.size h) (fun _ => rfl)

/-- What the lists' scratch holds once the task's lists are copied in (over prior contents `fs`): the task's slice of
    the array of lists, laid out list by list. -/
def c0 (fs : Buf (Elt F) ((V d (cV L) (jV L)).loc cc0_scratch0)) (fv : Buf (Elt F) (vLoc d)) : Buf (Elt F) ((V d (cV L) (jV L)).loc cc0_scratch0) :=
  View.write (Elt F) ((sI).reshape S50x1x128 reshapes_S50x128_S50x1x128.1 reshapes_S50x128_S50x1x128.2 (Memref.isWhole_whole _).contiguous).view fs
    (ReadAs.same.apply (View.read (Elt F) ((vV).slice (Rect.unit (s := S50x32x128) (k0_off1 L) S50x1x128.size (k0_off1_inb L)) (fun _ => rfl)).view fv))
    Finset.univ

/-- Every word of every list in the scratch names a row of the table. -/
theorem c0_inb (fs : Buf (Elt F) ((V d (cV L) (jV L)).loc cc0_scratch0)) (fv : Buf (Elt F) (vLoc d)) (hin : ∀ j, (fv j).toNat < 100000)
    (off : Fin 2 → ℕ) (h : ∀ a, off a + S1x128.size a ≤ S50x128.size a) (x : S128.Idx) :
    ((listM off h).view.read (Elt F) (c0 d L fs fv) x).toNat < S100000x128.size gathers_S100000x128_S128x128.axis :=
  list_inb (F := F) d L fv hin off h (fun _ => rfl) fs x

/-- The rows one gather brings: row `r` of the block is the table row that word `r` of the list at `off` names. -/
def gp (fs : Buf (Elt F) ((V d (cV L) (jV L)).loc cc0_scratch0)) (fv : Buf (Elt F) (vLoc d)) (hin : ∀ j, (fv j).toNat < 100000)
    (fx : Buf (Elt F) (xLoc d)) (off : Fin 2 → ℕ) (h : ∀ a, off a + S1x128.size a ≤ S50x128.size a) : S128x128.Idx → Elt F .f32 :=
  SparseCore.gatherPayload gathers_S100000x128_S128x128 ((tblM).view.read (Elt F) fx)
    (SparseCore.rows ((listM off h).view.read (Elt F) (c0 d L fs fv)) rfl (c0_inb d L fs fv hin off h))

/-! ## The pieces, numbered -/

/-- Where list number `j` sits in the lists' scratch: row `j` (a number past the last list is taken as the last). -/
def lo (j : ℕ) : Fin 2 → ℕ := ![min j 49, 0]
omit [FloatOps F] in
theorem lo_inb (j : ℕ) : ∀ a, lo j a + S1x128.size a ≤ S50x128.size a := by
  have h : min j 49 ≤ 49 := Nat.min_le_right _ _
  intro a; match a with
  | ⟨0, _⟩ => show min j 49 + 1 ≤ 50; omega
  | ⟨1, _⟩ => show 0 + 128 ≤ 128; omega
/-- List number `j`. -/
abbrev LM (j : ℕ) : Memref sig .scVector .vmem S128 .i32 := listM (lo j) (lo_inb j)

/-- Where block number `j` of the task's rows of the result sits: rows 128·w …, columns 128·j …. -/
def co (L : grid0.Coords) (j : ℕ) : Fin 2 → ℕ := ![128 * wid L, 128 * min j 49]
omit [FloatOps F] in
theorem co_inb (L : grid0.Coords) (j : ℕ) : ∀ a, co L j a + S128x128.size a ≤ S4096x6400.size a := by
  have h : min j 49 ≤ 49 := Nat.min_le_right _ _
  have hw := wid_lt L
  intro a; match a with
  | ⟨0, _⟩ => show 128 * wid L + 128 ≤ 4096; omega
  | ⟨1, _⟩ => show 128 * min j 49 + 128 ≤ 6400; omega
/-- Block number `j` of the task's rows of the result. -/
abbrev CM (L : grid0.Coords) (j : ℕ) : Memref sig .scVector .hbm S128x128 .f32 := chunkM (co L j) (co_inb L j)

/-- What a row buffer holds once list `j`'s rows are gathered into it (over prior contents `fd`). -/
abbrev slotAfter (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (j : ℕ) : Buf (Elt F) ((V d (cV L) (jV L)).loc cc0_scratch1) :=
  (slotM offS hS).view.writes (Elt F) fd [⟨Rect.whole S128x128, gp d L fs fv hin fx (lo j) (lo_inb j)⟩]

/-- What block `j` of the result holds once that row buffer is copied out to it (over prior contents `fo`). -/
abbrev chunkAfter (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (fo : Buf (Elt F) (oLoc d)) (j : ℕ) : Buf (Elt F) (oLoc d) :=
  (CM L j).view.writes (Elt F) fo [⟨Rect.whole S128x128,
    ReadAs.same.apply (View.read (Elt F) (slotM offS hS).view (slotAfter d L fs fv hin fx offS hS fd j))⟩]

end Cert.Proof.KI

end
-- ==== Proof.TileValI.lean ====
/-
  One task's data, as pure facts.
  The task's rows of the result — rows 128·w … 128·w + 127, w the task's number, all 6400 columns — are its fifty
  128 × 128 blocks, block j the columns 128·j … 128·j + 127: pairwise disjoint and covering.
  A written block holds the lookup's value: element (r, e) of block j is what the row buffer held at (r, e), which is
  what the gather for list j brought there — entry e of the table row named by word r of list j in the task's scratch —
  and that word is list word (j, w, r) of the array of lists, because the scratch holds the task's slice of that array
  list by list. The lookup at (128·w + r, 128·j + e) is, by definition, entry e of the table row list word (j, w, r) names.
-/
import proofs.«206531_g4466765988671_cont_8to1c4_310_22_alg».proof.Proof.TileDefsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.KernelIdeal.main_v1_scv : Memref Cert.KernelIdeal.sig Kind.scVector Space.hbm Cert.KernelIdeal.S50x32x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S5x128x128 EltTy.f32)

variable [FloatOps F]
variable (d : Dev nD) (L : grid0.Coords)

/-! ## The task's rows of the result are its fifty blocks -/

omit [FloatOps F] in
/-- Block `j` is the rectangle of rows 128·w … 128·w + 127 and columns 128·j … 128·j + 127 (j below 50). -/
theorem CM_set (j : ℕ) :
    (CM L j).view.set = (Rect.unit (s := S4096x6400) (co L j) S128x128.size (co_inb L j)).set :=
  View.set_slice_whole (main_v2_scv : Ref sig .scVector) _

omit [FloatOps F] in
theorem chunks_disjoint :
    ∀ i ∈ Finset.range 50, ∀ j ∈ Finset.range 50, i ≠ j → Disjoint ((CM L i).view.set) ((CM L j).view.set) := by
  intro i hi j hj hij
  have hi' : i < 50 := Finset.mem_range.mp hi
  have hj' : j < 50 := Finset.mem_range.mp hj
  rw [CM_set, CM_set]
  refine Rect.unit_disjoint 1 ?_
  show 128 * min i 49 + 128 ≤ 128 * min j 49 ∨ 128 * min j 49 + 128 ≤ 128 * min i 49
  omega

omit [FloatOps F] in
theorem chunks_cover : (Finset.range 50).biUnion (fun j => (CM L j).view.set) = oTileSet L := by
  ext x
  have h1 : (x 1).val < 6400 := idx2_lt1 x
  rw [Finset.mem_biUnion]
  constructor
  · rintro ⟨j, hj, hx⟩
    have hj' : j < 50 := Finset.mem_range.mp hj
    rw [CM_set, Rect.mem_set_unit] at hx
    have hx0 := hx 0
    have hx1 := hx 1
    refine Rect.mem_set_unit.mpr fun a => ?_
    match a with
    | ⟨0, _⟩ => exact hx0
    | ⟨1, _⟩ =>
      show 0 ≤ (x 1).val ∧ (x 1).val < 0 + 6400
      omega
  · intro hx
    have hx0 := (Rect.mem_set_unit.mp hx) 0
    refine ⟨(x 1).val / 128, Finset.mem_range.mpr (by omega), ?_⟩
    rw [CM_set]
    refine Rect.mem_set_unit.mpr fun a => ?_
    match a with
    | ⟨0, _⟩ => exact hx0
    | ⟨1, _⟩ =>
      show 128 * min ((x 1).val / 128) 49 ≤ (x 1).val ∧ (x 1).val < 128 * min ((x 1).val / 128) 49 + 128
      omega

omit [FloatOps F] in
theorem oTile_chunks (f : Buf (Elt F) (oLoc d)) :
    (oLoc d ↦[oTileSet L]{fullShare} f : sProp 𝕄)
      = bigSep (Finset.range 50) fun j => ((CM L j).view.loc (V d (cV L) (jV L)) ↦[(CM L j).view.set]{fullShare} f) := by
  rw [← chunks_cover L]
  exact pointsTo_biUnion (Finset.range 50) (ℓ := oLoc d) (fun j => (CM L j).view.set) (chunks_disjoint L)

/-! ## What a written block holds -/

omit [FloatOps F] in
/-- Element (r, e) of block `j` is element (128·w + r, 128·j + e) of the result. -/
theorem CM_emb (j : ℕ) (hj : j < 50) (r e : Fin 128) :
    (CM L j).view.emb (ix2 r e)
      = ix2 (⟨128 * wid L + r.val, by have := wid_lt L; omega⟩ : Fin 4096) (⟨128 * j + e.val, by omega⟩ : Fin 6400) := by
  funext a
  refine Fin.ext ?_
  match a with
  | ⟨0, _⟩ =>
    show 128 * wid L + 1 * r.val = 128 * wid L + r.val
    omega
  | ⟨1, _⟩ =>
    show 128 * min j 49 + 1 * e.val = 128 * j + e.val
    omega

omit [FloatOps F] in
/-- The regrouping of a list of 128 words as one row of 128: word r is entry (0, r). -/
theorem reshape_list (h : S128.numel = S1x128.numel) (r : Fin 128) :
    Shape.reshapeEquiv h (ix1 r) = ix2 (0 : Fin 1) r :=
  Shape.reshapeEquiv_eq_of_rowMajor h (by
    rw [Shape.rowMajor_val_two, Shape.rowMajor_val_one]
    show 0 * 128 + r.val = r.val
    omega)

omit [FloatOps F] in
/-- The regrouping of the lists' scratch (50 rows of 128) as 50 × 1 × 128, backwards: entry (j, r) is entry (j, 0, r). -/
theorem reshape_lists_symm (h : S50x1x128.numel = S50x128.numel) (jj : Fin 50) (r : Fin 128) :
    (Shape.reshapeEquiv h).symm (ix2 jj r) = ix3 jj (0 : Fin 1) r := by
  rw [Equiv.symm_apply_eq]
  exact (Shape.reshapeEquiv_eq_of_rowMajor h (by
    rw [Shape.rowMajor_val_two, Shape.rowMajor_val_three]
    show jj.val * 128 + r.val = (jj.val * 1 + 0) * 128 + r.val
    omega)).symm

omit [FloatOps F] in
/-- The row-major position k of a list of 128 words is word k. -/
theorem rowMajor_list_symm (k : Fin S128.numel) : S128.rowMajor.symm k = ix1 (⟨k.val, k.isLt⟩ : Fin 128) := by
  rw [Equiv.symm_apply_eq]
  refine Fin.ext ?_
  rw [Shape.rowMajor_val_one]

/-- Once the task's lists are in its scratch, word r of list j there is list word (j, w, r) of the array of lists,
    w the task's number. -/
theorem c0_apply (fs : Buf (Elt F) ((V d (cV L) (jV L)).loc cc0_scratch0)) (fv : Buf (Elt F) (vLoc d)) (jj : Fin 50) (r : Fin 128) :
    c0 d L fs fv (ix2 jj r) = fv (ix3 jj (⟨wid L, wid_lt L⟩ : Fin 32) r) := by
  unfold c0
  show ((View.whole (cc0_scratch0 : Ref sig .scVector)).reshape S50x1x128 reshapes_S50x128_S50x1x128.1).write (Elt F) fs _ Finset.univ (ix2 jj r) = _
  rw [View.write_reshape_univ, View.write_whole_univ, reshape_lists_symm]
  show View.read (Elt F) ((vV).slice (Rect.unit (s := S50x32x128) (k0_off1 L) S50x1x128.size (k0_off1_inb L)) (fun _ => rfl)).view fv (ix3 jj (0 : Fin 1) r) = _
  rw [View.read_apply]
  refine (cast_eq _ _).trans (congrArg fv (funext fun a => Fin.ext ?_))
  match a with
  | ⟨0, _⟩ =>
    show k0_off1 L 0 + 1 * jj.val = jj.val
    rw [k0_off1_eq]; show 0 + 1 * jj.val = jj.val; omega
  | ⟨1, _⟩ =>
    show k0_off1 L 1 + 1 * 0 = wid L
    rw [k0_off1_eq]; show 2 * (L 1).val + (L 0).val + 1 * 0 = 2 * (L 1).val + (L 0).val; omega
  | ⟨2, _⟩ =>
    show k0_off1 L 2 + 1 * r.val = r.val
    rw [k0_off1_eq]; show 0 + 1 * r.val = r.val; omega

/-- Word r of list number j, read through the list's slice of the scratch. -/
theorem LM_read (fs : Buf (Elt F) ((V d (cV L) (jV L)).loc cc0_scratch0)) (fv : Buf (Elt F) (vLoc d)) (j : ℕ) (hj : j < 50) (r : Fin 128) :
    (LM j).view.read (Elt F) (c0 d L fs fv) (ix1 r) = fv (ix3 (⟨j, hj⟩ : Fin 50) (⟨wid L, wid_lt L⟩ : Fin 32) r) := by
  rw [View.read_apply, ← c0_apply d L fs fv ⟨j, hj⟩ r]
  refine (cast_eq _ _).trans (congrArg (c0 d L fs fv) ?_)
  show (Rect.unit (s := S50x128) (lo j) S1x128.size (lo_inb j)).emb (Shape.reshapeEquiv squeezes_S1x128_S128.numel_eq (ix1 r)) = _
  rw [reshape_list]
  funext a
  refine Fin.ext ?_
  match a with
  | ⟨0, _⟩ =>
    show min j 49 + 1 * 0 = j
    omega
  | ⟨1, _⟩ =>
    show 0 + 1 * r.val = r.val
    omega

/-- Row r of the block a gather brings for list j: the table row that list word (j, w, r) names. -/
theorem gp_apply (fs : Buf (Elt F) ((V d (cV L) (jV L)).loc cc0_scratch0)) (fv : Buf (Elt F) (vLoc d)) (hin : ∀ j, (fv j).toNat < 100000)
    (fx : Buf (Elt F) (xLoc d)) (j : ℕ) (hj : j < 50) (r e : Fin 128) :
    gp d L fs fv hin fx (lo j) (lo_inb j) (ix2 r e)
      = fx (ix2 (⟨(fv (ix3 (⟨j, hj⟩ : Fin 50) (⟨wid L, wid_lt L⟩ : Fin 32) r)).toNat, hin _⟩ : Fin 100000) e) := by
  unfold gp SparseCore.gatherPayload
  rw [View.read_apply]
  refine (cast_eq _ _).trans (congrArg fx (funext fun a => Fin.ext ?_))
  match a with
  | ⟨0, _⟩ =>
    show 0 + 1 * (SparseCore.rows ((LM j).view.read (Elt F) (c0 d L fs fv)) rfl (c0_inb d L fs fv hin (lo j) (lo_inb j)) r).val
      = (fv (ix3 (⟨j, hj⟩ : Fin 50) (⟨wid L, wid_lt L⟩ : Fin 32) r)).toNat
    unfold SparseCore.rows
    show 0 + 1 * ((LM j).view.read (Elt F) (c0 d L fs fv) (S128.rowMajor.symm (Fin.cast _ r))).toNat = _
    rw [rowMajor_list_symm]
    show 0 + 1 * ((LM j).view.read (Elt F) (c0 d L fs fv) (ix1 r)).toNat = _
    rw [LM_read d L fs fv j hj r]
    omega
  | ⟨1, _⟩ =>
    show 0 + 1 * e.val = e.val
    omega

omit [FloatOps F] in
/-- The lookup off the lists at (128·w + r, 128·j + e): the table row that list word (j, w, r) names, lane e. -/
theorem Gk_at (fv : IVec S50x32x128 32) (fx : FVec F S100000x128 .f32) (hin : ∀ j, (fv j).toNat < 100000)
    (w : Fin 32) (jj : Fin 50) (r e : Fin 128) :
    Gk fv fx (ix2 (⟨128 * w.val + r.val, by omega⟩ : Fin 4096) (⟨128 * jj.val + e.val, by omega⟩ : Fin 6400))
      = fx (ix2 (⟨(fv (ix3 jj w r)).toNat, hin _⟩ : Fin 100000) e) := by
  have e1 : Spec.posOf (⟨128 * jj.val + e.val, by omega⟩ : Fin 6400) = jj :=
    Fin.ext (by show (128 * jj.val + e.val) / 128 = jj.val; omega)
  have e2 : Spec.laneOf (⟨128 * jj.val + e.val, by omega⟩ : Fin 6400) = e :=
    Fin.ext (by show (128 * jj.val + e.val) % 128 = e.val; omega)
  have e3 : (⟨(128 * w.val + r.val) / 128, by omega⟩ : Fin 32) = w := Fin.ext (by show (128 * w.val + r.val) / 128 = w.val; omega)
  have e4 : (⟨(128 * w.val + r.val) % 128, Nat.mod_lt _ (by decide)⟩ : Fin 128) = r :=
    Fin.ext (by show (128 * w.val + r.val) % 128 = r.val; omega)
  show fx (ix2 (Spec.rowOf (fv (ix3 (Spec.posOf (⟨128 * jj.val + e.val, by omega⟩ : Fin 6400))
      (⟨(128 * w.val + r.val) / 128, by omega⟩ : Fin 32) (⟨(128 * w.val + r.val) % 128, Nat.mod_lt _ (by decide)⟩ : Fin 128))))
      (Spec.laneOf (⟨128 * jj.val + e.val, by omega⟩ : Fin 6400))) = _
  rw [e1, e2, e3, e4]
  exact congrArg (fun row => fx (ix2 row e)) (Fin.ext (Spec.rowOf_val_of_lt (hin _)))

/-- THE VALUE OF A WRITTEN BLOCK: once list j's rows are gathered into a row buffer and that buffer is copied out to
    block j of the task's rows, the block holds the lookup's value. -/
theorem chunk_value (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (fo : Buf (Elt F) (oLoc d)) (j : ℕ) (hj : j < 50) :
    ∀ x ∈ (CM L j).view.set, chunkAfter d L fs fv hin fx offS hS fd fo j x = Gk fv fx x := by
  intro x hx
  obtain ⟨y, -, rfl⟩ := Finset.mem_map.mp hx
  obtain ⟨r, e, rfl⟩ : ∃ (r e : Fin 128), y = ix2 r e := ⟨y 0, y 1, eq_ix2 y⟩
  -- the block at (r, e) holds the row buffer's (r, e), which is the gather's
  have h1 : chunkAfter d L fs fv hin fx offS hS fd fo j ((CM L j).view.emb (ix2 r e))
      = gp d L fs fv hin fx (lo j) (lo_inb j) (ix2 r e) := by
    have h := congrFun (View.read_writes_whole (CM L j).view fo
      (ReadAs.same.apply (View.read (Elt F) (slotM offS hS).view (slotAfter d L fs fv hin fx offS hS fd j)))) (ix2 r e)
    rw [View.read_apply] at h
    refine ((cast_eq _ _).symm.trans h).trans ?_
    show View.read (Elt F) (slotM offS hS).view (slotAfter d L fs fv hin fx offS hS fd j) (ix2 r e) = _
    exact congrFun (View.read_writes_whole (slotM offS hS).view fd _) (ix2 r e)
  rw [h1, gp_apply d L fs fv hin fx j hj r e, CM_emb L j hj r e]
  exact (Gk_at fv fx hin ⟨wid L, wid_lt L⟩ ⟨j, hj⟩ r e).symm

/-- The same as a points-to: the block held at what the copies left is the block held at the lookup's value. -/
theorem chunk_pts (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (fo : Buf (Elt F) (oLoc d)) (j : ℕ) (hj : j < 50) :
    ((CM L j).view.loc (V d (cV L) (jV L)) ↦[(CM L j).view.set]{fullShare} chunkAfter d L fs fv hin fx offS hS fd fo j : sProp 𝕄)
      = ((CM L j).view.loc (V d (cV L) (jV L)) ↦[(CM L j).view.set]{fullShare} Gk fv fx) :=
  pointsTo_congr (chunk_value d L fs fv hin fx offS hS fd fo j hj)

end Cert.Proof.KI

end
-- ==== Proof.TileGeomI.lean ====
/-
  The arithmetic of one trip of the task's loop.
  The loop makes ten trips; trip k handles lists 5·k … 5·k + 4 and looks two lists ahead. Which of a trip's guarded
  steps run (the waits for an earlier copy-out from the second trip on, the two farthest look-ahead gathers on every
  trip but the last); that the offsets the program computes from the trip and the task's place are list number
  "5·k + r + 2" of the scratch and block number "5·k + r" of the task's rows; that slices at equal offsets are equal;
  and how the fifty blocks, as an interval of naturals, lose the trip's five at the front while the blocks done gain five.
-/
import proofs.«206531_g4466765988671_cont_8to1c4_310_22_alg».proof.Proof.TileDefsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.KernelIdeal.main_v1_scv : Memref Cert.KernelIdeal.sig Kind.scVector Space.hbm Cert.KernelIdeal.S50x32x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S5x128x128 EltTy.f32)

variable [FloatOps F]
variable (d : Dev nD) (L : grid0.Coords)

/-! ## When each condition of a trip of the loop holds -/

omit [FloatOps F] in
/-- The loop makes ten trips. -/
theorem trips_eq : k0_t1_loop.trips = 10 := by decide +kernel

omit [FloatOps F] in
/-- The three waits for an earlier copy-out are made from the second trip on, -/
theorem cond1_iff : ∀ k : Fin k0_t1_loop.trips, (k0_cond1 k = 1#1 ↔ 0 < k.val) := by decide +kernel
omit [FloatOps F] in
theorem cond2_iff : ∀ k : Fin k0_t1_loop.trips, (k0_cond2 k = 1#1 ↔ 0 < k.val) := by decide +kernel
omit [FloatOps F] in
theorem cond3_iff : ∀ k : Fin k0_t1_loop.trips, (k0_cond3 k = 1#1 ↔ 0 < k.val) := by decide +kernel
omit [FloatOps F] in
/-- and the two gathers that look past the trip's own lists on every trip but the last. -/
theorem cond4_iff : ∀ k : Fin k0_t1_loop.trips, (k0_cond4 k = 1#1 ↔ k.val < 9) := by decide +kernel
omit [FloatOps F] in
theorem cond5_iff : ∀ k : Fin k0_t1_loop.trips, (k0_cond5 k = 1#1 ↔ k.val < 9) := by decide +kernel

/-! ## The offsets the program computes are the numbered ones -/

omit [FloatOps F] in
theorem trip_lt (k : Fin k0_t1_loop.trips) : k.val < 10 := Nat.lt_of_lt_of_le k.isLt (Nat.le_of_eq trips_eq)

omit [FloatOps F] in
/-- The list gathered two ahead of list 5·k + r is list 5·k + r + 2. -/
theorem off3_lo (k : Fin k0_t1_loop.trips) (r : Fin 3) : k0_off3 k (BitVec.ofNat 32 r.val) = lo (5 * k.val + r.val + 2) := by
  have hk := trip_lt k
  have hr := r.isLt
  rw [k0_off3_eq]
  funext a
  match a with
  | ⟨0, _⟩ => show 5 * k.val + r.val + 2 = min (5 * k.val + r.val + 2) 49; omega
  | ⟨1, _⟩ => rfl

omit [FloatOps F] in
theorem off8_lo (k : Fin k0_t1_loop.trips) (h : k.val < 9) : k0_off8 k = lo (5 * k.val + 5) := by
  rw [k0_off8_eq]
  funext a
  match a with
  | ⟨0, _⟩ => show 5 * k.val + 5 = min (5 * k.val + 5) 49; omega
  | ⟨1, _⟩ => rfl

omit [FloatOps F] in
theorem off9_lo (k : Fin k0_t1_loop.trips) (h : k.val < 9) : k0_off9 k = lo (5 * k.val + 6) := by
  rw [k0_off9_eq]
  funext a
  match a with
  | ⟨0, _⟩ => show 5 * k.val + 6 = min (5 * k.val + 6) 49; omega
  | ⟨1, _⟩ => rfl

omit [FloatOps F] in
/-- The block list 5·k + r is copied out to is block 5·k + r of the task's rows. -/
theorem off4_co (k : Fin k0_t1_loop.trips) (r : Fin 5) : k0_off4 L k (BitVec.ofNat 32 r.val) = co L (5 * k.val + r.val) := by
  have hk := trip_lt k
  have hr := r.isLt
  rw [k0_off4_eq]
  funext a
  match a with
  | ⟨0, _⟩ => show 256 * (L 1).val + 128 * (L 0).val = 128 * (2 * (L 1).val + (L 0).val); omega
  | ⟨1, _⟩ => show 640 * k.val + 128 * r.val = 128 * min (5 * k.val + r.val) 49; omega

omit [FloatOps F] in
theorem lit0_lo : (![0, 0] : Fin 2 → ℕ) = lo 0 := by
  funext a
  match a with
  | ⟨0, _⟩ => rfl
  | ⟨1, _⟩ => rfl
omit [FloatOps F] in
theorem lit1_lo : (![1, 0] : Fin 2 → ℕ) = lo 1 := by
  funext a
  match a with
  | ⟨0, _⟩ => rfl
  | ⟨1, _⟩ => rfl

/-! ## Slices at equal offsets are equal -/

omit [FloatOps F] in
theorem listM_congr {off off' : Fin 2 → ℕ} (e : off = off') (h : ∀ a, off a + S1x128.size a ≤ S50x128.size a)
    (h' : ∀ a, off' a + S1x128.size a ≤ S50x128.size a) : listM off h = listM off' h' := by
  subst e; rfl
omit [FloatOps F] in
theorem chunkM_congr {off off' : Fin 2 → ℕ} (e : off = off') (h : ∀ a, off a + S128x128.size a ≤ S4096x6400.size a)
    (h' : ∀ a, off' a + S128x128.size a ≤ S4096x6400.size a) : chunkM off h = chunkM off' h' := by
  subst e; rfl

/-! ## Blocks peeled off an interval of naturals -/

omit [FloatOps F] in
/-- Two assertions that entail each other are equal. -/
theorem eq_of_ents {P Q : sProp 𝕄} (h1 : P ⊢ Q) (h2 : Q ⊢ P) : P = Q := BI.Entails.antisymm h1 h2

omit [FloatOps F] in
/-- Five given members in order, then the rest. -/
theorem bigSep_five (Φ : ℕ → sProp 𝕄) (a b c e g : ℕ) (R : Finset ℕ)
    (ha : a ∉ insert b (insert c (insert e (insert g R)))) (hb : b ∉ insert c (insert e (insert g R)))
    (hc : c ∉ insert e (insert g R)) (he : e ∉ insert g R) (hg : g ∉ R) :
    bigSep (insert a (insert b (insert c (insert e (insert g R))))) Φ
      = iprop(Φ a ∗ Φ b ∗ Φ c ∗ Φ e ∗ Φ g ∗ bigSep R Φ) := by
  rw [SparseCore.bigSep_insert' ha, SparseCore.bigSep_insert' hb, SparseCore.bigSep_insert' hc, SparseCore.bigSep_insert' he,
    SparseCore.bigSep_insert' hg]

omit [FloatOps F] in
/-- The blocks still to do, at the start of trip k: the trip's five, then those of the later trips. -/
theorem todo_peel (Φ : ℕ → sProp 𝕄) (k : ℕ) (hk : k < 10) :
    bigSep (Finset.Ico (5 * k) 50) Φ
      = iprop(Φ (5 * k + 0) ∗ Φ (5 * k + 1) ∗ Φ (5 * k + 2) ∗ Φ (5 * k + 3) ∗ Φ (5 * k + 4) ∗ bigSep (Finset.Ico (5 * (k + 1)) 50) Φ) := by
  have hs : Finset.Ico (5 * k) 50 = insert (5 * k + 0) (insert (5 * k + 1) (insert (5 * k + 2) (insert (5 * k + 3)
      (insert (5 * k + 4) (Finset.Ico (5 * (k + 1)) 50))))) := by
    ext x; simp only [Finset.mem_Ico, Finset.mem_insert]; omega
  rw [hs]
  exact bigSep_five Φ _ _ _ _ _ _ (by simp only [Finset.mem_Ico, Finset.mem_insert]; omega)
    (by simp only [Finset.mem_Ico, Finset.mem_insert]; omega) (by simp only [Finset.mem_Ico, Finset.mem_insert]; omega)
    (by simp only [Finset.mem_Ico, Finset.mem_insert]; omega) (by simp only [Finset.mem_Ico]; omega)

omit [FloatOps F] in
/-- The blocks done by the end of trip k (k past the first): those done before it, then five more. -/
theorem done_push (Φ : ℕ → sProp 𝕄) (k : ℕ) (hk : 0 < k) :
    bigSep (Finset.range (5 * (k + 1) - 3)) Φ
      = iprop(bigSep (Finset.range (5 * k - 3)) Φ ∗ Φ (5 * k - 3) ∗ Φ (5 * k - 2) ∗ Φ (5 * k - 1) ∗ Φ (5 * k + 0) ∗ Φ (5 * k + 1)) := by
  have hs : Finset.range (5 * (k + 1) - 3) = insert (5 * k - 3) (insert (5 * k - 2) (insert (5 * k - 1) (insert (5 * k + 0)
      (insert (5 * k + 1) (Finset.range (5 * k - 3)))))) := by
    ext x; simp only [Finset.mem_range, Finset.mem_insert]; omega
  rw [hs, bigSep_five Φ _ _ _ _ _ _ (by simp only [Finset.mem_range, Finset.mem_insert]; omega)
    (by simp only [Finset.mem_range, Finset.mem_insert]; omega) (by simp only [Finset.mem_range, Finset.mem_insert]; omega)
    (by simp only [Finset.mem_range, Finset.mem_insert]; omega) (by simp only [Finset.mem_range]; omega)]
  refine eq_of_ents ?_ ?_
  · iintro ⟨H1, H2, H3, H4, H5, HR⟩
    isplitl [HR]; · iexact HR
    isplitl [H1]; · iexact H1
    isplitl [H2]; · iexact H2
    isplitl [H3]; · iexact H3
    isplitl [H4]; · iexact H4
    iexact H5
  · iintro ⟨HR, H1, H2, H3, H4, H5⟩
    isplitl [H1]; · iexact H1
    isplitl [H2]; · iexact H2
    isplitl [H3]; · iexact H3
    isplitl [H4]; · iexact H4
    isplitl [H5]; · iexact H5
    iexact HR

omit [FloatOps F] in
/-- By the end of the first trip two blocks are done. -/
theorem done_push0 (Φ : ℕ → sProp 𝕄) : bigSep (Finset.range (5 * (0 + 1) - 3)) Φ = iprop(Φ (5 * 0 + 0) ∗ Φ (5 * 0 + 1)) := by
  rw [show Finset.range (5 * (0 + 1) - 3) = insert (5 * 0 + 0) {5 * 0 + 1} by decide, SparseCore.bigSep_insert' (by decide), bigSep_singleton]

omit [FloatOps F] in
/-- After the last trip three blocks remain to be waited for. -/
theorem done_last (Φ : ℕ → sProp 𝕄) : bigSep (Finset.range 50) Φ = iprop(bigSep (Finset.range (5 * 10 - 3)) Φ ∗ Φ 47 ∗ Φ 48 ∗ Φ 49) := by
  have hs : Finset.range 50 = insert 47 (insert 48 (insert 49 (Finset.range (5 * 10 - 3)))) := by
    ext x; simp only [Finset.mem_range, Finset.mem_insert]; omega
  rw [hs, SparseCore.bigSep_insert' (by simp only [Finset.mem_range, Finset.mem_insert]; omega),
    SparseCore.bigSep_insert' (by simp only [Finset.mem_range, Finset.mem_insert]; omega),
    SparseCore.bigSep_insert' (by simp only [Finset.mem_range]; omega)]
  refine eq_of_ents ?_ ?_
  · iintro ⟨H1, H2, H3, HR⟩
    isplitl [HR]; · iexact HR
    isplitl [H1]; · iexact H1
    isplitl [H2]; · iexact H2
    iexact H3
  · iintro ⟨HR, H1, H2, H3⟩
    isplitl [H1]; · iexact H1
    isplitl [H2]; · iexact H2
    isplitl [H3]; · iexact H3
    iexact HR

omit [FloatOps F] in
/-- After the tenth trip nothing is left to do; -/
theorem todo_none (Φ : ℕ → sProp 𝕄) : bigSep (Finset.Ico (5 * 10) 50) Φ = iprop(emp) := by
  rw [show Finset.Ico (5 * 10) 50 = ∅ by decide]; rfl
omit [FloatOps F] in
/-- before the first everything is; -/
theorem todo_all (Φ : ℕ → sProp 𝕄) : bigSep (Finset.range 50) Φ = bigSep (Finset.Ico (5 * 0) 50) Φ := by
  rw [show Finset.Ico (5 * 0) 50 = Finset.range 50 from (Finset.range_eq_Ico 50).symm]
omit [FloatOps F] in
/-- and nothing is done yet. -/
theorem done_none (Φ : ℕ → sProp 𝕄) : bigSep (Finset.range (5 * 0 - 3)) Φ = iprop(emp) := by
  rw [show Finset.range (5 * 0 - 3) = ∅ by decide]; rfl

end Cert.Proof.KI

end
-- ==== Proof.TileSlotsI.lean ====
/-
  The row-buffer scratch and its five row buffers.
  The scratch (5 × 128 × 128) is five slabs along its first axis, pairwise disjoint and covering it; row buffer b, as
  the program slices and squeezes it, has slab b's elements. So the scratch held whole at some contents is the five row
  buffers held at those contents; and the five row buffers held each at its OWN contents are the scratch held whole at
  contents that agree with each on its slab.
-/
import proofs.«206531_g4466765988671_cont_8to1c4_310_22_alg».proof.Proof.TileDefsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.KernelIdeal.main_v1_scv : Memref Cert.KernelIdeal.sig Kind.scVector Space.hbm Cert.KernelIdeal.S50x32x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S5x128x128 EltTy.f32)

variable [FloatOps F]
variable (d : Dev nD) (L : grid0.Coords)

/-! ## The five row buffers -/

omit [FloatOps F] in
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide]
  repeat rw [SparseCore.bigSep_insert' (by decide)]
  rw [bigSep_singleton]

omit [FloatOps F] in
theorem hdiv5 : 5 ∣ S5x128x128.size 0 := ⟨1, rfl⟩

/-- Slab `b` of the row-buffer scratch: row buffer `b`. -/
abbrev slab (b : Fin 5) : Rect S5x128x128 := Rect.part (s := S5x128x128) (a₀ := 0) hdiv5 b

omit [FloatOps F] in
/-- A row buffer's elements are its slab's. -/
theorem slot_set (b : Fin 5) (h : ∀ a, (![b.val, 0, 0] : Fin 3 → ℕ) a + S1x128x128.size a ≤ S5x128x128.size a) :
    (slotM ![b.val, 0, 0] h).view.set = (slab b).set := by
  have e : Rect.unit (s := S5x128x128) ![b.val, 0, 0] S1x128x128.size h = slab b := by
    unfold slab Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  show (((View.whole (cc0_scratch1 : Ref sig .scVector)).slice (Rect.unit (s := S5x128x128) ![b.val, 0, 0] S1x128x128.size h)).reshape S128x128
    squeezes_S1x128x128_S128x128.numel_eq).set = _
  rw [View.set_reshape]
  have e2 : ((View.whole (cc0_scratch1 : Ref sig .scVector)).slice (Rect.unit (s := S5x128x128) ![b.val, 0, 0] S1x128x128.size h)).set
      = ((View.whole (cc0_scratch1 : Ref sig .scVector)).slice (slab b)).set := e ▸ rfl
  rw [e2, View.set_slice]; exact Finset.map_refl

omit [FloatOps F] in
/-- The row-buffer scratch, whole, is its five row buffers. -/
theorem slots5 (f : Buf (Elt F) ((V d (cV L) (jV L)).loc cc0_scratch1)) :
    ((V d (cV L) (jV L)).loc cc0_scratch1 ↦{fullShare} f : sProp 𝕄)
      = iprop(((slotM ![0, 0, 0] inb_S5x128x128_S1x128x128_0_0_0).view.loc (V d (cV L) (jV L)) ↦[(slotM ![0, 0, 0] inb_S5x128x128_S1x128x128_0_0_0).view.set]{fullShare} f) ∗ ((slotM ![1, 0, 0] inb_S5x128x128_S1x128x128_1_0_0).view.loc (V d (cV L) (jV L)) ↦[(slotM ![1, 0, 0] inb_S5x128x128_S1x128x128_1_0_0).view.set]{fullShare} f)
          ∗ ((slotM ![2, 0, 0] inb_S5x128x128_S1x128x128_2_0_0).view.loc (V d (cV L) (jV L)) ↦[(slotM ![2, 0, 0] inb_S5x128x128_S1x128x128_2_0_0).view.set]{fullShare} f) ∗ ((slotM ![3, 0, 0] inb_S5x128x128_S1x128x128_3_0_0).view.loc (V d (cV L) (jV L)) ↦[(slotM ![3, 0, 0] inb_S5x128x128_S1x128x128_3_0_0).view.set]{fullShare} f)
          ∗ ((slotM ![4, 0, 0] inb_S5x128x128_S1x128x128_4_0_0).view.loc (V d (cV L) (jV L)) ↦[(slotM ![4, 0, 0] inb_S5x128x128_S1x128x128_4_0_0).view.set]{fullShare} f)) := by
  have hd : ∀ i ∈ (Finset.univ : Finset (Fin 5)), ∀ j ∈ (Finset.univ : Finset (Fin 5)), i ≠ j → Disjoint (slab i).set (slab j).set :=
    fun i _ j _ h => Rect.part_disjoint hdiv5 h
  have hc : (Finset.univ : Finset (Fin 5)).biUnion (fun b => (slab b).set) = Finset.univ := Rect.biUnion_part hdiv5
  have h0 := slot_set 0 inb_S5x128x128_S1x128x128_0_0_0
  have h1 := slot_set 1 inb_S5x128x128_S1x128x128_1_0_0
  have h2 := slot_set 2 inb_S5x128x128_S1x128x128_2_0_0
  have h3 := slot_set 3 inb_S5x128x128_S1x128x128_3_0_0
  have h4 := slot_set 4 inb_S5x128x128_S1x128x128_4_0_0
  rw [show ((V d (cV L) (jV L)).loc cc0_scratch1 ↦{fullShare} f : sProp 𝕄) = ((V d (cV L) (jV L)).loc cc0_scratch1 ↦[Finset.univ]{fullShare} f) from rfl,
    ← hc, pointsTo_biUnion Finset.univ (ℓ := (V d (cV L) (jV L)).loc cc0_scratch1) (fun b : Fin 5 => (slab b).set) hd, bigSep_fin5]
  rw [← h0, ← h1, ← h2, ← h3, ← h4]
  rfl

/-! ## The five row buffers, each at its own contents, are the scratch whole at some contents -/

/-- The five slabs held each at its own contents are the whole scratch held at contents that agree with each on its
    slab: the slabs are pairwise disjoint and cover the scratch. -/
theorem slabs_join :
    (bigSep Finset.univ fun b : Fin 5 => iprop(∃ f, (V d (cV L) (jV L)).loc cc0_scratch1 ↦[(slab b).set]{fullShare} f) : sProp 𝕄)
      ⊢ iprop(∃ f, (V d (cV L) (jV L)).loc cc0_scratch1 ↦{fullShare} f) := by
  have hd : ∀ i ∈ (Finset.univ : Finset (Fin 5)), ∀ j ∈ (Finset.univ : Finset (Fin 5)), i ≠ j → Disjoint (slab i).set (slab j).set :=
    fun i _ j _ h => Rect.part_disjoint hdiv5 h
  have hc : (Finset.univ : Finset (Fin 5)).biUnion (fun b => (slab b).set) = Finset.univ := Rect.biUnion_part hdiv5
  refine (bigSep_exists_pi Finset.univ (fun (b : Fin 5) (f : Buf (Elt F) ((V d (cV L) (jV L)).loc cc0_scratch1)) =>
    ((V d (cV L) (jV L)).loc cc0_scratch1 ↦[(slab b).set]{fullShare} f : sProp 𝕄))).trans ?_
  iintro ⟨%fs, H⟩
  ihave H' := (pointsTo_biUnion_join (ℓ := (V d (cV L) (jV L)).loc cc0_scratch1) (q := fullShare) (Val := Elt F) Finset.univ
    (fun b : Fin 5 => (slab b).set) fs (fs 0) hd) $$ H
  icases H' with ⟨%g, -, Hg⟩
  rw [hc]
  iexists g; iexact Hg

theorem slots5_join :
    (iprop((∃ f, (slotM ![0, 0, 0] inb_S5x128x128_S1x128x128_0_0_0).view.loc (V d (cV L) (jV L)) ↦[(slotM ![0, 0, 0] inb_S5x128x128_S1x128x128_0_0_0).view.set]{fullShare} f) ∗ (∃ f, (slotM ![1, 0, 0] inb_S5x128x128_S1x128x128_1_0_0).view.loc (V d (cV L) (jV L)) ↦[(slotM ![1, 0, 0] inb_S5x128x128_S1x128x128_1_0_0).view.set]{fullShare} f)
        ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
        ∗ (∃ f, (slotM ![4, 0, 0] inb_S5x128x128_S1x128x128_4_0_0).view.loc (V d (cV L) (jV L)) ↦[(slotM ![4, 0, 0] inb_S5x128x128_S1x128x128_4_0_0).view.set]{fullShare} f)) : sProp 𝕄)
      ⊢ iprop(∃ f, (V d (cV L) (jV L)).loc cc0_scratch1 ↦{fullShare} f) := by
  have h0 : (slotM ![0, 0, 0] inb_S5x128x128_S1x128x128_0_0_0).view.set = (slab 0).set := slot_set 0 inb_S5x128x128_S1x128x128_0_0_0
  have h1 : (slotM ![1, 0, 0] inb_S5x128x128_S1x128x128_1_0_0).view.set = (slab 1).set := slot_set 1 inb_S5x128x128_S1x128x128_1_0_0
  have h2 : (slotM ![2, 0, 0] inb_S5x128x128_S1x128x128_2_0_0).view.set = (slab 2).set := slot_set 2 inb_S5x128x128_S1x128x128_2_0_0
  have h3 : (slotM ![3, 0, 0] inb_S5x128x128_S1x128x128_3_0_0).view.set = (slab 3).set := slot_set 3 inb_S5x128x128_S1x128x128_3_0_0
  have h4 : (slotM ![4, 0, 0] inb_S5x128x128_S1x128x128_4_0_0).view.set = (slab 4).set := slot_set 4 inb_S5x128x128_S1x128x128_4_0_0
  rw [h0, h1, h2, h3, h4]
  have key := slabs_join (F := F) d L
  rw [bigSep_fin5] at key
  exact key

end Cert.Proof.KI

end
-- ==== Proof.TileI.lean ====
/-
  One task of the lookup kernel run to its end: from read shares of the lists and the table and its rows of the result,
  to the same shares and its rows of the result at the lookup's value.
-/
import proofs.«206531_g4466765988671_cont_8to1c4_310_22_alg».proof.Proof.TileDefsI
import proofs.«206531_g4466765988671_cont_8to1c4_310_22_alg».proof.Proof.TileValI
import proofs.«206531_g4466765988671_cont_8to1c4_310_22_alg».proof.Proof.TileGeomI
import proofs.«206531_g4466765988671_cont_8to1c4_310_22_alg».proof.Proof.TileSlotsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.KernelIdeal.main_v1_scv : Memref Cert.KernelIdeal.sig Kind.scVector Space.hbm Cert.KernelIdeal.S50x32x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S5x128x128 EltTy.f32)

variable [FloatOps F]
variable (d : Dev nD) (L : grid0.Coords)

/-! ## The loop's invariant -/

abbrev tk (q : PosShare TreeShare) (i : ℕ) : PosShare TreeShare := Transfers.shareTokN q i

/-- The elements of list number `j` within the lists' scratch. -/
def LSet (j : ℕ) : Finset S50x128.Idx := (LM j).view.set

/-- The gathers in flight before trip `k`: lists `5k` and `5k + 1` into row buffers 0 and 1, each holding its read
    tokens; after the last trip none, and the two buffers, their semaphores and tokens are free. -/
def GPart (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) : sProp 𝕄 :=
  if k < 10 then
    iprop((∃ fd, Transfers.Flight countersEmb (V d (cV L) (jV L)) (SemLoc.dma cc0_scratch2.sem) (default : HIx 1) 524288
        iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 fd (5 * k))
              ∗ ((sI).view.loc (V d (cV L) (jV L)) ↦[LSet (5 * k)]{tk fullShare 0} c0 d L fs fv))
            ∗ ((xV).view.loc (V d (cV L) (jV L)) ↦[(tblM).view.set]{tk qx 0} fx)))
      ∗ (∃ fd, Transfers.Flight countersEmb (V d (cV L) (jV L)) (SemLoc.dma cc0_scratch3.sem) (default : HIx 1) 524288
        iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 fd (5 * k + 1))
              ∗ ((sI).view.loc (V d (cV L) (jV L)) ↦[LSet (5 * k + 1)]{tk fullShare 1} c0 d L fs fv))
            ∗ ((xV).view.loc (V d (cV L) (jV L)) ↦[(tblM).view.set]{tk qx 1} fx)))
      ∗ ((xV).view.loc (V d (cV L) (jV L)) ↦[Finset.univ \ (tblM).view.set]{tk qx 0} fx) ∗ ((xV).view.loc (V d (cV L) (jV L)) ↦[Finset.univ \ (tblM).view.set]{tk qx 1} fx)
      ∗ ((sI).view.loc (V d (cV L) (jV L)) ↦[Finset.univ \ LSet (5 * k)]{tk fullShare 0} c0 d L fs fv)
      ∗ ((sI).view.loc (V d (cV L) (jV L)) ↦[Finset.univ \ LSet (5 * k + 1)]{tk fullShare 1} c0 d L fs fv))
  else
    iprop(semVal (dcell d L cc0_scratch2.sem) 0 ∗ semVal (dcell d L cc0_scratch3.sem) 0
      ∗ (∃ f, (slotM ![0, 0, 0] inb_S5x128x128_S1x128x128_0_0_0).view.loc (V d (cV L) (jV L)) ↦[(slotM ![0, 0, 0] inb_S5x128x128_S1x128x128_0_0_0).view.set]{fullShare} f) ∗ (∃ f, (slotM ![1, 0, 0] inb_S5x128x128_S1x128x128_1_0_0).view.loc (V d (cV L) (jV L)) ↦[(slotM ![1, 0, 0] inb_S5x128x128_S1x128x128_1_0_0).view.set]{fullShare} f)
      ∗ ((xV).view.loc (V d (cV L) (jV L)) ↦{tk qx 0} fx) ∗ ((xV).view.loc (V d (cV L) (jV L)) ↦{tk qx 1} fx)
      ∗ ((V d (cV L) (jV L)).loc cc0_scratch0 ↦{tk fullShare 0} c0 d L fs fv) ∗ ((V d (cV L) (jV L)).loc cc0_scratch0 ↦{tk fullShare 1} c0 d L fs fv))

theorem GPart_lt (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) (h : k < 10) :
    GPart d L fs fv hin fx qx fo k = iprop((∃ fd, Transfers.Flight countersEmb (V d (cV L) (jV L)) (SemLoc.dma cc0_scratch2.sem) (default : HIx 1) 524288
        iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 fd (5 * k))
              ∗ ((sI).view.loc (V d (cV L) (jV L)) ↦[LSet (5 * k)]{tk fullShare 0} c0 d L fs fv))
            ∗ ((xV).view.loc (V d (cV L) (jV L)) ↦[(tblM).view.set]{tk qx 0} fx)))
      ∗ (∃ fd, Transfers.Flight countersEmb (V d (cV L) (jV L)) (SemLoc.dma cc0_scratch3.sem) (default : HIx 1) 524288
        iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 fd (5 * k + 1))
              ∗ ((sI).view.loc (V d (cV L) (jV L)) ↦[LSet (5 * k + 1)]{tk fullShare 1} c0 d L fs fv))
            ∗ ((xV).view.loc (V d (cV L) (jV L)) ↦[(tblM).view.set]{tk qx 1} fx)))
      ∗ ((xV).view.loc (V d (cV L) (jV L)) ↦[Finset.univ \ (tblM).view.set]{tk qx 0} fx) ∗ ((xV).view.loc (V d (cV L) (jV L)) ↦[Finset.univ \ (tblM).view.set]{tk qx 1} fx)
      ∗ ((sI).view.loc (V d (cV L) (jV L)) ↦[Finset.univ \ LSet (5 * k)]{tk fullShare 0} c0 d L fs fv)
      ∗ ((sI).view.loc (V d (cV L) (jV L)) ↦[Finset.univ \ LSet (5 * k + 1)]{tk fullShare 1} c0 d L fs fv)) := if_pos h

theorem GPart_ge (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) (h : ¬ k < 10) :
    GPart d L fs fv hin fx qx fo k = iprop(semVal (dcell d L cc0_scratch2.sem) 0 ∗ semVal (dcell d L cc0_scratch3.sem) 0
      ∗ (∃ f, (slotM ![0, 0, 0] inb_S5x128x128_S1x128x128_0_0_0).view.loc (V d (cV L) (jV L)) ↦[(slotM ![0, 0, 0] inb_S5x128x128_S1x128x128_0_0_0).view.set]{fullShare} f) ∗ (∃ f, (slotM ![1, 0, 0] inb_S5x128x128_S1x128x128_1_0_0).view.loc (V d (cV L) (jV L)) ↦[(slotM ![1, 0, 0] inb_S5x128x128_S1x128x128_1_0_0).view.set]{fullShare} f)
      ∗ ((xV).view.loc (V d (cV L) (jV L)) ↦{tk qx 0} fx) ∗ ((xV).view.loc (V d (cV L) (jV L)) ↦{tk qx 1} fx)
      ∗ ((V d (cV L) (jV L)).loc cc0_scratch0 ↦{tk fullShare 0} c0 d L fs fv) ∗ ((V d (cV L) (jV L)).loc cc0_scratch0 ↦{tk fullShare 1} c0 d L fs fv)) := if_neg h

/-- The copies out in flight before trip `k`: blocks `5k - 3`, `5k - 2`, `5k - 1` from row buffers 2, 3, 4; before the
    first trip none, and those buffers and semaphores are free. -/
def WPart (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) : sProp 𝕄 :=
  if k = 0 then
    iprop(semVal (dcell d L cc0_scratch9.sem) 0 ∗ semVal (dcell d L cc0_scratch10.sem) 0 ∗ semVal (dcell d L cc0_scratch11.sem) 0
      ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
      ∗ (∃ f, (slotM ![4, 0, 0] inb_S5x128x128_S1x128x128_4_0_0).view.loc (V d (cV L) (jV L)) ↦[(slotM ![4, 0, 0] inb_S5x128x128_S1x128x128_4_0_0).view.set]{fullShare} f))
  else
    iprop((∃ fd, Transfers.Flight countersEmb (V d (cV L) (jV L)) (SemLoc.dma cc0_scratch9.sem) (default : HIx 1) 524288
        iprop(((CM L (5 * k - 3)).view.loc (V d (cV L) (jV L)) ↦[(CM L (5 * k - 3)).view.set]{fullShare} chunkAfter d L fs fv hin fx ![2, 0, 0] inb_S5x128x128_S1x128x128_2_0_0 fd fo (5 * k - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 fd (5 * k - 3))))
      ∗ (∃ fd, Transfers.Flight countersEmb (V d (cV L) (jV L)) (SemLoc.dma cc0_scratch10.sem) (default : HIx 1) 524288
        iprop(((CM L (5 * k - 2)).view.loc (V d (cV L) (jV L)) ↦[(CM L (5 * k - 2)).view.set]{fullShare} chunkAfter d L fs fv hin fx ![3, 0, 0] inb_S5x128x128_S1x128x128_3_0_0 fd fo (5 * k - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 fd (5 * k - 2))))
      ∗ (∃ fd, Transfers.Flight countersEmb (V d (cV L) (jV L)) (SemLoc.dma cc0_scratch11.sem) (default : HIx 1) 524288
        iprop(((CM L (5 * k - 1)).view.loc (V d (cV L) (jV L)) ↦[(CM L (5 * k - 1)).view.set]{fullShare} chunkAfter d L fs fv hin fx ![4, 0, 0] inb_S5x128x128_S1x128x128_4_0_0 fd fo (5 * k - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 fd (5 * k - 1)))))

theorem WPart_zero (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) :
    WPart d L fs fv hin fx qx fo 0 = iprop(semVal (dcell d L cc0_scratch9.sem) 0 ∗ semVal (dcell d L cc0_scratch10.sem) 0 ∗ semVal (dcell d L cc0_scratch11.sem) 0
      ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
      ∗ (∃ f, (slotM ![4, 0, 0] inb_S5x128x128_S1x128x128_4_0_0).view.loc (V d (cV L) (jV L)) ↦[(slotM ![4, 0, 0] inb_S5x128x128_S1x128x128_4_0_0).view.set]{fullShare} f)) := if_pos rfl

theorem WPart_pos (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) (h : k ≠ 0) :
    WPart d L fs fv hin fx qx fo k = iprop((∃ fd, Transfers.Flight countersEmb (V d (cV L) (jV L)) (SemLoc.dma cc0_scratch9.sem) (default : HIx 1) 524288
        iprop(((CM L (5 * k - 3)).view.loc (V d (cV L) (jV L)) ↦[(CM L (5 * k - 3)).view.set]{fullShare} chunkAfter d L fs fv hin fx ![2, 0, 0] inb_S5x128x128_S1x128x128_2_0_0 fd fo (5 * k - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 fd (5 * k - 3))))
      ∗ (∃ fd, Transfers.Flight countersEmb (V d (cV L) (jV L)) (SemLoc.dma cc0_scratch10.sem) (default : HIx 1) 524288
        iprop(((CM L (5 * k - 2)).view.loc (V d (cV L) (jV L)) ↦[(CM L (5 * k - 2)).view.set]{fullShare} chunkAfter d L fs fv hin fx ![3, 0, 0] inb_S5x128x128_S1x128x128_3_0_0 fd fo (5 * k - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 fd (5 * k - 2))))
      ∗ (∃ fd, Transfers.Flight countersEmb (V d (cV L) (jV L)) (SemLoc.dma cc0_scratch11.sem) (default : HIx 1) 524288
        iprop(((CM L (5 * k - 1)).view.loc (V d (cV L) (jV L)) ↦[(CM L (5 * k - 1)).view.set]{fullShare} chunkAfter d L fs fv hin fx ![4, 0, 0] inb_S5x128x128_S1x128x128_4_0_0 fd fo (5 * k - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 fd (5 * k - 1))))) := if_neg h

/-- Before trip `k`: the waits are admissible; the gathers and copies in flight; read tokens 2, 3, 4 of the table and of the
    lists free; the semaphores of row buffers 2, 3, 4's gathers and of row buffers 0, 1's copies at zero; blocks below
    `5k - 3` at the lookup's value, blocks from `5k` on untouched. -/
def inv (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (O : CellTallies nD τ sig (HIx 1)) (W : Waits sig (HIx 1)) (k : ℕ) (_ : PUnit) : sProp 𝕄 :=
  iprop(Transfers.MayWaits (V d (cV L) (jV L)) (default : HIx 1) O
    ∗ (∃ W', ⌜∀ p ∈ W', p ∈ W ∨ p.2 = none⌝ ∗ owes (V d (cV L) (jV L)) O W')
    ∗ GPart d L fs fv hin fx qx fo k ∗ WPart d L fs fv hin fx qx fo k
    ∗ ((xV).view.loc (V d (cV L) (jV L)) ↦{tk qx 2} fx) ∗ ((xV).view.loc (V d (cV L) (jV L)) ↦{tk qx 3} fx) ∗ ((xV).view.loc (V d (cV L) (jV L)) ↦{tk qx 4} fx)
    ∗ ((V d (cV L) (jV L)).loc cc0_scratch0 ↦{tk fullShare 2} c0 d L fs fv) ∗ ((V d (cV L) (jV L)).loc cc0_scratch0 ↦{tk fullShare 3} c0 d L fs fv) ∗ ((V d (cV L) (jV L)).loc cc0_scratch0 ↦{tk fullShare 4} c0 d L fs fv)
    ∗ semVal (dcell d L cc0_scratch4.sem) 0 ∗ semVal (dcell d L cc0_scratch5.sem) 0 ∗ semVal (dcell d L cc0_scratch6.sem) 0
    ∗ semVal (dcell d L cc0_scratch7.sem) 0 ∗ semVal (dcell d L cc0_scratch8.sem) 0
    ∗ (bigSep (Finset.range (5 * k - 3)) fun j => ((CM L j).view.loc (V d (cV L) (jV L)) ↦[(CM L j).view.set]{fullShare} Gk fv fx))
    ∗ (bigSep (Finset.Ico (5 * k) 50) fun j => ((CM L j).view.loc (V d (cV L) (jV L)) ↦[(CM L j).view.set]{fullShare} fo)))

/-- The invariant does not read the loop's (unit) accumulator. -/
theorem inv_fun (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (O : CellTallies nD τ sig (HIx 1)) (W : Waits sig (HIx 1)) (k : ℕ) :
    inv d L fs fv hin fx qx fo O W k = fun _ => iprop(Transfers.MayWaits (V d (cV L) (jV L)) (default : HIx 1) O
    ∗ (∃ W', ⌜∀ p ∈ W', p ∈ W ∨ p.2 = none⌝ ∗ owes (V d (cV L) (jV L)) O W')
    ∗ GPart d L fs fv hin fx qx fo k ∗ WPart d L fs fv hin fx qx fo k
    ∗ ((xV).view.loc (V d (cV L) (jV L)) ↦{tk qx 2} fx) ∗ ((xV).view.loc (V d (cV L) (jV L)) ↦{tk qx 3} fx) ∗ ((xV).view.loc (V d (cV L) (jV L)) ↦{tk qx 4} fx)
    ∗ ((V d (cV L) (jV L)).loc cc0_scratch0 ↦{tk fullShare 2} c0 d L fs fv) ∗ ((V d (cV L) (jV L)).loc cc0_scratch0 ↦{tk fullShare 3} c0 d L fs fv) ∗ ((V d (cV L) (jV L)).loc cc0_scratch0 ↦{tk fullShare 4} c0 d L fs fv)
    ∗ semVal (dcell d L cc0_scratch4.sem) 0 ∗ semVal (dcell d L cc0_scratch5.sem) 0 ∗ semVal (dcell d L cc0_scratch6.sem) 0
    ∗ semVal (dcell d L cc0_scratch7.sem) 0 ∗ semVal (dcell d L cc0_scratch8.sem) 0
    ∗ (bigSep (Finset.range (5 * k - 3)) fun j => ((CM L j).view.loc (V d (cV L) (jV L)) ↦[(CM L j).view.set]{fullShare} Gk fv fx))
    ∗ (bigSep (Finset.Ico (5 * k) 50) fun j => ((CM L j).view.loc (V d (cV L) (jV L)) ↦[(CM L j).view.set]{fullShare} fo))) := rfl

/-! ## A read token of the lists' scratch, in the two spellings of its location -/

omit [FloatOps F] in
theorem pts_sIq (q : PosShare TreeShare) (f : Buf (Elt F) ((V d (cV L) (jV L)).loc cc0_scratch0)) :
    ((sI).view.loc (V d (cV L) (jV L)) ↦{q} f : sProp 𝕄) = (V d (cV L) (jV L)).loc cc0_scratch0 ↦{q} f := rfl

/-! ## Naming what a hypothesis holds -/

omit [FloatOps F] in
/-- What a points-to holds, as a variable with its defining equation. -/
theorem pts_cap {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

omit [FloatOps F] in
/-- What a transfer in flight delivers, as a variable with its defining equation. -/
theorem flight_cap (c : Thread nD τ) (sm : SemLoc sig) (ι : HIx 1) (N : ℕ) (D : sProp 𝕄) :
    (Transfers.Flight countersEmb c sm ι N D : sProp 𝕄) ⊢ iprop(∃ D', ⌜D' = D⌝ ∗ Transfers.Flight countersEmb c sm ι N D') := by
  iintro H; iexists D; isplitr
  · ipureintro; rfl
  · iexact H

/-! ## A slice's points-to, carried along an equation of offsets -/

omit [FloatOps F] in
theorem chunk_pts_congr {off off' : Fin 2 → ℕ} (e : off = off') (h : ∀ a, off a + S128x128.size a ≤ S4096x6400.size a)
    (h' : ∀ a, off' a + S128x128.size a ≤ S4096x6400.size a) (f : Buf (Elt F) (oLoc d)) :
    ((chunkM off h).view.loc (V d (cV L) (jV L)) ↦[(chunkM off h).view.set]{fullShare} f : sProp 𝕄)
      = ((chunkM off' h').view.loc (V d (cV L) (jV L)) ↦[(chunkM off' h').view.set]{fullShare} f) := by
  subst e; rfl

/-! ## Deliveries, by the offsets of their slices -/

/-- What a gather in flight delivers: its row buffer written with the rows the list at `off` names, that list's read
    token's piece, the table's read token's piece. -/
def gDelO (fs : Buf (Elt F) ((V d (cV L) (jV L)).loc cc0_scratch0)) (fv : Buf (Elt F) (vLoc d)) (hin : ∀ j, (fv j).toNat < 100000)
    (fx : Buf (Elt F) (xLoc d)) (q qo : PosShare TreeShare) (offS : Fin 3 → ℕ) (hS : ∀ a, offS a + S1x128x128.size a ≤ S5x128x128.size a) (fd : Buf (Elt F) ((V d (cV L) (jV L)).loc cc0_scratch1))
    (off : Fin 2 → ℕ) (h : ∀ a, off a + S1x128.size a ≤ S50x128.size a) : sProp 𝕄 :=
  iprop((((slotM offS hS).view.loc (V d (cV L) (jV L)) ↦[(slotM offS hS).view.set]{fullShare}
            (slotM offS hS).view.writes (Elt F) fd [⟨Rect.whole S128x128, gp d L fs fv hin fx off h⟩])
        ∗ ((sI).view.loc (V d (cV L) (jV L)) ↦[(listM off h).view.set]{qo} c0 d L fs fv))
      ∗ ((xV).view.loc (V d (cV L) (jV L)) ↦[(tblM).view.set]{q} fx))

theorem gDelO_congr (fs : Buf (Elt F) ((V d (cV L) (jV L)).loc cc0_scratch0)) (fv : Buf (Elt F) (vLoc d)) (hin : ∀ j, (fv j).toNat < 100000)
    (fx : Buf (Elt F) (xLoc d)) (q qo : PosShare TreeShare) (offS : Fin 3 → ℕ) (hS : ∀ a, offS a + S1x128x128.size a ≤ S5x128x128.size a) (fd : Buf (Elt F) ((V d (cV L) (jV L)).loc cc0_scratch1))
    {off off' : Fin 2 → ℕ} (e : off = off') (h : ∀ a, off a + S1x128.size a ≤ S50x128.size a) (h' : ∀ a, off' a + S1x128.size a ≤ S50x128.size a) :
    gDelO d L fs fv hin fx q qo offS hS fd off h = gDelO d L fs fv hin fx q qo offS hS fd off' h' := by
  subst e; rfl

/-- What a block of the result holds once a row buffer, gathered from the list at `loff`, is copied out to the block at
    `coff`. -/
def chunkAfterO (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    (coff : Fin 2 → ℕ) (ch : ∀ a, coff a + S128x128.size a ≤ S4096x6400.size a)
    (loff : Fin 2 → ℕ) (lh : ∀ a, loff a + S1x128.size a ≤ S50x128.size a) : Buf (Elt F) (oLoc d) :=
  (chunkM coff ch).view.writes (Elt F) fo [⟨Rect.whole S128x128,
    ReadAs.same.apply (View.read (Elt F) (slotM offS hS).view
      ((slotM offS hS).view.writes (Elt F) fd [⟨Rect.whole S128x128, gp d L fs fv hin fx loff lh⟩]))⟩]

/-- What a copy out in flight delivers: the block written, and the row buffer back. -/
def wDelO (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    (coff : Fin 2 → ℕ) (ch : ∀ a, coff a + S128x128.size a ≤ S4096x6400.size a)
    (loff : Fin 2 → ℕ) (lh : ∀ a, loff a + S1x128.size a ≤ S50x128.size a) : sProp 𝕄 :=
  iprop(((chunkM coff ch).view.loc (V d (cV L) (jV L)) ↦[(chunkM coff ch).view.set]{fullShare} chunkAfterO d L fs fv hin fx offS hS fd fo coff ch loff lh)
      ∗ ((slotM offS hS).view.loc (V d (cV L) (jV L)) ↦[(slotM offS hS).view.set]{fullShare}
            (slotM offS hS).view.writes (Elt F) fd [⟨Rect.whole S128x128, gp d L fs fv hin fx loff lh⟩]))

theorem wDelO_congr (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    {coff coff' : Fin 2 → ℕ} (e1 : coff = coff') (ch : ∀ a, coff a + S128x128.size a ≤ S4096x6400.size a) (ch' : ∀ a, coff' a + S128x128.size a ≤ S4096x6400.size a)
    {loff loff' : Fin 2 → ℕ} (e2 : loff = loff') (lh : ∀ a, loff a + S1x128.size a ≤ S50x128.size a) (lh' : ∀ a, loff' a + S1x128.size a ≤ S50x128.size a) :
    wDelO d L fs fv hin fx offS hS fd fo coff ch loff lh = wDelO d L fs fv hin fx offS hS fd fo coff' ch' loff' lh' := by
  subst e1 e2; rfl

theorem done_congr (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    {coff coff' : Fin 2 → ℕ} (e1 : coff = coff') (ch : ∀ a, coff a + S128x128.size a ≤ S4096x6400.size a) (ch' : ∀ a, coff' a + S128x128.size a ≤ S4096x6400.size a)
    {loff loff' : Fin 2 → ℕ} (e2 : loff = loff') (lh : ∀ a, loff a + S1x128.size a ≤ S50x128.size a) (lh' : ∀ a, loff' a + S1x128.size a ≤ S50x128.size a) :
    ((chunkM coff ch).view.loc (V d (cV L) (jV L)) ↦[(chunkM coff ch).view.set]{fullShare} chunkAfterO d L fs fv hin fx offS hS fd fo coff ch loff lh : sProp 𝕄)
      = ((chunkM coff' ch').view.loc (V d (cV L) (jV L)) ↦[(chunkM coff' ch').view.set]{fullShare} chunkAfterO d L fs fv hin fx offS hS fd fo coff' ch' loff' lh') := by
  subst e1 e2; rfl

omit [FloatOps F] in
theorem rest_congr {off off' : Fin 2 → ℕ} (e : off = off') (h : ∀ a, off a + S1x128.size a ≤ S50x128.size a) (h' : ∀ a, off' a + S1x128.size a ≤ S50x128.size a)
    (q : PosShare TreeShare) (f : Buf (Elt F) ((V d (cV L) (jV L)).loc cc0_scratch0)) :
    ((sI).view.loc (V d (cV L) (jV L)) ↦[Finset.univ \ (listM off h).view.set]{q} f : sProp 𝕄)
      = ((sI).view.loc (V d (cV L) (jV L)) ↦[Finset.univ \ (listM off' h').view.set]{q} f) := by
  subst e; rfl

omit [FloatOps F] in
/-- A wait recorded at no handshake's index keeps the recorded waits within the task's allowance. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-! ## The task -/

set_option maxHeartbeats 4000000 in
set_option maxRecDepth 16384 in
/-- One task, on vector subcore `(L 0, L 1)`: holding read shares of the array of lists and of the table, and its 128
    rows of the result, it ends holding the same shares and its rows of the result at the lookup's value
    (`Gk`): entry (128·w + r, 128·j + e) is entry `e` of the table row that list word (j, w, r) names. -/
theorem tile_body (hF : (K (F := F)).Facts) (qv qx : PosShare TreeShare)
    (fv : Buf (Elt F) (vLoc d)) (fx : Buf (Elt F) (xLoc d)) (fo : Buf (Elt F) (oLoc d))
    (hin : ∀ j, (fv j).toNat < 100000)
    (O : CellTallies nD τ sig (HIx 1)) (W : Waits sig (HIx 1)) (hO : ∀ g, O g none = 0) :
    (iprop(levAts (K (F := F)).L (K (F := F)).lev ∗ emp
        ∗ ((vLoc d ↦{qv} fv) ∗ (xLoc d ↦{qx} fx) ∗ (oLoc d ↦[oTileSet L]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_run L vV (Memref.isWhole_whole _) xV (Memref.isWhole_whole _) oV (Memref.isWhole_whole _)
            sI (Memref.isWhole_whole _) sR (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(((vLoc d ↦{qv} fv) ∗ (xLoc d ↦{qx} fx) ∗ (oLoc d ↦[oTileSet L]{fullShare} Gk fv fx))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_T, ownBufs_T]
  iintro ⟨#Hlv, -, ⟨Hv, Hx, Ho⟩, ⟨⟨%fs, Hs⟩, ⟨%fr, Hr⟩, Hbufs⟩, ⟨⟨Hg0, Hg1, Hg2, Hg3, Hg4, Hw0, Hw1, Hw2, Hw3, Hw4, Hsc⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hv' := (Entails.of_eq (pts_vV (F := F) d L _ _).symm) $$ Hv
  ihave Hxt := (toks5 (F := F) Finset.univ qx fx).1 $$ Hx
  icases Hxt with ⟨Hxd, Hx0, Hx1, Hx2, Hx3, Hx4⟩
  ihave Hx0 := (Entails.of_eq (pts_xV (F := F) d L _ _).symm) $$ Hx0
  ihave Hx1 := (Entails.of_eq (pts_xV (F := F) d L _ _).symm) $$ Hx1
  ihave Hx2 := (Entails.of_eq (pts_xV (F := F) d L _ _).symm) $$ Hx2
  ihave Hx3 := (Entails.of_eq (pts_xV (F := F) d L _ _).symm) $$ Hx3
  ihave Hx4 := (Entails.of_eq (pts_xV (F := F) d L _ _).symm) $$ Hx4
  ihave Hs' := (Entails.of_eq (pts_sI (F := F) d L _).symm) $$ Hs
  -- the row-buffer scratch as its five row buffers, the task's rows of the result as their fifty blocks
  ihave Hr5 := (Entails.of_eq (slots5 (F := F) d L fr)) $$ Hr
  icases Hr5 with ⟨D0, D1, D2, D3, D4⟩
  ihave Hoc := (Entails.of_eq (oTile_chunks (F := F) d L fo)) $$ Ho
  -- the task's fifty lists are copied into its scratch; from here on that scratch is only read, and it is held as
  -- five read tokens, one per gather semaphore, as the table is
  sl_exec
  ihave Hcap := (pts_cap (F := F) _) $$ Hs'
  icases Hcap with ⟨%cs, %hcs, Hs'⟩
  obtain rfl : cs = c0 d L fs fv := hcs.trans rfl
  ihave Hst := (toks5 (F := F) Finset.univ fullShare (c0 d L fs fv)).1 $$ Hs'
  icases Hst with ⟨Hsd, T0, T1, T2, T3, T4⟩
  -- lists 0 and 1 are gathered into row buffers 0 and 1: every word of a list names a row of the table
  ihave T0 := (Entails.of_eq (pts_sIq (F := F) d L _ _).symm) $$ T0
  have hin_p0 := c0_inb (F := F) d L fs fv hin ![0, 0] inb_S50x128_S1x128_0_0
  sl_exec
  ihave T1 := (Entails.of_eq (pts_sIq (F := F) d L _ _).symm) $$ T1
  have hin_p1 := c0_inb (F := F) d L fs fv hin ![1, 0] inb_S50x128_S1x128_1_0
  sl_exec
  ihave Hcap := (flight_cap (F := F) _ _ _ _ _) $$ Hg0
  icases Hcap with ⟨%Dg0, %hDg0, Hg0⟩
  obtain rfl : Dg0 = iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 fr (5 * 0))
              ∗ ((sI).view.loc (V d (cV L) (jV L)) ↦[LSet (5 * 0)]{tk fullShare 0} c0 d L fs fv))
            ∗ ((xV).view.loc (V d (cV L) (jV L)) ↦[(tblM).view.set]{tk qx 0} fx)) := hDg0.trans rfl
  ihave Hcap := (flight_cap (F := F) _ _ _ _ _) $$ Hg1
  icases Hcap with ⟨%Dg1, %hDg1, Hg1⟩
  obtain rfl : Dg1 = iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 fr (5 * 0 + 1))
              ∗ ((sI).view.loc (V d (cV L) (jV L)) ↦[LSet (5 * 0 + 1)]{tk fullShare 1} c0 d L fs fv))
            ∗ ((xV).view.loc (V d (cV L) (jV L)) ↦[(tblM).view.set]{tk qx 1} fx)) := hDg1.trans rfl
  ihave T0 := (Entails.of_eq (show ((sI).view.loc (V d (cV L) (jV L)) ↦[Finset.univ \ (listM ![0, 0] inb_S50x128_S1x128_0_0).view.set]{tk fullShare 0} c0 d L fs fv : sProp 𝕄) = ((sI).view.loc (V d (cV L) (jV L)) ↦[Finset.univ \ LSet (5 * 0)]{tk fullShare 0} c0 d L fs fv : sProp 𝕄) from rfl)) $$ T0
  ihave T1 := (Entails.of_eq (show ((sI).view.loc (V d (cV L) (jV L)) ↦[Finset.univ \ (listM ![1, 0] inb_S50x128_S1x128_1_0).view.set]{tk fullShare 1} c0 d L fs fv : sProp 𝕄) = ((sI).view.loc (V d (cV L) (jV L)) ↦[Finset.univ \ LSet (5 * 0 + 1)]{tk fullShare 1} c0 d L fs fv : sProp 𝕄) from rfl)) $$ T1
  -- the ten trips, by the invariant
  sl_for (inv d L fs fv hin fx qx fo O W) $$ [Hmw HO Hg0 Hg1 Hx0 Hx1 T0 T1 Hw2 Hw3 Hw4 D2 D3 D4 Hx2 Hx3 Hx4 T2 T3 T4 Hg2 Hg3 Hg4 Hw0 Hw1 Hoc]
  case region =>
    -- one trip, five steps b = 0 … 4: row buffer (b + 2) mod 5 is free once its previous copy out (block 5k + b - 3) has
    -- landed, and list 5k + b + 2 is gathered into it; the gather of list 5k + b into row buffer b lands, and that buffer is
    -- copied out to block 5k + b. Each gather and each copy out has a semaphore of its own.
    intro k _
    have hk10 : k.val < 10 := lt_of_lt_of_le k.isLt (le_of_eq trips_eq)
    rw [inv, GPart_lt d L fs fv hin fx qx fo k.val hk10]
    -- the first trip: no copy out is in flight yet
    by_cases hk0 : k.val = 0
    · have hk9 : k.val < 9 := by omega
      rw [show WPart d L fs fv hin fx qx fo k.val = iprop(semVal (dcell d L cc0_scratch9.sem) 0 ∗ semVal (dcell d L cc0_scratch10.sem) 0 ∗ semVal (dcell d L cc0_scratch11.sem) 0
      ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
      ∗ (∃ f, (slotM ![4, 0, 0] inb_S5x128x128_S1x128x128_4_0_0).view.loc (V d (cV L) (jV L)) ↦[(slotM ![4, 0, 0] inb_S5x128x128_S1x128x128_4_0_0).view.set]{fullShare} f)) from by rw [hk0]; exact WPart_zero d L fs fv hin fx qx fo]
      iintro ⟨Hmw, ⟨%W', %hW', HO⟩, ⟨⟨%fd0, G0⟩, ⟨%fd1, G1⟩, Rx0, Rx1, Rs0, Rs1⟩, ⟨Hw2, Hw3, Hw4, ⟨%f2, D2⟩, ⟨%f3, D3⟩, ⟨%f4, D4⟩⟩, X2, X3, X4, T2, T3, T4, Hg2, Hg3, Hg4, Hw0, Hw1, Hdone, Htodo⟩
      have k0_h1 : ¬ k0_cond1 k = 1#1 := fun h => by have := (cond1_iff k).mp h; omega
      have k0_h2 : ¬ k0_cond2 k = 1#1 := fun h => by have := (cond2_iff k).mp h; omega
      have k0_h3 : ¬ k0_cond3 k = 1#1 := fun h => by have := (cond3_iff k).mp h; omega
      have k0_h4 : k0_cond4 k = 1#1 := (cond4_iff k).mpr hk9
      have k0_h5 : k0_cond5 k = 1#1 := (cond5_iff k).mpr hk9
      ihave Ht := (Entails.of_eq (todo_peel (fun j => ((CM L j).view.loc (V d (cV L) (jV L)) ↦[(CM L j).view.set]{fullShare} fo : sProp 𝕄)) k.val hk10)) $$ Htodo
      icases Ht with ⟨C0, C1, C2, C3, C4, Htodo⟩
      ihave C0 := (Entails.of_eq (show ((CM L (5 * k.val + 0)).view.loc (V d (cV L) (jV L)) ↦[(CM L (5 * k.val + 0)).view.set]{fullShare} fo : sProp 𝕄) = ((chunkM (k0_off4 L k 0#32) (k0_off4_inb L k 0)).view.loc (V d (cV L) (jV L)) ↦[(chunkM (k0_off4 L k 0#32) (k0_off4_inb L k 0)).view.set]{fullShare} fo : sProp 𝕄) from
        chunk_pts_congr (F := F) d L (off4_co L k 0).symm _ _ fo)) $$ C0
      ihave C1 := (Entails.of_eq (show ((CM L (5 * k.val + 1)).view.loc (V d (cV L) (jV L)) ↦[(CM L (5 * k.val + 1)).view.set]{fullShare} fo : sProp 𝕄) = ((chunkM (k0_off4 L k 1#32) (k0_off4_inb L k 1)).view.loc (V d (cV L) (jV L)) ↦[(chunkM (k0_off4 L k 1#32) (k0_off4_inb L k 1)).view.set]{fullShare} fo : sProp 𝕄) from
        chunk_pts_congr (F := F) d L (off4_co L k 1).symm _ _ fo)) $$ C1
      ihave C2 := (Entails.of_eq (show ((CM L (5 * k.val + 2)).view.loc (V d (cV L) (jV L)) ↦[(CM L (5 * k.val + 2)).view.set]{fullShare} fo : sProp 𝕄) = ((chunkM (k0_off4 L k 2#32) (k0_off4_inb L k 2)).view.loc (V d (cV L) (jV L)) ↦[(chunkM (k0_off4 L k 2#32) (k0_off4_inb L k 2)).view.set]{fullShare} fo : sProp 𝕄) from
        chunk_pts_congr (F := F) d L (off4_co L k 2).symm _ _ fo)) $$ C2
      ihave C3 := (Entails.of_eq (show ((CM L (5 * k.val + 3)).view.loc (V d (cV L) (jV L)) ↦[(CM L (5 * k.val + 3)).view.set]{fullShare} fo : sProp 𝕄) = ((chunkM (k0_off4 L k 3#32) (k0_off4_inb L k 3)).view.loc (V d (cV L) (jV L)) ↦[(chunkM (k0_off4 L k 3#32) (k0_off4_inb L k 3)).view.set]{fullShare} fo : sProp 𝕄) from
        chunk_pts_congr (F := F) d L (off4_co L k 3).symm _ _ fo)) $$ C3
      ihave C4 := (Entails.of_eq (show ((CM L (5 * k.val + 4)).view.loc (V d (cV L) (jV L)) ↦[(CM L (5 * k.val + 4)).view.set]{fullShare} fo : sProp 𝕄) = ((chunkM (k0_off4 L k 4#32) (k0_off4_inb L k 4)).view.loc (V d (cV L) (jV L)) ↦[(chunkM (k0_off4 L k 4#32) (k0_off4_inb L k 4)).view.set]{fullShare} fo : sProp 𝕄) from
        chunk_pts_congr (F := F) d L (off4_co L k 4).symm _ _ fo)) $$ C4
      ihave T2 := (Entails.of_eq (pts_sIq (F := F) d L _ _).symm) $$ T2
      have hin_0 := c0_inb (F := F) d L fs fv hin (k0_off3 k 0#32) (k0_off3_inb k 0)
      sl_exec
      ihave Rs0 := (Entails.of_eq (pts_sIq (F := F) d L _ _)) $$ Rs0
      ihave T3 := (Entails.of_eq (pts_sIq (F := F) d L _ _).symm) $$ T3
      have hin_1 := c0_inb (F := F) d L fs fv hin (k0_off3 k 1#32) (k0_off3_inb k 1)
      sl_exec
      ihave Rs1 := (Entails.of_eq (pts_sIq (F := F) d L _ _)) $$ Rs1
      ihave T4 := (Entails.of_eq (pts_sIq (F := F) d L _ _).symm) $$ T4
      have hin_2 := c0_inb (F := F) d L fs fv hin (k0_off3 k 2#32) (k0_off3_inb k 2)
      sl_exec
      ihave T2 := (Entails.of_eq (pts_sIq (F := F) d L _ _)) $$ T2
      ihave Rs0 := (Entails.of_eq (pts_sIq (F := F) d L _ _).symm) $$ Rs0
      have hin_3 := c0_inb (F := F) d L fs fv hin (k0_off8 k) (k0_off8_inb k k0_h4)
      sl_exec
      ihave T3 := (Entails.of_eq (pts_sIq (F := F) d L _ _)) $$ T3
      ihave Rs1 := (Entails.of_eq (pts_sIq (F := F) d L _ _).symm) $$ Rs1
      have hin_4 := c0_inb (F := F) d L fs fv hin (k0_off9 k) (k0_off9_inb k k0_h5)
      sl_exec
      sl_step
      ihave T4 := (Entails.of_eq (pts_sIq (F := F) d L _ _)) $$ T4
      iclear Hdone G0_dst G1_dst
      have e8 : k0_off8 k = lo (5 * (k.val + 1)) := (off8_lo k hk9).trans (congrArg lo (by omega))
      have e9 : k0_off9 k = lo (5 * (k.val + 1) + 1) := (off9_lo k hk9).trans (congrArg lo (by omega))
      ihave Hcap := (flight_cap (F := F) _ _ _ _ _) $$ G0
      icases Hcap with ⟨%DG0, %hDG0, G0⟩
      obtain rfl : DG0 = iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 (slotAfter d L fs fv hin fx ![0, 0, 0] inb_S5x128x128_S1x128x128_0_0_0 fd0 (5 * k.val)) (5 * (k.val + 1)))
              ∗ ((sI).view.loc (V d (cV L) (jV L)) ↦[LSet (5 * (k.val + 1))]{tk fullShare 0} c0 d L fs fv))
            ∗ ((xV).view.loc (V d (cV L) (jV L)) ↦[(tblM).view.set]{tk qx 0} fx)) :=
        (hDG0.trans (rfl : _ = gDelO d L fs fv hin fx (tk qx 0) (tk fullShare 0) ![0, 0, 0] inb_S5x128x128_S1x128x128_0_0_0 (slotAfter d L fs fv hin fx ![0, 0, 0] inb_S5x128x128_S1x128x128_0_0_0 fd0 (5 * k.val)) (k0_off8 k) (k0_off8_inb k k0_h4))).trans
          ((gDelO_congr d L fs fv hin fx _ _ _ _ _ e8 _ (lo_inb _)).trans rfl)
      ihave Hcap := (flight_cap (F := F) _ _ _ _ _) $$ G1
      icases Hcap with ⟨%DG1, %hDG1, G1⟩
      obtain rfl : DG1 = iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 (slotAfter d L fs fv hin fx ![1, 0, 0] inb_S5x128x128_S1x128x128_1_0_0 fd1 (5 * k.val + 1)) (5 * (k.val + 1) + 1))
              ∗ ((sI).view.loc (V d (cV L) (jV L)) ↦[LSet (5 * (k.val + 1) + 1)]{tk fullShare 1} c0 d L fs fv))
            ∗ ((xV).view.loc (V d (cV L) (jV L)) ↦[(tblM).view.set]{tk qx 1} fx)) :=
        (hDG1.trans (rfl : _ = gDelO d L fs fv hin fx (tk qx 1) (tk fullShare 1) ![1, 0, 0] inb_S5x128x128_S1x128x128_1_0_0 (slotAfter d L fs fv hin fx ![1, 0, 0] inb_S5x128x128_S1x128x128_1_0_0 fd1 (5 * k.val + 1)) (k0_off9 k) (k0_off9_inb k k0_h5))).trans
          ((gDelO_congr d L fs fv hin fx _ _ _ _ _ e9 _ (lo_inb _)).trans rfl)
      ihave Rs0 := (Entails.of_eq (show ((sI).view.loc (V d (cV L) (jV L)) ↦[Finset.univ \ (listM (k0_off8 k) (k0_off8_inb k k0_h4)).view.set]{tk fullShare 0} c0 d L fs fv : sProp 𝕄) = ((sI).view.loc (V d (cV L) (jV L)) ↦[Finset.univ \ LSet (5 * (k.val + 1))]{tk fullShare 0} c0 d L fs fv : sProp 𝕄) from
        rest_congr (F := F) d L e8 _ (lo_inb _) _ _)) $$ Rs0
      ihave Rs1 := (Entails.of_eq (show ((sI).view.loc (V d (cV L) (jV L)) ↦[Finset.univ \ (listM (k0_off9 k) (k0_off9_inb k k0_h5)).view.set]{tk fullShare 1} c0 d L fs fv : sProp 𝕄) = ((sI).view.loc (V d (cV L) (jV L)) ↦[Finset.univ \ LSet (5 * (k.val + 1) + 1)]{tk fullShare 1} c0 d L fs fv : sProp 𝕄) from
        rest_congr (F := F) d L e9 _ (lo_inb _) _ _)) $$ Rs1
      have ec2 : k0_off4 L k 2#32 = co L (5 * (k.val + 1) - 3) := (off4_co L k 2).trans (congrArg (co L) (by show 5 * k.val + 2 = _; omega))
      have el2 : k0_off3 k 0#32 = lo (5 * (k.val + 1) - 3) := (off3_lo k 0).trans (congrArg lo (by show 5 * k.val + 0 + 2 = _; omega))
      ihave Hcap := (flight_cap (F := F) _ _ _ _ _) $$ Hw2
      icases Hcap with ⟨%DW2, %hDW2, Hw2⟩
      obtain rfl : DW2 = iprop(((CM L (5 * (k.val + 1) - 3)).view.loc (V d (cV L) (jV L)) ↦[(CM L (5 * (k.val + 1) - 3)).view.set]{fullShare} chunkAfter d L fs fv hin fx ![2, 0, 0] inb_S5x128x128_S1x128x128_2_0_0 f2 fo (5 * (k.val + 1) - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 f2 (5 * (k.val + 1) - 3))) :=
        (hDW2.trans (rfl : _ = wDelO d L fs fv hin fx ![2, 0, 0] inb_S5x128x128_S1x128x128_2_0_0 f2 fo (k0_off4 L k 2#32) (k0_off4_inb L k 2) (k0_off3 k 0#32) (k0_off3_inb k 0))).trans
          ((wDelO_congr d L fs fv hin fx _ _ _ fo ec2 _ (co_inb L _) el2 _ (lo_inb _)).trans rfl)
      have ec3 : k0_off4 L k 3#32 = co L (5 * (k.val + 1) - 2) := (off4_co L k 3).trans (congrArg (co L) (by show 5 * k.val + 3 = _; omega))
      have el3 : k0_off3 k 1#32 = lo (5 * (k.val + 1) - 2) := (off3_lo k 1).trans (congrArg lo (by show 5 * k.val + 1 + 2 = _; omega))
      ihave Hcap := (flight_cap (F := F) _ _ _ _ _) $$ Hw3
      icases Hcap with ⟨%DW3, %hDW3, Hw3⟩
      obtain rfl : DW3 = iprop(((CM L (5 * (k.val + 1) - 2)).view.loc (V d (cV L) (jV L)) ↦[(CM L (5 * (k.val + 1) - 2)).view.set]{fullShare} chunkAfter d L fs fv hin fx ![3, 0, 0] inb_S5x128x128_S1x128x128_3_0_0 f3 fo (5 * (k.val + 1) - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 f3 (5 * (k.val + 1) - 2))) :=
        (hDW3.trans (rfl : _ = wDelO d L fs fv hin fx ![3, 0, 0] inb_S5x128x128_S1x128x128_3_0_0 f3 fo (k0_off4 L k 3#32) (k0_off4_inb L k 3) (k0_off3 k 1#32) (k0_off3_inb k 1))).trans
          ((wDelO_congr d L fs fv hin fx _ _ _ fo ec3 _ (co_inb L _) el3 _ (lo_inb _)).trans rfl)
      have ec4 : k0_off4 L k 4#32 = co L (5 * (k.val + 1) - 1) := (off4_co L k 4).trans (congrArg (co L) (by show 5 * k.val + 4 = _; omega))
      have el4 : k0_off3 k 2#32 = lo (5 * (k.val + 1) - 1) := (off3_lo k 2).trans (congrArg lo (by show 5 * k.val + 2 + 2 = _; omega))
      ihave Hcap := (flight_cap (F := F) _ _ _ _ _) $$ Hw4
      icases Hcap with ⟨%DW4, %hDW4, Hw4⟩
      obtain rfl : DW4 = iprop(((CM L (5 * (k.val + 1) - 1)).view.loc (V d (cV L) (jV L)) ↦[(CM L (5 * (k.val + 1) - 1)).view.set]{fullShare} chunkAfter d L fs fv hin fx ![4, 0, 0] inb_S5x128x128_S1x128x128_4_0_0 f4 fo (5 * (k.val + 1) - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 f4 (5 * (k.val + 1) - 1))) :=
        (hDW4.trans (rfl : _ = wDelO d L fs fv hin fx ![4, 0, 0] inb_S5x128x128_S1x128x128_4_0_0 f4 fo (k0_off4 L k 4#32) (k0_off4_inb L k 4) (k0_off3 k 2#32) (k0_off3_inb k 2))).trans
          ((wDelO_congr d L fs fv hin fx _ _ _ fo ec4 _ (co_inb L _) el4 _ (lo_inb _)).trans rfl)
      ihave Hcap := (pts_cap (F := F) _) $$ C0
      icases Hcap with ⟨%gC0, %hgC0, C0⟩
      obtain rfl : gC0 = chunkAfterO d L fs fv hin fx ![0, 0, 0] inb_S5x128x128_S1x128x128_0_0_0 fd0 fo (k0_off4 L k 0#32) (k0_off4_inb L k 0) (lo (5 * k.val)) (lo_inb (5 * k.val)) := hgC0.trans rfl
      ihave C0 := (Entails.of_eq (show ((chunkM (k0_off4 L k 0#32) (k0_off4_inb L k 0)).view.loc (V d (cV L) (jV L)) ↦[(chunkM (k0_off4 L k 0#32) (k0_off4_inb L k 0)).view.set]{fullShare} chunkAfterO d L fs fv hin fx ![0, 0, 0] inb_S5x128x128_S1x128x128_0_0_0 fd0 fo (k0_off4 L k 0#32) (k0_off4_inb L k 0) (lo (5 * k.val)) (lo_inb (5 * k.val)) : sProp 𝕄) = ((CM L (5 * k.val + 0)).view.loc (V d (cV L) (jV L)) ↦[(CM L (5 * k.val + 0)).view.set]{fullShare} Gk fv fx : sProp 𝕄) from
        (done_congr d L fs fv hin fx _ _ _ fo (off4_co L k 0) _ (co_inb L _) (rfl : lo (5 * k.val) = lo (5 * k.val + 0)) _ (lo_inb _)).trans
          (chunk_pts d L fs fv hin fx ![0, 0, 0] inb_S5x128x128_S1x128x128_0_0_0 fd0 fo (5 * k.val + 0) (by omega)))) $$ C0
      ihave Hcap := (pts_cap (F := F) _) $$ C1
      icases Hcap with ⟨%gC1, %hgC1, C1⟩
      obtain rfl : gC1 = chunkAfterO d L fs fv hin fx ![1, 0, 0] inb_S5x128x128_S1x128x128_1_0_0 fd1 fo (k0_off4 L k 1#32) (k0_off4_inb L k 1) (lo (5 * k.val + 1)) (lo_inb (5 * k.val + 1)) := hgC1.trans rfl
      ihave C1 := (Entails.of_eq (show ((chunkM (k0_off4 L k 1#32) (k0_off4_inb L k 1)).view.loc (V d (cV L) (jV L)) ↦[(chunkM (k0_off4 L k 1#32) (k0_off4_inb L k 1)).view.set]{fullShare} chunkAfterO d L fs fv hin fx ![1, 0, 0] inb_S5x128x128_S1x128x128_1_0_0 fd1 fo (k0_off4 L k 1#32) (k0_off4_inb L k 1) (lo (5 * k.val + 1)) (lo_inb (5 * k.val + 1)) : sProp 𝕄) = ((CM L (5 * k.val + 1)).view.loc (V d (cV L) (jV L)) ↦[(CM L (5 * k.val + 1)).view.set]{fullShare} Gk fv fx : sProp 𝕄) from
        (done_congr d L fs fv hin fx _ _ _ fo (off4_co L k 1) _ (co_inb L _) (rfl : lo (5 * k.val + 1) = lo (5 * k.val + 1)) _ (lo_inb _)).trans
          (chunk_pts d L fs fv hin fx ![1, 0, 0] inb_S5x128x128_S1x128x128_1_0_0 fd1 fo (5 * k.val + 1) (by omega)))) $$ C1
      have hdone : bigSep (Finset.range (5 * (k.val + 1) - 3)) (fun j => ((CM L j).view.loc (V d (cV L) (jV L)) ↦[(CM L j).view.set]{fullShare} Gk fv fx : sProp 𝕄)) = iprop((fun j => ((CM L j).view.loc (V d (cV L) (jV L)) ↦[(CM L j).view.set]{fullShare} Gk fv fx : sProp 𝕄)) (5 * k.val + 0) ∗ (fun j => ((CM L j).view.loc (V d (cV L) (jV L)) ↦[(CM L j).view.set]{fullShare} Gk fv fx : sProp 𝕄)) (5 * k.val + 1)) := by
        rw [hk0]; exact done_push0 (fun j => ((CM L j).view.loc (V d (cV L) (jV L)) ↦[(CM L j).view.set]{fullShare} Gk fv fx : sProp 𝕄))
      rw [inv, GPart_lt d L fs fv hin fx qx fo (k.val + 1) (by omega), WPart_pos d L fs fv hin fx qx fo (k.val + 1) (by omega), hdone]
      isplitl [Hmw]; · iexact Hmw
      isplitl [HO]
      · iexists _; isplitr
        swap; · iexact HO
        ipureintro
        repeat (first | exact hW' | refine waits_insert _ ?_)
      isplitl [G0 G1 Rx0 Rx1 Rs0 Rs1]
      · isplitl [G0]; · iexists _; iexact G0
        isplitl [G1]; · iexists _; iexact G1
        isplitl [Rx0]; · iexact Rx0
        isplitl [Rx1]; · iexact Rx1
        isplitl [Rs0]; · iexact Rs0
        iexact Rs1
      isplitl [Hw2 Hw3 Hw4]
      · isplitl [Hw2]; · iexists _; iexact Hw2
        isplitl [Hw3]; · iexists _; iexact Hw3
        iexists _; iexact Hw4
      isplitl [X2]; · iexact X2
      isplitl [X3]; · iexact X3
      isplitl [X4]; · iexact X4
      isplitl [T2]; · iexact T2
      isplitl [T3]; · iexact T3
      isplitl [T4]; · iexact T4
      isplitl [Hg2]; · iexact Hg2
      isplitl [Hg3]; · iexact Hg3
      isplitl [Hg4]; · iexact Hg4
      isplitl [Hw0]; · iexact Hw0
      isplitl [Hw1]; · iexact Hw1
      isplitl [C0 C1]
      · isplitl [C0]; · iexact C0
        iexact C1
      iexact Htodo
    -- a middle trip: three copies out of the trip before are in flight and land during this one
    · by_cases hk9 : k.val < 9
      · have hkpos : 0 < k.val := Nat.pos_of_ne_zero hk0
        rw [WPart_pos d L fs fv hin fx qx fo k.val hk0]
        iintro ⟨Hmw, ⟨%W', %hW', HO⟩, ⟨⟨%fd0, G0⟩, ⟨%fd1, G1⟩, Rx0, Rx1, Rs0, Rs1⟩, ⟨⟨%fd2, W2⟩, ⟨%fd3, W3⟩, ⟨%fd4, W4⟩⟩, X2, X3, X4, T2, T3, T4, Hg2, Hg3, Hg4, Hw0, Hw1, Hdone, Htodo⟩
        have k0_h1 : k0_cond1 k = 1#1 := (cond1_iff k).mpr hkpos
        have k0_h2 : k0_cond2 k = 1#1 := (cond2_iff k).mpr hkpos
        have k0_h3 : k0_cond3 k = 1#1 := (cond3_iff k).mpr hkpos
        have k0_h4 : k0_cond4 k = 1#1 := (cond4_iff k).mpr hk9
        have k0_h5 : k0_cond5 k = 1#1 := (cond5_iff k).mpr hk9
        ihave Ht := (Entails.of_eq (todo_peel (fun j => ((CM L j).view.loc (V d (cV L) (jV L)) ↦[(CM L j).view.set]{fullShare} fo : sProp 𝕄)) k.val hk10)) $$ Htodo
        icases Ht with ⟨C0, C1, C2, C3, C4, Htodo⟩
        ihave C0 := (Entails.of_eq (show ((CM L (5 * k.val + 0)).view.loc (V d (cV L) (jV L)) ↦[(CM L (5 * k.val + 0)).view.set]{fullShare} fo : sProp 𝕄) = ((chunkM (k0_off4 L k 0#32) (k0_off4_inb L k 0)).view.loc (V d (cV L) (jV L)) ↦[(chunkM (k0_off4 L k 0#32) (k0_off4_inb L k 0)).view.set]{fullShare} fo : sProp 𝕄) from
          chunk_pts_congr (F := F) d L (off4_co L k 0).symm _ _ fo)) $$ C0
        ihave C1 := (Entails.of_eq (show ((CM L (5 * k.val + 1)).view.loc (V d (cV L) (jV L)) ↦[(CM L (5 * k.val + 1)).view.set]{fullShare} fo : sProp 𝕄) = ((chunkM (k0_off4 L k 1#32) (k0_off4_inb L k 1)).view.loc (V d (cV L) (jV L)) ↦[(chunkM (k0_off4 L k 1#32) (k0_off4_inb L k 1)).view.set]{fullShare} fo : sProp 𝕄) from
          chunk_pts_congr (F := F) d L (off4_co L k 1).symm _ _ fo)) $$ C1
        ihave C2 := (Entails.of_eq (show ((CM L (5 * k.val + 2)).view.loc (V d (cV L) (jV L)) ↦[(CM L (5 * k.val + 2)).view.set]{fullShare} fo : sProp 𝕄) = ((chunkM (k0_off4 L k 2#32) (k0_off4_inb L k 2)).view.loc (V d (cV L) (jV L)) ↦[(chunkM (k0_off4 L k 2#32) (k0_off4_inb L k 2)).view.set]{fullShare} fo : sProp 𝕄) from
          chunk_pts_congr (F := F) d L (off4_co L k 2).symm _ _ fo)) $$ C2
        ihave C3 := (Entails.of_eq (show ((CM L (5 * k.val + 3)).view.loc (V d (cV L) (jV L)) ↦[(CM L (5 * k.val + 3)).view.set]{fullShare} fo : sProp 𝕄) = ((chunkM (k0_off4 L k 3#32) (k0_off4_inb L k 3)).view.loc (V d (cV L) (jV L)) ↦[(chunkM (k0_off4 L k 3#32) (k0_off4_inb L k 3)).view.set]{fullShare} fo : sProp 𝕄) from
          chunk_pts_congr (F := F) d L (off4_co L k 3).symm _ _ fo)) $$ C3
        ihave C4 := (Entails.of_eq (show ((CM L (5 * k.val + 4)).view.loc (V d (cV L) (jV L)) ↦[(CM L (5 * k.val + 4)).view.set]{fullShare} fo : sProp 𝕄) = ((chunkM (k0_off4 L k 4#32) (k0_off4_inb L k 4)).view.loc (V d (cV L) (jV L)) ↦[(chunkM (k0_off4 L k 4#32) (k0_off4_inb L k 4)).view.set]{fullShare} fo : sProp 𝕄) from
          chunk_pts_congr (F := F) d L (off4_co L k 4).symm _ _ fo)) $$ C4
        ihave T2 := (Entails.of_eq (pts_sIq (F := F) d L _ _).symm) $$ T2
        have hin_0 := c0_inb (F := F) d L fs fv hin (k0_off3 k 0#32) (k0_off3_inb k 0)
        sl_exec
        ihave Rs0 := (Entails.of_eq (pts_sIq (F := F) d L _ _)) $$ Rs0
        ihave T3 := (Entails.of_eq (pts_sIq (F := F) d L _ _).symm) $$ T3
        have hin_1 := c0_inb (F := F) d L fs fv hin (k0_off3 k 1#32) (k0_off3_inb k 1)
        sl_exec
        ihave Rs1 := (Entails.of_eq (pts_sIq (F := F) d L _ _)) $$ Rs1
        ihave T4 := (Entails.of_eq (pts_sIq (F := F) d L _ _).symm) $$ T4
        have hin_2 := c0_inb (F := F) d L fs fv hin (k0_off3 k 2#32) (k0_off3_inb k 2)
        sl_exec
        ihave T2 := (Entails.of_eq (pts_sIq (F := F) d L _ _)) $$ T2
        ihave Rs0 := (Entails.of_eq (pts_sIq (F := F) d L _ _).symm) $$ Rs0
        have hin_3 := c0_inb (F := F) d L fs fv hin (k0_off8 k) (k0_off8_inb k k0_h4)
        sl_exec
        ihave T3 := (Entails.of_eq (pts_sIq (F := F) d L _ _)) $$ T3
        ihave Rs1 := (Entails.of_eq (pts_sIq (F := F) d L _ _).symm) $$ Rs1
        have hin_4 := c0_inb (F := F) d L fs fv hin (k0_off9 k) (k0_off9_inb k k0_h5)
        sl_exec
        sl_step
        ihave T4 := (Entails.of_eq (pts_sIq (F := F) d L _ _)) $$ T4
        iclear G0_dst G1_dst
        have e8 : k0_off8 k = lo (5 * (k.val + 1)) := (off8_lo k hk9).trans (congrArg lo (by omega))
        have e9 : k0_off9 k = lo (5 * (k.val + 1) + 1) := (off9_lo k hk9).trans (congrArg lo (by omega))
        ihave Hcap := (flight_cap (F := F) _ _ _ _ _) $$ G0
        icases Hcap with ⟨%DG0, %hDG0, G0⟩
        obtain rfl : DG0 = iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 (slotAfter d L fs fv hin fx ![0, 0, 0] inb_S5x128x128_S1x128x128_0_0_0 fd0 (5 * k.val)) (5 * (k.val + 1)))
                ∗ ((sI).view.loc (V d (cV L) (jV L)) ↦[LSet (5 * (k.val + 1))]{tk fullShare 0} c0 d L fs fv))
              ∗ ((xV).view.loc (V d (cV L) (jV L)) ↦[(tblM).view.set]{tk qx 0} fx)) :=
          (hDG0.trans (rfl : _ = gDelO d L fs fv hin fx (tk qx 0) (tk fullShare 0) ![0, 0, 0] inb_S5x128x128_S1x128x128_0_0_0 (slotAfter d L fs fv hin fx ![0, 0, 0] inb_S5x128x128_S1x128x128_0_0_0 fd0 (5 * k.val)) (k0_off8 k) (k0_off8_inb k k0_h4))).trans
            ((gDelO_congr d L fs fv hin fx _ _ _ _ _ e8 _ (lo_inb _)).trans rfl)
        ihave Hcap := (flight_cap (F := F) _ _ _ _ _) $$ G1
        icases Hcap with ⟨%DG1, %hDG1, G1⟩
        obtain rfl : DG1 = iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 (slotAfter d L fs fv hin fx ![1, 0, 0] inb_S5x128x128_S1x128x128_1_0_0 fd1 (5 * k.val + 1)) (5 * (k.val + 1) + 1))
                ∗ ((sI).view.loc (V d (cV L) (jV L)) ↦[LSet (5 * (k.val + 1) + 1)]{tk fullShare 1} c0 d L fs fv))
              ∗ ((xV).view.loc (V d (cV L) (jV L)) ↦[(tblM).view.set]{tk qx 1} fx)) :=
          (hDG1.trans (rfl : _ = gDelO d L fs fv hin fx (tk qx 1) (tk fullShare 1) ![1, 0, 0] inb_S5x128x128_S1x128x128_1_0_0 (slotAfter d L fs fv hin fx ![1, 0, 0] inb_S5x128x128_S1x128x128_1_0_0 fd1 (5 * k.val + 1)) (k0_off9 k) (k0_off9_inb k k0_h5))).trans
            ((gDelO_congr d L fs fv hin fx _ _ _ _ _ e9 _ (lo_inb _)).trans rfl)
        ihave Rs0 := (Entails.of_eq (show ((sI).view.loc (V d (cV L) (jV L)) ↦[Finset.univ \ (listM (k0_off8 k) (k0_off8_inb k k0_h4)).view.set]{tk fullShare 0} c0 d L fs fv : sProp 𝕄) = ((sI).view.loc (V d (cV L) (jV L)) ↦[Finset.univ \ LSet (5 * (k.val + 1))]{tk fullShare 0} c0 d L fs fv : sProp 𝕄) from
          rest_congr (F := F) d L e8 _ (lo_inb _) _ _)) $$ Rs0
        ihave Rs1 := (Entails.of_eq (show ((sI).view.loc (V d (cV L) (jV L)) ↦[Finset.univ \ (listM (k0_off9 k) (k0_off9_inb k k0_h5)).view.set]{tk fullShare 1} c0 d L fs fv : sProp 𝕄) = ((sI).view.loc (V d (cV L) (jV L)) ↦[Finset.univ \ LSet (5 * (k.val + 1) + 1)]{tk fullShare 1} c0 d L fs fv : sProp 𝕄) from
          rest_congr (F := F) d L e9 _ (lo_inb _) _ _)) $$ Rs1
        have ec2 : k0_off4 L k 2#32 = co L (5 * (k.val + 1) - 3) := (off4_co L k 2).trans (congrArg (co L) (by show 5 * k.val + 2 = _; omega))
        have el2 : k0_off3 k 0#32 = lo (5 * (k.val + 1) - 3) := (off3_lo k 0).trans (congrArg lo (by show 5 * k.val + 0 + 2 = _; omega))
        ihave Hcap := (flight_cap (F := F) _ _ _ _ _) $$ W2
        icases Hcap with ⟨%DW2, %hDW2, W2⟩
        obtain rfl : DW2 = iprop(((CM L (5 * (k.val + 1) - 3)).view.loc (V d (cV L) (jV L)) ↦[(CM L (5 * (k.val + 1) - 3)).view.set]{fullShare} chunkAfter d L fs fv hin fx ![2, 0, 0] inb_S5x128x128_S1x128x128_2_0_0 (slotAfter d L fs fv hin fx ![2, 0, 0] inb_S5x128x128_S1x128x128_2_0_0 fd2 (5 * k.val - 3)) fo (5 * (k.val + 1) - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 (slotAfter d L fs fv hin fx ![2, 0, 0] inb_S5x128x128_S1x128x128_2_0_0 fd2 (5 * k.val - 3)) (5 * (k.val + 1) - 3))) :=
          (hDW2.trans (rfl : _ = wDelO d L fs fv hin fx ![2, 0, 0] inb_S5x128x128_S1x128x128_2_0_0 (slotAfter d L fs fv hin fx ![2, 0, 0] inb_S5x128x128_S1x128x128_2_0_0 fd2 (5 * k.val - 3)) fo (k0_off4 L k 2#32) (k0_off4_inb L k 2) (k0_off3 k 0#32) (k0_off3_inb k 0))).trans
            ((wDelO_congr d L fs fv hin fx _ _ _ fo ec2 _ (co_inb L _) el2 _ (lo_inb _)).trans rfl)
        have ec3 : k0_off4 L k 3#32 = co L (5 * (k.val + 1) - 2) := (off4_co L k 3).trans (congrArg (co L) (by show 5 * k.val + 3 = _; omega))
        have el3 : k0_off3 k 1#32 = lo (5 * (k.val + 1) - 2) := (off3_lo k 1).trans (congrArg lo (by show 5 * k.val + 1 + 2 = _; omega))
        ihave Hcap := (flight_cap (F := F) _ _ _ _ _) $$ W3
        icases Hcap with ⟨%DW3, %hDW3, W3⟩
        obtain rfl : DW3 = iprop(((CM L (5 * (k.val + 1) - 2)).view.loc (V d (cV L) (jV L)) ↦[(CM L (5 * (k.val + 1) - 2)).view.set]{fullShare} chunkAfter d L fs fv hin fx ![3, 0, 0] inb_S5x128x128_S1x128x128_3_0_0 (slotAfter d L fs fv hin fx ![3, 0, 0] inb_S5x128x128_S1x128x128_3_0_0 fd3 (5 * k.val - 2)) fo (5 * (k.val + 1) - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 (slotAfter d L fs fv hin fx ![3, 0, 0] inb_S5x128x128_S1x128x128_3_0_0 fd3 (5 * k.val - 2)) (5 * (k.val + 1) - 2))) :=
          (hDW3.trans (rfl : _ = wDelO d L fs fv hin fx ![3, 0, 0] inb_S5x128x128_S1x128x128_3_0_0 (slotAfter d L fs fv hin fx ![3, 0, 0] inb_S5x128x128_S1x128x128_3_0_0 fd3 (5 * k.val - 2)) fo (k0_off4 L k 3#32) (k0_off4_inb L k 3) (k0_off3 k 1#32) (k0_off3_inb k 1))).trans
            ((wDelO_congr d L fs fv hin fx _ _ _ fo ec3 _ (co_inb L _) el3 _ (lo_inb _)).trans rfl)
        have ec4 : k0_off4 L k 4#32 = co L (5 * (k.val + 1) - 1) := (off4_co L k 4).trans (congrArg (co L) (by show 5 * k.val + 4 = _; omega))
        have el4 : k0_off3 k 2#32 = lo (5 * (k.val + 1) - 1) := (off3_lo k 2).trans (congrArg lo (by show 5 * k.val + 2 + 2 = _; omega))
        ihave Hcap := (flight_cap (F := F) _ _ _ _ _) $$ W4
        icases Hcap with ⟨%DW4, %hDW4, W4⟩
        obtain rfl : DW4 = iprop(((CM L (5 * (k.val + 1) - 1)).view.loc (V d (cV L) (jV L)) ↦[(CM L (5 * (k.val + 1) - 1)).view.set]{fullShare} chunkAfter d L fs fv hin fx ![4, 0, 0] inb_S5x128x128_S1x128x128_4_0_0 (slotAfter d L fs fv hin fx ![4, 0, 0] inb_S5x128x128_S1x128x128_4_0_0 fd4 (5 * k.val - 1)) fo (5 * (k.val + 1) - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 (slotAfter d L fs fv hin fx ![4, 0, 0] inb_S5x128x128_S1x128x128_4_0_0 fd4 (5 * k.val - 1)) (5 * (k.val + 1) - 1))) :=
          (hDW4.trans (rfl : _ = wDelO d L fs fv hin fx ![4, 0, 0] inb_S5x128x128_S1x128x128_4_0_0 (slotAfter d L fs fv hin fx ![4, 0, 0] inb_S5x128x128_S1x128x128_4_0_0 fd4 (5 * k.val - 1)) fo (k0_off4 L k 4#32) (k0_off4_inb L k 4) (k0_off3 k 2#32) (k0_off3_inb k 2))).trans
            ((wDelO_congr d L fs fv hin fx _ _ _ fo ec4 _ (co_inb L _) el4 _ (lo_inb _)).trans rfl)
        ihave Hcap := (pts_cap (F := F) _) $$ C0
        icases Hcap with ⟨%gC0, %hgC0, C0⟩
        obtain rfl : gC0 = chunkAfterO d L fs fv hin fx ![0, 0, 0] inb_S5x128x128_S1x128x128_0_0_0 fd0 fo (k0_off4 L k 0#32) (k0_off4_inb L k 0) (lo (5 * k.val)) (lo_inb (5 * k.val)) := hgC0.trans rfl
        ihave C0 := (Entails.of_eq (show ((chunkM (k0_off4 L k 0#32) (k0_off4_inb L k 0)).view.loc (V d (cV L) (jV L)) ↦[(chunkM (k0_off4 L k 0#32) (k0_off4_inb L k 0)).view.set]{fullShare} chunkAfterO d L fs fv hin fx ![0, 0, 0] inb_S5x128x128_S1x128x128_0_0_0 fd0 fo (k0_off4 L k 0#32) (k0_off4_inb L k 0) (lo (5 * k.val)) (lo_inb (5 * k.val)) : sProp 𝕄) = ((CM L (5 * k.val + 0)).view.loc (V d (cV L) (jV L)) ↦[(CM L (5 * k.val + 0)).view.set]{fullShare} Gk fv fx : sProp 𝕄) from
          (done_congr d L fs fv hin fx _ _ _ fo (off4_co L k 0) _ (co_inb L _) (rfl : lo (5 * k.val) = lo (5 * k.val + 0)) _ (lo_inb _)).trans
            (chunk_pts d L fs fv hin fx ![0, 0, 0] inb_S5x128x128_S1x128x128_0_0_0 fd0 fo (5 * k.val + 0) (by omega)))) $$ C0
        ihave Hcap := (pts_cap (F := F) _) $$ C1
        icases Hcap with ⟨%gC1, %hgC1, C1⟩
        obtain rfl : gC1 = chunkAfterO d L fs fv hin fx ![1, 0, 0] inb_S5x128x128_S1x128x128_1_0_0 fd1 fo (k0_off4 L k 1#32) (k0_off4_inb L k 1) (lo (5 * k.val + 1)) (lo_inb (5 * k.val + 1)) := hgC1.trans rfl
        ihave C1 := (Entails.of_eq (show ((chunkM (k0_off4 L k 1#32) (k0_off4_inb L k 1)).view.loc (V d (cV L) (jV L)) ↦[(chunkM (k0_off4 L k 1#32) (k0_off4_inb L k 1)).view.set]{fullShare} chunkAfterO d L fs fv hin fx ![1, 0, 0] inb_S5x128x128_S1x128x128_1_0_0 fd1 fo (k0_off4 L k 1#32) (k0_off4_inb L k 1) (lo (5 * k.val + 1)) (lo_inb (5 * k.val + 1)) : sProp 𝕄) = ((CM L (5 * k.val + 1)).view.loc (V d (cV L) (jV L)) ↦[(CM L (5 * k.val + 1)).view.set]{fullShare} Gk fv fx : sProp 𝕄) from
          (done_congr d L fs fv hin fx _ _ _ fo (off4_co L k 1) _ (co_inb L _) (rfl : lo (5 * k.val + 1) = lo (5 * k.val + 1)) _ (lo_inb _)).trans
            (chunk_pts d L fs fv hin fx ![1, 0, 0] inb_S5x128x128_S1x128x128_1_0_0 fd1 fo (5 * k.val + 1) (by omega)))) $$ C1
        ihave W2_dst := (Entails.of_eq (chunk_pts d L fs fv hin fx ![2, 0, 0] inb_S5x128x128_S1x128x128_2_0_0 fd2 fo (5 * k.val - 3) (by omega))) $$ W2_dst
        ihave W3_dst := (Entails.of_eq (chunk_pts d L fs fv hin fx ![3, 0, 0] inb_S5x128x128_S1x128x128_3_0_0 fd3 fo (5 * k.val - 2) (by omega))) $$ W3_dst
        ihave W4_dst := (Entails.of_eq (chunk_pts d L fs fv hin fx ![4, 0, 0] inb_S5x128x128_S1x128x128_4_0_0 fd4 fo (5 * k.val - 1) (by omega))) $$ W4_dst
        rw [inv, GPart_lt d L fs fv hin fx qx fo (k.val + 1) (by omega), WPart_pos d L fs fv hin fx qx fo (k.val + 1) (by omega), done_push (fun j => ((CM L j).view.loc (V d (cV L) (jV L)) ↦[(CM L j).view.set]{fullShare} Gk fv fx : sProp 𝕄)) k.val hkpos]
        isplitl [Hmw]; · iexact Hmw
        isplitl [HO]
        · iexists _; isplitr
          swap; · iexact HO
          ipureintro
          repeat (first | exact hW' | refine waits_insert _ ?_)
        isplitl [G0 G1 Rx0 Rx1 Rs0 Rs1]
        · isplitl [G0]; · iexists _; iexact G0
          isplitl [G1]; · iexists _; iexact G1
          isplitl [Rx0]; · iexact Rx0
          isplitl [Rx1]; · iexact Rx1
          isplitl [Rs0]; · iexact Rs0
          iexact Rs1
        isplitl [W2 W3 W4]
        · isplitl [W2]; · iexists _; iexact W2
          isplitl [W3]; · iexists _; iexact W3
          iexists _; iexact W4
        isplitl [X2]; · iexact X2
        isplitl [X3]; · iexact X3
        isplitl [X4]; · iexact X4
        isplitl [T2]; · iexact T2
        isplitl [T3]; · iexact T3
        isplitl [T4]; · iexact T4
        isplitl [Hg2]; · iexact Hg2
        isplitl [Hg3]; · iexact Hg3
        isplitl [Hg4]; · iexact Hg4
        isplitl [Hw0]; · iexact Hw0
        isplitl [Hw1]; · iexact Hw1
        isplitl [Hdone W2_dst W3_dst W4_dst C0 C1]
        · isplitl [Hdone]; · iexact Hdone
          isplitl [W2_dst]; · iexact W2_dst
          isplitl [W3_dst]; · iexact W3_dst
          isplitl [W4_dst]; · iexact W4_dst
          isplitl [C0]; · iexact C0
          iexact C1
        iexact Htodo
      -- the last trip: lists 50 and 51 do not exist, so nothing more is gathered and row buffers 0 and 1 end free
      · have hkpos : 0 < k.val := Nat.pos_of_ne_zero hk0
        rw [WPart_pos d L fs fv hin fx qx fo k.val hk0]
        iintro ⟨Hmw, ⟨%W', %hW', HO⟩, ⟨⟨%fd0, G0⟩, ⟨%fd1, G1⟩, Rx0, Rx1, Rs0, Rs1⟩, ⟨⟨%fd2, W2⟩, ⟨%fd3, W3⟩, ⟨%fd4, W4⟩⟩, X2, X3, X4, T2, T3, T4, Hg2, Hg3, Hg4, Hw0, Hw1, Hdone, Htodo⟩
        have k0_h1 : k0_cond1 k = 1#1 := (cond1_iff k).mpr hkpos
        have k0_h2 : k0_cond2 k = 1#1 := (cond2_iff k).mpr hkpos
        have k0_h3 : k0_cond3 k = 1#1 := (cond3_iff k).mpr hkpos
        have k0_h4 : ¬ k0_cond4 k = 1#1 := fun h => hk9 ((cond4_iff k).mp h)
        have k0_h5 : ¬ k0_cond5 k = 1#1 := fun h => hk9 ((cond5_iff k).mp h)
        ihave Ht := (Entails.of_eq (todo_peel (fun j => ((CM L j).view.loc (V d (cV L) (jV L)) ↦[(CM L j).view.set]{fullShare} fo : sProp 𝕄)) k.val hk10)) $$ Htodo
        icases Ht with ⟨C0, C1, C2, C3, C4, Htodo⟩
        ihave C0 := (Entails.of_eq (show ((CM L (5 * k.val + 0)).view.loc (V d (cV L) (jV L)) ↦[(CM L (5 * k.val + 0)).view.set]{fullShare} fo : sProp 𝕄) = ((chunkM (k0_off4 L k 0#32) (k0_off4_inb L k 0)).view.loc (V d (cV L) (jV L)) ↦[(chunkM (k0_off4 L k 0#32) (k0_off4_inb L k 0)).view.set]{fullShare} fo : sProp 𝕄) from
          chunk_pts_congr (F := F) d L (off4_co L k 0).symm _ _ fo)) $$ C0
        ihave C1 := (Entails.of_eq (show ((CM L (5 * k.val + 1)).view.loc (V d (cV L) (jV L)) ↦[(CM L (5 * k.val + 1)).view.set]{fullShare} fo : sProp 𝕄) = ((chunkM (k0_off4 L k 1#32) (k0_off4_inb L k 1)).view.loc (V d (cV L) (jV L)) ↦[(chunkM (k0_off4 L k 1#32) (k0_off4_inb L k 1)).view.set]{fullShare} fo : sProp 𝕄) from
          chunk_pts_congr (F := F) d L (off4_co L k 1).symm _ _ fo)) $$ C1
        ihave C2 := (Entails.of_eq (show ((CM L (5 * k.val + 2)).view.loc (V d (cV L) (jV L)) ↦[(CM L (5 * k.val + 2)).view.set]{fullShare} fo : sProp 𝕄) = ((chunkM (k0_off4 L k 2#32) (k0_off4_inb L k 2)).view.loc (V d (cV L) (jV L)) ↦[(chunkM (k0_off4 L k 2#32) (k0_off4_inb L k 2)).view.set]{fullShare} fo : sProp 𝕄) from
          chunk_pts_congr (F := F) d L (off4_co L k 2).symm _ _ fo)) $$ C2
        ihave C3 := (Entails.of_eq (show ((CM L (5 * k.val + 3)).view.loc (V d (cV L) (jV L)) ↦[(CM L (5 * k.val + 3)).view.set]{fullShare} fo : sProp 𝕄) = ((chunkM (k0_off4 L k 3#32) (k0_off4_inb L k 3)).view.loc (V d (cV L) (jV L)) ↦[(chunkM (k0_off4 L k 3#32) (k0_off4_inb L k 3)).view.set]{fullShare} fo : sProp 𝕄) from
          chunk_pts_congr (F := F) d L (off4_co L k 3).symm _ _ fo)) $$ C3
        ihave C4 := (Entails.of_eq (show ((CM L (5 * k.val + 4)).view.loc (V d (cV L) (jV L)) ↦[(CM L (5 * k.val + 4)).view.set]{fullShare} fo : sProp 𝕄) = ((chunkM (k0_off4 L k 4#32) (k0_off4_inb L k 4)).view.loc (V d (cV L) (jV L)) ↦[(chunkM (k0_off4 L k 4#32) (k0_off4_inb L k 4)).view.set]{fullShare} fo : sProp 𝕄) from
          chunk_pts_congr (F := F) d L (off4_co L k 4).symm _ _ fo)) $$ C4
        ihave T2 := (Entails.of_eq (pts_sIq (F := F) d L _ _).symm) $$ T2
        have hin_0 := c0_inb (F := F) d L fs fv hin (k0_off3 k 0#32) (k0_off3_inb k 0)
        sl_exec
        ihave Rs0 := (Entails.of_eq (pts_sIq (F := F) d L _ _)) $$ Rs0
        ihave T3 := (Entails.of_eq (pts_sIq (F := F) d L _ _).symm) $$ T3
        have hin_1 := c0_inb (F := F) d L fs fv hin (k0_off3 k 1#32) (k0_off3_inb k 1)
        sl_exec
        ihave Rs1 := (Entails.of_eq (pts_sIq (F := F) d L _ _)) $$ Rs1
        ihave T4 := (Entails.of_eq (pts_sIq (F := F) d L _ _).symm) $$ T4
        have hin_2 := c0_inb (F := F) d L fs fv hin (k0_off3 k 2#32) (k0_off3_inb k 2)
        sl_exec
        sl_step
        ihave T2 := (Entails.of_eq (pts_sIq (F := F) d L _ _)) $$ T2
        ihave T3 := (Entails.of_eq (pts_sIq (F := F) d L _ _)) $$ T3
        ihave T4 := (Entails.of_eq (pts_sIq (F := F) d L _ _)) $$ T4
        have ec2 : k0_off4 L k 2#32 = co L (5 * (k.val + 1) - 3) := (off4_co L k 2).trans (congrArg (co L) (by show 5 * k.val + 2 = _; omega))
        have el2 : k0_off3 k 0#32 = lo (5 * (k.val + 1) - 3) := (off3_lo k 0).trans (congrArg lo (by show 5 * k.val + 0 + 2 = _; omega))
        ihave Hcap := (flight_cap (F := F) _ _ _ _ _) $$ W2
        icases Hcap with ⟨%DW2, %hDW2, W2⟩
        obtain rfl : DW2 = iprop(((CM L (5 * (k.val + 1) - 3)).view.loc (V d (cV L) (jV L)) ↦[(CM L (5 * (k.val + 1) - 3)).view.set]{fullShare} chunkAfter d L fs fv hin fx ![2, 0, 0] inb_S5x128x128_S1x128x128_2_0_0 (slotAfter d L fs fv hin fx ![2, 0, 0] inb_S5x128x128_S1x128x128_2_0_0 fd2 (5 * k.val - 3)) fo (5 * (k.val + 1) - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 (slotAfter d L fs fv hin fx ![2, 0, 0] inb_S5x128x128_S1x128x128_2_0_0 fd2 (5 * k.val - 3)) (5 * (k.val + 1) - 3))) :=
          (hDW2.trans (rfl : _ = wDelO d L fs fv hin fx ![2, 0, 0] inb_S5x128x128_S1x128x128_2_0_0 (slotAfter d L fs fv hin fx ![2, 0, 0] inb_S5x128x128_S1x128x128_2_0_0 fd2 (5 * k.val - 3)) fo (k0_off4 L k 2#32) (k0_off4_inb L k 2) (k0_off3 k 0#32) (k0_off3_inb k 0))).trans
            ((wDelO_congr d L fs fv hin fx _ _ _ fo ec2 _ (co_inb L _) el2 _ (lo_inb _)).trans rfl)
        have ec3 : k0_off4 L k 3#32 = co L (5 * (k.val + 1) - 2) := (off4_co L k 3).trans (congrArg (co L) (by show 5 * k.val + 3 = _; omega))
        have el3 : k0_off3 k 1#32 = lo (5 * (k.val + 1) - 2) := (off3_lo k 1).trans (congrArg lo (by show 5 * k.val + 1 + 2 = _; omega))
        ihave Hcap := (flight_cap (F := F) _ _ _ _ _) $$ W3
        icases Hcap with ⟨%DW3, %hDW3, W3⟩
        obtain rfl : DW3 = iprop(((CM L (5 * (k.val + 1) - 2)).view.loc (V d (cV L) (jV L)) ↦[(CM L (5 * (k.val + 1) - 2)).view.set]{fullShare} chunkAfter d L fs fv hin fx ![3, 0, 0] inb_S5x128x128_S1x128x128_3_0_0 (slotAfter d L fs fv hin fx ![3, 0, 0] inb_S5x128x128_S1x128x128_3_0_0 fd3 (5 * k.val - 2)) fo (5 * (k.val + 1) - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 (slotAfter d L fs fv hin fx ![3, 0, 0] inb_S5x128x128_S1x128x128_3_0_0 fd3 (5 * k.val - 2)) (5 * (k.val + 1) - 2))) :=
          (hDW3.trans (rfl : _ = wDelO d L fs fv hin fx ![3, 0, 0] inb_S5x128x128_S1x128x128_3_0_0 (slotAfter d L fs fv hin fx ![3, 0, 0] inb_S5x128x128_S1x128x128_3_0_0 fd3 (5 * k.val - 2)) fo (k0_off4 L k 3#32) (k0_off4_inb L k 3) (k0_off3 k 1#32) (k0_off3_inb k 1))).trans
            ((wDelO_congr d L fs fv hin fx _ _ _ fo ec3 _ (co_inb L _) el3 _ (lo_inb _)).trans rfl)
        have ec4 : k0_off4 L k 4#32 = co L (5 * (k.val + 1) - 1) := (off4_co L k 4).trans (congrArg (co L) (by show 5 * k.val + 4 = _; omega))
        have el4 : k0_off3 k 2#32 = lo (5 * (k.val + 1) - 1) := (off3_lo k 2).trans (congrArg lo (by show 5 * k.val + 2 + 2 = _; omega))
        ihave Hcap := (flight_cap (F := F) _ _ _ _ _) $$ W4
        icases Hcap with ⟨%DW4, %hDW4, W4⟩
        obtain rfl : DW4 = iprop(((CM L (5 * (k.val + 1) - 1)).view.loc (V d (cV L) (jV L)) ↦[(CM L (5 * (k.val + 1) - 1)).view.set]{fullShare} chunkAfter d L fs fv hin fx ![4, 0, 0] inb_S5x128x128_S1x128x128_4_0_0 (slotAfter d L fs fv hin fx ![4, 0, 0] inb_S5x128x128_S1x128x128_4_0_0 fd4 (5 * k.val - 1)) fo (5 * (k.val + 1) - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 (slotAfter d L fs fv hin fx ![4, 0, 0] inb_S5x128x128_S1x128x128_4_0_0 fd4 (5 * k.val - 1)) (5 * (k.val + 1) - 1))) :=
          (hDW4.trans (rfl : _ = wDelO d L fs fv hin fx ![4, 0, 0] inb_S5x128x128_S1x128x128_4_0_0 (slotAfter d L fs fv hin fx ![4, 0, 0] inb_S5x128x128_S1x128x128_4_0_0 fd4 (5 * k.val - 1)) fo (k0_off4 L k 4#32) (k0_off4_inb L k 4) (k0_off3 k 2#32) (k0_off3_inb k 2))).trans
            ((wDelO_congr d L fs fv hin fx _ _ _ fo ec4 _ (co_inb L _) el4 _ (lo_inb _)).trans rfl)
        ihave Hcap := (pts_cap (F := F) _) $$ C0
        icases Hcap with ⟨%gC0, %hgC0, C0⟩
        obtain rfl : gC0 = chunkAfterO d L fs fv hin fx ![0, 0, 0] inb_S5x128x128_S1x128x128_0_0_0 fd0 fo (k0_off4 L k 0#32) (k0_off4_inb L k 0) (lo (5 * k.val)) (lo_inb (5 * k.val)) := hgC0.trans rfl
        ihave C0 := (Entails.of_eq (show ((chunkM (k0_off4 L k 0#32) (k0_off4_inb L k 0)).view.loc (V d (cV L) (jV L)) ↦[(chunkM (k0_off4 L k 0#32) (k0_off4_inb L k 0)).view.set]{fullShare} chunkAfterO d L fs fv hin fx ![0, 0, 0] inb_S5x128x128_S1x128x128_0_0_0 fd0 fo (k0_off4 L k 0#32) (k0_off4_inb L k 0) (lo (5 * k.val)) (lo_inb (5 * k.val)) : sProp 𝕄) = ((CM L (5 * k.val + 0)).view.loc (V d (cV L) (jV L)) ↦[(CM L (5 * k.val + 0)).view.set]{fullShare} Gk fv fx : sProp 𝕄) from
          (done_congr d L fs fv hin fx _ _ _ fo (off4_co L k 0) _ (co_inb L _) (rfl : lo (5 * k.val) = lo (5 * k.val + 0)) _ (lo_inb _)).trans
            (chunk_pts d L fs fv hin fx ![0, 0, 0] inb_S5x128x128_S1x128x128_0_0_0 fd0 fo (5 * k.val + 0) (by omega)))) $$ C0
        ihave Hcap := (pts_cap (F := F) _) $$ C1
        icases Hcap with ⟨%gC1, %hgC1, C1⟩
        obtain rfl : gC1 = chunkAfterO d L fs fv hin fx ![1, 0, 0] inb_S5x128x128_S1x128x128_1_0_0 fd1 fo (k0_off4 L k 1#32) (k0_off4_inb L k 1) (lo (5 * k.val + 1)) (lo_inb (5 * k.val + 1)) := hgC1.trans rfl
        ihave C1 := (Entails.of_eq (show ((chunkM (k0_off4 L k 1#32) (k0_off4_inb L k 1)).view.loc (V d (cV L) (jV L)) ↦[(chunkM (k0_off4 L k 1#32) (k0_off4_inb L k 1)).view.set]{fullShare} chunkAfterO d L fs fv hin fx ![1, 0, 0] inb_S5x128x128_S1x128x128_1_0_0 fd1 fo (k0_off4 L k 1#32) (k0_off4_inb L k 1) (lo (5 * k.val + 1)) (lo_inb (5 * k.val + 1)) : sProp 𝕄) = ((CM L (5 * k.val + 1)).view.loc (V d (cV L) (jV L)) ↦[(CM L (5 * k.val + 1)).view.set]{fullShare} Gk fv fx : sProp 𝕄) from
          (done_congr d L fs fv hin fx _ _ _ fo (off4_co L k 1) _ (co_inb L _) (rfl : lo (5 * k.val + 1) = lo (5 * k.val + 1)) _ (lo_inb _)).trans
            (chunk_pts d L fs fv hin fx ![1, 0, 0] inb_S5x128x128_S1x128x128_1_0_0 fd1 fo (5 * k.val + 1) (by omega)))) $$ C1
        ihave W2_dst := (Entails.of_eq (chunk_pts d L fs fv hin fx ![2, 0, 0] inb_S5x128x128_S1x128x128_2_0_0 fd2 fo (5 * k.val - 3) (by omega))) $$ W2_dst
        ihave W3_dst := (Entails.of_eq (chunk_pts d L fs fv hin fx ![3, 0, 0] inb_S5x128x128_S1x128x128_3_0_0 fd3 fo (5 * k.val - 2) (by omega))) $$ W3_dst
        ihave W4_dst := (Entails.of_eq (chunk_pts d L fs fv hin fx ![4, 0, 0] inb_S5x128x128_S1x128x128_4_0_0 fd4 fo (5 * k.val - 1) (by omega))) $$ W4_dst
        rw [inv, GPart_ge d L fs fv hin fx qx fo (k.val + 1) (by omega), WPart_pos d L fs fv hin fx qx fo (k.val + 1) (by omega), done_push (fun j => ((CM L j).view.loc (V d (cV L) (jV L)) ↦[(CM L j).view.set]{fullShare} Gk fv fx : sProp 𝕄)) k.val hkpos]
        isplitl [Hmw]; · iexact Hmw
        isplitl [HO]
        · iexists _; isplitr
          swap; · iexact HO
          ipureintro
          repeat (first | exact hW' | refine waits_insert _ ?_)
        isplitl [G0 G1 G0_dst G1_dst Rx0 Rx1 Rs0 Rs1]
        · isplitl [G0]; · iexact G0
          isplitl [G1]; · iexact G1
          isplitl [G0_dst]; · iexists _; iexact G0_dst
          isplitl [G1_dst]; · iexists _; iexact G1_dst
          isplitl [Rx0]; · iexact Rx0
          isplitl [Rx1]; · iexact Rx1
          isplitl [Rs0]; · iexact Rs0
          iexact Rs1
        isplitl [W2 W3 W4]
        · isplitl [W2]; · iexists _; iexact W2
          isplitl [W3]; · iexists _; iexact W3
          iexists _; iexact W4
        isplitl [X2]; · iexact X2
        isplitl [X3]; · iexact X3
        isplitl [X4]; · iexact X4
        isplitl [T2]; · iexact T2
        isplitl [T3]; · iexact T3
        isplitl [T4]; · iexact T4
        isplitl [Hg2]; · iexact Hg2
        isplitl [Hg3]; · iexact Hg3
        isplitl [Hg4]; · iexact Hg4
        isplitl [Hw0]; · iexact Hw0
        isplitl [Hw1]; · iexact Hw1
        isplitl [Hdone W2_dst W3_dst W4_dst C0 C1]
        · isplitl [Hdone]; · iexact Hdone
          isplitl [W2_dst]; · iexact W2_dst
          isplitl [W3_dst]; · iexact W3_dst
          isplitl [W4_dst]; · iexact W4_dst
          isplitl [C0]; · iexact C0
          iexact C1
        iexact Htodo
  · rw [inv, GPart_lt d L fs fv hin fx qx fo 0 (by decide), WPart_zero d L fs fv hin fx qx fo]
    isplitl [Hmw]; · iexact Hmw
    isplitl [HO]
    · iexists _; isplitr
      swap; · iexact HO
      ipureintro; intro p hp
      rcases Finset.mem_insert.mp hp with hp | hp
      · exact .inr (hp ▸ rfl)
      · exact .inl hp
    isplitl [Hg0 Hg1 Hx0 Hx1 T0 T1]
    · isplitl [Hg0]; · iexists _; iexact Hg0
      isplitl [Hg1]; · iexists _; iexact Hg1
      isplitl [Hx0]; · iexact Hx0
      isplitl [Hx1]; · iexact Hx1
      isplitl [T0]; · iexact T0
      iexact T1
    isplitl [Hw2 Hw3 Hw4 D2 D3 D4]
    · isplitl [Hw2]; · iexact Hw2
      isplitl [Hw3]; · iexact Hw3
      isplitl [Hw4]; · iexact Hw4
      isplitl [D2]; · iexists _; iexact D2
      isplitl [D3]; · iexists _; iexact D3
      iexists _; iexact D4
    isplitl [Hx2]; · iexact Hx2
    isplitl [Hx3]; · iexact Hx3
    isplitl [Hx4]; · iexact Hx4
    isplitl [T2]; · iexact T2
    isplitl [T3]; · iexact T3
    isplitl [T4]; · iexact T4
    isplitl [Hg2]; · iexact Hg2
    isplitl [Hg3]; · iexact Hg3
    isplitl [Hg4]; · iexact Hg4
    isplitl [Hw0]; · iexact Hw0
    isplitl [Hw1]; · iexact Hw1
    isplitr
    · rw [show Finset.range (5 * 0 - 3) = (∅ : Finset ℕ) from rfl, bigSep_empty]; iempintro
    · rw [show Finset.Ico (5 * 0) 50 = Finset.range 50 from (Finset.range_eq_Ico 50).symm]; iexact Hoc
  -- after the tenth trip the copies out of blocks 47, 48, 49 land; every block then holds the lookup's value
  rw [show Scf.trips k0_t1_loop.lb k0_t1_loop.ub k0_t1_loop.st = 10 from trips_eq, inv_fun,
    GPart_ge d L fs fv hin fx qx fo 10 (by decide), WPart_pos d L fs fv hin fx qx fo 10 (by decide)]
  iintro %_ ⟨Hmw', ⟨%W', %hW', HO⟩, ⟨Hg0, Hg1, ⟨%f0, E0⟩, ⟨%f1, E1⟩, X0, X1, T0, T1⟩, ⟨⟨%fd2, W2⟩, ⟨%fd3, W3⟩, ⟨%fd4, W4⟩⟩, X2, X3, X4, T2, T3, T4, Hg2, Hg3, Hg4, Hw0, Hw1, Hdone, Htodo⟩
  sl_exec
  sl_step
  iclear D0 D1 Hmw' Htodo
  -- the array of lists, and the table from its five tokens and the remainder
  ihave Hv := (Entails.of_eq (pts_vV (F := F) d L _ _)) $$ Hv'
  ihave X0 := (Entails.of_eq (pts_xV (F := F) d L _ _)) $$ X0
  ihave X1 := (Entails.of_eq (pts_xV (F := F) d L _ _)) $$ X1
  ihave X2 := (Entails.of_eq (pts_xV (F := F) d L _ _)) $$ X2
  ihave X3 := (Entails.of_eq (pts_xV (F := F) d L _ _)) $$ X3
  ihave X4 := (Entails.of_eq (pts_xV (F := F) d L _ _)) $$ X4
  ihave Hx := (toks5 (F := F) Finset.univ qx fx).2 $$ [Hxd X0 X1 X2 X3 X4]
  · isplitl [Hxd]; · iexact Hxd
    isplitl [X0]; · iexact X0
    isplitl [X1]; · iexact X1
    isplitl [X2]; · iexact X2
    isplitl [X3]; · iexact X3
    iexact X4
  -- the last three blocks at the lookup's value, then the task's rows from all fifty
  ihave W2_dst := (Entails.of_eq (chunk_pts d L fs fv hin fx ![2, 0, 0] inb_S5x128x128_S1x128x128_2_0_0 fd2 fo (5 * 10 - 3) (by decide))) $$ W2_dst
  ihave W3_dst := (Entails.of_eq (chunk_pts d L fs fv hin fx ![3, 0, 0] inb_S5x128x128_S1x128x128_3_0_0 fd3 fo (5 * 10 - 2) (by decide))) $$ W3_dst
  ihave W4_dst := (Entails.of_eq (chunk_pts d L fs fv hin fx ![4, 0, 0] inb_S5x128x128_S1x128x128_4_0_0 fd4 fo (5 * 10 - 1) (by decide))) $$ W4_dst
  ihave Ho := (Entails.of_eq ((oTile_chunks (F := F) d L (Gk fv fx)).trans (done_last (fun j => ((CM L j).view.loc (V d (cV L) (jV L)) ↦[(CM L j).view.set]{fullShare} Gk fv fx : sProp 𝕄)))).symm) $$ [Hdone W2_dst W3_dst W4_dst]
  · isplitl [Hdone]; · iexact Hdone
    isplitl [W2_dst]; · iexact W2_dst
    isplitl [W3_dst]; · iexact W3_dst
    iexact W4_dst
  -- the lists' scratch from its tokens, the row-buffer scratch from its five buffers
  ihave Hs := (toks5 (F := F) Finset.univ fullShare (c0 d L fs fv)).2 $$ [Hsd T0 T1 T2 T3 T4]
  · isplitl [Hsd]; · iexact Hsd
    isplitl [T0]; · iexact T0
    isplitl [T1]; · iexact T1
    isplitl [T2]; · iexact T2
    isplitl [T3]; · iexact T3
    iexact T4
  ihave Hr := (slots5_join (F := F) d L) $$ [E0 E1 W2_src W3_src W4_src]
  · isplitl [E0]; · iexists _; iexact E0
    isplitl [E1]; · iexists _; iexact E1
    isplitl [W2_src]; · iexists _; iexact W2_src
    isplitl [W3_src]; · iexists _; iexact W3_src
    iexists _; iexact W4_src
  isplitl [Hv Hx Ho]
  · isplitl [Hv]; · iexact Hv
    isplitl [Hx]; · iexact Hx
    iexact Ho
  isplitl [Hs Hr Hbufs]
  · isplitl [Hs]; · iexists _; iexact Hs
    isplitl [Hr]; · iexact Hr
    iexact Hbufs
  isplitl [Hg0 Hg1 Hg2 Hg3 Hg4 Hw0 Hw1 W2 W3 W4 Hsc Hsems]
  · isplitl [Hg0 Hg1 Hg2 Hg3 Hg4 Hw0 Hw1 W2 W3 W4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [W2]; · iexact W2
      isplitl [W3]; · iexact W3
      isplitl [W4]; · iexact W4
      iexact Hsc
    · iexact Hsems
  iexists _; isplitr
  swap; · iexact HO
  ipureintro
  repeat (first | exact hW' | refine waits_insert _ ?_)

end Cert.Proof.KI

end
-- ==== Proof.LaunchValI.lean ====
/-
  The array of lists the kernel reads, as a pure function of the row numbers, and the lookup read off it.
  Before the kernel starts, the row numbers `ids` (4096 histories of 50) are transposed to (50, 4096) and regrouped to
  (50, 32, 128): list word (j, w, r) is row number (128·w + r, j) — position j of history 128·w + r. The lookup read
  off the lists (`Gk`) is therefore the lookup read off the row numbers (`Spec.G`).
-/
import proofs.«206531_g4466765988671_cont_8to1c4_310_22_alg».proof.Proof.IfaceI
import Idealize.ShloMosaic.Lib.Pipeline.Value

noncomputable section

namespace Cert.Proof.KI

open Cert.KernelIdeal Cert.KernelIdeal.Gen

open Idealize.ShloMosaic
open Idealize.ShloMosaic.ValueIdx

variable {F : FTy → Type}

/-- The lists: the row numbers transposed, then regrouped in row-major order. -/
def lstVal (ids : IVec S4096x50 32) : IVec S50x32x128 32 :=
  shapeCast S50x32x128 (transpose S50x4096 [1, 0] ids transposes_S4096x50_S50x4096_1_0) shapeCasts_S50x4096_S50x32x128

/-- List word (j, w, r) is the row number at position j of history 128·w + r. -/
theorem lstVal_apply (ids : IVec S4096x50 32) (j : Fin 50) (w : Fin 32) (r : Fin 128) :
    lstVal ids (ix3 j w r) = ids (ix2 (⟨128 * w.val + r.val, by omega⟩ : Fin 4096) j) := by
  unfold lstVal
  rw [shapeCast_apply _ shapeCasts_S50x4096_S50x32x128 (ix3 j w r) (ix2 j (⟨128 * w.val + r.val, by omega⟩ : Fin 4096)) (by
    rw [Shape.rowMajor_val_three, Shape.rowMajor_val_two]
    show j.val * 4096 + (128 * w.val + r.val) = (j.val * 32 + w.val) * 128 + r.val
    omega)]
  exact transpose_apply _ ids transposes_S4096x50_S50x4096_1_0 _ _ fun c => match c with | ⟨0, _⟩ => rfl | ⟨1, _⟩ => rfl

/-- Every list word is a row number. -/
theorem lstVal_mem (ids : IVec S4096x50 32) (i : S50x32x128.Idx) : ∃ k, lstVal ids i = ids k :=
  ⟨_, rfl⟩

/-- If every row number names a table row, so does every list word. -/
theorem lstVal_lt (ids : IVec S4096x50 32) (hin : Cert.Proof.Spec.InRange ids) (i : S50x32x128.Idx) :
    (lstVal ids i).toNat < 100000 := by
  obtain ⟨k, hk⟩ := lstVal_mem ids i
  rw [hk]; exact hin k

/-- The lookup off the lists at a result index given by coordinates. -/
theorem Gk_apply (lst : IVec S50x32x128 32) (tbl : FVec F S100000x128 .f32) (b : Fin 4096) (c : Fin 6400) :
    Gk lst tbl (ix2 b c)
      = tbl (ix2 (Spec.rowOf (lst (ix3 (Spec.posOf c) (⟨b.val / 128, by omega⟩ : Fin 32)
          (⟨b.val % 128, Nat.mod_lt _ (by decide)⟩ : Fin 128)))) (Spec.laneOf c)) := rfl

/-- The lookup read off the lists is the lookup read off the row numbers. -/
theorem Gk_lstVal (ids : IVec S4096x50 32) (tbl : FVec F S100000x128 .f32) :
    Gk (lstVal ids) tbl = Cert.Proof.Spec.G ids tbl := by
  funext x
  obtain ⟨b, c, rfl⟩ : ∃ (b : Fin 4096) (c : Fin 6400), x = ix2 b c := ⟨x 0, x 1, eq_ix2 x⟩
  rw [Gk_apply, Spec.G_apply, lstVal_apply]
  refine congrArg (fun r => tbl (ix2 (Spec.rowOf (ids (ix2 r (Spec.posOf c)))) (Spec.laneOf c))) (Fin.ext ?_)
  show 128 * (b.val / 128) + b.val % 128 = b.val
  exact Nat.div_add_mod b.val 128

end Cert.Proof.KI

end
-- ==== Proof.LaunchI.lean ====
/-
  The lookup kernel's run on the whole device, from one task's run.
  The TensorCore transposes the row numbers and regroups them into the array of lists, then starts both cores and
  waits for them. Every one of the 32 tasks reads the lists and the table whole, so each holds a read share of both:
  the whole share is split into a part kept back and one part per core, and a core's part again into a part kept back
  and one part per task; the parts join again in the reverse order when the tasks and the cores are done. The result's
  rows are split among the tasks by number — task 2·s + c (subcore s of core c) owns rows 128·(2·s + c) to
  128·(2·s + c) + 127 — so the row blocks are pairwise disjoint and cover the array; each task leaves its block at
  the ONE whole-array function "the lookup off the lists", so the blocks join at that function with no choice to make.
  Read off the row numbers instead of the lists, that function is the lookup the specification names.
-/
import proofs.«206531_g4466765988671_cont_8to1c4_310_22_alg».proof.Proof.IfaceI
import proofs.«206531_g4466765988671_cont_8to1c4_310_22_alg».proof.Proof.TileI
import proofs.«206531_g4466765988671_cont_8to1c4_310_22_alg».proof.Proof.LaunchValI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo

variable {F : FTy → Type}

local notation "𝕄" => MT nD τ sig (HIx 1) (Elt F) ℕ UU ℕ

local notation "vV" => (Memref.whole Cert.KernelIdeal.main_v1_scv : Memref Cert.KernelIdeal.sig Kind.scVector Space.hbm Cert.KernelIdeal.S50x32x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S5x128x128 EltTy.f32)

/-! ## The tasks' places, their shares of the two arrays that are only read, their rows of the result -/

/-- The place of the task on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

abbrev LL (c : Fin 2) (s : Fin 16) : grid0.Coords := coordsV (Fin.cast bound_zero.symm c) (Fin.cast bound_one.symm s)

theorem wid_LL (c : Fin 2) (s : Fin 16) : wid (LL c s) = 2 * s.val + c.val := rfl

/-- Core `c`'s read share of an array read whole by every task: one of two parts split off the whole, -/
abbrev qc (c : Fin 2) : PosShare TreeShare := Transfers.shareTok fullShare 2 c
/-- and the share of its task `s`: one of sixteen parts split off the core's. -/
abbrev qt (c : Fin 2) (s : Fin 16) : PosShare TreeShare := Transfers.shareTok (qc c) 16 s

/-- Two tasks of different numbers own disjoint row blocks of the result. -/
theorem tiles_disjoint {L L' : grid0.Coords} (h : wid L ≠ wid L') : Disjoint (oTileSet L) (oTileSet L') :=
  Rect.unit_disjoint 0 (by
    show 128 * wid L + 128 ≤ 128 * wid L' ∨ 128 * wid L' + 128 ≤ 128 * wid L
    omega)

/-- Core `c`'s rows of the result: its sixteen tasks' row blocks. -/
def coreSet (c : Fin 2) : Finset S4096x6400.Idx := Finset.univ.biUnion fun s : Fin 16 => oTileSet (LL c s)

theorem tiles_disjoint_core (c : Fin 2) :
    ∀ s ∈ (Finset.univ : Finset (Fin 16)), ∀ s' ∈ (Finset.univ : Finset (Fin 16)), s ≠ s' →
      Disjoint (oTileSet (LL c s)) (oTileSet (LL c s')) := fun s _ s' _ h =>
  tiles_disjoint (by
    rw [wid_LL, wid_LL]
    have : s.val ≠ s'.val := fun e => h (Fin.ext e)
    omega)

theorem cores_disjoint :
    ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]
  intro s _
  rw [Finset.disjoint_biUnion_right]
  intro s' _
  refine tiles_disjoint ?_
  rw [wid_LL, wid_LL]
  have : c.val ≠ c'.val := fun e => h (Fin.ext e)
  have := c.isLt; have := c'.isLt
  omega

/-- Every row of the result is some task's: row x belongs to task number x / 128 = 2·s + c. -/
theorem cores_cover : (Finset.univ : Finset (Fin 2)).biUnion coreSet = Finset.univ := by
  refine Finset.eq_univ_of_forall fun x => ?_
  have h0 : (x 0).val < 4096 := idx2_lt0 x
  have h1 : (x 1).val < 6400 := idx2_lt1 x
  refine Finset.mem_biUnion.mpr ⟨⟨(x 0).val / 128 % 2, Nat.mod_lt _ (by decide)⟩, Finset.mem_univ _, ?_⟩
  unfold coreSet
  refine Finset.mem_biUnion.mpr ⟨⟨(x 0).val / 128 / 2, by omega⟩, Finset.mem_univ _, ?_⟩
  refine Rect.mem_set_unit.mpr fun a => ?_
  match a with
  | ⟨0, _⟩ =>
    show 128 * (2 * ((x 0).val / 128 / 2) + (x 0).val / 128 % 2) ≤ (x 0).val
      ∧ (x 0).val < 128 * (2 * ((x 0).val / 128 / 2) + (x 0).val / 128 % 2) + 128
    omega
  | ⟨1, _⟩ =>
    show 0 ≤ (x 1).val ∧ (x 1).val < 0 + 6400
    omega

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The result whole is the two cores' rows, -/
theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl
/-- and a core's rows are its sixteen tasks' row blocks. -/
theorem oPts_tiles (d : Dev nD) (c : Fin 2) (f : Buf (Elt F) (oLoc d)) :
    (oLoc d ↦[coreSet c]{fullShare} f : sProp 𝕄) = bigSep Finset.univ fun s : Fin 16 => oLoc d ↦[oTileSet (LL c s)]{fullShare} f :=
  pointsTo_biUnion Finset.univ (ℓ := oLoc d) (fun s : Fin 16 => oTileSet (LL c s)) (tiles_disjoint_core c)

/-! ## What the handshakes carry -/

variable (m : (ℓ : Loc nD τ sig) → Buf (Elt F) ℓ) (ρ : Dev nD → PrngReg)

/-- The lists as the kernel finds them: the host's two operations applied to the launch's row numbers. -/
abbrev lstOf (d : Dev nD) : Buf (Elt F) (vLoc d) := lstVal (m (iLoc d))
/-- The result the kernel leaves: the lookup off those lists and the launch's table. -/
abbrev outOf (d : Dev nD) : Buf (Elt F) (oLoc d) := Gk (lstOf m d) (m (xLoc d))

/-- What core `c` is handed: its share of the lists and of the table, its rows of the result (at contents `fo`). -/
def coreRes (d : Dev nD) (c : Fin 2) (fo : Buf (Elt F) (oLoc d)) : sProp 𝕄 :=
  iprop((vLoc d ↦{qc c} lstOf m d) ∗ (xLoc d ↦{qc c} m (xLoc d)) ∗ (oLoc d ↦[coreSet c]{fullShare} fo))
/-- What its task `s` is handed: its share of each, its row block of the result. -/
def tileRes (d : Dev nD) (c : Fin 2) (s : Fin 16) (fo : Buf (Elt F) (oLoc d)) : sProp 𝕄 :=
  iprop((vLoc d ↦{qt c s} lstOf m d) ∗ (xLoc d ↦{qt c s} m (xLoc d)) ∗ (oLoc d ↦[oTileSet (LL c s)]{fullShare} fo))

/-- The one call hands each core its shares and rows, each task its shares and row block, and takes them back with
    the result's rows at the lookup's value. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (outOf m d)
  go := fun q d c i => match q with | 0 => tileRes m d (Fin.cast nCore_zero c) (Fin.cast nSub_zero i) (m (oLoc d))
  td := fun q d c i => match q with | 0 => tileRes m d (Fin.cast nCore_zero c) (Fin.cast nSub_zero i) (outOf m d)
  x := fun _ _ => iprop(emp)

instance coreRes_storable (d : Dev nD) (c : Fin 2) (fo : Buf (Elt F) (oLoc d)) : BI.Storable (upEmb : UEmb _ 𝕄) (coreRes m d c fo) := by
  unfold coreRes; infer_instance
instance tileRes_storable (d : Dev nD) (c : Fin 2) (s : Fin 16) (fo : Buf (Elt F) (oLoc d)) :
    BI.Storable (upEmb : UEmb _ 𝕄) (tileRes m d c s fo) := by
  unfold tileRes; infer_instance

instance P_storable : (P (F := F) m).IsStorable where
  st q d c := match q with | 0 => (inferInstance : BI.Storable (upEmb : UEmb _ 𝕄) (coreRes m d (Fin.cast nCore_zero c) (m (oLoc d))))
  dn q d c := match q with | 0 => (inferInstance : BI.Storable (upEmb : UEmb _ 𝕄) (coreRes m d (Fin.cast nCore_zero c) (outOf m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (outOf m d)))

variable [FloatOps F]

/-! ## The task's obligation -/

theorem defs₀_vector (c : Fin τ.nSC) (s : Fin τ.nSub) :
    defs₀ (F := F) (.scVector c s) 0 ()
      = SparseCore.onTile hcore0 hsub0 (fun c s => cc0_run (coordsV c s)
          vV (Memref.isWhole_whole _) xV (Memref.isWhole_whole _) oV (Memref.isWhole_whole _)
          sI (Memref.isWhole_whole _) sR (Memref.isWhole_whole _)
          cc0_scratch2 cc0_scratch3 cc0_scratch4 cc0_scratch5 cc0_scratch6 cc0_scratch7 cc0_scratch8 cc0_scratch9 cc0_scratch10 cc0_scratch11 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d : Dev nD, Cert.Proof.Spec.InRange (m (iLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (qt (Fin.cast nCore_zero c) (Fin.cast nSub_zero i)) (qt (Fin.cast nCore_zero c) (Fin.cast nSub_zero i))
    (lstOf m d) (m (xLoc d)) (m (oLoc d)) (lstVal_lt _ (hin d)) O W hO).trans (wp_mono frame _ _ fun _ => obl_post)

/-! ## A core's shares and rows split among its tasks, and join again -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (outOf m d))
          -∗ coreRes m d (Fin.cast nCore_zero c) (outOf m d)))
  generalize Fin.cast nCore_zero c = c'
  rw [bigSep_tasks (F := F) (fun i => tileRes m d c' i (m (oLoc d))), bigSep_tasks (F := F) (fun i => tileRes m d c' i (outOf m d))]
  unfold coreRes tileRes
  rw [bigSep_sep', bigSep_sep', bigSep_sep', bigSep_sep', oPts_tiles, oPts_tiles]
  iintro ⟨Hv, Hx, Ho⟩
  ihave Hv' := (Transfers.pointsTo_toks_split (qc c') 16) $$ Hv
  icases Hv' with ⟨Hvr, Hvs⟩
  ihave Hx' := (Transfers.pointsTo_toks_split (qc c') 16) $$ Hx
  icases Hx' with ⟨Hxr, Hxs⟩
  imodintro
  isplitl [Hvs Hxs Ho]
  · isplitl [Hvs]; · iexact Hvs
    isplitl [Hxs]; · iexact Hxs
    iexact Ho
  iintro ⟨Hvs, Hxs, Ho⟩
  isplitl [Hvr Hvs]
  · iapply (Transfers.pointsTo_toks_join (qc c') 16)
    isplitl [Hvr]; · iexact Hvr
    iexact Hvs
  isplitl [Hxr Hxs]
  · iapply (Transfers.pointsTo_toks_join (qc c') 16)
    isplitl [Hxr]; · iexact Hxr
    iexact Hxs
  iexact Ho

/-! ## The launch element: the handshakes' rounds; the transfers' counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev i' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev v' : DevRef τ sig := Proc.devRef .tc (main_v1 : Ref sig .tc)
abbrev o' : DevRef τ sig := Proc.devRef .tc (main_v2 : Ref sig .tc)

/-- The host's two operations: the row numbers transposed, the transpose regrouped into lists. -/
abbrev opT : HloOp τ sig (Elt F) :=
  StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opR : HloOp τ sig (Elt F) := StableHlo.reshape main_v0 main_v1 rfl shapeCasts_S50x4096_S50x32x128

/-- The TensorCore's arrays, all unscoped. -/
abbrev S5 : Finset (DevRef τ sig) := {i', x', t', v', o'}

omit [FloatOps F] in
theorem held_S5 (d : Dev nD) (W : Valuation τ sig (Elt F)) :
    (held (T d) S5 W : sProp 𝕄) = iprop((iLoc d ↦{fullShare} W i') ∗ (xLoc d ↦{fullShare} W x') ∗ (tLoc d ↦{fullShare} W t')
      ∗ (vLoc d ↦{fullShare} W v') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ (tLoc d ↦{fullShare} W main_v0)
      ∗ (vLoc d ↦{fullShare} W main_v1) ∗ (oLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
theorem unscoped_held (d : Dev nD) :
    (unscopedBufs d (fun b => m ((SparseCore.T d).loc b)) : sProp 𝕄) = held (T d) S5 (launchContents m d) := by
  rw [unscopedBufs_eq, held_S5]

theorem hT : (opT (F := F)).bufs ⊆ S5 := show ({i', t'} : Finset (DevRef τ sig)) ⊆ S5 by decide
theorem hR : (opR (F := F)).bufs ⊆ S5 := show ({t', v'} : Finset (DevRef τ sig)) ⊆ S5 by decide

/-- The arrays' contents after the two operations. -/
abbrev W2 (d : Dev nD) : Valuation τ sig (Elt F) := (opR (F := F)).result ((opT (F := F)).result (launchContents m d))

theorem W2_i (d : Dev nD) : W2 m d i' = m (iLoc d) := by
  show after [opT, opR] (launchContents m d) (Proc.devRef .tc main_arg0) = _
  after_results <;> rfl
theorem W2_x (d : Dev nD) : W2 m d x' = m (xLoc d) := by
  show after [opT, opR] (launchContents m d) (Proc.devRef .tc main_arg1) = _
  after_results <;> rfl
theorem W2_o (d : Dev nD) : W2 m d o' = m (oLoc d) := by
  show after [opT, opR] (launchContents m d) (Proc.devRef .tc main_v2) = _
  after_results <;> rfl
theorem W2_v (d : Dev nD) : W2 m d v' = lstOf m d := by
  show after [opT, opR] (launchContents m d) (Proc.devRef .tc main_v1) = _
  after_results <;> rfl

theorem held_W2 (d : Dev nD) :
    (held (T d) S5 (W2 m d) : sProp 𝕄) = iprop((iLoc d ↦{fullShare} m (iLoc d)) ∗ (xLoc d ↦{fullShare} m (xLoc d)) ∗ (tLoc d ↦{fullShare} W2 m d t')
      ∗ (vLoc d ↦{fullShare} lstOf m d) ∗ (oLoc d ↦{fullShare} m (oLoc d))) := by
  rw [held_S5, W2_i, W2_x, W2_v, W2_o]

omit [FloatOps F] in
/-- A whole array read by both cores: a part kept back, and each core's share. -/
theorem toks2 {ℓ : Loc nD τ sig} (f : Buf (Elt F) ℓ) :
    (ℓ ↦{fullShare} f : sProp 𝕄) ⊣⊢ iprop((ℓ ↦{Transfers.shareDrop fullShare 2} f) ∗ (ℓ ↦{qc 0} f) ∗ (ℓ ↦{qc 1} f)) := by
  have h := Transfers.pointsTo_toks (nD := nD) (τ := τ) (sig := sig) (Ix := HIx 1) (Val := Elt F) (Name := ℕ) (U := UU) (Lvl := ℕ)
    (ℓ := ℓ) (S := Finset.univ) (f := f) fullShare 2
  rw [bigSep_fin2] at h
  exact h

omit [FloatOps F] in
/-- What the call hands the two cores, and takes back. -/
theorem cores_eq (d : Dev nD) (fo : Buf (Elt F) (oLoc d)) :
    (bigSep Finset.univ fun c : Fin ((K (F := F)).nCore 0) => coreRes m d (Fin.cast nCore_zero c) fo)
      = iprop(((vLoc d ↦{qc 0} lstOf m d) ∗ (xLoc d ↦{qc 0} m (xLoc d)) ∗ (oLoc d ↦[coreSet 0]{fullShare} fo))
          ∗ ((vLoc d ↦{qc 1} lstOf m d) ∗ (xLoc d ↦{qc 1} m (xLoc d)) ∗ (oLoc d ↦[coreSet 1]{fullShare} fo))) := by
  show (bigSep (Finset.univ : Finset (Fin 2)) fun c => coreRes m d (Fin.cast nCore_zero c) fo) = _
  rw [bigSep_fin2]
  rfl

omit [FloatOps F] in
theorem st0_eq (d : Dev nD) : (bigSep Finset.univ fun c : Fin ((K (F := F)).nCore 0) => (P m).st 0 d c)
    = iprop(((vLoc d ↦{qc 0} lstOf m d) ∗ (xLoc d ↦{qc 0} m (xLoc d)) ∗ (oLoc d ↦[coreSet 0]{fullShare} m (oLoc d)))
        ∗ ((vLoc d ↦{qc 1} lstOf m d) ∗ (xLoc d ↦{qc 1} m (xLoc d)) ∗ (oLoc d ↦[coreSet 1]{fullShare} m (oLoc d)))) :=
  cores_eq m d (m (oLoc d))
omit [FloatOps F] in
theorem dn0_eq (d : Dev nD) : (bigSep Finset.univ fun c : Fin ((K (F := F)).nCore 0) => (P m).dn 0 d c)
    = iprop(((vLoc d ↦{qc 0} lstOf m d) ∗ (xLoc d ↦{qc 0} m (xLoc d)) ∗ (oLoc d ↦[coreSet 0]{fullShare} outOf m d))
        ∗ ((vLoc d ↦{qc 1} lstOf m d) ∗ (xLoc d ↦{qc 1} m (xLoc d)) ∗ (oLoc d ↦[coreSet 1]{fullShare} outOf m d))) :=
  cores_eq m d (outOf m d)

omit [FloatOps F] in
theorem oPts_two (d : Dev nD) (f : Buf (Elt F) (oLoc d)) :
    (oLoc d ↦{fullShare} f : sProp 𝕄) = iprop((oLoc d ↦[coreSet 0]{fullShare} f) ∗ (oLoc d ↦[coreSet 1]{fullShare} f)) :=
  (oPts_cores d f).trans (bigSep_fin2 _)

/-- What @main leaves the claim: the row numbers and the table at their launch contents, the result at the lookup. -/
abbrev FIN (d : Dev nD) : sProp 𝕄 :=
  iprop((iLoc d ↦{fullShare} m (iLoc d)) ∗ (xLoc d ↦{fullShare} m (xLoc d)) ∗ (oLoc d ↦{fullShare} outOf m d))

set_option maxRecDepth 16384 in
/-- @main on device `d`'s TensorCore: the two host operations over the five arrays held whole, then the one call — each
    core handed its share of the lists and of the table and its rows of the result — and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose
  iapply (wp_hlo_within 𝒱 (SparseCore.T d) none Set.univ (op := opT) (S := S5) hT (V := launchContents m d)) $$ [Hb Hheld]
  · isplitl [Hb]; · iexact Hb
    iexact Hheld
  iintro ⟨Hb, Hheld⟩
  rw [wp_ret]; imodintro
  -- the regrouping
  iapply (wp_hlo_within 𝒱 (SparseCore.T d) none Set.univ (op := opR) (S := S5) hR (V := (opT (F := F)).result (launchContents m d))) $$ [Hb Hheld]
  · isplitl [Hb]; · iexact Hb
    iexact Hheld
  iintro ⟨Hb, Hheld⟩
  rw [wp_ret]; imodintro
  ihave Hh := (Entails.of_eq (held_W2 (F := F) m d)) $$ Hheld
  icases Hh with ⟨Hi, Hx, Ht, Hv, Ho⟩
  -- the call
  ihave Hv' := (toks2 (F := F) _).1 $$ Hv
  icases Hv' with ⟨Hvr, Hv0, Hv1⟩
  ihave Hx' := (toks2 (F := F) _).1 $$ Hx
  icases Hx' with ⟨Hxr, Hx0, Hx1⟩
  ihave Ho' := (Entails.of_eq (oPts_two (F := F) d _)) $$ Ho
  icases Ho' with ⟨Ho0, Ho1⟩
  iapply ((K (F := F)).wp_run (D (F := F)) 𝒱 (EH := EH) (P := P m) κ d 0) $$ [Hst Hi Hvr Hxr Hv0 Hv1 Hx0 Hx1 Ho0 Ho1]
  isplitr; · iexact Hctx
  isplitl [Hst]; · iexact Hst
  isplitl [Hv0 Hv1 Hx0 Hx1 Ho0 Ho1]
  · rw [st0_eq]
    isplitl [Hv0 Hx0 Ho0]
    · isplitl [Hv0]; · iexact Hv0
      isplitl [Hx0]; · iexact Hx0
      iexact Ho0
    · isplitl [Hv1]; · iexact Hv1
      isplitl [Hx1]; · iexact Hx1
      iexact Ho1
  iintro ⟨Hst, Hdn⟩
  ihave Hdn' := (Entails.of_eq (dn0_eq m d)) $$ Hdn
  icases Hdn' with ⟨⟨Hv0, Hx0, Ho0⟩, Hv1, Hx1, Ho1⟩
  ihave Hv := (toks2 (F := F) _).2 $$ [Hvr Hv0 Hv1]
  · isplitl [Hvr]; · iexact Hvr
    isplitl [Hv0]; · iexact Hv0
    iexact Hv1
  ihave Hx := (toks2 (F := F) _).2 $$ [Hxr Hx0 Hx1]
  · isplitl [Hxr]; · iexact Hxr
    isplitl [Hx0]; · iexact Hx0
    iexact Hx1
  ihave Ho := (Entails.of_eq (oPts_two (F := F) d _).symm) $$ [Ho0 Ho1]
  · isplitl [Ho0]; · iexact Ho0
    iexact Ho1
  imodintro
  isplitl [Hst]; · iexact Hst
  isplitl [Hi]; · iexact Hi
  isplitl [Hx]; · iexact Hx
  iexact Ho

/-! ## The final memory -/

def fq (d : Dev nD) (s' : Phys nD τ sig (Elt F)) : Prop :=
  s'.mem.mem (oLoc d) = outOf m d ∧ s'.mem.mem (iLoc d) = m (iLoc d) ∧ s'.mem.mem (xLoc d) = m (xLoc d)

set_option maxRecDepth 16384 in
omit [FloatOps F] in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outOf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outOf m c ∧ r.2.mem (iLoc c) = m (iLoc c) ∧ r.2.mem (xLoc c) = m (xLoc c)

theorem run_sc [∀ e, Nonempty (Elt F e)] (hin : ∀ d : Dev nD, Cert.Proof.Spec.InRange (m (iLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- From any memory whose row numbers all name table rows: every weakly fair execution of the device's threads
    terminates, with the result at the lookup of the launch's row numbers and table, and both arguments unchanged. -/
theorem run_main {F : FTy → Type} [FloatOps F] [∀ e, Nonempty (Elt F e)] (m : (ℓ : Loc nD τ sig) → Buf (Elt F) ℓ) (ρ : Dev nD → PrngReg)
    (hin : ∀ c : Dev nD, Cert.Proof.Spec.InRange (m ((c.tc : Thread nD τ).loc main_arg0))) :
    θ_run (Cert.KernelIdeal.defs (F := F)) (Cert.KernelIdeal.threads (F := F)) ⟨m, fun _ => 0, ρ⟩
      (fun r => ∀ c : Dev nD,
        r.2.mem ((c.tc : Thread nD τ).loc main_v2)
          = Cert.Proof.Spec.G (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (Cert.KernelIdeal.defs (F := F)) _ _).mono
    (fun _ h c => ⟨(h c).1.trans (Gk_lstVal (F := F) _ _), (h c).2⟩)
    (run_sc m ρ hin)

end Cert.Proof.KI

end
-- ==== Proof.IfaceB.lean ====
/-
  The lookup kernel as the launch theorem sees it, and what passes between its threads.
  Thirty-two tasks (two cores of sixteen vector subcores; task number 2·s + c on subcore s of core c) each own 128
  consecutive rows of the result. A task copies its 50 lists of 128 row numbers into its own memory, then for each list
  gathers the 128 named table rows into one of five row buffers and copies that buffer out to the 128 × 128 block of
  the result it belongs to. The table and the array of lists are only read: every task holds a read share of each.
  The result's rows are split among the tasks. What a task hands back is its rows of the result at the lookup's value.
-/
import proofs.«206531_g4466765988671_cont_8to1c4_310_22_alg».proof.Kernel
import proofs.«206531_g4466765988671_cont_8to1c4_310_22_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206531_g4466765988671_cont_8to1c4_310_22_alg».proof.Proof.Gen.Kernel
import proofs.«206531_g4466765988671_cont_8to1c4_310_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The row numbers, the table, the row numbers transposed, the lists (one per position, task and row), the result. -/
abbrev iLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev vLoc (d : Dev nD) : Loc nD τ sig := (SparseCore.T d).loc main_v1
abbrev oLoc (d : Dev nD) : Loc nD τ sig := (SparseCore.T d).loc main_v2

/-! ## A task's coordinates and its rows of the result -/

abbrev cV (L : grid0.Coords) : Fin τ.nSC := (L 0).castLE hcore0
abbrev jV (L : grid0.Coords) : Fin τ.nSub := (L 1).castLE hsub0

/-- The task's number: 2 · subcore + core. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The task's 128 rows of the result, all 6400 columns. -/
theorem oTile_inb (L : grid0.Coords) : ∀ a, (![128 * wid L, 0] : Fin 2 → ℕ) a + (![128, 6400] : Fin 2 → ℕ) a ≤ S4096x6400.size a := by
  have := wid_lt L
  intro a; match a with
  | ⟨0, _⟩ => show 128 * wid L + 128 ≤ 4096; omega
  | ⟨1, _⟩ => show 0 + 6400 ≤ 6400; omega
abbrev oTileRect (L : grid0.Coords) : Rect S4096x6400 := Rect.unit (s := S4096x6400) ![128 * wid L, 0] ![128, 6400] (oTile_inb L)
abbrev oTileSet (L : grid0.Coords) : Finset S4096x6400.Idx := (oTileRect L).set

/-! ## The value a task leaves -/

/-- The lookup read off the array of lists `lst` (position, task, row) instead of the row numbers: entry
    (128·w + r, 128·j + e) of the result is entry `e` of the table row that `lst (j, w, r)` names. -/
def Gk (lst : IVec S50x32x128 32) (tbl : FVec F S100000x128 .f32) : FVec F S4096x6400 .f32 :=
  fun x => tbl (ix2 (Spec.rowOf (lst (ix3 (Spec.posOf (x 1)) (⟨(x 0).val / 128, by have := idx2_lt0 x; omega⟩ : Fin 32)
    (⟨(x 0).val % 128, Nat.mod_lt _ (by decide)⟩ : Fin 128)))) (Spec.laneOf (x 1)))

end Cert.Proof.KB

end
-- ==== Proof.TileDefsB.lean ====
/-
  One task of the lookup kernel, on one vector subcore: its semaphores and buffers, the slices it addresses, what its
  lists' scratch holds after the lists are copied in, and the rows a gather brings.
-/
import proofs.«206531_g4466765988671_cont_8to1c4_310_22_alg».proof.Proof.IfaceB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.Kernel.main_v1_scv : Memref Cert.Kernel.sig Kind.scVector Space.hbm Cert.Kernel.S50x32x128 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S5x128x128 EltTy.f32)

variable [FloatOps F]
variable (d : Dev nD) (L : grid0.Coords)

/-! ## The task's own semaphores and buffers -/

/-- The task's DMA semaphore number `k`, as a cell. -/
abbrev dcell (k : DmaSem sig) : GSem nD τ sig := (V d (cV L) (jV L), SemLoc.dma k)

omit [FloatOps F] in
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide]
  repeat rw [SparseCore.bigSep_insert' (by decide)]
  rw [bigSep_singleton]

/-- The eleven DMA semaphores, as cells of the task. -/
def cellEmb : DmaSem sig ↪ GSem nD τ sig :=
  ⟨fun k => dcell d L k, fun a b h => by
    have h2 : (SemLoc.dma a : SemLoc sig) = SemLoc.dma b := (Prod.mk.inj h).2
    exact SemLoc.dma.inj h2⟩
abbrev cellsT : Finset (GSem nD τ sig) := (Finset.univ : Finset (DmaSem sig)).map (cellEmb d L)

omit [FloatOps F] in
theorem cellsT_sub : cellsT d L ⊆ ownCells (V d (cV L) (jV L)) := by
  intro g hg
  obtain ⟨k, -, rfl⟩ := Finset.mem_map.mp hg
  refine mem_ownCells.mpr ⟨rfl, ?_⟩
  exact (by decide : ∀ k : DmaSem sig, (SemLoc.dma k : SemLoc sig).isScoped .scVector = true) k

omit [FloatOps F] in
/-- The task's own semaphores: the five the gathers complete on, the five the copies out complete on, the one the
    copy of the lists completes on, and the rest. -/
theorem ownSems0_T :
    (ownSems0 (V d (cV L) (jV L)) : sProp 𝕄)
      = iprop((semVal (dcell d L cc0_scratch2.sem) 0 ∗ semVal (dcell d L cc0_scratch3.sem) 0 ∗ semVal (dcell d L cc0_scratch4.sem) 0
          ∗ semVal (dcell d L cc0_scratch5.sem) 0 ∗ semVal (dcell d L cc0_scratch6.sem) 0 ∗ semVal (dcell d L cc0_scratch7.sem) 0
          ∗ semVal (dcell d L cc0_scratch8.sem) 0 ∗ semVal (dcell d L cc0_scratch9.sem) 0 ∗ semVal (dcell d L cc0_scratch10.sem) 0
          ∗ semVal (dcell d L cc0_scratch11.sem) 0 ∗ semVal (dcell d L cc0_scoped0.sem) 0)
          ∗ bigSep (ownCells (V d (cV L) (jV L)) \ cellsT d L) fun g => semVal g 0) := by
  unfold SparseCore.Cfg.ownSems0
  rw [bigSep_sdiff_split (cellsT_sub d L), bigSep_map, bigSep_fin11]
  rfl

omit [FloatOps F] in
/-- The task's own buffers: the lists' scratch, the five row buffers' scratch, and the rest. -/
theorem ownBufs_T :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_vV (q : PosShare TreeShare) (f : Buf (Elt F) (vLoc d)) :
    ((vV).view.loc (V d (cV L) (jV L)) ↦{q} f : sProp 𝕄) = vLoc d ↦{q} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-! ## Read tokens: one read share per gather semaphore -/

omit [FloatOps F] in
/-- A points-to at share `q` is five read tokens and what remains. -/
theorem toks5 {ℓ : Loc nD τ sig} (S : Finset (Idx ℓ)) (q : PosShare TreeShare) (f : Buf (Elt F) ℓ) :
    (ℓ ↦[S]{q} f : sProp 𝕄) ⊣⊢ iprop((ℓ ↦[S]{Transfers.shareDrop q 5} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f)) := by
  have h := Transfers.pointsTo_toks_range (nD := nD) (τ := τ) (sig := sig) (Ix := HIx 1) (Val := Elt F) (Name := ℕ) (U := UU) (Lvl := ℕ) (ℓ := ℓ) (S := S) (f := f) q 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

/-! ## The lists' words name rows -/

/-- After the lists are copied into the task's scratch, every word of every one-row slice of that scratch is a word of
    the array of lists, so it names a row of the table. Stated for every slice offset and all prior contents. -/
theorem list_inb (fv : Buf (Elt F) (vLoc d)) (hin : ∀ j, (fv j).toNat < 100000)
    (off : Fin 2 → ℕ) (h : ∀ a, off a + S1x128.size a ≤ S50x128.size a)
    (hs : ∀ a, (Rect.unit (s := S50x128) off S1x128.size h).stride a = 1)
    (fs : Buf (Elt F) ((V d (cV L) (jV L)).loc cc0_scratch0)) (x : S128.Idx) :
    ((((sI).slice (Rect.unit (s := S50x128) off S1x128.size h) hs).squeeze S128 squeezes_S1x128_S128).view.read (Elt F)
        (View.write (Elt F) ((sI).reshape S50x1x128 reshapes_S50x128_S50x1x128.1 reshapes_S50x128_S50x1x128.2 (Memref.isWhole_whole _).contiguous).view fs
          (ReadAs.same.apply (View.read (Elt F) ((vV).slice (Rect.unit (s := S50x32x128) (k0_off1 L) S50x1x128.size (k0_off1_inb L)) (fun _ => rfl)).view fv))
          Finset.univ) x).toNat < 100000 := by
  have key : ∀ j, (View.write (Elt F) ((sI).reshape S50x1x128 reshapes_S50x128_S50x1x128.1 reshapes_S50x128_S50x1x128.2 (Memref.isWhole_whole _).contiguous).view fs
          (ReadAs.same.apply (View.read (Elt F) ((vV).slice (Rect.unit (s := S50x32x128) (k0_off1 L) S50x1x128.size (k0_off1_inb L)) (fun _ => rfl)).view fv))
          Finset.univ j).toNat < 100000 := by
    intro j
    show (((View.whole (cc0_scratch0 : Ref sig .scVector)).reshape S50x1x128 reshapes_S50x128_S50x1x128.1).write (Elt F) fs _ Finset.univ j).toNat < 100000
    rw [View.write_reshape_univ, View.write_whole_univ]
    show BitVec.toNat (ReadAs.same.apply (View.read (Elt F) ((vV).slice (Rect.unit (s := S50x32x128) (k0_off1 L) S50x1x128.size (k0_off1_inb L)) (fun _ => rfl)).view fv) _) < 100000
    show BitVec.toNat (View.read (Elt F) ((vV).slice (Rect.unit (s := S50x32x128) (k0_off1 L) S50x1x128.size (k0_off1_inb L)) (fun _ => rfl)).view fv _) < 100000
    rw [View.read_apply]
    exact hin _
  rw [View.read_apply]
  exact key _

/-! ## The slices the task addresses, in the program's spelling -/

/-- The table, as every gather slices it: whole. -/
abbrev tblM : Memref sig .scVector .hbm S100000x128 .f32 :=
  (xV).slice (Rect.unit (s := S100000x128) ![0, 0] S100000x128.size inb_S100000x128_S100000x128_0_0) (fun _ => rfl)
/-- One of the five row buffers: the 128 × 128 slab at `off` of the row-buffer scratch. -/
abbrev slotM (off : Fin 3 → ℕ) (h : ∀ a, off a + S1x128x128.size a ≤ S5x128x128.size a) : Memref sig .scVector .vmem S128x128 .f32 :=
  ((sR).slice (Rect.unit (s := S5x128x128) off S1x128x128.size h) (fun _ => rfl)).squeeze S128x128 squeezes_S1x128x128_S128x128
/-- One list: the row at `off` of the lists' scratch. -/
abbrev listM (off : Fin 2 → ℕ) (h : ∀ a, off a + S1x128.size a ≤ S50x128.size a) : Memref sig .scVector .vmem S128 .i32 :=
  ((sI).slice (Rect.unit (s := S50x128) off S1x128.size h) (fun _ => rfl)).squeeze S128 squeezes_S1x128_S128
/-- One 128 × 128 block of the result, at `off`. -/
abbrev chunkM (off : Fin 2 → ℕ) (h : ∀ a, off a + S128x128.size a ≤ S4096x6400.size a) : Memref sig .scVector .hbm S128x128 .f32 :=
  (oV).slice (Rect.unit (s := S4096x6400) off S128x128.size h) (fun _ => rfl)

/-- What the lists' scratch holds once the task's lists are copied in (over prior contents `fs`): the task's slice of
    the array of lists, laid out list by list. -/
def c0 (fs : Buf (Elt F) ((V d (cV L) (jV L)).loc cc0_scratch0)) (fv : Buf (Elt F) (vLoc d)) : Buf (Elt F) ((V d (cV L) (jV L)).loc cc0_scratch0) :=
  View.write (Elt F) ((sI).reshape S50x1x128 reshapes_S50x128_S50x1x128.1 reshapes_S50x128_S50x1x128.2 (Memref.isWhole_whole _).contiguous).view fs
    (ReadAs.same.apply (View.read (Elt F) ((vV).slice (Rect.unit (s := S50x32x128) (k0_off1 L) S50x1x128.size (k0_off1_inb L)) (fun _ => rfl)).view fv))
    Finset.univ

/-- Every word of every list in the scratch names a row of the table. -/
theorem c0_inb (fs : Buf (Elt F) ((V d (cV L) (jV L)).loc cc0_scratch0)) (fv : Buf (Elt F) (vLoc d)) (hin : ∀ j, (fv j).toNat < 100000)
    (off : Fin 2 → ℕ) (h : ∀ a, off a + S1x128.size a ≤ S50x128.size a) (x : S128.Idx) :
    ((listM off h).view.read (Elt F) (c0 d L fs fv) x).toNat < S100000x128.size gathers_S100000x128_S128x128.axis :=
  list_inb (F := F) d L fv hin off h (fun _ => rfl) fs x

/-- The rows one gather brings: row `r` of the block is the table row that word `r` of the list at `off` names. -/
def gp (fs : Buf (Elt F) ((V d (cV L) (jV L)).loc cc0_scratch0)) (fv : Buf (Elt F) (vLoc d)) (hin : ∀ j, (fv j).toNat < 100000)
    (fx : Buf (Elt F) (xLoc d)) (off : Fin 2 → ℕ) (h : ∀ a, off a + S1x128.size a ≤ S50x128.size a) : S128x128.Idx → Elt F .f32 :=
  SparseCore.gatherPayload gathers_S100000x128_S128x128 ((tblM).view.read (Elt F) fx)
    (SparseCore.rows ((listM off h).view.read (Elt F) (c0 d L fs fv)) rfl (c0_inb d L fs fv hin off h))

/-! ## The pieces, numbered -/

/-- Where list number `j` sits in the lists' scratch: row `j` (a number past the last list is taken as the last). -/
def lo (j : ℕ) : Fin 2 → ℕ := ![min j 49, 0]
omit [FloatOps F] in
theorem lo_inb (j : ℕ) : ∀ a, lo j a + S1x128.size a ≤ S50x128.size a := by
  have h : min j 49 ≤ 49 := Nat.min_le_right _ _
  intro a; match a with
  | ⟨0, _⟩ => show min j 49 + 1 ≤ 50; omega
  | ⟨1, _⟩ => show 0 + 128 ≤ 128; omega
/-- List number `j`. -/
abbrev LM (j : ℕ) : Memref sig .scVector .vmem S128 .i32 := listM (lo j) (lo_inb j)

/-- Where block number `j` of the task's rows of the result sits: rows 128·w …, columns 128·j …. -/
def co (L : grid0.Coords) (j : ℕ) : Fin 2 → ℕ := ![128 * wid L, 128 * min j 49]
omit [FloatOps F] in
theorem co_inb (L : grid0.Coords) (j : ℕ) : ∀ a, co L j a + S128x128.size a ≤ S4096x6400.size a := by
  have h : min j 49 ≤ 49 := Nat.min_le_right _ _
  have hw := wid_lt L
  intro a; match a with
  | ⟨0, _⟩ => show 128 * wid L + 128 ≤ 4096; omega
  | ⟨1, _⟩ => show 128 * min j 49 + 128 ≤ 6400; omega
/-- Block number `j` of the task's rows of the result. -/
abbrev CM (L : grid0.Coords) (j : ℕ) : Memref sig .scVector .hbm S128x128 .f32 := chunkM (co L j) (co_inb L j)

/-- What a row buffer holds once list `j`'s rows are gathered into it (over prior contents `fd`). -/
abbrev slotAfter (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (j : ℕ) : Buf (Elt F) ((V d (cV L) (jV L)).loc cc0_scratch1) :=
  (slotM offS hS).view.writes (Elt F) fd [⟨Rect.whole S128x128, gp d L fs fv hin fx (lo j) (lo_inb j)⟩]

/-- What block `j` of the result holds once that row buffer is copied out to it (over prior contents `fo`). -/
abbrev chunkAfter (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (fo : Buf (Elt F) (oLoc d)) (j : ℕ) : Buf (Elt F) (oLoc d) :=
  (CM L j).view.writes (Elt F) fo [⟨Rect.whole S128x128,
    ReadAs.same.apply (View.read (Elt F) (slotM offS hS).view (slotAfter d L fs fv hin fx offS hS fd j))⟩]

end Cert.Proof.KB

end
-- ==== Proof.TileValB.lean ====
/-
  One task's data, as pure facts.
  The task's rows of the result — rows 128·w … 128·w + 127, w the task's number, all 6400 columns — are its fifty
  128 × 128 blocks, block j the columns 128·j … 128·j + 127: pairwise disjoint and covering.
  A written block holds the lookup's value: element (r, e) of block j is what the row buffer held at (r, e), which is
  what the gather for list j brought there — entry e of the table row named by word r of list j in the task's scratch —
  and that word is list word (j, w, r) of the array of lists, because the scratch holds the task's slice of that array
  list by list. The lookup at (128·w + r, 128·j + e) is, by definition, entry e of the table row list word (j, w, r) names.
-/
import proofs.«206531_g4466765988671_cont_8to1c4_310_22_alg».proof.Proof.TileDefsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.Kernel.main_v1_scv : Memref Cert.Kernel.sig Kind.scVector Space.hbm Cert.Kernel.S50x32x128 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S5x128x128 EltTy.f32)

variable [FloatOps F]
variable (d : Dev nD) (L : grid0.Coords)

/-! ## The task's rows of the result are its fifty blocks -/

omit [FloatOps F] in
/-- Block `j` is the rectangle of rows 128·w … 128·w + 127 and columns 128·j … 128·j + 127 (j below 50). -/
theorem CM_set (j : ℕ) :
    (CM L j).view.set = (Rect.unit (s := S4096x6400) (co L j) S128x128.size (co_inb L j)).set :=
  View.set_slice_whole (main_v2_scv : Ref sig .scVector) _

omit [FloatOps F] in
theorem chunks_disjoint :
    ∀ i ∈ Finset.range 50, ∀ j ∈ Finset.range 50, i ≠ j → Disjoint ((CM L i).view.set) ((CM L j).view.set) := by
  intro i hi j hj hij
  have hi' : i < 50 := Finset.mem_range.mp hi
  have hj' : j < 50 := Finset.mem_range.mp hj
  rw [CM_set, CM_set]
  refine Rect.unit_disjoint 1 ?_
  show 128 * min i 49 + 128 ≤ 128 * min j 49 ∨ 128 * min j 49 + 128 ≤ 128 * min i 49
  omega

omit [FloatOps F] in
theorem chunks_cover : (Finset.range 50).biUnion (fun j => (CM L j).view.set) = oTileSet L := by
  ext x
  have h1 : (x 1).val < 6400 := idx2_lt1 x
  rw [Finset.mem_biUnion]
  constructor
  · rintro ⟨j, hj, hx⟩
    have hj' : j < 50 := Finset.mem_range.mp hj
    rw [CM_set, Rect.mem_set_unit] at hx
    have hx0 := hx 0
    have hx1 := hx 1
    refine Rect.mem_set_unit.mpr fun a => ?_
    match a with
    | ⟨0, _⟩ => exact hx0
    | ⟨1, _⟩ =>
      show 0 ≤ (x 1).val ∧ (x 1).val < 0 + 6400
      omega
  · intro hx
    have hx0 := (Rect.mem_set_unit.mp hx) 0
    refine ⟨(x 1).val / 128, Finset.mem_range.mpr (by omega), ?_⟩
    rw [CM_set]
    refine Rect.mem_set_unit.mpr fun a => ?_
    match a with
    | ⟨0, _⟩ => exact hx0
    | ⟨1, _⟩ =>
      show 128 * min ((x 1).val / 128) 49 ≤ (x 1).val ∧ (x 1).val < 128 * min ((x 1).val / 128) 49 + 128
      omega

omit [FloatOps F] in
theorem oTile_chunks (f : Buf (Elt F) (oLoc d)) :
    (oLoc d ↦[oTileSet L]{fullShare} f : sProp 𝕄)
      = bigSep (Finset.range 50) fun j => ((CM L j).view.loc (V d (cV L) (jV L)) ↦[(CM L j).view.set]{fullShare} f) := by
  rw [← chunks_cover L]
  exact pointsTo_biUnion (Finset.range 50) (ℓ := oLoc d) (fun j => (CM L j).view.set) (chunks_disjoint L)

/-! ## What a written block holds -/

omit [FloatOps F] in
/-- Element (r, e) of block `j` is element (128·w + r, 128·j + e) of the result. -/
theorem CM_emb (j : ℕ) (hj : j < 50) (r e : Fin 128) :
    (CM L j).view.emb (ix2 r e)
      = ix2 (⟨128 * wid L + r.val, by have := wid_lt L; omega⟩ : Fin 4096) (⟨128 * j + e.val, by omega⟩ : Fin 6400) := by
  funext a
  refine Fin.ext ?_
  match a with
  | ⟨0, _⟩ =>
    show 128 * wid L + 1 * r.val = 128 * wid L + r.val
    omega
  | ⟨1, _⟩ =>
    show 128 * min j 49 + 1 * e.val = 128 * j + e.val
    omega

omit [FloatOps F] in
/-- The regrouping of a list of 128 words as one row of 128: word r is entry (0, r). -/
theorem reshape_list (h : S128.numel = S1x128.numel) (r : Fin 128) :
    Shape.reshapeEquiv h (ix1 r) = ix2 (0 : Fin 1) r :=
  Shape.reshapeEquiv_eq_of_rowMajor h (by
    rw [Shape.rowMajor_val_two, Shape.rowMajor_val_one]
    show 0 * 128 + r.val = r.val
    omega)

omit [FloatOps F] in
/-- The regrouping of the lists' scratch (50 rows of 128) as 50 × 1 × 128, backwards: entry (j, r) is entry (j, 0, r). -/
theorem reshape_lists_symm (h : S50x1x128.numel = S50x128.numel) (jj : Fin 50) (r : Fin 128) :
    (Shape.reshapeEquiv h).symm (ix2 jj r) = ix3 jj (0 : Fin 1) r := by
  rw [Equiv.symm_apply_eq]
  exact (Shape.reshapeEquiv_eq_of_rowMajor h (by
    rw [Shape.rowMajor_val_two, Shape.rowMajor_val_three]
    show jj.val * 128 + r.val = (jj.val * 1 + 0) * 128 + r.val
    omega)).symm

omit [FloatOps F] in
/-- The row-major position k of a list of 128 words is word k. -/
theorem rowMajor_list_symm (k : Fin S128.numel) : S128.rowMajor.symm k = ix1 (⟨k.val, k.isLt⟩ : Fin 128) := by
  rw [Equiv.symm_apply_eq]
  refine Fin.ext ?_
  rw [Shape.rowMajor_val_one]

/-- Once the task's lists are in its scratch, word r of list j there is list word (j, w, r) of the array of lists,
    w the task's number. -/
theorem c0_apply (fs : Buf (Elt F) ((V d (cV L) (jV L)).loc cc0_scratch0)) (fv : Buf (Elt F) (vLoc d)) (jj : Fin 50) (r : Fin 128) :
    c0 d L fs fv (ix2 jj r) = fv (ix3 jj (⟨wid L, wid_lt L⟩ : Fin 32) r) := by
  unfold c0
  show ((View.whole (cc0_scratch0 : Ref sig .scVector)).reshape S50x1x128 reshapes_S50x128_S50x1x128.1).write (Elt F) fs _ Finset.univ (ix2 jj r) = _
  rw [View.write_reshape_univ, View.write_whole_univ, reshape_lists_symm]
  show View.read (Elt F) ((vV).slice (Rect.unit (s := S50x32x128) (k0_off1 L) S50x1x128.size (k0_off1_inb L)) (fun _ => rfl)).view fv (ix3 jj (0 : Fin 1) r) = _
  rw [View.read_apply]
  refine (cast_eq _ _).trans (congrArg fv (funext fun a => Fin.ext ?_))
  match a with
  | ⟨0, _⟩ =>
    show k0_off1 L 0 + 1 * jj.val = jj.val
    rw [k0_off1_eq]; show 0 + 1 * jj.val = jj.val; omega
  | ⟨1, _⟩ =>
    show k0_off1 L 1 + 1 * 0 = wid L
    rw [k0_off1_eq]; show 2 * (L 1).val + (L 0).val + 1 * 0 = 2 * (L 1).val + (L 0).val; omega
  | ⟨2, _⟩ =>
    show k0_off1 L 2 + 1 * r.val = r.val
    rw [k0_off1_eq]; show 0 + 1 * r.val = r.val; omega

/-- Word r of list number j, read through the list's slice of the scratch. -/
theorem LM_read (fs : Buf (Elt F) ((V d (cV L) (jV L)).loc cc0_scratch0)) (fv : Buf (Elt F) (vLoc d)) (j : ℕ) (hj : j < 50) (r : Fin 128) :
    (LM j).view.read (Elt F) (c0 d L fs fv) (ix1 r) = fv (ix3 (⟨j, hj⟩ : Fin 50) (⟨wid L, wid_lt L⟩ : Fin 32) r) := by
  rw [View.read_apply, ← c0_apply d L fs fv ⟨j, hj⟩ r]
  refine (cast_eq _ _).trans (congrArg (c0 d L fs fv) ?_)
  show (Rect.unit (s := S50x128) (lo j) S1x128.size (lo_inb j)).emb (Shape.reshapeEquiv squeezes_S1x128_S128.numel_eq (ix1 r)) = _
  rw [reshape_list]
  funext a
  refine Fin.ext ?_
  match a with
  | ⟨0, _⟩ =>
    show min j 49 + 1 * 0 = j
    omega
  | ⟨1, _⟩ =>
    show 0 + 1 * r.val = r.val
    omega

/-- Row r of the block a gather brings for list j: the table row that list word (j, w, r) names. -/
theorem gp_apply (fs : Buf (Elt F) ((V d (cV L) (jV L)).loc cc0_scratch0)) (fv : Buf (Elt F) (vLoc d)) (hin : ∀ j, (fv j).toNat < 100000)
    (fx : Buf (Elt F) (xLoc d)) (j : ℕ) (hj : j < 50) (r e : Fin 128) :
    gp d L fs fv hin fx (lo j) (lo_inb j) (ix2 r e)
      = fx (ix2 (⟨(fv (ix3 (⟨j, hj⟩ : Fin 50) (⟨wid L, wid_lt L⟩ : Fin 32) r)).toNat, hin _⟩ : Fin 100000) e) := by
  unfold gp SparseCore.gatherPayload
  rw [View.read_apply]
  refine (cast_eq _ _).trans (congrArg fx (funext fun a => Fin.ext ?_))
  match a with
  | ⟨0, _⟩ =>
    show 0 + 1 * (SparseCore.rows ((LM j).view.read (Elt F) (c0 d L fs fv)) rfl (c0_inb d L fs fv hin (lo j) (lo_inb j)) r).val
      = (fv (ix3 (⟨j, hj⟩ : Fin 50) (⟨wid L, wid_lt L⟩ : Fin 32) r)).toNat
    unfold SparseCore.rows
    show 0 + 1 * ((LM j).view.read (Elt F) (c0 d L fs fv) (S128.rowMajor.symm (Fin.cast _ r))).toNat = _
    rw [rowMajor_list_symm]
    show 0 + 1 * ((LM j).view.read (Elt F) (c0 d L fs fv) (ix1 r)).toNat = _
    rw [LM_read d L fs fv j hj r]
    omega
  | ⟨1, _⟩ =>
    show 0 + 1 * e.val = e.val
    omega

omit [FloatOps F] in
/-- The lookup off the lists at (128·w + r, 128·j + e): the table row that list word (j, w, r) names, lane e. -/
theorem Gk_at (fv : IVec S50x32x128 32) (fx : FVec F S100000x128 .f32) (hin : ∀ j, (fv j).toNat < 100000)
    (w : Fin 32) (jj : Fin 50) (r e : Fin 128) :
    Gk fv fx (ix2 (⟨128 * w.val + r.val, by omega⟩ : Fin 4096) (⟨128 * jj.val + e.val, by omega⟩ : Fin 6400))
      = fx (ix2 (⟨(fv (ix3 jj w r)).toNat, hin _⟩ : Fin 100000) e) := by
  have e1 : Spec.posOf (⟨128 * jj.val + e.val, by omega⟩ : Fin 6400) = jj :=
    Fin.ext (by show (128 * jj.val + e.val) / 128 = jj.val; omega)
  have e2 : Spec.laneOf (⟨128 * jj.val + e.val, by omega⟩ : Fin 6400) = e :=
    Fin.ext (by show (128 * jj.val + e.val) % 128 = e.val; omega)
  have e3 : (⟨(128 * w.val + r.val) / 128, by omega⟩ : Fin 32) = w := Fin.ext (by show (128 * w.val + r.val) / 128 = w.val; omega)
  have e4 : (⟨(128 * w.val + r.val) % 128, Nat.mod_lt _ (by decide)⟩ : Fin 128) = r :=
    Fin.ext (by show (128 * w.val + r.val) % 128 = r.val; omega)
  show fx (ix2 (Spec.rowOf (fv (ix3 (Spec.posOf (⟨128 * jj.val + e.val, by omega⟩ : Fin 6400))
      (⟨(128 * w.val + r.val) / 128, by omega⟩ : Fin 32) (⟨(128 * w.val + r.val) % 128, Nat.mod_lt _ (by decide)⟩ : Fin 128))))
      (Spec.laneOf (⟨128 * jj.val + e.val, by omega⟩ : Fin 6400))) = _
  rw [e1, e2, e3, e4]
  exact congrArg (fun row => fx (ix2 row e)) (Fin.ext (Spec.rowOf_val_of_lt (hin _)))

/-- THE VALUE OF A WRITTEN BLOCK: once list j's rows are gathered into a row buffer and that buffer is copied out to
    block j of the task's rows, the block holds the lookup's value. -/
theorem chunk_value (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (fo : Buf (Elt F) (oLoc d)) (j : ℕ) (hj : j < 50) :
    ∀ x ∈ (CM L j).view.set, chunkAfter d L fs fv hin fx offS hS fd fo j x = Gk fv fx x := by
  intro x hx
  obtain ⟨y, -, rfl⟩ := Finset.mem_map.mp hx
  obtain ⟨r, e, rfl⟩ : ∃ (r e : Fin 128), y = ix2 r e := ⟨y 0, y 1, eq_ix2 y⟩
  -- the block at (r, e) holds the row buffer's (r, e), which is the gather's
  have h1 : chunkAfter d L fs fv hin fx offS hS fd fo j ((CM L j).view.emb (ix2 r e))
      = gp d L fs fv hin fx (lo j) (lo_inb j) (ix2 r e) := by
    have h := congrFun (View.read_writes_whole (CM L j).view fo
      (ReadAs.same.apply (View.read (Elt F) (slotM offS hS).view (slotAfter d L fs fv hin fx offS hS fd j)))) (ix2 r e)
    rw [View.read_apply] at h
    refine ((cast_eq _ _).symm.trans h).trans ?_
    show View.read (Elt F) (slotM offS hS).view (slotAfter d L fs fv hin fx offS hS fd j) (ix2 r e) = _
    exact congrFun (View.read_writes_whole (slotM offS hS).view fd _) (ix2 r e)
  rw [h1, gp_apply d L fs fv hin fx j hj r e, CM_emb L j hj r e]
  exact (Gk_at fv fx hin ⟨wid L, wid_lt L⟩ ⟨j, hj⟩ r e).symm

/-- The same as a points-to: the block held at what the copies left is the block held at the lookup's value. -/
theorem chunk_pts (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a)
    (fd : Buf (Elt F) ((V d (cV L) (jV L)).loc cc0_scratch1)) (fo : Buf (Elt F) (oLoc d)) (j : ℕ) (hj : j < 50) :
    ((CM L j).view.loc (V d (cV L) (jV L)) ↦[(CM L j).view.set]{fullShare} chunkAfter d L fs fv hin fx offS hS fd fo j : sProp 𝕄)
      = ((CM L j).view.loc (V d (cV L) (jV L)) ↦[(CM L j).view.set]{fullShare} Gk fv fx) :=
  pointsTo_congr (chunk_value d L fs fv hin fx offS hS fd fo j hj)

end Cert.Proof.KB

end
-- ==== Proof.TileGeomB.lean ====
/-
  The arithmetic of one trip of the task's loop.
  The loop makes ten trips; trip k handles lists 5·k … 5·k + 4 and looks two lists ahead. Which of a trip's guarded
  steps run (the waits for an earlier copy-out from the second trip on, the two farthest look-ahead gathers on every
  trip but the last); that the offsets the program computes from the trip and the task's place are list number
  "5·k + r + 2" of the scratch and block number "5·k + r" of the task's rows; that slices at equal offsets are equal;
  and how the fifty blocks, as an interval of naturals, lose the trip's five at the front while the blocks done gain five.
-/
import proofs.«206531_g4466765988671_cont_8to1c4_310_22_alg».proof.Proof.TileDefsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.Kernel.main_v1_scv : Memref Cert.Kernel.sig Kind.scVector Space.hbm Cert.Kernel.S50x32x128 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S5x128x128 EltTy.f32)

variable [FloatOps F]
variable (d : Dev nD) (L : grid0.Coords)

/-! ## When each condition of a trip of the loop holds -/

omit [FloatOps F] in
/-- The loop makes ten trips. -/
theorem trips_eq : k0_t1_loop.trips = 10 := by decide +kernel

omit [FloatOps F] in
/-- The three waits for an earlier copy-out are made from the second trip on, -/
theorem cond1_iff : ∀ k : Fin k0_t1_loop.trips, (k0_cond1 k = 1#1 ↔ 0 < k.val) := by decide +kernel
omit [FloatOps F] in
theorem cond2_iff : ∀ k : Fin k0_t1_loop.trips, (k0_cond2 k = 1#1 ↔ 0 < k.val) := by decide +kernel
omit [FloatOps F] in
theorem cond3_iff : ∀ k : Fin k0_t1_loop.trips, (k0_cond3 k = 1#1 ↔ 0 < k.val) := by decide +kernel
omit [FloatOps F] in
/-- and the two gathers that look past the trip's own lists on every trip but the last. -/
theorem cond4_iff : ∀ k : Fin k0_t1_loop.trips, (k0_cond4 k = 1#1 ↔ k.val < 9) := by decide +kernel
omit [FloatOps F] in
theorem cond5_iff : ∀ k : Fin k0_t1_loop.trips, (k0_cond5 k = 1#1 ↔ k.val < 9) := by decide +kernel

/-! ## The offsets the program computes are the numbered ones -/

omit [FloatOps F] in
theorem trip_lt (k : Fin k0_t1_loop.trips) : k.val < 10 := Nat.lt_of_lt_of_le k.isLt (Nat.le_of_eq trips_eq)

omit [FloatOps F] in
/-- The list gathered two ahead of list 5·k + r is list 5·k + r + 2. -/
theorem off3_lo (k : Fin k0_t1_loop.trips) (r : Fin 3) : k0_off3 k (BitVec.ofNat 32 r.val) = lo (5 * k.val + r.val + 2) := by
  have hk := trip_lt k
  have hr := r.isLt
  rw [k0_off3_eq]
  funext a
  match a with
  | ⟨0, _⟩ => show 5 * k.val + r.val + 2 = min (5 * k.val + r.val + 2) 49; omega
  | ⟨1, _⟩ => rfl

omit [FloatOps F] in
theorem off8_lo (k : Fin k0_t1_loop.trips) (h : k.val < 9) : k0_off8 k = lo (5 * k.val + 5) := by
  rw [k0_off8_eq]
  funext a
  match a with
  | ⟨0, _⟩ => show 5 * k.val + 5 = min (5 * k.val + 5) 49; omega
  | ⟨1, _⟩ => rfl

omit [FloatOps F] in
theorem off9_lo (k : Fin k0_t1_loop.trips) (h : k.val < 9) : k0_off9 k = lo (5 * k.val + 6) := by
  rw [k0_off9_eq]
  funext a
  match a with
  | ⟨0, _⟩ => show 5 * k.val + 6 = min (5 * k.val + 6) 49; omega
  | ⟨1, _⟩ => rfl

omit [FloatOps F] in
/-- The block list 5·k + r is copied out to is block 5·k + r of the task's rows. -/
theorem off4_co (k : Fin k0_t1_loop.trips) (r : Fin 5) : k0_off4 L k (BitVec.ofNat 32 r.val) = co L (5 * k.val + r.val) := by
  have hk := trip_lt k
  have hr := r.isLt
  rw [k0_off4_eq]
  funext a
  match a with
  | ⟨0, _⟩ => show 256 * (L 1).val + 128 * (L 0).val = 128 * (2 * (L 1).val + (L 0).val); omega
  | ⟨1, _⟩ => show 640 * k.val + 128 * r.val = 128 * min (5 * k.val + r.val) 49; omega

omit [FloatOps F] in
theorem lit0_lo : (![0, 0] : Fin 2 → ℕ) = lo 0 := by
  funext a
  match a with
  | ⟨0, _⟩ => rfl
  | ⟨1, _⟩ => rfl
omit [FloatOps F] in
theorem lit1_lo : (![1, 0] : Fin 2 → ℕ) = lo 1 := by
  funext a
  match a with
  | ⟨0, _⟩ => rfl
  | ⟨1, _⟩ => rfl

/-! ## Slices at equal offsets are equal -/

omit [FloatOps F] in
theorem listM_congr {off off' : Fin 2 → ℕ} (e : off = off') (h : ∀ a, off a + S1x128.size a ≤ S50x128.size a)
    (h' : ∀ a, off' a + S1x128.size a ≤ S50x128.size a) : listM off h = listM off' h' := by
  subst e; rfl
omit [FloatOps F] in
theorem chunkM_congr {off off' : Fin 2 → ℕ} (e : off = off') (h : ∀ a, off a + S128x128.size a ≤ S4096x6400.size a)
    (h' : ∀ a, off' a + S128x128.size a ≤ S4096x6400.size a) : chunkM off h = chunkM off' h' := by
  subst e; rfl

/-! ## Blocks peeled off an interval of naturals -/

omit [FloatOps F] in
/-- Two assertions that entail each other are equal. -/
theorem eq_of_ents {P Q : sProp 𝕄} (h1 : P ⊢ Q) (h2 : Q ⊢ P) : P = Q := BI.Entails.antisymm h1 h2

omit [FloatOps F] in
/-- Five given members in order, then the rest. -/
theorem bigSep_five (Φ : ℕ → sProp 𝕄) (a b c e g : ℕ) (R : Finset ℕ)
    (ha : a ∉ insert b (insert c (insert e (insert g R)))) (hb : b ∉ insert c (insert e (insert g R)))
    (hc : c ∉ insert e (insert g R)) (he : e ∉ insert g R) (hg : g ∉ R) :
    bigSep (insert a (insert b (insert c (insert e (insert g R))))) Φ
      = iprop(Φ a ∗ Φ b ∗ Φ c ∗ Φ e ∗ Φ g ∗ bigSep R Φ) := by
  rw [SparseCore.bigSep_insert' ha, SparseCore.bigSep_insert' hb, SparseCore.bigSep_insert' hc, SparseCore.bigSep_insert' he,
    SparseCore.bigSep_insert' hg]

omit [FloatOps F] in
/-- The blocks still to do, at the start of trip k: the trip's five, then those of the later trips. -/
theorem todo_peel (Φ : ℕ → sProp 𝕄) (k : ℕ) (hk : k < 10) :
    bigSep (Finset.Ico (5 * k) 50) Φ
      = iprop(Φ (5 * k + 0) ∗ Φ (5 * k + 1) ∗ Φ (5 * k + 2) ∗ Φ (5 * k + 3) ∗ Φ (5 * k + 4) ∗ bigSep (Finset.Ico (5 * (k + 1)) 50) Φ) := by
  have hs : Finset.Ico (5 * k) 50 = insert (5 * k + 0) (insert (5 * k + 1) (insert (5 * k + 2) (insert (5 * k + 3)
      (insert (5 * k + 4) (Finset.Ico (5 * (k + 1)) 50))))) := by
    ext x; simp only [Finset.mem_Ico, Finset.mem_insert]; omega
  rw [hs]
  exact bigSep_five Φ _ _ _ _ _ _ (by simp only [Finset.mem_Ico, Finset.mem_insert]; omega)
    (by simp only [Finset.mem_Ico, Finset.mem_insert]; omega) (by simp only [Finset.mem_Ico, Finset.mem_insert]; omega)
    (by simp only [Finset.mem_Ico, Finset.mem_insert]; omega) (by simp only [Finset.mem_Ico]; omega)

omit [FloatOps F] in
/-- The blocks done by the end of trip k (k past the first): those done before it, then five more. -/
theorem done_push (Φ : ℕ → sProp 𝕄) (k : ℕ) (hk : 0 < k) :
    bigSep (Finset.range (5 * (k + 1) - 3)) Φ
      = iprop(bigSep (Finset.range (5 * k - 3)) Φ ∗ Φ (5 * k - 3) ∗ Φ (5 * k - 2) ∗ Φ (5 * k - 1) ∗ Φ (5 * k + 0) ∗ Φ (5 * k + 1)) := by
  have hs : Finset.range (5 * (k + 1) - 3) = insert (5 * k - 3) (insert (5 * k - 2) (insert (5 * k - 1) (insert (5 * k + 0)
      (insert (5 * k + 1) (Finset.range (5 * k - 3)))))) := by
    ext x; simp only [Finset.mem_range, Finset.mem_insert]; omega
  rw [hs, bigSep_five Φ _ _ _ _ _ _ (by simp only [Finset.mem_range, Finset.mem_insert]; omega)
    (by simp only [Finset.mem_range, Finset.mem_insert]; omega) (by simp only [Finset.mem_range, Finset.mem_insert]; omega)
    (by simp only [Finset.mem_range, Finset.mem_insert]; omega) (by simp only [Finset.mem_range]; omega)]
  refine eq_of_ents ?_ ?_
  · iintro ⟨H1, H2, H3, H4, H5, HR⟩
    isplitl [HR]; · iexact HR
    isplitl [H1]; · iexact H1
    isplitl [H2]; · iexact H2
    isplitl [H3]; · iexact H3
    isplitl [H4]; · iexact H4
    iexact H5
  · iintro ⟨HR, H1, H2, H3, H4, H5⟩
    isplitl [H1]; · iexact H1
    isplitl [H2]; · iexact H2
    isplitl [H3]; · iexact H3
    isplitl [H4]; · iexact H4
    isplitl [H5]; · iexact H5
    iexact HR

omit [FloatOps F] in
/-- By the end of the first trip two blocks are done. -/
theorem done_push0 (Φ : ℕ → sProp 𝕄) : bigSep (Finset.range (5 * (0 + 1) - 3)) Φ = iprop(Φ (5 * 0 + 0) ∗ Φ (5 * 0 + 1)) := by
  rw [show Finset.range (5 * (0 + 1) - 3) = insert (5 * 0 + 0) {5 * 0 + 1} by decide, SparseCore.bigSep_insert' (by decide), bigSep_singleton]

omit [FloatOps F] in
/-- After the last trip three blocks remain to be waited for. -/
theorem done_last (Φ : ℕ → sProp 𝕄) : bigSep (Finset.range 50) Φ = iprop(bigSep (Finset.range (5 * 10 - 3)) Φ ∗ Φ 47 ∗ Φ 48 ∗ Φ 49) := by
  have hs : Finset.range 50 = insert 47 (insert 48 (insert 49 (Finset.range (5 * 10 - 3)))) := by
    ext x; simp only [Finset.mem_range, Finset.mem_insert]; omega
  rw [hs, SparseCore.bigSep_insert' (by simp only [Finset.mem_range, Finset.mem_insert]; omega),
    SparseCore.bigSep_insert' (by simp only [Finset.mem_range, Finset.mem_insert]; omega),
    SparseCore.bigSep_insert' (by simp only [Finset.mem_range]; omega)]
  refine eq_of_ents ?_ ?_
  · iintro ⟨H1, H2, H3, HR⟩
    isplitl [HR]; · iexact HR
    isplitl [H1]; · iexact H1
    isplitl [H2]; · iexact H2
    iexact H3
  · iintro ⟨HR, H1, H2, H3⟩
    isplitl [H1]; · iexact H1
    isplitl [H2]; · iexact H2
    isplitl [H3]; · iexact H3
    iexact HR

omit [FloatOps F] in
/-- After the tenth trip nothing is left to do; -/
theorem todo_none (Φ : ℕ → sProp 𝕄) : bigSep (Finset.Ico (5 * 10) 50) Φ = iprop(emp) := by
  rw [show Finset.Ico (5 * 10) 50 = ∅ by decide]; rfl
omit [FloatOps F] in
/-- before the first everything is; -/
theorem todo_all (Φ : ℕ → sProp 𝕄) : bigSep (Finset.range 50) Φ = bigSep (Finset.Ico (5 * 0) 50) Φ := by
  rw [show Finset.Ico (5 * 0) 50 = Finset.range 50 from (Finset.range_eq_Ico 50).symm]
omit [FloatOps F] in
/-- and nothing is done yet. -/
theorem done_none (Φ : ℕ → sProp 𝕄) : bigSep (Finset.range (5 * 0 - 3)) Φ = iprop(emp) := by
  rw [show Finset.range (5 * 0 - 3) = ∅ by decide]; rfl

end Cert.Proof.KB

end
-- ==== Proof.TileSlotsB.lean ====
/-
  The row-buffer scratch and its five row buffers.
  The scratch (5 × 128 × 128) is five slabs along its first axis, pairwise disjoint and covering it; row buffer b, as
  the program slices and squeezes it, has slab b's elements. So the scratch held whole at some contents is the five row
  buffers held at those contents; and the five row buffers held each at its OWN contents are the scratch held whole at
  contents that agree with each on its slab.
-/
import proofs.«206531_g4466765988671_cont_8to1c4_310_22_alg».proof.Proof.TileDefsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.Kernel.main_v1_scv : Memref Cert.Kernel.sig Kind.scVector Space.hbm Cert.Kernel.S50x32x128 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S5x128x128 EltTy.f32)

variable [FloatOps F]
variable (d : Dev nD) (L : grid0.Coords)

/-! ## The five row buffers -/

omit [FloatOps F] in
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide]
  repeat rw [SparseCore.bigSep_insert' (by decide)]
  rw [bigSep_singleton]

omit [FloatOps F] in
theorem hdiv5 : 5 ∣ S5x128x128.size 0 := ⟨1, rfl⟩

/-- Slab `b` of the row-buffer scratch: row buffer `b`. -/
abbrev slab (b : Fin 5) : Rect S5x128x128 := Rect.part (s := S5x128x128) (a₀ := 0) hdiv5 b

omit [FloatOps F] in
/-- A row buffer's elements are its slab's. -/
theorem slot_set (b : Fin 5) (h : ∀ a, (![b.val, 0, 0] : Fin 3 → ℕ) a + S1x128x128.size a ≤ S5x128x128.size a) :
    (slotM ![b.val, 0, 0] h).view.set = (slab b).set := by
  have e : Rect.unit (s := S5x128x128) ![b.val, 0, 0] S1x128x128.size h = slab b := by
    unfold slab Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  show (((View.whole (cc0_scratch1 : Ref sig .scVector)).slice (Rect.unit (s := S5x128x128) ![b.val, 0, 0] S1x128x128.size h)).reshape S128x128
    squeezes_S1x128x128_S128x128.numel_eq).set = _
  rw [View.set_reshape]
  have e2 : ((View.whole (cc0_scratch1 : Ref sig .scVector)).slice (Rect.unit (s := S5x128x128) ![b.val, 0, 0] S1x128x128.size h)).set
      = ((View.whole (cc0_scratch1 : Ref sig .scVector)).slice (slab b)).set := e ▸ rfl
  rw [e2, View.set_slice]; exact Finset.map_refl

omit [FloatOps F] in
/-- The row-buffer scratch, whole, is its five row buffers. -/
theorem slots5 (f : Buf (Elt F) ((V d (cV L) (jV L)).loc cc0_scratch1)) :
    ((V d (cV L) (jV L)).loc cc0_scratch1 ↦{fullShare} f : sProp 𝕄)
      = iprop(((slotM ![0, 0, 0] inb_S5x128x128_S1x128x128_0_0_0).view.loc (V d (cV L) (jV L)) ↦[(slotM ![0, 0, 0] inb_S5x128x128_S1x128x128_0_0_0).view.set]{fullShare} f) ∗ ((slotM ![1, 0, 0] inb_S5x128x128_S1x128x128_1_0_0).view.loc (V d (cV L) (jV L)) ↦[(slotM ![1, 0, 0] inb_S5x128x128_S1x128x128_1_0_0).view.set]{fullShare} f)
          ∗ ((slotM ![2, 0, 0] inb_S5x128x128_S1x128x128_2_0_0).view.loc (V d (cV L) (jV L)) ↦[(slotM ![2, 0, 0] inb_S5x128x128_S1x128x128_2_0_0).view.set]{fullShare} f) ∗ ((slotM ![3, 0, 0] inb_S5x128x128_S1x128x128_3_0_0).view.loc (V d (cV L) (jV L)) ↦[(slotM ![3, 0, 0] inb_S5x128x128_S1x128x128_3_0_0).view.set]{fullShare} f)
          ∗ ((slotM ![4, 0, 0] inb_S5x128x128_S1x128x128_4_0_0).view.loc (V d (cV L) (jV L)) ↦[(slotM ![4, 0, 0] inb_S5x128x128_S1x128x128_4_0_0).view.set]{fullShare} f)) := by
  have hd : ∀ i ∈ (Finset.univ : Finset (Fin 5)), ∀ j ∈ (Finset.univ : Finset (Fin 5)), i ≠ j → Disjoint (slab i).set (slab j).set :=
    fun i _ j _ h => Rect.part_disjoint hdiv5 h
  have hc : (Finset.univ : Finset (Fin 5)).biUnion (fun b => (slab b).set) = Finset.univ := Rect.biUnion_part hdiv5
  have h0 := slot_set 0 inb_S5x128x128_S1x128x128_0_0_0
  have h1 := slot_set 1 inb_S5x128x128_S1x128x128_1_0_0
  have h2 := slot_set 2 inb_S5x128x128_S1x128x128_2_0_0
  have h3 := slot_set 3 inb_S5x128x128_S1x128x128_3_0_0
  have h4 := slot_set 4 inb_S5x128x128_S1x128x128_4_0_0
  rw [show ((V d (cV L) (jV L)).loc cc0_scratch1 ↦{fullShare} f : sProp 𝕄) = ((V d (cV L) (jV L)).loc cc0_scratch1 ↦[Finset.univ]{fullShare} f) from rfl,
    ← hc, pointsTo_biUnion Finset.univ (ℓ := (V d (cV L) (jV L)).loc cc0_scratch1) (fun b : Fin 5 => (slab b).set) hd, bigSep_fin5]
  rw [← h0, ← h1, ← h2, ← h3, ← h4]
  rfl

/-! ## The five row buffers, each at its own contents, are the scratch whole at some contents -/

/-- The five slabs held each at its own contents are the whole scratch held at contents that agree with each on its
    slab: the slabs are pairwise disjoint and cover the scratch. -/
theorem slabs_join :
    (bigSep Finset.univ fun b : Fin 5 => iprop(∃ f, (V d (cV L) (jV L)).loc cc0_scratch1 ↦[(slab b).set]{fullShare} f) : sProp 𝕄)
      ⊢ iprop(∃ f, (V d (cV L) (jV L)).loc cc0_scratch1 ↦{fullShare} f) := by
  have hd : ∀ i ∈ (Finset.univ : Finset (Fin 5)), ∀ j ∈ (Finset.univ : Finset (Fin 5)), i ≠ j → Disjoint (slab i).set (slab j).set :=
    fun i _ j _ h => Rect.part_disjoint hdiv5 h
  have hc : (Finset.univ : Finset (Fin 5)).biUnion (fun b => (slab b).set) = Finset.univ := Rect.biUnion_part hdiv5
  refine (bigSep_exists_pi Finset.univ (fun (b : Fin 5) (f : Buf (Elt F) ((V d (cV L) (jV L)).loc cc0_scratch1)) =>
    ((V d (cV L) (jV L)).loc cc0_scratch1 ↦[(slab b).set]{fullShare} f : sProp 𝕄))).trans ?_
  iintro ⟨%fs, H⟩
  ihave H' := (pointsTo_biUnion_join (ℓ := (V d (cV L) (jV L)).loc cc0_scratch1) (q := fullShare) (Val := Elt F) Finset.univ
    (fun b : Fin 5 => (slab b).set) fs (fs 0) hd) $$ H
  icases H' with ⟨%g, -, Hg⟩
  rw [hc]
  iexists g; iexact Hg

theorem slots5_join :
    (iprop((∃ f, (slotM ![0, 0, 0] inb_S5x128x128_S1x128x128_0_0_0).view.loc (V d (cV L) (jV L)) ↦[(slotM ![0, 0, 0] inb_S5x128x128_S1x128x128_0_0_0).view.set]{fullShare} f) ∗ (∃ f, (slotM ![1, 0, 0] inb_S5x128x128_S1x128x128_1_0_0).view.loc (V d (cV L) (jV L)) ↦[(slotM ![1, 0, 0] inb_S5x128x128_S1x128x128_1_0_0).view.set]{fullShare} f)
        ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
        ∗ (∃ f, (slotM ![4, 0, 0] inb_S5x128x128_S1x128x128_4_0_0).view.loc (V d (cV L) (jV L)) ↦[(slotM ![4, 0, 0] inb_S5x128x128_S1x128x128_4_0_0).view.set]{fullShare} f)) : sProp 𝕄)
      ⊢ iprop(∃ f, (V d (cV L) (jV L)).loc cc0_scratch1 ↦{fullShare} f) := by
  have h0 : (slotM ![0, 0, 0] inb_S5x128x128_S1x128x128_0_0_0).view.set = (slab 0).set := slot_set 0 inb_S5x128x128_S1x128x128_0_0_0
  have h1 : (slotM ![1, 0, 0] inb_S5x128x128_S1x128x128_1_0_0).view.set = (slab 1).set := slot_set 1 inb_S5x128x128_S1x128x128_1_0_0
  have h2 : (slotM ![2, 0, 0] inb_S5x128x128_S1x128x128_2_0_0).view.set = (slab 2).set := slot_set 2 inb_S5x128x128_S1x128x128_2_0_0
  have h3 : (slotM ![3, 0, 0] inb_S5x128x128_S1x128x128_3_0_0).view.set = (slab 3).set := slot_set 3 inb_S5x128x128_S1x128x128_3_0_0
  have h4 : (slotM ![4, 0, 0] inb_S5x128x128_S1x128x128_4_0_0).view.set = (slab 4).set := slot_set 4 inb_S5x128x128_S1x128x128_4_0_0
  rw [h0, h1, h2, h3, h4]
  have key := slabs_join (F := F) d L
  rw [bigSep_fin5] at key
  exact key

end Cert.Proof.KB

end
-- ==== Proof.TileB.lean ====
/-
  One task of the lookup kernel run to its end: from read shares of the lists and the table and its rows of the result,
  to the same shares and its rows of the result at the lookup's value.
-/
import proofs.«206531_g4466765988671_cont_8to1c4_310_22_alg».proof.Proof.TileDefsB
import proofs.«206531_g4466765988671_cont_8to1c4_310_22_alg».proof.Proof.TileValB
import proofs.«206531_g4466765988671_cont_8to1c4_310_22_alg».proof.Proof.TileGeomB
import proofs.«206531_g4466765988671_cont_8to1c4_310_22_alg».proof.Proof.TileSlotsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "vV" => (Memref.whole Cert.Kernel.main_v1_scv : Memref Cert.Kernel.sig Kind.scVector Space.hbm Cert.Kernel.S50x32x128 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S5x128x128 EltTy.f32)

variable [FloatOps F]
variable (d : Dev nD) (L : grid0.Coords)

/-! ## The loop's invariant -/

abbrev tk (q : PosShare TreeShare) (i : ℕ) : PosShare TreeShare := Transfers.shareTokN q i

/-- The elements of list number `j` within the lists' scratch. -/
def LSet (j : ℕ) : Finset S50x128.Idx := (LM j).view.set

/-- The gathers in flight before trip `k`: lists `5k` and `5k + 1` into row buffers 0 and 1, each holding its read
    tokens; after the last trip none, and the two buffers, their semaphores and tokens are free. -/
def GPart (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) : sProp 𝕄 :=
  if k < 10 then
    iprop((∃ fd, Transfers.Flight countersEmb (V d (cV L) (jV L)) (SemLoc.dma cc0_scratch2.sem) (default : HIx 1) 524288
        iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 fd (5 * k))
              ∗ ((sI).view.loc (V d (cV L) (jV L)) ↦[LSet (5 * k)]{tk fullShare 0} c0 d L fs fv))
            ∗ ((xV).view.loc (V d (cV L) (jV L)) ↦[(tblM).view.set]{tk qx 0} fx)))
      ∗ (∃ fd, Transfers.Flight countersEmb (V d (cV L) (jV L)) (SemLoc.dma cc0_scratch3.sem) (default : HIx 1) 524288
        iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 fd (5 * k + 1))
              ∗ ((sI).view.loc (V d (cV L) (jV L)) ↦[LSet (5 * k + 1)]{tk fullShare 1} c0 d L fs fv))
            ∗ ((xV).view.loc (V d (cV L) (jV L)) ↦[(tblM).view.set]{tk qx 1} fx)))
      ∗ ((xV).view.loc (V d (cV L) (jV L)) ↦[Finset.univ \ (tblM).view.set]{tk qx 0} fx) ∗ ((xV).view.loc (V d (cV L) (jV L)) ↦[Finset.univ \ (tblM).view.set]{tk qx 1} fx)
      ∗ ((sI).view.loc (V d (cV L) (jV L)) ↦[Finset.univ \ LSet (5 * k)]{tk fullShare 0} c0 d L fs fv)
      ∗ ((sI).view.loc (V d (cV L) (jV L)) ↦[Finset.univ \ LSet (5 * k + 1)]{tk fullShare 1} c0 d L fs fv))
  else
    iprop(semVal (dcell d L cc0_scratch2.sem) 0 ∗ semVal (dcell d L cc0_scratch3.sem) 0
      ∗ (∃ f, (slotM ![0, 0, 0] inb_S5x128x128_S1x128x128_0_0_0).view.loc (V d (cV L) (jV L)) ↦[(slotM ![0, 0, 0] inb_S5x128x128_S1x128x128_0_0_0).view.set]{fullShare} f) ∗ (∃ f, (slotM ![1, 0, 0] inb_S5x128x128_S1x128x128_1_0_0).view.loc (V d (cV L) (jV L)) ↦[(slotM ![1, 0, 0] inb_S5x128x128_S1x128x128_1_0_0).view.set]{fullShare} f)
      ∗ ((xV).view.loc (V d (cV L) (jV L)) ↦{tk qx 0} fx) ∗ ((xV).view.loc (V d (cV L) (jV L)) ↦{tk qx 1} fx)
      ∗ ((V d (cV L) (jV L)).loc cc0_scratch0 ↦{tk fullShare 0} c0 d L fs fv) ∗ ((V d (cV L) (jV L)).loc cc0_scratch0 ↦{tk fullShare 1} c0 d L fs fv))

theorem GPart_lt (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) (h : k < 10) :
    GPart d L fs fv hin fx qx fo k = iprop((∃ fd, Transfers.Flight countersEmb (V d (cV L) (jV L)) (SemLoc.dma cc0_scratch2.sem) (default : HIx 1) 524288
        iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 fd (5 * k))
              ∗ ((sI).view.loc (V d (cV L) (jV L)) ↦[LSet (5 * k)]{tk fullShare 0} c0 d L fs fv))
            ∗ ((xV).view.loc (V d (cV L) (jV L)) ↦[(tblM).view.set]{tk qx 0} fx)))
      ∗ (∃ fd, Transfers.Flight countersEmb (V d (cV L) (jV L)) (SemLoc.dma cc0_scratch3.sem) (default : HIx 1) 524288
        iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 fd (5 * k + 1))
              ∗ ((sI).view.loc (V d (cV L) (jV L)) ↦[LSet (5 * k + 1)]{tk fullShare 1} c0 d L fs fv))
            ∗ ((xV).view.loc (V d (cV L) (jV L)) ↦[(tblM).view.set]{tk qx 1} fx)))
      ∗ ((xV).view.loc (V d (cV L) (jV L)) ↦[Finset.univ \ (tblM).view.set]{tk qx 0} fx) ∗ ((xV).view.loc (V d (cV L) (jV L)) ↦[Finset.univ \ (tblM).view.set]{tk qx 1} fx)
      ∗ ((sI).view.loc (V d (cV L) (jV L)) ↦[Finset.univ \ LSet (5 * k)]{tk fullShare 0} c0 d L fs fv)
      ∗ ((sI).view.loc (V d (cV L) (jV L)) ↦[Finset.univ \ LSet (5 * k + 1)]{tk fullShare 1} c0 d L fs fv)) := if_pos h

theorem GPart_ge (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) (h : ¬ k < 10) :
    GPart d L fs fv hin fx qx fo k = iprop(semVal (dcell d L cc0_scratch2.sem) 0 ∗ semVal (dcell d L cc0_scratch3.sem) 0
      ∗ (∃ f, (slotM ![0, 0, 0] inb_S5x128x128_S1x128x128_0_0_0).view.loc (V d (cV L) (jV L)) ↦[(slotM ![0, 0, 0] inb_S5x128x128_S1x128x128_0_0_0).view.set]{fullShare} f) ∗ (∃ f, (slotM ![1, 0, 0] inb_S5x128x128_S1x128x128_1_0_0).view.loc (V d (cV L) (jV L)) ↦[(slotM ![1, 0, 0] inb_S5x128x128_S1x128x128_1_0_0).view.set]{fullShare} f)
      ∗ ((xV).view.loc (V d (cV L) (jV L)) ↦{tk qx 0} fx) ∗ ((xV).view.loc (V d (cV L) (jV L)) ↦{tk qx 1} fx)
      ∗ ((V d (cV L) (jV L)).loc cc0_scratch0 ↦{tk fullShare 0} c0 d L fs fv) ∗ ((V d (cV L) (jV L)).loc cc0_scratch0 ↦{tk fullShare 1} c0 d L fs fv)) := if_neg h

/-- The copies out in flight before trip `k`: blocks `5k - 3`, `5k - 2`, `5k - 1` from row buffers 2, 3, 4; before the
    first trip none, and those buffers and semaphores are free. -/
def WPart (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) : sProp 𝕄 :=
  if k = 0 then
    iprop(semVal (dcell d L cc0_scratch9.sem) 0 ∗ semVal (dcell d L cc0_scratch10.sem) 0 ∗ semVal (dcell d L cc0_scratch11.sem) 0
      ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
      ∗ (∃ f, (slotM ![4, 0, 0] inb_S5x128x128_S1x128x128_4_0_0).view.loc (V d (cV L) (jV L)) ↦[(slotM ![4, 0, 0] inb_S5x128x128_S1x128x128_4_0_0).view.set]{fullShare} f))
  else
    iprop((∃ fd, Transfers.Flight countersEmb (V d (cV L) (jV L)) (SemLoc.dma cc0_scratch9.sem) (default : HIx 1) 524288
        iprop(((CM L (5 * k - 3)).view.loc (V d (cV L) (jV L)) ↦[(CM L (5 * k - 3)).view.set]{fullShare} chunkAfter d L fs fv hin fx ![2, 0, 0] inb_S5x128x128_S1x128x128_2_0_0 fd fo (5 * k - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 fd (5 * k - 3))))
      ∗ (∃ fd, Transfers.Flight countersEmb (V d (cV L) (jV L)) (SemLoc.dma cc0_scratch10.sem) (default : HIx 1) 524288
        iprop(((CM L (5 * k - 2)).view.loc (V d (cV L) (jV L)) ↦[(CM L (5 * k - 2)).view.set]{fullShare} chunkAfter d L fs fv hin fx ![3, 0, 0] inb_S5x128x128_S1x128x128_3_0_0 fd fo (5 * k - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 fd (5 * k - 2))))
      ∗ (∃ fd, Transfers.Flight countersEmb (V d (cV L) (jV L)) (SemLoc.dma cc0_scratch11.sem) (default : HIx 1) 524288
        iprop(((CM L (5 * k - 1)).view.loc (V d (cV L) (jV L)) ↦[(CM L (5 * k - 1)).view.set]{fullShare} chunkAfter d L fs fv hin fx ![4, 0, 0] inb_S5x128x128_S1x128x128_4_0_0 fd fo (5 * k - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 fd (5 * k - 1)))))

theorem WPart_zero (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) :
    WPart d L fs fv hin fx qx fo 0 = iprop(semVal (dcell d L cc0_scratch9.sem) 0 ∗ semVal (dcell d L cc0_scratch10.sem) 0 ∗ semVal (dcell d L cc0_scratch11.sem) 0
      ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
      ∗ (∃ f, (slotM ![4, 0, 0] inb_S5x128x128_S1x128x128_4_0_0).view.loc (V d (cV L) (jV L)) ↦[(slotM ![4, 0, 0] inb_S5x128x128_S1x128x128_4_0_0).view.set]{fullShare} f)) := if_pos rfl

theorem WPart_pos (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (k : ℕ) (h : k ≠ 0) :
    WPart d L fs fv hin fx qx fo k = iprop((∃ fd, Transfers.Flight countersEmb (V d (cV L) (jV L)) (SemLoc.dma cc0_scratch9.sem) (default : HIx 1) 524288
        iprop(((CM L (5 * k - 3)).view.loc (V d (cV L) (jV L)) ↦[(CM L (5 * k - 3)).view.set]{fullShare} chunkAfter d L fs fv hin fx ![2, 0, 0] inb_S5x128x128_S1x128x128_2_0_0 fd fo (5 * k - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 fd (5 * k - 3))))
      ∗ (∃ fd, Transfers.Flight countersEmb (V d (cV L) (jV L)) (SemLoc.dma cc0_scratch10.sem) (default : HIx 1) 524288
        iprop(((CM L (5 * k - 2)).view.loc (V d (cV L) (jV L)) ↦[(CM L (5 * k - 2)).view.set]{fullShare} chunkAfter d L fs fv hin fx ![3, 0, 0] inb_S5x128x128_S1x128x128_3_0_0 fd fo (5 * k - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 fd (5 * k - 2))))
      ∗ (∃ fd, Transfers.Flight countersEmb (V d (cV L) (jV L)) (SemLoc.dma cc0_scratch11.sem) (default : HIx 1) 524288
        iprop(((CM L (5 * k - 1)).view.loc (V d (cV L) (jV L)) ↦[(CM L (5 * k - 1)).view.set]{fullShare} chunkAfter d L fs fv hin fx ![4, 0, 0] inb_S5x128x128_S1x128x128_4_0_0 fd fo (5 * k - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 fd (5 * k - 1))))) := if_neg h

/-- Before trip `k`: the waits are admissible; the gathers and copies in flight; read tokens 2, 3, 4 of the table and of the
    lists free; the semaphores of row buffers 2, 3, 4's gathers and of row buffers 0, 1's copies at zero; blocks below
    `5k - 3` at the lookup's value, blocks from `5k` on untouched. -/
def inv (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (O : CellTallies nD τ sig (HIx 1)) (W : Waits sig (HIx 1)) (k : ℕ) (_ : PUnit) : sProp 𝕄 :=
  iprop(Transfers.MayWaits (V d (cV L) (jV L)) (default : HIx 1) O
    ∗ (∃ W', ⌜∀ p ∈ W', p ∈ W ∨ p.2 = none⌝ ∗ owes (V d (cV L) (jV L)) O W')
    ∗ GPart d L fs fv hin fx qx fo k ∗ WPart d L fs fv hin fx qx fo k
    ∗ ((xV).view.loc (V d (cV L) (jV L)) ↦{tk qx 2} fx) ∗ ((xV).view.loc (V d (cV L) (jV L)) ↦{tk qx 3} fx) ∗ ((xV).view.loc (V d (cV L) (jV L)) ↦{tk qx 4} fx)
    ∗ ((V d (cV L) (jV L)).loc cc0_scratch0 ↦{tk fullShare 2} c0 d L fs fv) ∗ ((V d (cV L) (jV L)).loc cc0_scratch0 ↦{tk fullShare 3} c0 d L fs fv) ∗ ((V d (cV L) (jV L)).loc cc0_scratch0 ↦{tk fullShare 4} c0 d L fs fv)
    ∗ semVal (dcell d L cc0_scratch4.sem) 0 ∗ semVal (dcell d L cc0_scratch5.sem) 0 ∗ semVal (dcell d L cc0_scratch6.sem) 0
    ∗ semVal (dcell d L cc0_scratch7.sem) 0 ∗ semVal (dcell d L cc0_scratch8.sem) 0
    ∗ (bigSep (Finset.range (5 * k - 3)) fun j => ((CM L j).view.loc (V d (cV L) (jV L)) ↦[(CM L j).view.set]{fullShare} Gk fv fx))
    ∗ (bigSep (Finset.Ico (5 * k) 50) fun j => ((CM L j).view.loc (V d (cV L) (jV L)) ↦[(CM L j).view.set]{fullShare} fo)))

/-- The invariant does not read the loop's (unit) accumulator. -/
theorem inv_fun (fs : Buf (Elt F) ((V d (cV L) (jV L)).loc cc0_scratch0)) (fv : Buf (Elt F) (vLoc d)) (hin : ∀ j, (fv j).toNat < 100000)
    (fx : Buf (Elt F) (xLoc d)) (qx : PosShare TreeShare) (fo : Buf (Elt F) (oLoc d)) (O : CellTallies nD τ sig (HIx 1)) (W : Waits sig (HIx 1)) (k : ℕ) :
    inv d L fs fv hin fx qx fo O W k = fun _ => iprop(Transfers.MayWaits (V d (cV L) (jV L)) (default : HIx 1) O
    ∗ (∃ W', ⌜∀ p ∈ W', p ∈ W ∨ p.2 = none⌝ ∗ owes (V d (cV L) (jV L)) O W')
    ∗ GPart d L fs fv hin fx qx fo k ∗ WPart d L fs fv hin fx qx fo k
    ∗ ((xV).view.loc (V d (cV L) (jV L)) ↦{tk qx 2} fx) ∗ ((xV).view.loc (V d (cV L) (jV L)) ↦{tk qx 3} fx) ∗ ((xV).view.loc (V d (cV L) (jV L)) ↦{tk qx 4} fx)
    ∗ ((V d (cV L) (jV L)).loc cc0_scratch0 ↦{tk fullShare 2} c0 d L fs fv) ∗ ((V d (cV L) (jV L)).loc cc0_scratch0 ↦{tk fullShare 3} c0 d L fs fv) ∗ ((V d (cV L) (jV L)).loc cc0_scratch0 ↦{tk fullShare 4} c0 d L fs fv)
    ∗ semVal (dcell d L cc0_scratch4.sem) 0 ∗ semVal (dcell d L cc0_scratch5.sem) 0 ∗ semVal (dcell d L cc0_scratch6.sem) 0
    ∗ semVal (dcell d L cc0_scratch7.sem) 0 ∗ semVal (dcell d L cc0_scratch8.sem) 0
    ∗ (bigSep (Finset.range (5 * k - 3)) fun j => ((CM L j).view.loc (V d (cV L) (jV L)) ↦[(CM L j).view.set]{fullShare} Gk fv fx))
    ∗ (bigSep (Finset.Ico (5 * k) 50) fun j => ((CM L j).view.loc (V d (cV L) (jV L)) ↦[(CM L j).view.set]{fullShare} fo))) := rfl

/-! ## A read token of the lists' scratch, in the two spellings of its location -/

omit [FloatOps F] in
theorem pts_sIq (q : PosShare TreeShare) (f : Buf (Elt F) ((V d (cV L) (jV L)).loc cc0_scratch0)) :
    ((sI).view.loc (V d (cV L) (jV L)) ↦{q} f : sProp 𝕄) = (V d (cV L) (jV L)).loc cc0_scratch0 ↦{q} f := rfl

/-! ## Naming what a hypothesis holds -/

omit [FloatOps F] in
/-- What a points-to holds, as a variable with its defining equation. -/
theorem pts_cap {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  · iexact H

omit [FloatOps F] in
/-- What a transfer in flight delivers, as a variable with its defining equation. -/
theorem flight_cap (c : Thread nD τ) (sm : SemLoc sig) (ι : HIx 1) (N : ℕ) (D : sProp 𝕄) :
    (Transfers.Flight countersEmb c sm ι N D : sProp 𝕄) ⊢ iprop(∃ D', ⌜D' = D⌝ ∗ Transfers.Flight countersEmb c sm ι N D') := by
  iintro H; iexists D; isplitr
  · ipureintro; rfl
  · iexact H

/-! ## A slice's points-to, carried along an equation of offsets -/

omit [FloatOps F] in
theorem chunk_pts_congr {off off' : Fin 2 → ℕ} (e : off = off') (h : ∀ a, off a + S128x128.size a ≤ S4096x6400.size a)
    (h' : ∀ a, off' a + S128x128.size a ≤ S4096x6400.size a) (f : Buf (Elt F) (oLoc d)) :
    ((chunkM off h).view.loc (V d (cV L) (jV L)) ↦[(chunkM off h).view.set]{fullShare} f : sProp 𝕄)
      = ((chunkM off' h').view.loc (V d (cV L) (jV L)) ↦[(chunkM off' h').view.set]{fullShare} f) := by
  subst e; rfl

/-! ## Deliveries, by the offsets of their slices -/

/-- What a gather in flight delivers: its row buffer written with the rows the list at `off` names, that list's read
    token's piece, the table's read token's piece. -/
def gDelO (fs : Buf (Elt F) ((V d (cV L) (jV L)).loc cc0_scratch0)) (fv : Buf (Elt F) (vLoc d)) (hin : ∀ j, (fv j).toNat < 100000)
    (fx : Buf (Elt F) (xLoc d)) (q qo : PosShare TreeShare) (offS : Fin 3 → ℕ) (hS : ∀ a, offS a + S1x128x128.size a ≤ S5x128x128.size a) (fd : Buf (Elt F) ((V d (cV L) (jV L)).loc cc0_scratch1))
    (off : Fin 2 → ℕ) (h : ∀ a, off a + S1x128.size a ≤ S50x128.size a) : sProp 𝕄 :=
  iprop((((slotM offS hS).view.loc (V d (cV L) (jV L)) ↦[(slotM offS hS).view.set]{fullShare}
            (slotM offS hS).view.writes (Elt F) fd [⟨Rect.whole S128x128, gp d L fs fv hin fx off h⟩])
        ∗ ((sI).view.loc (V d (cV L) (jV L)) ↦[(listM off h).view.set]{qo} c0 d L fs fv))
      ∗ ((xV).view.loc (V d (cV L) (jV L)) ↦[(tblM).view.set]{q} fx))

theorem gDelO_congr (fs : Buf (Elt F) ((V d (cV L) (jV L)).loc cc0_scratch0)) (fv : Buf (Elt F) (vLoc d)) (hin : ∀ j, (fv j).toNat < 100000)
    (fx : Buf (Elt F) (xLoc d)) (q qo : PosShare TreeShare) (offS : Fin 3 → ℕ) (hS : ∀ a, offS a + S1x128x128.size a ≤ S5x128x128.size a) (fd : Buf (Elt F) ((V d (cV L) (jV L)).loc cc0_scratch1))
    {off off' : Fin 2 → ℕ} (e : off = off') (h : ∀ a, off a + S1x128.size a ≤ S50x128.size a) (h' : ∀ a, off' a + S1x128.size a ≤ S50x128.size a) :
    gDelO d L fs fv hin fx q qo offS hS fd off h = gDelO d L fs fv hin fx q qo offS hS fd off' h' := by
  subst e; rfl

/-- What a block of the result holds once a row buffer, gathered from the list at `loff`, is copied out to the block at
    `coff`. -/
def chunkAfterO (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    (coff : Fin 2 → ℕ) (ch : ∀ a, coff a + S128x128.size a ≤ S4096x6400.size a)
    (loff : Fin 2 → ℕ) (lh : ∀ a, loff a + S1x128.size a ≤ S50x128.size a) : Buf (Elt F) (oLoc d) :=
  (chunkM coff ch).view.writes (Elt F) fo [⟨Rect.whole S128x128,
    ReadAs.same.apply (View.read (Elt F) (slotM offS hS).view
      ((slotM offS hS).view.writes (Elt F) fd [⟨Rect.whole S128x128, gp d L fs fv hin fx loff lh⟩]))⟩]

/-- What a copy out in flight delivers: the block written, and the row buffer back. -/
def wDelO (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    (coff : Fin 2 → ℕ) (ch : ∀ a, coff a + S128x128.size a ≤ S4096x6400.size a)
    (loff : Fin 2 → ℕ) (lh : ∀ a, loff a + S1x128.size a ≤ S50x128.size a) : sProp 𝕄 :=
  iprop(((chunkM coff ch).view.loc (V d (cV L) (jV L)) ↦[(chunkM coff ch).view.set]{fullShare} chunkAfterO d L fs fv hin fx offS hS fd fo coff ch loff lh)
      ∗ ((slotM offS hS).view.loc (V d (cV L) (jV L)) ↦[(slotM offS hS).view.set]{fullShare}
            (slotM offS hS).view.writes (Elt F) fd [⟨Rect.whole S128x128, gp d L fs fv hin fx loff lh⟩]))

theorem wDelO_congr (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    {coff coff' : Fin 2 → ℕ} (e1 : coff = coff') (ch : ∀ a, coff a + S128x128.size a ≤ S4096x6400.size a) (ch' : ∀ a, coff' a + S128x128.size a ≤ S4096x6400.size a)
    {loff loff' : Fin 2 → ℕ} (e2 : loff = loff') (lh : ∀ a, loff a + S1x128.size a ≤ S50x128.size a) (lh' : ∀ a, loff' a + S1x128.size a ≤ S50x128.size a) :
    wDelO d L fs fv hin fx offS hS fd fo coff ch loff lh = wDelO d L fs fv hin fx offS hS fd fo coff' ch' loff' lh' := by
  subst e1 e2; rfl

theorem done_congr (fs : Buf (Elt F) ((V d (cV L) (jV L)).loc cc0_scratch0)) (fv : Buf (Elt F) (vLoc d)) (hin : ∀ j, (fv j).toNat < 100000)
    (fx : Buf (Elt F) (xLoc d)) (offS : Fin 3 → ℕ) (hS : ∀ a, offS a + S1x128x128.size a ≤ S5x128x128.size a) (fd : Buf (Elt F) ((V d (cV L) (jV L)).loc cc0_scratch1)) (fo : Buf (Elt F) (oLoc d))
    {coff coff' : Fin 2 → ℕ} (e1 : coff = coff') (ch : ∀ a, coff a + S128x128.size a ≤ S4096x6400.size a) (ch' : ∀ a, coff' a + S128x128.size a ≤ S4096x6400.size a)
    {loff loff' : Fin 2 → ℕ} (e2 : loff = loff') (lh : ∀ a, loff a + S1x128.size a ≤ S50x128.size a) (lh' : ∀ a, loff' a + S1x128.size a ≤ S50x128.size a) :
    ((chunkM coff ch).view.loc (V d (cV L) (jV L)) ↦[(chunkM coff ch).view.set]{fullShare} chunkAfterO d L fs fv hin fx offS hS fd fo coff ch loff lh : sProp 𝕄)
      = ((chunkM coff' ch').view.loc (V d (cV L) (jV L)) ↦[(chunkM coff' ch').view.set]{fullShare} chunkAfterO d L fs fv hin fx offS hS fd fo coff' ch' loff' lh') := by
  subst e1 e2; rfl

omit [FloatOps F] in
theorem rest_congr {off off' : Fin 2 → ℕ} (e : off = off') (h : ∀ a, off a + S1x128.size a ≤ S50x128.size a) (h' : ∀ a, off' a + S1x128.size a ≤ S50x128.size a)
    (q : PosShare TreeShare) (f : Buf (Elt F) ((V d (cV L) (jV L)).loc cc0_scratch0)) :
    ((sI).view.loc (V d (cV L) (jV L)) ↦[Finset.univ \ (listM off h).view.set]{q} f : sProp 𝕄)
      = ((sI).view.loc (V d (cV L) (jV L)) ↦[Finset.univ \ (listM off' h').view.set]{q} f) := by
  subst e; rfl

omit [FloatOps F] in
/-- A wait recorded at no handshake's index keeps the recorded waits within the task's allowance. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-! ## The task -/

set_option maxHeartbeats 4000000 in
set_option maxRecDepth 16384 in
/-- One task, on vector subcore `(L 0, L 1)`: holding read shares of the array of lists and of the table, and its 128
    rows of the result, it ends holding the same shares and its rows of the result at the lookup's value
    (`Gk`): entry (128·w + r, 128·j + e) is entry `e` of the table row that list word (j, w, r) names. -/
theorem tile_body (hF : (K (F := F)).Facts) (qv qx : PosShare TreeShare)
    (fv : Buf (Elt F) (vLoc d)) (fx : Buf (Elt F) (xLoc d)) (fo : Buf (Elt F) (oLoc d))
    (hin : ∀ j, (fv j).toNat < 100000)
    (O : CellTallies nD τ sig (HIx 1)) (W : Waits sig (HIx 1)) (hO : ∀ g, O g none = 0) :
    (iprop(levAts (K (F := F)).L (K (F := F)).lev ∗ emp
        ∗ ((vLoc d ↦{qv} fv) ∗ (xLoc d ↦{qx} fx) ∗ (oLoc d ↦[oTileSet L]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_run L vV (Memref.isWhole_whole _) xV (Memref.isWhole_whole _) oV (Memref.isWhole_whole _)
            sI (Memref.isWhole_whole _) sR (Memref.isWhole_whole _)
            cc0_scratch2 cc0_scratch3 cc0_scratch4 cc0_scratch5 cc0_scratch6 cc0_scratch7 cc0_scratch8 cc0_scratch9 cc0_scratch10 cc0_scratch11 cc0_scoped0)
          fun _ => iprop(((vLoc d ↦{qv} fv) ∗ (xLoc d ↦{qx} fx) ∗ (oLoc d ↦[oTileSet L]{fullShare} Gk fv fx))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_T, ownBufs_T]
  iintro ⟨#Hlv, -, ⟨Hv, Hx, Ho⟩, ⟨⟨%fs, Hs⟩, ⟨%fr, Hr⟩, Hbufs⟩, ⟨⟨Hg0, Hg1, Hg2, Hg3, Hg4, Hw0, Hw1, Hw2, Hw3, Hw4, Hsc⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hv' := (Entails.of_eq (pts_vV (F := F) d L _ _).symm) $$ Hv
  ihave Hxt := (toks5 (F := F) Finset.univ qx fx).1 $$ Hx
  icases Hxt with ⟨Hxd, Hx0, Hx1, Hx2, Hx3, Hx4⟩
  ihave Hx0 := (Entails.of_eq (pts_xV (F := F) d L _ _).symm) $$ Hx0
  ihave Hx1 := (Entails.of_eq (pts_xV (F := F) d L _ _).symm) $$ Hx1
  ihave Hx2 := (Entails.of_eq (pts_xV (F := F) d L _ _).symm) $$ Hx2
  ihave Hx3 := (Entails.of_eq (pts_xV (F := F) d L _ _).symm) $$ Hx3
  ihave Hx4 := (Entails.of_eq (pts_xV (F := F) d L _ _).symm) $$ Hx4
  ihave Hs' := (Entails.of_eq (pts_sI (F := F) d L _).symm) $$ Hs
  -- the row-buffer scratch as its five row buffers, the task's rows of the result as their fifty blocks
  ihave Hr5 := (Entails.of_eq (slots5 (F := F) d L fr)) $$ Hr
  icases Hr5 with ⟨D0, D1, D2, D3, D4⟩
  ihave Hoc := (Entails.of_eq (oTile_chunks (F := F) d L fo)) $$ Ho
  -- the task's fifty lists are copied into its scratch; from here on that scratch is only read, and it is held as
  -- five read tokens, one per gather semaphore, as the table is
  sl_exec
  ihave Hcap := (pts_cap (F := F) _) $$ Hs'
  icases Hcap with ⟨%cs, %hcs, Hs'⟩
  obtain rfl : cs = c0 d L fs fv := hcs.trans rfl
  ihave Hst := (toks5 (F := F) Finset.univ fullShare (c0 d L fs fv)).1 $$ Hs'
  icases Hst with ⟨Hsd, T0, T1, T2, T3, T4⟩
  -- lists 0 and 1 are gathered into row buffers 0 and 1: every word of a list names a row of the table
  ihave T0 := (Entails.of_eq (pts_sIq (F := F) d L _ _).symm) $$ T0
  have hin_p0 := c0_inb (F := F) d L fs fv hin ![0, 0] inb_S50x128_S1x128_0_0
  sl_exec
  ihave T1 := (Entails.of_eq (pts_sIq (F := F) d L _ _).symm) $$ T1
  have hin_p1 := c0_inb (F := F) d L fs fv hin ![1, 0] inb_S50x128_S1x128_1_0
  sl_exec
  ihave Hcap := (flight_cap (F := F) _ _ _ _ _) $$ Hg0
  icases Hcap with ⟨%Dg0, %hDg0, Hg0⟩
  obtain rfl : Dg0 = iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 fr (5 * 0))
              ∗ ((sI).view.loc (V d (cV L) (jV L)) ↦[LSet (5 * 0)]{tk fullShare 0} c0 d L fs fv))
            ∗ ((xV).view.loc (V d (cV L) (jV L)) ↦[(tblM).view.set]{tk qx 0} fx)) := hDg0.trans rfl
  ihave Hcap := (flight_cap (F := F) _ _ _ _ _) $$ Hg1
  icases Hcap with ⟨%Dg1, %hDg1, Hg1⟩
  obtain rfl : Dg1 = iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 fr (5 * 0 + 1))
              ∗ ((sI).view.loc (V d (cV L) (jV L)) ↦[LSet (5 * 0 + 1)]{tk fullShare 1} c0 d L fs fv))
            ∗ ((xV).view.loc (V d (cV L) (jV L)) ↦[(tblM).view.set]{tk qx 1} fx)) := hDg1.trans rfl
  ihave T0 := (Entails.of_eq (show ((sI).view.loc (V d (cV L) (jV L)) ↦[Finset.univ \ (listM ![0, 0] inb_S50x128_S1x128_0_0).view.set]{tk fullShare 0} c0 d L fs fv : sProp 𝕄) = ((sI).view.loc (V d (cV L) (jV L)) ↦[Finset.univ \ LSet (5 * 0)]{tk fullShare 0} c0 d L fs fv : sProp 𝕄) from rfl)) $$ T0
  ihave T1 := (Entails.of_eq (show ((sI).view.loc (V d (cV L) (jV L)) ↦[Finset.univ \ (listM ![1, 0] inb_S50x128_S1x128_1_0).view.set]{tk fullShare 1} c0 d L fs fv : sProp 𝕄) = ((sI).view.loc (V d (cV L) (jV L)) ↦[Finset.univ \ LSet (5 * 0 + 1)]{tk fullShare 1} c0 d L fs fv : sProp 𝕄) from rfl)) $$ T1
  -- the ten trips, by the invariant
  sl_for (inv d L fs fv hin fx qx fo O W) $$ [Hmw HO Hg0 Hg1 Hx0 Hx1 T0 T1 Hw2 Hw3 Hw4 D2 D3 D4 Hx2 Hx3 Hx4 T2 T3 T4 Hg2 Hg3 Hg4 Hw0 Hw1 Hoc]
  case region =>
    -- one trip, five steps b = 0 … 4: row buffer (b + 2) mod 5 is free once its previous copy out (block 5k + b - 3) has
    -- landed, and list 5k + b + 2 is gathered into it; the gather of list 5k + b into row buffer b lands, and that buffer is
    -- copied out to block 5k + b. Each gather and each copy out has a semaphore of its own.
    intro k _
    have hk10 : k.val < 10 := lt_of_lt_of_le k.isLt (le_of_eq trips_eq)
    rw [inv, GPart_lt d L fs fv hin fx qx fo k.val hk10]
    -- the first trip: no copy out is in flight yet
    by_cases hk0 : k.val = 0
    · have hk9 : k.val < 9 := by omega
      rw [show WPart d L fs fv hin fx qx fo k.val = iprop(semVal (dcell d L cc0_scratch9.sem) 0 ∗ semVal (dcell d L cc0_scratch10.sem) 0 ∗ semVal (dcell d L cc0_scratch11.sem) 0
      ∗ (∃ f, (slotM ![2, 0, 0] inb_S5x128x128_S1x128x128_2_0_0).view.loc (V d (cV L) (jV L)) ↦[(slotM ![2, 0, 0] inb_S5x128x128_S1x128x128_2_0_0).view.set]{fullShare} f) ∗ (∃ f, (slotM ![3, 0, 0] inb_S5x128x128_S1x128x128_3_0_0).view.loc (V d (cV L) (jV L)) ↦[(slotM ![3, 0, 0] inb_S5x128x128_S1x128x128_3_0_0).view.set]{fullShare} f)
      ∗ (∃ f, (slotM ![4, 0, 0] inb_S5x128x128_S1x128x128_4_0_0).view.loc (V d (cV L) (jV L)) ↦[(slotM ![4, 0, 0] inb_S5x128x128_S1x128x128_4_0_0).view.set]{fullShare} f)) from by rw [hk0]; exact WPart_zero d L fs fv hin fx qx fo]
      iintro ⟨Hmw, ⟨%W', %hW', HO⟩, ⟨⟨%fd0, G0⟩, ⟨%fd1, G1⟩, Rx0, Rx1, Rs0, Rs1⟩, ⟨Hw2, Hw3, Hw4, ⟨%f2, D2⟩, ⟨%f3, D3⟩, ⟨%f4, D4⟩⟩, X2, X3, X4, T2, T3, T4, Hg2, Hg3, Hg4, Hw0, Hw1, Hdone, Htodo⟩
      have k0_h1 : ¬ k0_cond1 k = 1#1 := fun h => by have := (cond1_iff k).mp h; omega
      have k0_h2 : ¬ k0_cond2 k = 1#1 := fun h => by have := (cond2_iff k).mp h; omega
      have k0_h3 : ¬ k0_cond3 k = 1#1 := fun h => by have := (cond3_iff k).mp h; omega
      have k0_h4 : k0_cond4 k = 1#1 := (cond4_iff k).mpr hk9
      have k0_h5 : k0_cond5 k = 1#1 := (cond5_iff k).mpr hk9
      ihave Ht := (Entails.of_eq (todo_peel (fun j => ((CM L j).view.loc (V d (cV L) (jV L)) ↦[(CM L j).view.set]{fullShare} fo : sProp 𝕄)) k.val hk10)) $$ Htodo
      icases Ht with ⟨C0, C1, C2, C3, C4, Htodo⟩
      ihave C0 := (Entails.of_eq (show ((CM L (5 * k.val + 0)).view.loc (V d (cV L) (jV L)) ↦[(CM L (5 * k.val + 0)).view.set]{fullShare} fo : sProp 𝕄) = ((chunkM (k0_off4 L k 0#32) (k0_off4_inb L k 0)).view.loc (V d (cV L) (jV L)) ↦[(chunkM (k0_off4 L k 0#32) (k0_off4_inb L k 0)).view.set]{fullShare} fo : sProp 𝕄) from
        chunk_pts_congr (F := F) d L (off4_co L k 0).symm _ _ fo)) $$ C0
      ihave C1 := (Entails.of_eq (show ((CM L (5 * k.val + 1)).view.loc (V d (cV L) (jV L)) ↦[(CM L (5 * k.val + 1)).view.set]{fullShare} fo : sProp 𝕄) = ((chunkM (k0_off4 L k 1#32) (k0_off4_inb L k 1)).view.loc (V d (cV L) (jV L)) ↦[(chunkM (k0_off4 L k 1#32) (k0_off4_inb L k 1)).view.set]{fullShare} fo : sProp 𝕄) from
        chunk_pts_congr (F := F) d L (off4_co L k 1).symm _ _ fo)) $$ C1
      ihave C2 := (Entails.of_eq (show ((CM L (5 * k.val + 2)).view.loc (V d (cV L) (jV L)) ↦[(CM L (5 * k.val + 2)).view.set]{fullShare} fo : sProp 𝕄) = ((chunkM (k0_off4 L k 2#32) (k0_off4_inb L k 2)).view.loc (V d (cV L) (jV L)) ↦[(chunkM (k0_off4 L k 2#32) (k0_off4_inb L k 2)).view.set]{fullShare} fo : sProp 𝕄) from
        chunk_pts_congr (F := F) d L (off4_co L k 2).symm _ _ fo)) $$ C2
      ihave C3 := (Entails.of_eq (show ((CM L (5 * k.val + 3)).view.loc (V d (cV L) (jV L)) ↦[(CM L (5 * k.val + 3)).view.set]{fullShare} fo : sProp 𝕄) = ((chunkM (k0_off4 L k 3#32) (k0_off4_inb L k 3)).view.loc (V d (cV L) (jV L)) ↦[(chunkM (k0_off4 L k 3#32) (k0_off4_inb L k 3)).view.set]{fullShare} fo : sProp 𝕄) from
        chunk_pts_congr (F := F) d L (off4_co L k 3).symm _ _ fo)) $$ C3
      ihave C4 := (Entails.of_eq (show ((CM L (5 * k.val + 4)).view.loc (V d (cV L) (jV L)) ↦[(CM L (5 * k.val + 4)).view.set]{fullShare} fo : sProp 𝕄) = ((chunkM (k0_off4 L k 4#32) (k0_off4_inb L k 4)).view.loc (V d (cV L) (jV L)) ↦[(chunkM (k0_off4 L k 4#32) (k0_off4_inb L k 4)).view.set]{fullShare} fo : sProp 𝕄) from
        chunk_pts_congr (F := F) d L (off4_co L k 4).symm _ _ fo)) $$ C4
      ihave T2 := (Entails.of_eq (pts_sIq (F := F) d L _ _).symm) $$ T2
      have hin_0 := c0_inb (F := F) d L fs fv hin (k0_off3 k 0#32) (k0_off3_inb k 0)
      sl_exec
      ihave Rs0 := (Entails.of_eq (pts_sIq (F := F) d L _ _)) $$ Rs0
      ihave T3 := (Entails.of_eq (pts_sIq (F := F) d L _ _).symm) $$ T3
      have hin_1 := c0_inb (F := F) d L fs fv hin (k0_off3 k 1#32) (k0_off3_inb k 1)
      sl_exec
      ihave Rs1 := (Entails.of_eq (pts_sIq (F := F) d L _ _)) $$ Rs1
      ihave T4 := (Entails.of_eq (pts_sIq (F := F) d L _ _).symm) $$ T4
      have hin_2 := c0_inb (F := F) d L fs fv hin (k0_off3 k 2#32) (k0_off3_inb k 2)
      sl_exec
      ihave T2 := (Entails.of_eq (pts_sIq (F := F) d L _ _)) $$ T2
      ihave Rs0 := (Entails.of_eq (pts_sIq (F := F) d L _ _).symm) $$ Rs0
      have hin_3 := c0_inb (F := F) d L fs fv hin (k0_off8 k) (k0_off8_inb k k0_h4)
      sl_exec
      ihave T3 := (Entails.of_eq (pts_sIq (F := F) d L _ _)) $$ T3
      ihave Rs1 := (Entails.of_eq (pts_sIq (F := F) d L _ _).symm) $$ Rs1
      have hin_4 := c0_inb (F := F) d L fs fv hin (k0_off9 k) (k0_off9_inb k k0_h5)
      sl_exec
      sl_step
      ihave T4 := (Entails.of_eq (pts_sIq (F := F) d L _ _)) $$ T4
      iclear Hdone G0_dst G1_dst
      have e8 : k0_off8 k = lo (5 * (k.val + 1)) := (off8_lo k hk9).trans (congrArg lo (by omega))
      have e9 : k0_off9 k = lo (5 * (k.val + 1) + 1) := (off9_lo k hk9).trans (congrArg lo (by omega))
      ihave Hcap := (flight_cap (F := F) _ _ _ _ _) $$ G0
      icases Hcap with ⟨%DG0, %hDG0, G0⟩
      obtain rfl : DG0 = iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 (slotAfter d L fs fv hin fx ![0, 0, 0] inb_S5x128x128_S1x128x128_0_0_0 fd0 (5 * k.val)) (5 * (k.val + 1)))
              ∗ ((sI).view.loc (V d (cV L) (jV L)) ↦[LSet (5 * (k.val + 1))]{tk fullShare 0} c0 d L fs fv))
            ∗ ((xV).view.loc (V d (cV L) (jV L)) ↦[(tblM).view.set]{tk qx 0} fx)) :=
        (hDG0.trans (rfl : _ = gDelO d L fs fv hin fx (tk qx 0) (tk fullShare 0) ![0, 0, 0] inb_S5x128x128_S1x128x128_0_0_0 (slotAfter d L fs fv hin fx ![0, 0, 0] inb_S5x128x128_S1x128x128_0_0_0 fd0 (5 * k.val)) (k0_off8 k) (k0_off8_inb k k0_h4))).trans
          ((gDelO_congr d L fs fv hin fx _ _ _ _ _ e8 _ (lo_inb _)).trans rfl)
      ihave Hcap := (flight_cap (F := F) _ _ _ _ _) $$ G1
      icases Hcap with ⟨%DG1, %hDG1, G1⟩
      obtain rfl : DG1 = iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 (slotAfter d L fs fv hin fx ![1, 0, 0] inb_S5x128x128_S1x128x128_1_0_0 fd1 (5 * k.val + 1)) (5 * (k.val + 1) + 1))
              ∗ ((sI).view.loc (V d (cV L) (jV L)) ↦[LSet (5 * (k.val + 1) + 1)]{tk fullShare 1} c0 d L fs fv))
            ∗ ((xV).view.loc (V d (cV L) (jV L)) ↦[(tblM).view.set]{tk qx 1} fx)) :=
        (hDG1.trans (rfl : _ = gDelO d L fs fv hin fx (tk qx 1) (tk fullShare 1) ![1, 0, 0] inb_S5x128x128_S1x128x128_1_0_0 (slotAfter d L fs fv hin fx ![1, 0, 0] inb_S5x128x128_S1x128x128_1_0_0 fd1 (5 * k.val + 1)) (k0_off9 k) (k0_off9_inb k k0_h5))).trans
          ((gDelO_congr d L fs fv hin fx _ _ _ _ _ e9 _ (lo_inb _)).trans rfl)
      ihave Rs0 := (Entails.of_eq (show ((sI).view.loc (V d (cV L) (jV L)) ↦[Finset.univ \ (listM (k0_off8 k) (k0_off8_inb k k0_h4)).view.set]{tk fullShare 0} c0 d L fs fv : sProp 𝕄) = ((sI).view.loc (V d (cV L) (jV L)) ↦[Finset.univ \ LSet (5 * (k.val + 1))]{tk fullShare 0} c0 d L fs fv : sProp 𝕄) from
        rest_congr (F := F) d L e8 _ (lo_inb _) _ _)) $$ Rs0
      ihave Rs1 := (Entails.of_eq (show ((sI).view.loc (V d (cV L) (jV L)) ↦[Finset.univ \ (listM (k0_off9 k) (k0_off9_inb k k0_h5)).view.set]{tk fullShare 1} c0 d L fs fv : sProp 𝕄) = ((sI).view.loc (V d (cV L) (jV L)) ↦[Finset.univ \ LSet (5 * (k.val + 1) + 1)]{tk fullShare 1} c0 d L fs fv : sProp 𝕄) from
        rest_congr (F := F) d L e9 _ (lo_inb _) _ _)) $$ Rs1
      have ec2 : k0_off4 L k 2#32 = co L (5 * (k.val + 1) - 3) := (off4_co L k 2).trans (congrArg (co L) (by show 5 * k.val + 2 = _; omega))
      have el2 : k0_off3 k 0#32 = lo (5 * (k.val + 1) - 3) := (off3_lo k 0).trans (congrArg lo (by show 5 * k.val + 0 + 2 = _; omega))
      ihave Hcap := (flight_cap (F := F) _ _ _ _ _) $$ Hw2
      icases Hcap with ⟨%DW2, %hDW2, Hw2⟩
      obtain rfl : DW2 = iprop(((CM L (5 * (k.val + 1) - 3)).view.loc (V d (cV L) (jV L)) ↦[(CM L (5 * (k.val + 1) - 3)).view.set]{fullShare} chunkAfter d L fs fv hin fx ![2, 0, 0] inb_S5x128x128_S1x128x128_2_0_0 f2 fo (5 * (k.val + 1) - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 f2 (5 * (k.val + 1) - 3))) :=
        (hDW2.trans (rfl : _ = wDelO d L fs fv hin fx ![2, 0, 0] inb_S5x128x128_S1x128x128_2_0_0 f2 fo (k0_off4 L k 2#32) (k0_off4_inb L k 2) (k0_off3 k 0#32) (k0_off3_inb k 0))).trans
          ((wDelO_congr d L fs fv hin fx _ _ _ fo ec2 _ (co_inb L _) el2 _ (lo_inb _)).trans rfl)
      have ec3 : k0_off4 L k 3#32 = co L (5 * (k.val + 1) - 2) := (off4_co L k 3).trans (congrArg (co L) (by show 5 * k.val + 3 = _; omega))
      have el3 : k0_off3 k 1#32 = lo (5 * (k.val + 1) - 2) := (off3_lo k 1).trans (congrArg lo (by show 5 * k.val + 1 + 2 = _; omega))
      ihave Hcap := (flight_cap (F := F) _ _ _ _ _) $$ Hw3
      icases Hcap with ⟨%DW3, %hDW3, Hw3⟩
      obtain rfl : DW3 = iprop(((CM L (5 * (k.val + 1) - 2)).view.loc (V d (cV L) (jV L)) ↦[(CM L (5 * (k.val + 1) - 2)).view.set]{fullShare} chunkAfter d L fs fv hin fx ![3, 0, 0] inb_S5x128x128_S1x128x128_3_0_0 f3 fo (5 * (k.val + 1) - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 f3 (5 * (k.val + 1) - 2))) :=
        (hDW3.trans (rfl : _ = wDelO d L fs fv hin fx ![3, 0, 0] inb_S5x128x128_S1x128x128_3_0_0 f3 fo (k0_off4 L k 3#32) (k0_off4_inb L k 3) (k0_off3 k 1#32) (k0_off3_inb k 1))).trans
          ((wDelO_congr d L fs fv hin fx _ _ _ fo ec3 _ (co_inb L _) el3 _ (lo_inb _)).trans rfl)
      have ec4 : k0_off4 L k 4#32 = co L (5 * (k.val + 1) - 1) := (off4_co L k 4).trans (congrArg (co L) (by show 5 * k.val + 4 = _; omega))
      have el4 : k0_off3 k 2#32 = lo (5 * (k.val + 1) - 1) := (off3_lo k 2).trans (congrArg lo (by show 5 * k.val + 2 + 2 = _; omega))
      ihave Hcap := (flight_cap (F := F) _ _ _ _ _) $$ Hw4
      icases Hcap with ⟨%DW4, %hDW4, Hw4⟩
      obtain rfl : DW4 = iprop(((CM L (5 * (k.val + 1) - 1)).view.loc (V d (cV L) (jV L)) ↦[(CM L (5 * (k.val + 1) - 1)).view.set]{fullShare} chunkAfter d L fs fv hin fx ![4, 0, 0] inb_S5x128x128_S1x128x128_4_0_0 f4 fo (5 * (k.val + 1) - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 f4 (5 * (k.val + 1) - 1))) :=
        (hDW4.trans (rfl : _ = wDelO d L fs fv hin fx ![4, 0, 0] inb_S5x128x128_S1x128x128_4_0_0 f4 fo (k0_off4 L k 4#32) (k0_off4_inb L k 4) (k0_off3 k 2#32) (k0_off3_inb k 2))).trans
          ((wDelO_congr d L fs fv hin fx _ _ _ fo ec4 _ (co_inb L _) el4 _ (lo_inb _)).trans rfl)
      ihave Hcap := (pts_cap (F := F) _) $$ C0
      icases Hcap with ⟨%gC0, %hgC0, C0⟩
      obtain rfl : gC0 = chunkAfterO d L fs fv hin fx ![0, 0, 0] inb_S5x128x128_S1x128x128_0_0_0 fd0 fo (k0_off4 L k 0#32) (k0_off4_inb L k 0) (lo (5 * k.val)) (lo_inb (5 * k.val)) := hgC0.trans rfl
      ihave C0 := (Entails.of_eq (show ((chunkM (k0_off4 L k 0#32) (k0_off4_inb L k 0)).view.loc (V d (cV L) (jV L)) ↦[(chunkM (k0_off4 L k 0#32) (k0_off4_inb L k 0)).view.set]{fullShare} chunkAfterO d L fs fv hin fx ![0, 0, 0] inb_S5x128x128_S1x128x128_0_0_0 fd0 fo (k0_off4 L k 0#32) (k0_off4_inb L k 0) (lo (5 * k.val)) (lo_inb (5 * k.val)) : sProp 𝕄) = ((CM L (5 * k.val + 0)).view.loc (V d (cV L) (jV L)) ↦[(CM L (5 * k.val + 0)).view.set]{fullShare} Gk fv fx : sProp 𝕄) from
        (done_congr d L fs fv hin fx _ _ _ fo (off4_co L k 0) _ (co_inb L _) (rfl : lo (5 * k.val) = lo (5 * k.val + 0)) _ (lo_inb _)).trans
          (chunk_pts d L fs fv hin fx ![0, 0, 0] inb_S5x128x128_S1x128x128_0_0_0 fd0 fo (5 * k.val + 0) (by omega)))) $$ C0
      ihave Hcap := (pts_cap (F := F) _) $$ C1
      icases Hcap with ⟨%gC1, %hgC1, C1⟩
      obtain rfl : gC1 = chunkAfterO d L fs fv hin fx ![1, 0, 0] inb_S5x128x128_S1x128x128_1_0_0 fd1 fo (k0_off4 L k 1#32) (k0_off4_inb L k 1) (lo (5 * k.val + 1)) (lo_inb (5 * k.val + 1)) := hgC1.trans rfl
      ihave C1 := (Entails.of_eq (show ((chunkM (k0_off4 L k 1#32) (k0_off4_inb L k 1)).view.loc (V d (cV L) (jV L)) ↦[(chunkM (k0_off4 L k 1#32) (k0_off4_inb L k 1)).view.set]{fullShare} chunkAfterO d L fs fv hin fx ![1, 0, 0] inb_S5x128x128_S1x128x128_1_0_0 fd1 fo (k0_off4 L k 1#32) (k0_off4_inb L k 1) (lo (5 * k.val + 1)) (lo_inb (5 * k.val + 1)) : sProp 𝕄) = ((CM L (5 * k.val + 1)).view.loc (V d (cV L) (jV L)) ↦[(CM L (5 * k.val + 1)).view.set]{fullShare} Gk fv fx : sProp 𝕄) from
        (done_congr d L fs fv hin fx _ _ _ fo (off4_co L k 1) _ (co_inb L _) (rfl : lo (5 * k.val + 1) = lo (5 * k.val + 1)) _ (lo_inb _)).trans
          (chunk_pts d L fs fv hin fx ![1, 0, 0] inb_S5x128x128_S1x128x128_1_0_0 fd1 fo (5 * k.val + 1) (by omega)))) $$ C1
      have hdone : bigSep (Finset.range (5 * (k.val + 1) - 3)) (fun j => ((CM L j).view.loc (V d (cV L) (jV L)) ↦[(CM L j).view.set]{fullShare} Gk fv fx : sProp 𝕄)) = iprop((fun j => ((CM L j).view.loc (V d (cV L) (jV L)) ↦[(CM L j).view.set]{fullShare} Gk fv fx : sProp 𝕄)) (5 * k.val + 0) ∗ (fun j => ((CM L j).view.loc (V d (cV L) (jV L)) ↦[(CM L j).view.set]{fullShare} Gk fv fx : sProp 𝕄)) (5 * k.val + 1)) := by
        rw [hk0]; exact done_push0 (fun j => ((CM L j).view.loc (V d (cV L) (jV L)) ↦[(CM L j).view.set]{fullShare} Gk fv fx : sProp 𝕄))
      rw [inv, GPart_lt d L fs fv hin fx qx fo (k.val + 1) (by omega), WPart_pos d L fs fv hin fx qx fo (k.val + 1) (by omega), hdone]
      isplitl [Hmw]; · iexact Hmw
      isplitl [HO]
      · iexists _; isplitr
        swap; · iexact HO
        ipureintro
        repeat (first | exact hW' | refine waits_insert _ ?_)
      isplitl [G0 G1 Rx0 Rx1 Rs0 Rs1]
      · isplitl [G0]; · iexists _; iexact G0
        isplitl [G1]; · iexists _; iexact G1
        isplitl [Rx0]; · iexact Rx0
        isplitl [Rx1]; · iexact Rx1
        isplitl [Rs0]; · iexact Rs0
        iexact Rs1
      isplitl [Hw2 Hw3 Hw4]
      · isplitl [Hw2]; · iexists _; iexact Hw2
        isplitl [Hw3]; · iexists _; iexact Hw3
        iexists _; iexact Hw4
      isplitl [X2]; · iexact X2
      isplitl [X3]; · iexact X3
      isplitl [X4]; · iexact X4
      isplitl [T2]; · iexact T2
      isplitl [T3]; · iexact T3
      isplitl [T4]; · iexact T4
      isplitl [Hg2]; · iexact Hg2
      isplitl [Hg3]; · iexact Hg3
      isplitl [Hg4]; · iexact Hg4
      isplitl [Hw0]; · iexact Hw0
      isplitl [Hw1]; · iexact Hw1
      isplitl [C0 C1]
      · isplitl [C0]; · iexact C0
        iexact C1
      iexact Htodo
    -- a middle trip: three copies out of the trip before are in flight and land during this one
    · by_cases hk9 : k.val < 9
      · have hkpos : 0 < k.val := Nat.pos_of_ne_zero hk0
        rw [WPart_pos d L fs fv hin fx qx fo k.val hk0]
        iintro ⟨Hmw, ⟨%W', %hW', HO⟩, ⟨⟨%fd0, G0⟩, ⟨%fd1, G1⟩, Rx0, Rx1, Rs0, Rs1⟩, ⟨⟨%fd2, W2⟩, ⟨%fd3, W3⟩, ⟨%fd4, W4⟩⟩, X2, X3, X4, T2, T3, T4, Hg2, Hg3, Hg4, Hw0, Hw1, Hdone, Htodo⟩
        have k0_h1 : k0_cond1 k = 1#1 := (cond1_iff k).mpr hkpos
        have k0_h2 : k0_cond2 k = 1#1 := (cond2_iff k).mpr hkpos
        have k0_h3 : k0_cond3 k = 1#1 := (cond3_iff k).mpr hkpos
        have k0_h4 : k0_cond4 k = 1#1 := (cond4_iff k).mpr hk9
        have k0_h5 : k0_cond5 k = 1#1 := (cond5_iff k).mpr hk9
        ihave Ht := (Entails.of_eq (todo_peel (fun j => ((CM L j).view.loc (V d (cV L) (jV L)) ↦[(CM L j).view.set]{fullShare} fo : sProp 𝕄)) k.val hk10)) $$ Htodo
        icases Ht with ⟨C0, C1, C2, C3, C4, Htodo⟩
        ihave C0 := (Entails.of_eq (show ((CM L (5 * k.val + 0)).view.loc (V d (cV L) (jV L)) ↦[(CM L (5 * k.val + 0)).view.set]{fullShare} fo : sProp 𝕄) = ((chunkM (k0_off4 L k 0#32) (k0_off4_inb L k 0)).view.loc (V d (cV L) (jV L)) ↦[(chunkM (k0_off4 L k 0#32) (k0_off4_inb L k 0)).view.set]{fullShare} fo : sProp 𝕄) from
          chunk_pts_congr (F := F) d L (off4_co L k 0).symm _ _ fo)) $$ C0
        ihave C1 := (Entails.of_eq (show ((CM L (5 * k.val + 1)).view.loc (V d (cV L) (jV L)) ↦[(CM L (5 * k.val + 1)).view.set]{fullShare} fo : sProp 𝕄) = ((chunkM (k0_off4 L k 1#32) (k0_off4_inb L k 1)).view.loc (V d (cV L) (jV L)) ↦[(chunkM (k0_off4 L k 1#32) (k0_off4_inb L k 1)).view.set]{fullShare} fo : sProp 𝕄) from
          chunk_pts_congr (F := F) d L (off4_co L k 1).symm _ _ fo)) $$ C1
        ihave C2 := (Entails.of_eq (show ((CM L (5 * k.val + 2)).view.loc (V d (cV L) (jV L)) ↦[(CM L (5 * k.val + 2)).view.set]{fullShare} fo : sProp 𝕄) = ((chunkM (k0_off4 L k 2#32) (k0_off4_inb L k 2)).view.loc (V d (cV L) (jV L)) ↦[(chunkM (k0_off4 L k 2#32) (k0_off4_inb L k 2)).view.set]{fullShare} fo : sProp 𝕄) from
          chunk_pts_congr (F := F) d L (off4_co L k 2).symm _ _ fo)) $$ C2
        ihave C3 := (Entails.of_eq (show ((CM L (5 * k.val + 3)).view.loc (V d (cV L) (jV L)) ↦[(CM L (5 * k.val + 3)).view.set]{fullShare} fo : sProp 𝕄) = ((chunkM (k0_off4 L k 3#32) (k0_off4_inb L k 3)).view.loc (V d (cV L) (jV L)) ↦[(chunkM (k0_off4 L k 3#32) (k0_off4_inb L k 3)).view.set]{fullShare} fo : sProp 𝕄) from
          chunk_pts_congr (F := F) d L (off4_co L k 3).symm _ _ fo)) $$ C3
        ihave C4 := (Entails.of_eq (show ((CM L (5 * k.val + 4)).view.loc (V d (cV L) (jV L)) ↦[(CM L (5 * k.val + 4)).view.set]{fullShare} fo : sProp 𝕄) = ((chunkM (k0_off4 L k 4#32) (k0_off4_inb L k 4)).view.loc (V d (cV L) (jV L)) ↦[(chunkM (k0_off4 L k 4#32) (k0_off4_inb L k 4)).view.set]{fullShare} fo : sProp 𝕄) from
          chunk_pts_congr (F := F) d L (off4_co L k 4).symm _ _ fo)) $$ C4
        ihave T2 := (Entails.of_eq (pts_sIq (F := F) d L _ _).symm) $$ T2
        have hin_0 := c0_inb (F := F) d L fs fv hin (k0_off3 k 0#32) (k0_off3_inb k 0)
        sl_exec
        ihave Rs0 := (Entails.of_eq (pts_sIq (F := F) d L _ _)) $$ Rs0
        ihave T3 := (Entails.of_eq (pts_sIq (F := F) d L _ _).symm) $$ T3
        have hin_1 := c0_inb (F := F) d L fs fv hin (k0_off3 k 1#32) (k0_off3_inb k 1)
        sl_exec
        ihave Rs1 := (Entails.of_eq (pts_sIq (F := F) d L _ _)) $$ Rs1
        ihave T4 := (Entails.of_eq (pts_sIq (F := F) d L _ _).symm) $$ T4
        have hin_2 := c0_inb (F := F) d L fs fv hin (k0_off3 k 2#32) (k0_off3_inb k 2)
        sl_exec
        ihave T2 := (Entails.of_eq (pts_sIq (F := F) d L _ _)) $$ T2
        ihave Rs0 := (Entails.of_eq (pts_sIq (F := F) d L _ _).symm) $$ Rs0
        have hin_3 := c0_inb (F := F) d L fs fv hin (k0_off8 k) (k0_off8_inb k k0_h4)
        sl_exec
        ihave T3 := (Entails.of_eq (pts_sIq (F := F) d L _ _)) $$ T3
        ihave Rs1 := (Entails.of_eq (pts_sIq (F := F) d L _ _).symm) $$ Rs1
        have hin_4 := c0_inb (F := F) d L fs fv hin (k0_off9 k) (k0_off9_inb k k0_h5)
        sl_exec
        sl_step
        ihave T4 := (Entails.of_eq (pts_sIq (F := F) d L _ _)) $$ T4
        iclear G0_dst G1_dst
        have e8 : k0_off8 k = lo (5 * (k.val + 1)) := (off8_lo k hk9).trans (congrArg lo (by omega))
        have e9 : k0_off9 k = lo (5 * (k.val + 1) + 1) := (off9_lo k hk9).trans (congrArg lo (by omega))
        ihave Hcap := (flight_cap (F := F) _ _ _ _ _) $$ G0
        icases Hcap with ⟨%DG0, %hDG0, G0⟩
        obtain rfl : DG0 = iprop((((slotM ![0, 0, 0] inb_S5x128x128_S1x128x128_0_0_0).view.loc (V d (cV L) (jV L)) ↦[(slotM ![0, 0, 0] inb_S5x128x128_S1x128x128_0_0_0).view.set]{fullShare} slotAfter d L fs fv hin fx ![0, 0, 0] inb_S5x128x128_S1x128x128_0_0_0 (slotAfter d L fs fv hin fx ![0, 0, 0] inb_S5x128x128_S1x128x128_0_0_0 fd0 (5 * k.val)) (5 * (k.val + 1)))
                ∗ ((sI).view.loc (V d (cV L) (jV L)) ↦[LSet (5 * (k.val + 1))]{tk fullShare 0} c0 d L fs fv))
              ∗ ((xV).view.loc (V d (cV L) (jV L)) ↦[(tblM).view.set]{tk qx 0} fx)) :=
          (hDG0.trans (rfl : _ = gDelO d L fs fv hin fx (tk qx 0) (tk fullShare 0) ![0, 0, 0] inb_S5x128x128_S1x128x128_0_0_0 (slotAfter d L fs fv hin fx ![0, 0, 0] inb_S5x128x128_S1x128x128_0_0_0 fd0 (5 * k.val)) (k0_off8 k) (k0_off8_inb k k0_h4))).trans
            ((gDelO_congr d L fs fv hin fx _ _ _ _ _ e8 _ (lo_inb _)).trans rfl)
        ihave Hcap := (flight_cap (F := F) _ _ _ _ _) $$ G1
        icases Hcap with ⟨%DG1, %hDG1, G1⟩
        obtain rfl : DG1 = iprop((((slotM ![1, 0, 0] inb_S5x128x128_S1x128x128_1_0_0).view.loc (V d (cV L) (jV L)) ↦[(slotM ![1, 0, 0] inb_S5x128x128_S1x128x128_1_0_0).view.set]{fullShare} slotAfter d L fs fv hin fx ![1, 0, 0] inb_S5x128x128_S1x128x128_1_0_0 (slotAfter d L fs fv hin fx ![1, 0, 0] inb_S5x128x128_S1x128x128_1_0_0 fd1 (5 * k.val + 1)) (5 * (k.val + 1) + 1))
                ∗ ((sI).view.loc (V d (cV L) (jV L)) ↦[LSet (5 * (k.val + 1) + 1)]{tk fullShare 1} c0 d L fs fv))
              ∗ ((xV).view.loc (V d (cV L) (jV L)) ↦[(tblM).view.set]{tk qx 1} fx)) :=
          (hDG1.trans (rfl : _ = gDelO d L fs fv hin fx (tk qx 1) (tk fullShare 1) ![1, 0, 0] inb_S5x128x128_S1x128x128_1_0_0 (slotAfter d L fs fv hin fx ![1, 0, 0] inb_S5x128x128_S1x128x128_1_0_0 fd1 (5 * k.val + 1)) (k0_off9 k) (k0_off9_inb k k0_h5))).trans
            ((gDelO_congr d L fs fv hin fx _ _ _ _ _ e9 _ (lo_inb _)).trans rfl)
        ihave Rs0 := (Entails.of_eq (show ((sI).view.loc (V d (cV L) (jV L)) ↦[Finset.univ \ (listM (k0_off8 k) (k0_off8_inb k k0_h4)).view.set]{tk fullShare 0} c0 d L fs fv : sProp 𝕄) = ((sI).view.loc (V d (cV L) (jV L)) ↦[Finset.univ \ LSet (5 * (k.val + 1))]{tk fullShare 0} c0 d L fs fv : sProp 𝕄) from
          rest_congr (F := F) d L e8 _ (lo_inb _) _ _)) $$ Rs0
        ihave Rs1 := (Entails.of_eq (show ((sI).view.loc (V d (cV L) (jV L)) ↦[Finset.univ \ (listM (k0_off9 k) (k0_off9_inb k k0_h5)).view.set]{tk fullShare 1} c0 d L fs fv : sProp 𝕄) = ((sI).view.loc (V d (cV L) (jV L)) ↦[Finset.univ \ LSet (5 * (k.val + 1) + 1)]{tk fullShare 1} c0 d L fs fv : sProp 𝕄) from
          rest_congr (F := F) d L e9 _ (lo_inb _) _ _)) $$ Rs1
        have ec2 : k0_off4 L k 2#32 = co L (5 * (k.val + 1) - 3) := (off4_co L k 2).trans (congrArg (co L) (by show 5 * k.val + 2 = _; omega))
        have el2 : k0_off3 k 0#32 = lo (5 * (k.val + 1) - 3) := (off3_lo k 0).trans (congrArg lo (by show 5 * k.val + 0 + 2 = _; omega))
        ihave Hcap := (flight_cap (F := F) _ _ _ _ _) $$ W2
        icases Hcap with ⟨%DW2, %hDW2, W2⟩
        obtain rfl : DW2 = iprop(((CM L (5 * (k.val + 1) - 3)).view.loc (V d (cV L) (jV L)) ↦[(CM L (5 * (k.val + 1) - 3)).view.set]{fullShare} chunkAfter d L fs fv hin fx ![2, 0, 0] inb_S5x128x128_S1x128x128_2_0_0 (slotAfter d L fs fv hin fx ![2, 0, 0] inb_S5x128x128_S1x128x128_2_0_0 fd2 (5 * k.val - 3)) fo (5 * (k.val + 1) - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 (slotAfter d L fs fv hin fx ![2, 0, 0] inb_S5x128x128_S1x128x128_2_0_0 fd2 (5 * k.val - 3)) (5 * (k.val + 1) - 3))) :=
          (hDW2.trans (rfl : _ = wDelO d L fs fv hin fx ![2, 0, 0] inb_S5x128x128_S1x128x128_2_0_0 (slotAfter d L fs fv hin fx ![2, 0, 0] inb_S5x128x128_S1x128x128_2_0_0 fd2 (5 * k.val - 3)) fo (k0_off4 L k 2#32) (k0_off4_inb L k 2) (k0_off3 k 0#32) (k0_off3_inb k 0))).trans
            ((wDelO_congr d L fs fv hin fx _ _ _ fo ec2 _ (co_inb L _) el2 _ (lo_inb _)).trans rfl)
        have ec3 : k0_off4 L k 3#32 = co L (5 * (k.val + 1) - 2) := (off4_co L k 3).trans (congrArg (co L) (by show 5 * k.val + 3 = _; omega))
        have el3 : k0_off3 k 1#32 = lo (5 * (k.val + 1) - 2) := (off3_lo k 1).trans (congrArg lo (by show 5 * k.val + 1 + 2 = _; omega))
        ihave Hcap := (flight_cap (F := F) _ _ _ _ _) $$ W3
        icases Hcap with ⟨%DW3, %hDW3, W3⟩
        obtain rfl : DW3 = iprop(((CM L (5 * (k.val + 1) - 2)).view.loc (V d (cV L) (jV L)) ↦[(CM L (5 * (k.val + 1) - 2)).view.set]{fullShare} chunkAfter d L fs fv hin fx ![3, 0, 0] inb_S5x128x128_S1x128x128_3_0_0 (slotAfter d L fs fv hin fx ![3, 0, 0] inb_S5x128x128_S1x128x128_3_0_0 fd3 (5 * k.val - 2)) fo (5 * (k.val + 1) - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 (slotAfter d L fs fv hin fx ![3, 0, 0] inb_S5x128x128_S1x128x128_3_0_0 fd3 (5 * k.val - 2)) (5 * (k.val + 1) - 2))) :=
          (hDW3.trans (rfl : _ = wDelO d L fs fv hin fx ![3, 0, 0] inb_S5x128x128_S1x128x128_3_0_0 (slotAfter d L fs fv hin fx ![3, 0, 0] inb_S5x128x128_S1x128x128_3_0_0 fd3 (5 * k.val - 2)) fo (k0_off4 L k 3#32) (k0_off4_inb L k 3) (k0_off3 k 1#32) (k0_off3_inb k 1))).trans
            ((wDelO_congr d L fs fv hin fx _ _ _ fo ec3 _ (co_inb L _) el3 _ (lo_inb _)).trans rfl)
        have ec4 : k0_off4 L k 4#32 = co L (5 * (k.val + 1) - 1) := (off4_co L k 4).trans (congrArg (co L) (by show 5 * k.val + 4 = _; omega))
        have el4 : k0_off3 k 2#32 = lo (5 * (k.val + 1) - 1) := (off3_lo k 2).trans (congrArg lo (by show 5 * k.val + 2 + 2 = _; omega))
        ihave Hcap := (flight_cap (F := F) _ _ _ _ _) $$ W4
        icases Hcap with ⟨%DW4, %hDW4, W4⟩
        obtain rfl : DW4 = iprop(((CM L (5 * (k.val + 1) - 1)).view.loc (V d (cV L) (jV L)) ↦[(CM L (5 * (k.val + 1) - 1)).view.set]{fullShare} chunkAfter d L fs fv hin fx ![4, 0, 0] inb_S5x128x128_S1x128x128_4_0_0 (slotAfter d L fs fv hin fx ![4, 0, 0] inb_S5x128x128_S1x128x128_4_0_0 fd4 (5 * k.val - 1)) fo (5 * (k.val + 1) - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 (slotAfter d L fs fv hin fx ![4, 0, 0] inb_S5x128x128_S1x128x128_4_0_0 fd4 (5 * k.val - 1)) (5 * (k.val + 1) - 1))) :=
          (hDW4.trans (rfl : _ = wDelO d L fs fv hin fx ![4, 0, 0] inb_S5x128x128_S1x128x128_4_0_0 (slotAfter d L fs fv hin fx ![4, 0, 0] inb_S5x128x128_S1x128x128_4_0_0 fd4 (5 * k.val - 1)) fo (k0_off4 L k 4#32) (k0_off4_inb L k 4) (k0_off3 k 2#32) (k0_off3_inb k 2))).trans
            ((wDelO_congr d L fs fv hin fx _ _ _ fo ec4 _ (co_inb L _) el4 _ (lo_inb _)).trans rfl)
        ihave Hcap := (pts_cap (F := F) _) $$ C0
        icases Hcap with ⟨%gC0, %hgC0, C0⟩
        obtain rfl : gC0 = chunkAfterO d L fs fv hin fx ![0, 0, 0] inb_S5x128x128_S1x128x128_0_0_0 fd0 fo (k0_off4 L k 0#32) (k0_off4_inb L k 0) (lo (5 * k.val)) (lo_inb (5 * k.val)) := hgC0.trans rfl
        ihave C0 := (Entails.of_eq (show ((chunkM (k0_off4 L k 0#32) (k0_off4_inb L k 0)).view.loc (V d (cV L) (jV L)) ↦[(chunkM (k0_off4 L k 0#32) (k0_off4_inb L k 0)).view.set]{fullShare} chunkAfterO d L fs fv hin fx ![0, 0, 0] inb_S5x128x128_S1x128x128_0_0_0 fd0 fo (k0_off4 L k 0#32) (k0_off4_inb L k 0) (lo (5 * k.val)) (lo_inb (5 * k.val)) : sProp 𝕄) = ((CM L (5 * k.val + 0)).view.loc (V d (cV L) (jV L)) ↦[(CM L (5 * k.val + 0)).view.set]{fullShare} Gk fv fx : sProp 𝕄) from
          (done_congr d L fs fv hin fx _ _ _ fo (off4_co L k 0) _ (co_inb L _) (rfl : lo (5 * k.val) = lo (5 * k.val + 0)) _ (lo_inb _)).trans
            (chunk_pts d L fs fv hin fx ![0, 0, 0] inb_S5x128x128_S1x128x128_0_0_0 fd0 fo (5 * k.val + 0) (by omega)))) $$ C0
        ihave Hcap := (pts_cap (F := F) _) $$ C1
        icases Hcap with ⟨%gC1, %hgC1, C1⟩
        obtain rfl : gC1 = chunkAfterO d L fs fv hin fx ![1, 0, 0] inb_S5x128x128_S1x128x128_1_0_0 fd1 fo (k0_off4 L k 1#32) (k0_off4_inb L k 1) (lo (5 * k.val + 1)) (lo_inb (5 * k.val + 1)) := hgC1.trans rfl
        ihave C1 := (Entails.of_eq (show ((chunkM (k0_off4 L k 1#32) (k0_off4_inb L k 1)).view.loc (V d (cV L) (jV L)) ↦[(chunkM (k0_off4 L k 1#32) (k0_off4_inb L k 1)).view.set]{fullShare} chunkAfterO d L fs fv hin fx ![1, 0, 0] inb_S5x128x128_S1x128x128_1_0_0 fd1 fo (k0_off4 L k 1#32) (k0_off4_inb L k 1) (lo (5 * k.val + 1)) (lo_inb (5 * k.val + 1)) : sProp 𝕄) = ((CM L (5 * k.val + 1)).view.loc (V d (cV L) (jV L)) ↦[(CM L (5 * k.val + 1)).view.set]{fullShare} Gk fv fx : sProp 𝕄) from
          (done_congr d L fs fv hin fx _ _ _ fo (off4_co L k 1) _ (co_inb L _) (rfl : lo (5 * k.val + 1) = lo (5 * k.val + 1)) _ (lo_inb _)).trans
            (chunk_pts d L fs fv hin fx ![1, 0, 0] inb_S5x128x128_S1x128x128_1_0_0 fd1 fo (5 * k.val + 1) (by omega)))) $$ C1
        ihave W2_dst := (Entails.of_eq (chunk_pts d L fs fv hin fx ![2, 0, 0] inb_S5x128x128_S1x128x128_2_0_0 fd2 fo (5 * k.val - 3) (by omega))) $$ W2_dst
        ihave W3_dst := (Entails.of_eq (chunk_pts d L fs fv hin fx ![3, 0, 0] inb_S5x128x128_S1x128x128_3_0_0 fd3 fo (5 * k.val - 2) (by omega))) $$ W3_dst
        ihave W4_dst := (Entails.of_eq (chunk_pts d L fs fv hin fx ![4, 0, 0] inb_S5x128x128_S1x128x128_4_0_0 fd4 fo (5 * k.val - 1) (by omega))) $$ W4_dst
        rw [inv, GPart_lt d L fs fv hin fx qx fo (k.val + 1) (by omega), WPart_pos d L fs fv hin fx qx fo (k.val + 1) (by omega), done_push (fun j => ((CM L j).view.loc (V d (cV L) (jV L)) ↦[(CM L j).view.set]{fullShare} Gk fv fx : sProp 𝕄)) k.val hkpos]
        isplitl [Hmw]; · iexact Hmw
        isplitl [HO]
        · iexists _; isplitr
          swap; · iexact HO
          ipureintro
          repeat (first | exact hW' | refine waits_insert _ ?_)
        isplitl [G0 G1 Rx0 Rx1 Rs0 Rs1]
        · isplitl [G0]; · iexists _; iexact G0
          isplitl [G1]; · iexists _; iexact G1
          isplitl [Rx0]; · iexact Rx0
          isplitl [Rx1]; · iexact Rx1
          isplitl [Rs0]; · iexact Rs0
          iexact Rs1
        isplitl [W2 W3 W4]
        · isplitl [W2]; · iexists _; iexact W2
          isplitl [W3]; · iexists _; iexact W3
          iexists _; iexact W4
        isplitl [X2]; · iexact X2
        isplitl [X3]; · iexact X3
        isplitl [X4]; · iexact X4
        isplitl [T2]; · iexact T2
        isplitl [T3]; · iexact T3
        isplitl [T4]; · iexact T4
        isplitl [Hg2]; · iexact Hg2
        isplitl [Hg3]; · iexact Hg3
        isplitl [Hg4]; · iexact Hg4
        isplitl [Hw0]; · iexact Hw0
        isplitl [Hw1]; · iexact Hw1
        isplitl [Hdone W2_dst W3_dst W4_dst C0 C1]
        · isplitl [Hdone]; · iexact Hdone
          isplitl [W2_dst]; · iexact W2_dst
          isplitl [W3_dst]; · iexact W3_dst
          isplitl [W4_dst]; · iexact W4_dst
          isplitl [C0]; · iexact C0
          iexact C1
        iexact Htodo
      -- the last trip: lists 50 and 51 do not exist, so nothing more is gathered and row buffers 0 and 1 end free
      · have hkpos : 0 < k.val := Nat.pos_of_ne_zero hk0
        rw [WPart_pos d L fs fv hin fx qx fo k.val hk0]
        iintro ⟨Hmw, ⟨%W', %hW', HO⟩, ⟨⟨%fd0, G0⟩, ⟨%fd1, G1⟩, Rx0, Rx1, Rs0, Rs1⟩, ⟨⟨%fd2, W2⟩, ⟨%fd3, W3⟩, ⟨%fd4, W4⟩⟩, X2, X3, X4, T2, T3, T4, Hg2, Hg3, Hg4, Hw0, Hw1, Hdone, Htodo⟩
        have k0_h1 : k0_cond1 k = 1#1 := (cond1_iff k).mpr hkpos
        have k0_h2 : k0_cond2 k = 1#1 := (cond2_iff k).mpr hkpos
        have k0_h3 : k0_cond3 k = 1#1 := (cond3_iff k).mpr hkpos
        have k0_h4 : ¬ k0_cond4 k = 1#1 := fun h => hk9 ((cond4_iff k).mp h)
        have k0_h5 : ¬ k0_cond5 k = 1#1 := fun h => hk9 ((cond5_iff k).mp h)
        ihave Ht := (Entails.of_eq (todo_peel (fun j => ((CM L j).view.loc (V d (cV L) (jV L)) ↦[(CM L j).view.set]{fullShare} fo : sProp 𝕄)) k.val hk10)) $$ Htodo
        icases Ht with ⟨C0, C1, C2, C3, C4, Htodo⟩
        ihave C0 := (Entails.of_eq (show ((CM L (5 * k.val + 0)).view.loc (V d (cV L) (jV L)) ↦[(CM L (5 * k.val + 0)).view.set]{fullShare} fo : sProp 𝕄) = ((chunkM (k0_off4 L k 0#32) (k0_off4_inb L k 0)).view.loc (V d (cV L) (jV L)) ↦[(chunkM (k0_off4 L k 0#32) (k0_off4_inb L k 0)).view.set]{fullShare} fo : sProp 𝕄) from
          chunk_pts_congr (F := F) d L (off4_co L k 0).symm _ _ fo)) $$ C0
        ihave C1 := (Entails.of_eq (show ((CM L (5 * k.val + 1)).view.loc (V d (cV L) (jV L)) ↦[(CM L (5 * k.val + 1)).view.set]{fullShare} fo : sProp 𝕄) = ((chunkM (k0_off4 L k 1#32) (k0_off4_inb L k 1)).view.loc (V d (cV L) (jV L)) ↦[(chunkM (k0_off4 L k 1#32) (k0_off4_inb L k 1)).view.set]{fullShare} fo : sProp 𝕄) from
          chunk_pts_congr (F := F) d L (off4_co L k 1).symm _ _ fo)) $$ C1
        ihave C2 := (Entails.of_eq (show ((CM L (5 * k.val + 2)).view.loc (V d (cV L) (jV L)) ↦[(CM L (5 * k.val + 2)).view.set]{fullShare} fo : sProp 𝕄) = ((chunkM (k0_off4 L k 2#32) (k0_off4_inb L k 2)).view.loc (V d (cV L) (jV L)) ↦[(chunkM (k0_off4 L k 2#32) (k0_off4_inb L k 2)).view.set]{fullShare} fo : sProp 𝕄) from
          chunk_pts_congr (F := F) d L (off4_co L k 2).symm _ _ fo)) $$ C2
        ihave C3 := (Entails.of_eq (show ((CM L (5 * k.val + 3)).view.loc (V d (cV L) (jV L)) ↦[(CM L (5 * k.val + 3)).view.set]{fullShare} fo : sProp 𝕄) = ((chunkM (k0_off4 L k 3#32) (k0_off4_inb L k 3)).view.loc (V d (cV L) (jV L)) ↦[(chunkM (k0_off4 L k 3#32) (k0_off4_inb L k 3)).view.set]{fullShare} fo : sProp 𝕄) from
          chunk_pts_congr (F := F) d L (off4_co L k 3).symm _ _ fo)) $$ C3
        ihave C4 := (Entails.of_eq (show ((CM L (5 * k.val + 4)).view.loc (V d (cV L) (jV L)) ↦[(CM L (5 * k.val + 4)).view.set]{fullShare} fo : sProp 𝕄) = ((chunkM (k0_off4 L k 4#32) (k0_off4_inb L k 4)).view.loc (V d (cV L) (jV L)) ↦[(chunkM (k0_off4 L k 4#32) (k0_off4_inb L k 4)).view.set]{fullShare} fo : sProp 𝕄) from
          chunk_pts_congr (F := F) d L (off4_co L k 4).symm _ _ fo)) $$ C4
        ihave T2 := (Entails.of_eq (pts_sIq (F := F) d L _ _).symm) $$ T2
        have hin_0 := c0_inb (F := F) d L fs fv hin (k0_off3 k 0#32) (k0_off3_inb k 0)
        sl_exec
        ihave Rs0 := (Entails.of_eq (pts_sIq (F := F) d L _ _)) $$ Rs0
        ihave T3 := (Entails.of_eq (pts_sIq (F := F) d L _ _).symm) $$ T3
        have hin_1 := c0_inb (F := F) d L fs fv hin (k0_off3 k 1#32) (k0_off3_inb k 1)
        sl_exec
        ihave Rs1 := (Entails.of_eq (pts_sIq (F := F) d L _ _)) $$ Rs1
        ihave T4 := (Entails.of_eq (pts_sIq (F := F) d L _ _).symm) $$ T4
        have hin_2 := c0_inb (F := F) d L fs fv hin (k0_off3 k 2#32) (k0_off3_inb k 2)
        sl_exec
        sl_step
        ihave T2 := (Entails.of_eq (pts_sIq (F := F) d L _ _)) $$ T2
        ihave T3 := (Entails.of_eq (pts_sIq (F := F) d L _ _)) $$ T3
        ihave T4 := (Entails.of_eq (pts_sIq (F := F) d L _ _)) $$ T4
        have ec2 : k0_off4 L k 2#32 = co L (5 * (k.val + 1) - 3) := (off4_co L k 2).trans (congrArg (co L) (by show 5 * k.val + 2 = _; omega))
        have el2 : k0_off3 k 0#32 = lo (5 * (k.val + 1) - 3) := (off3_lo k 0).trans (congrArg lo (by show 5 * k.val + 0 + 2 = _; omega))
        ihave Hcap := (flight_cap (F := F) _ _ _ _ _) $$ W2
        icases Hcap with ⟨%DW2, %hDW2, W2⟩
        obtain rfl : DW2 = iprop(((CM L (5 * (k.val + 1) - 3)).view.loc (V d (cV L) (jV L)) ↦[(CM L (5 * (k.val + 1) - 3)).view.set]{fullShare} chunkAfter d L fs fv hin fx ![2, 0, 0] inb_S5x128x128_S1x128x128_2_0_0 (slotAfter d L fs fv hin fx ![2, 0, 0] inb_S5x128x128_S1x128x128_2_0_0 fd2 (5 * k.val - 3)) fo (5 * (k.val + 1) - 3))
            ∗ ((slotM ![2, 0, 0] inb_S5x128x128_S1x128x128_2_0_0).view.loc (V d (cV L) (jV L)) ↦[(slotM ![2, 0, 0] inb_S5x128x128_S1x128x128_2_0_0).view.set]{fullShare} slotAfter d L fs fv hin fx ![2, 0, 0] inb_S5x128x128_S1x128x128_2_0_0 (slotAfter d L fs fv hin fx ![2, 0, 0] inb_S5x128x128_S1x128x128_2_0_0 fd2 (5 * k.val - 3)) (5 * (k.val + 1) - 3))) :=
          (hDW2.trans (rfl : _ = wDelO d L fs fv hin fx ![2, 0, 0] inb_S5x128x128_S1x128x128_2_0_0 (slotAfter d L fs fv hin fx ![2, 0, 0] inb_S5x128x128_S1x128x128_2_0_0 fd2 (5 * k.val - 3)) fo (k0_off4 L k 2#32) (k0_off4_inb L k 2) (k0_off3 k 0#32) (k0_off3_inb k 0))).trans
            ((wDelO_congr d L fs fv hin fx _ _ _ fo ec2 _ (co_inb L _) el2 _ (lo_inb _)).trans rfl)
        have ec3 : k0_off4 L k 3#32 = co L (5 * (k.val + 1) - 2) := (off4_co L k 3).trans (congrArg (co L) (by show 5 * k.val + 3 = _; omega))
        have el3 : k0_off3 k 1#32 = lo (5 * (k.val + 1) - 2) := (off3_lo k 1).trans (congrArg lo (by show 5 * k.val + 1 + 2 = _; omega))
        ihave Hcap := (flight_cap (F := F) _ _ _ _ _) $$ W3
        icases Hcap with ⟨%DW3, %hDW3, W3⟩
        obtain rfl : DW3 = iprop(((CM L (5 * (k.val + 1) - 2)).view.loc (V d (cV L) (jV L)) ↦[(CM L (5 * (k.val + 1) - 2)).view.set]{fullShare} chunkAfter d L fs fv hin fx ![3, 0, 0] inb_S5x128x128_S1x128x128_3_0_0 (slotAfter d L fs fv hin fx ![3, 0, 0] inb_S5x128x128_S1x128x128_3_0_0 fd3 (5 * k.val - 2)) fo (5 * (k.val + 1) - 2))
            ∗ ((slotM ![3, 0, 0] inb_S5x128x128_S1x128x128_3_0_0).view.loc (V d (cV L) (jV L)) ↦[(slotM ![3, 0, 0] inb_S5x128x128_S1x128x128_3_0_0).view.set]{fullShare} slotAfter d L fs fv hin fx ![3, 0, 0] inb_S5x128x128_S1x128x128_3_0_0 (slotAfter d L fs fv hin fx ![3, 0, 0] inb_S5x128x128_S1x128x128_3_0_0 fd3 (5 * k.val - 2)) (5 * (k.val + 1) - 2))) :=
          (hDW3.trans (rfl : _ = wDelO d L fs fv hin fx ![3, 0, 0] inb_S5x128x128_S1x128x128_3_0_0 (slotAfter d L fs fv hin fx ![3, 0, 0] inb_S5x128x128_S1x128x128_3_0_0 fd3 (5 * k.val - 2)) fo (k0_off4 L k 3#32) (k0_off4_inb L k 3) (k0_off3 k 1#32) (k0_off3_inb k 1))).trans
            ((wDelO_congr d L fs fv hin fx _ _ _ fo ec3 _ (co_inb L _) el3 _ (lo_inb _)).trans rfl)
        have ec4 : k0_off4 L k 4#32 = co L (5 * (k.val + 1) - 1) := (off4_co L k 4).trans (congrArg (co L) (by show 5 * k.val + 4 = _; omega))
        have el4 : k0_off3 k 2#32 = lo (5 * (k.val + 1) - 1) := (off3_lo k 2).trans (congrArg lo (by show 5 * k.val + 2 + 2 = _; omega))
        ihave Hcap := (flight_cap (F := F) _ _ _ _ _) $$ W4
        icases Hcap with ⟨%DW4, %hDW4, W4⟩
        obtain rfl : DW4 = iprop(((CM L (5 * (k.val + 1) - 1)).view.loc (V d (cV L) (jV L)) ↦[(CM L (5 * (k.val + 1) - 1)).view.set]{fullShare} chunkAfter d L fs fv hin fx ![4, 0, 0] inb_S5x128x128_S1x128x128_4_0_0 (slotAfter d L fs fv hin fx ![4, 0, 0] inb_S5x128x128_S1x128x128_4_0_0 fd4 (5 * k.val - 1)) fo (5 * (k.val + 1) - 1))
            ∗ ((slotM ![4, 0, 0] inb_S5x128x128_S1x128x128_4_0_0).view.loc (V d (cV L) (jV L)) ↦[(slotM ![4, 0, 0] inb_S5x128x128_S1x128x128_4_0_0).view.set]{fullShare} slotAfter d L fs fv hin fx ![4, 0, 0] inb_S5x128x128_S1x128x128_4_0_0 (slotAfter d L fs fv hin fx ![4, 0, 0] inb_S5x128x128_S1x128x128_4_0_0 fd4 (5 * k.val - 1)) (5 * (k.val + 1) - 1))) :=
          (hDW4.trans (rfl : _ = wDelO d L fs fv hin fx ![4, 0, 0] inb_S5x128x128_S1x128x128_4_0_0 (slotAfter d L fs fv hin fx ![4, 0, 0] inb_S5x128x128_S1x128x128_4_0_0 fd4 (5 * k.val - 1)) fo (k0_off4 L k 4#32) (k0_off4_inb L k 4) (k0_off3 k 2#32) (k0_off3_inb k 2))).trans
            ((wDelO_congr d L fs fv hin fx _ _ _ fo ec4 _ (co_inb L _) el4 _ (lo_inb _)).trans rfl)
        ihave Hcap := (pts_cap (F := F) _) $$ C0
        icases Hcap with ⟨%gC0, %hgC0, C0⟩
        obtain rfl : gC0 = chunkAfterO d L fs fv hin fx ![0, 0, 0] inb_S5x128x128_S1x128x128_0_0_0 fd0 fo (k0_off4 L k 0#32) (k0_off4_inb L k 0) (lo (5 * k.val)) (lo_inb (5 * k.val)) := hgC0.trans rfl
        ihave C0 := (Entails.of_eq (show ((chunkM (k0_off4 L k 0#32) (k0_off4_inb L k 0)).view.loc (V d (cV L) (jV L)) ↦[(chunkM (k0_off4 L k 0#32) (k0_off4_inb L k 0)).view.set]{fullShare} chunkAfterO d L fs fv hin fx ![0, 0, 0] inb_S5x128x128_S1x128x128_0_0_0 fd0 fo (k0_off4 L k 0#32) (k0_off4_inb L k 0) (lo (5 * k.val)) (lo_inb (5 * k.val)) : sProp 𝕄) = ((CM L (5 * k.val + 0)).view.loc (V d (cV L) (jV L)) ↦[(CM L (5 * k.val + 0)).view.set]{fullShare} Gk fv fx : sProp 𝕄) from
          (done_congr d L fs fv hin fx _ _ _ fo (off4_co L k 0) _ (co_inb L _) (rfl : lo (5 * k.val) = lo (5 * k.val + 0)) _ (lo_inb _)).trans
            (chunk_pts d L fs fv hin fx ![0, 0, 0] inb_S5x128x128_S1x128x128_0_0_0 fd0 fo (5 * k.val + 0) (by omega)))) $$ C0
        ihave Hcap := (pts_cap (F := F) _) $$ C1
        icases Hcap with ⟨%gC1, %hgC1, C1⟩
        obtain rfl : gC1 = chunkAfterO d L fs fv hin fx ![1, 0, 0] inb_S5x128x128_S1x128x128_1_0_0 fd1 fo (k0_off4 L k 1#32) (k0_off4_inb L k 1) (lo (5 * k.val + 1)) (lo_inb (5 * k.val + 1)) := hgC1.trans rfl
        ihave C1 := (Entails.of_eq (show ((chunkM (k0_off4 L k 1#32) (k0_off4_inb L k 1)).view.loc (V d (cV L) (jV L)) ↦[(chunkM (k0_off4 L k 1#32) (k0_off4_inb L k 1)).view.set]{fullShare} chunkAfterO d L fs fv hin fx ![1, 0, 0] inb_S5x128x128_S1x128x128_1_0_0 fd1 fo (k0_off4 L k 1#32) (k0_off4_inb L k 1) (lo (5 * k.val + 1)) (lo_inb (5 * k.val + 1)) : sProp 𝕄) = ((CM L (5 * k.val + 1)).view.loc (V d (cV L) (jV L)) ↦[(CM L (5 * k.val + 1)).view.set]{fullShare} Gk fv fx : sProp 𝕄) from
          (done_congr d L fs fv hin fx _ _ _ fo (off4_co L k 1) _ (co_inb L _) (rfl : lo (5 * k.val + 1) = lo (5 * k.val + 1)) _ (lo_inb _)).trans
            (chunk_pts d L fs fv hin fx ![1, 0, 0] inb_S5x128x128_S1x128x128_1_0_0 fd1 fo (5 * k.val + 1) (by omega)))) $$ C1
        ihave W2_dst := (Entails.of_eq (chunk_pts d L fs fv hin fx ![2, 0, 0] inb_S5x128x128_S1x128x128_2_0_0 fd2 fo (5 * k.val - 3) (by omega))) $$ W2_dst
        ihave W3_dst := (Entails.of_eq (chunk_pts d L fs fv hin fx ![3, 0, 0] inb_S5x128x128_S1x128x128_3_0_0 fd3 fo (5 * k.val - 2) (by omega))) $$ W3_dst
        ihave W4_dst := (Entails.of_eq (chunk_pts d L fs fv hin fx ![4, 0, 0] inb_S5x128x128_S1x128x128_4_0_0 fd4 fo (5 * k.val - 1) (by omega))) $$ W4_dst
        rw [inv, GPart_ge d L fs fv hin fx qx fo (k.val + 1) (by omega), WPart_pos d L fs fv hin fx qx fo (k.val + 1) (by omega), done_push (fun j => ((CM L j).view.loc (V d (cV L) (jV L)) ↦[(CM L j).view.set]{fullShare} Gk fv fx : sProp 𝕄)) k.val hkpos]
        isplitl [Hmw]; · iexact Hmw
        isplitl [HO]
        · iexists _; isplitr
          swap; · iexact HO
          ipureintro
          repeat (first | exact hW' | refine waits_insert _ ?_)
        isplitl [G0 G1 G0_dst G1_dst Rx0 Rx1 Rs0 Rs1]
        · isplitl [G0]; · iexact G0
          isplitl [G1]; · iexact G1
          isplitl [G0_dst]; · iexists _; iexact G0_dst
          isplitl [G1_dst]; · iexists _; iexact G1_dst
          isplitl [Rx0]; · iexact Rx0
          isplitl [Rx1]; · iexact Rx1
          isplitl [Rs0]; · iexact Rs0
          iexact Rs1
        isplitl [W2 W3 W4]
        · isplitl [W2]; · iexists _; iexact W2
          isplitl [W3]; · iexists _; iexact W3
          iexists _; iexact W4
        isplitl [X2]; · iexact X2
        isplitl [X3]; · iexact X3
        isplitl [X4]; · iexact X4
        isplitl [T2]; · iexact T2
        isplitl [T3]; · iexact T3
        isplitl [T4]; · iexact T4
        isplitl [Hg2]; · iexact Hg2
        isplitl [Hg3]; · iexact Hg3
        isplitl [Hg4]; · iexact Hg4
        isplitl [Hw0]; · iexact Hw0
        isplitl [Hw1]; · iexact Hw1
        isplitl [Hdone W2_dst W3_dst W4_dst C0 C1]
        · isplitl [Hdone]; · iexact Hdone
          isplitl [W2_dst]; · iexact W2_dst
          isplitl [W3_dst]; · iexact W3_dst
          isplitl [W4_dst]; · iexact W4_dst
          isplitl [C0]; · iexact C0
          iexact C1
        iexact Htodo
  · rw [inv, GPart_lt d L fs fv hin fx qx fo 0 (by decide), WPart_zero d L fs fv hin fx qx fo]
    isplitl [Hmw]; · iexact Hmw
    isplitl [HO]
    · iexists _; isplitr
      swap; · iexact HO
      ipureintro; intro p hp
      rcases Finset.mem_insert.mp hp with hp | hp
      · exact .inr (hp ▸ rfl)
      · exact .inl hp
    isplitl [Hg0 Hg1 Hx0 Hx1 T0 T1]
    · isplitl [Hg0]; · iexists _; iexact Hg0
      isplitl [Hg1]; · iexists _; iexact Hg1
      isplitl [Hx0]; · iexact Hx0
      isplitl [Hx1]; · iexact Hx1
      isplitl [T0]; · iexact T0
      iexact T1
    isplitl [Hw2 Hw3 Hw4 D2 D3 D4]
    · isplitl [Hw2]; · iexact Hw2
      isplitl [Hw3]; · iexact Hw3
      isplitl [Hw4]; · iexact Hw4
      isplitl [D2]; · iexists _; iexact D2
      isplitl [D3]; · iexists _; iexact D3
      iexists _; iexact D4
    isplitl [Hx2]; · iexact Hx2
    isplitl [Hx3]; · iexact Hx3
    isplitl [Hx4]; · iexact Hx4
    isplitl [T2]; · iexact T2
    isplitl [T3]; · iexact T3
    isplitl [T4]; · iexact T4
    isplitl [Hg2]; · iexact Hg2
    isplitl [Hg3]; · iexact Hg3
    isplitl [Hg4]; · iexact Hg4
    isplitl [Hw0]; · iexact Hw0
    isplitl [Hw1]; · iexact Hw1
    isplitr
    · rw [show Finset.range (5 * 0 - 3) = (∅ : Finset ℕ) from rfl, bigSep_empty]; iempintro
    · rw [show Finset.Ico (5 * 0) 50 = Finset.range 50 from (Finset.range_eq_Ico 50).symm]; iexact Hoc
  -- after the tenth trip the copies out of blocks 47, 48, 49 land; every block then holds the lookup's value
  rw [show Scf.trips k0_t1_loop.lb k0_t1_loop.ub k0_t1_loop.st = 10 from trips_eq, inv_fun,
    GPart_ge d L fs fv hin fx qx fo 10 (by decide), WPart_pos d L fs fv hin fx qx fo 10 (by decide)]
  iintro %_ ⟨Hmw', ⟨%W', %hW', HO⟩, ⟨Hg0, Hg1, ⟨%f0, E0⟩, ⟨%f1, E1⟩, X0, X1, T0, T1⟩, ⟨⟨%fd2, W2⟩, ⟨%fd3, W3⟩, ⟨%fd4, W4⟩⟩, X2, X3, X4, T2, T3, T4, Hg2, Hg3, Hg4, Hw0, Hw1, Hdone, Htodo⟩
  sl_exec
  sl_step
  iclear D0 D1 Hmw' Htodo
  -- the array of lists, and the table from its five tokens and the remainder
  ihave Hv := (Entails.of_eq (pts_vV (F := F) d L _ _)) $$ Hv'
  ihave X0 := (Entails.of_eq (pts_xV (F := F) d L _ _)) $$ X0
  ihave X1 := (Entails.of_eq (pts_xV (F := F) d L _ _)) $$ X1
  ihave X2 := (Entails.of_eq (pts_xV (F := F) d L _ _)) $$ X2
  ihave X3 := (Entails.of_eq (pts_xV (F := F) d L _ _)) $$ X3
  ihave X4 := (Entails.of_eq (pts_xV (F := F) d L _ _)) $$ X4
  ihave Hx := (toks5 (F := F) Finset.univ qx fx).2 $$ [Hxd X0 X1 X2 X3 X4]
  · isplitl [Hxd]; · iexact Hxd
    isplitl [X0]; · iexact X0
    isplitl [X1]; · iexact X1
    isplitl [X2]; · iexact X2
    isplitl [X3]; · iexact X3
    iexact X4
  -- the last three blocks at the lookup's value, then the task's rows from all fifty
  ihave W2_dst := (Entails.of_eq (chunk_pts d L fs fv hin fx ![2, 0, 0] inb_S5x128x128_S1x128x128_2_0_0 fd2 fo (5 * 10 - 3) (by decide))) $$ W2_dst
  ihave W3_dst := (Entails.of_eq (chunk_pts d L fs fv hin fx ![3, 0, 0] inb_S5x128x128_S1x128x128_3_0_0 fd3 fo (5 * 10 - 2) (by decide))) $$ W3_dst
  ihave W4_dst := (Entails.of_eq (chunk_pts d L fs fv hin fx ![4, 0, 0] inb_S5x128x128_S1x128x128_4_0_0 fd4 fo (5 * 10 - 1) (by decide))) $$ W4_dst
  ihave Ho := (Entails.of_eq ((oTile_chunks (F := F) d L (Gk fv fx)).trans (done_last (fun j => ((CM L j).view.loc (V d (cV L) (jV L)) ↦[(CM L j).view.set]{fullShare} Gk fv fx : sProp 𝕄)))).symm) $$ [Hdone W2_dst W3_dst W4_dst]
  · isplitl [Hdone]; · iexact Hdone
    isplitl [W2_dst]; · iexact W2_dst
    isplitl [W3_dst]; · iexact W3_dst
    iexact W4_dst
  -- the lists' scratch from its tokens, the row-buffer scratch from its five buffers
  ihave Hs := (toks5 (F := F) Finset.univ fullShare (c0 d L fs fv)).2 $$ [Hsd T0 T1 T2 T3 T4]
  · isplitl [Hsd]; · iexact Hsd
    isplitl [T0]; · iexact T0
    isplitl [T1]; · iexact T1
    isplitl [T2]; · iexact T2
    isplitl [T3]; · iexact T3
    iexact T4
  ihave Hr := (slots5_join (F := F) d L) $$ [E0 E1 W2_src W3_src W4_src]
  · isplitl [E0]; · iexists _; iexact E0
    isplitl [E1]; · iexists _; iexact E1
    isplitl [W2_src]; · iexists _; iexact W2_src
    isplitl [W3_src]; · iexists _; iexact W3_src
    iexists _; iexact W4_src
  isplitl [Hv Hx Ho]
  · isplitl [Hv]; · iexact Hv
    isplitl [Hx]; · iexact Hx
    iexact Ho
  isplitl [Hs Hr Hbufs]
  · isplitl [Hs]; · iexists _; iexact Hs
    isplitl [Hr]; · iexact Hr
    iexact Hbufs
  isplitl [Hg0 Hg1 Hg2 Hg3 Hg4 Hw0 Hw1 W2 W3 W4 Hsc Hsems]
  · isplitl [Hg0 Hg1 Hg2 Hg3 Hg4 Hw0 Hw1 W2 W3 W4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [W2]; · iexact W2
      isplitl [W3]; · iexact W3
      isplitl [W4]; · iexact W4
      iexact Hsc
    · iexact Hsems
  iexists _; isplitr
  swap; · iexact HO
  ipureintro
  repeat (first | exact hW' | refine waits_insert _ ?_)

end Cert.Proof.KB

end
-- ==== Proof.LaunchValB.lean ====
/-
  The array of lists the kernel reads, as a pure function of the row numbers, and the lookup read off it.
  Before the kernel starts, the row numbers `ids` (4096 histories of 50) are transposed to (50, 4096) and regrouped to
  (50, 32, 128): list word (j, w, r) is row number (128·w + r, j) — position j of history 128·w + r. The lookup read
  off the lists (`Gk`) is therefore the lookup read off the row numbers (`Spec.G`).
-/
import proofs.«206531_g4466765988671_cont_8to1c4_310_22_alg».proof.Proof.IfaceB
import Idealize.ShloMosaic.Lib.Pipeline.Value

noncomputable section

namespace Cert.Proof.KB

open Cert.Kernel Cert.Kernel.Gen

open Idealize.ShloMosaic
open Idealize.ShloMosaic.ValueIdx

variable {F : FTy → Type}

/-- The lists: the row numbers transposed, then regrouped in row-major order. -/
def lstVal (ids : IVec S4096x50 32) : IVec S50x32x128 32 :=
  shapeCast S50x32x128 (transpose S50x4096 [1, 0] ids transposes_S4096x50_S50x4096_1_0) shapeCasts_S50x4096_S50x32x128

/-- List word (j, w, r) is the row number at position j of history 128·w + r. -/
theorem lstVal_apply (ids : IVec S4096x50 32) (j : Fin 50) (w : Fin 32) (r : Fin 128) :
    lstVal ids (ix3 j w r) = ids (ix2 (⟨128 * w.val + r.val, by omega⟩ : Fin 4096) j) := by
  unfold lstVal
  rw [shapeCast_apply _ shapeCasts_S50x4096_S50x32x128 (ix3 j w r) (ix2 j (⟨128 * w.val + r.val, by omega⟩ : Fin 4096)) (by
    rw [Shape.rowMajor_val_three, Shape.rowMajor_val_two]
    show j.val * 4096 + (128 * w.val + r.val) = (j.val * 32 + w.val) * 128 + r.val
    omega)]
  exact transpose_apply _ ids transposes_S4096x50_S50x4096_1_0 _ _ fun c => match c with | ⟨0, _⟩ => rfl | ⟨1, _⟩ => rfl

/-- Every list word is a row number. -/
theorem lstVal_mem (ids : IVec S4096x50 32) (i : S50x32x128.Idx) : ∃ k, lstVal ids i = ids k :=
  ⟨_, rfl⟩

/-- If every row number names a table row, so does every list word. -/
theorem lstVal_lt (ids : IVec S4096x50 32) (hin : Cert.Proof.Spec.InRange ids) (i : S50x32x128.Idx) :
    (lstVal ids i).toNat < 100000 := by
  obtain ⟨k, hk⟩ := lstVal_mem ids i
  rw [hk]; exact hin k

/-- The lookup off the lists at a result index given by coordinates. -/
theorem Gk_apply (lst : IVec S50x32x128 32) (tbl : FVec F S100000x128 .f32) (b : Fin 4096) (c : Fin 6400) :
    Gk lst tbl (ix2 b c)
      = tbl (ix2 (Spec.rowOf (lst (ix3 (Spec.posOf c) (⟨b.val / 128, by omega⟩ : Fin 32)
          (⟨b.val % 128, Nat.mod_lt _ (by decide)⟩ : Fin 128)))) (Spec.laneOf c)) := rfl

/-- The lookup read off the lists is the lookup read off the row numbers. -/
theorem Gk_lstVal (ids : IVec S4096x50 32) (tbl : FVec F S100000x128 .f32) :
    Gk (lstVal ids) tbl = Cert.Proof.Spec.G ids tbl := by
  funext x
  obtain ⟨b, c, rfl⟩ : ∃ (b : Fin 4096) (c : Fin 6400), x = ix2 b c := ⟨x 0, x 1, eq_ix2 x⟩
  rw [Gk_apply, Spec.G_apply, lstVal_apply]
  refine congrArg (fun r => tbl (ix2 (Spec.rowOf (ids (ix2 r (Spec.posOf c)))) (Spec.laneOf c))) (Fin.ext ?_)
  show 128 * (b.val / 128) + b.val % 128 = b.val
  exact Nat.div_add_mod b.val 128

end Cert.Proof.KB

end
-- ==== Proof.LaunchB.lean ====
/-
  The lookup kernel's run on the whole device, from one task's run.
  The TensorCore transposes the row numbers and regroups them into the array of lists, then starts both cores and
  waits for them. Every one of the 32 tasks reads the lists and the table whole, so each holds a read share of both:
  the whole share is split into a part kept back and one part per core, and a core's part again into a part kept back
  and one part per task; the parts join again in the reverse order when the tasks and the cores are done. The result's
  rows are split among the tasks by number — task 2·s + c (subcore s of core c) owns rows 128·(2·s + c) to
  128·(2·s + c) + 127 — so the row blocks are pairwise disjoint and cover the array; each task leaves its block at
  the ONE whole-array function "the lookup off the lists", so the blocks join at that function with no choice to make.
  Read off the row numbers instead of the lists, that function is the lookup the specification names.
-/
import proofs.«206531_g4466765988671_cont_8to1c4_310_22_alg».proof.Proof.IfaceB
import proofs.«206531_g4466765988671_cont_8to1c4_310_22_alg».proof.Proof.TileB
import proofs.«206531_g4466765988671_cont_8to1c4_310_22_alg».proof.Proof.LaunchValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo

variable {F : FTy → Type}

local notation "𝕄" => MT nD τ sig (HIx 1) (Elt F) ℕ UU ℕ

local notation "vV" => (Memref.whole Cert.Kernel.main_v1_scv : Memref Cert.Kernel.sig Kind.scVector Space.hbm Cert.Kernel.S50x32x128 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S5x128x128 EltTy.f32)

/-! ## The tasks' places, their shares of the two arrays that are only read, their rows of the result -/

/-- The place of the task on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

abbrev LL (c : Fin 2) (s : Fin 16) : grid0.Coords := coordsV (Fin.cast bound_zero.symm c) (Fin.cast bound_one.symm s)

theorem wid_LL (c : Fin 2) (s : Fin 16) : wid (LL c s) = 2 * s.val + c.val := rfl

/-- Core `c`'s read share of an array read whole by every task: one of two parts split off the whole, -/
abbrev qc (c : Fin 2) : PosShare TreeShare := Transfers.shareTok fullShare 2 c
/-- and the share of its task `s`: one of sixteen parts split off the core's. -/
abbrev qt (c : Fin 2) (s : Fin 16) : PosShare TreeShare := Transfers.shareTok (qc c) 16 s

/-- Two tasks of different numbers own disjoint row blocks of the result. -/
theorem tiles_disjoint {L L' : grid0.Coords} (h : wid L ≠ wid L') : Disjoint (oTileSet L) (oTileSet L') :=
  Rect.unit_disjoint 0 (by
    show 128 * wid L + 128 ≤ 128 * wid L' ∨ 128 * wid L' + 128 ≤ 128 * wid L
    omega)

/-- Core `c`'s rows of the result: its sixteen tasks' row blocks. -/
def coreSet (c : Fin 2) : Finset S4096x6400.Idx := Finset.univ.biUnion fun s : Fin 16 => oTileSet (LL c s)

theorem tiles_disjoint_core (c : Fin 2) :
    ∀ s ∈ (Finset.univ : Finset (Fin 16)), ∀ s' ∈ (Finset.univ : Finset (Fin 16)), s ≠ s' →
      Disjoint (oTileSet (LL c s)) (oTileSet (LL c s')) := fun s _ s' _ h =>
  tiles_disjoint (by
    rw [wid_LL, wid_LL]
    have : s.val ≠ s'.val := fun e => h (Fin.ext e)
    omega)

theorem cores_disjoint :
    ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]
  intro s _
  rw [Finset.disjoint_biUnion_right]
  intro s' _
  refine tiles_disjoint ?_
  rw [wid_LL, wid_LL]
  have : c.val ≠ c'.val := fun e => h (Fin.ext e)
  have := c.isLt; have := c'.isLt
  omega

/-- Every row of the result is some task's: row x belongs to task number x / 128 = 2·s + c. -/
theorem cores_cover : (Finset.univ : Finset (Fin 2)).biUnion coreSet = Finset.univ := by
  refine Finset.eq_univ_of_forall fun x => ?_
  have h0 : (x 0).val < 4096 := idx2_lt0 x
  have h1 : (x 1).val < 6400 := idx2_lt1 x
  refine Finset.mem_biUnion.mpr ⟨⟨(x 0).val / 128 % 2, Nat.mod_lt _ (by decide)⟩, Finset.mem_univ _, ?_⟩
  unfold coreSet
  refine Finset.mem_biUnion.mpr ⟨⟨(x 0).val / 128 / 2, by omega⟩, Finset.mem_univ _, ?_⟩
  refine Rect.mem_set_unit.mpr fun a => ?_
  match a with
  | ⟨0, _⟩ =>
    show 128 * (2 * ((x 0).val / 128 / 2) + (x 0).val / 128 % 2) ≤ (x 0).val
      ∧ (x 0).val < 128 * (2 * ((x 0).val / 128 / 2) + (x 0).val / 128 % 2) + 128
    omega
  | ⟨1, _⟩ =>
    show 0 ≤ (x 1).val ∧ (x 1).val < 0 + 6400
    omega

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The result whole is the two cores' rows, -/
theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl
/-- and a core's rows are its sixteen tasks' row blocks. -/
theorem oPts_tiles (d : Dev nD) (c : Fin 2) (f : Buf (Elt F) (oLoc d)) :
    (oLoc d ↦[coreSet c]{fullShare} f : sProp 𝕄) = bigSep Finset.univ fun s : Fin 16 => oLoc d ↦[oTileSet (LL c s)]{fullShare} f :=
  pointsTo_biUnion Finset.univ (ℓ := oLoc d) (fun s : Fin 16 => oTileSet (LL c s)) (tiles_disjoint_core c)

/-! ## What the handshakes carry -/

variable (m : (ℓ : Loc nD τ sig) → Buf (Elt F) ℓ) (ρ : Dev nD → PrngReg)

/-- The lists as the kernel finds them: the host's two operations applied to the launch's row numbers. -/
abbrev lstOf (d : Dev nD) : Buf (Elt F) (vLoc d) := lstVal (m (iLoc d))
/-- The result the kernel leaves: the lookup off those lists and the launch's table. -/
abbrev outOf (d : Dev nD) : Buf (Elt F) (oLoc d) := Gk (lstOf m d) (m (xLoc d))

/-- What core `c` is handed: its share of the lists and of the table, its rows of the result (at contents `fo`). -/
def coreRes (d : Dev nD) (c : Fin 2) (fo : Buf (Elt F) (oLoc d)) : sProp 𝕄 :=
  iprop((vLoc d ↦{qc c} lstOf m d) ∗ (xLoc d ↦{qc c} m (xLoc d)) ∗ (oLoc d ↦[coreSet c]{fullShare} fo))
/-- What its task `s` is handed: its share of each, its row block of the result. -/
def tileRes (d : Dev nD) (c : Fin 2) (s : Fin 16) (fo : Buf (Elt F) (oLoc d)) : sProp 𝕄 :=
  iprop((vLoc d ↦{qt c s} lstOf m d) ∗ (xLoc d ↦{qt c s} m (xLoc d)) ∗ (oLoc d ↦[oTileSet (LL c s)]{fullShare} fo))

/-- The one call hands each core its shares and rows, each task its shares and row block, and takes them back with
    the result's rows at the lookup's value. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (outOf m d)
  go := fun q d c i => match q with | 0 => tileRes m d (Fin.cast nCore_zero c) (Fin.cast nSub_zero i) (m (oLoc d))
  td := fun q d c i => match q with | 0 => tileRes m d (Fin.cast nCore_zero c) (Fin.cast nSub_zero i) (outOf m d)
  x := fun _ _ => iprop(emp)

instance coreRes_storable (d : Dev nD) (c : Fin 2) (fo : Buf (Elt F) (oLoc d)) : BI.Storable (upEmb : UEmb _ 𝕄) (coreRes m d c fo) := by
  unfold coreRes; infer_instance
instance tileRes_storable (d : Dev nD) (c : Fin 2) (s : Fin 16) (fo : Buf (Elt F) (oLoc d)) :
    BI.Storable (upEmb : UEmb _ 𝕄) (tileRes m d c s fo) := by
  unfold tileRes; infer_instance

instance P_storable : (P (F := F) m).IsStorable where
  st q d c := match q with | 0 => (inferInstance : BI.Storable (upEmb : UEmb _ 𝕄) (coreRes m d (Fin.cast nCore_zero c) (m (oLoc d))))
  dn q d c := match q with | 0 => (inferInstance : BI.Storable (upEmb : UEmb _ 𝕄) (coreRes m d (Fin.cast nCore_zero c) (outOf m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (outOf m d)))

variable [FloatOps F]

/-! ## The task's obligation -/

theorem defs₀_vector (c : Fin τ.nSC) (s : Fin τ.nSub) :
    defs₀ (F := F) (.scVector c s) 0 ()
      = SparseCore.onTile hcore0 hsub0 (fun c s => cc0_run (coordsV c s)
          vV (Memref.isWhole_whole _) xV (Memref.isWhole_whole _) oV (Memref.isWhole_whole _)
          sI (Memref.isWhole_whole _) sR (Memref.isWhole_whole _)
          cc0_scratch2 cc0_scratch3 cc0_scratch4 cc0_scratch5 cc0_scratch6 cc0_scratch7 cc0_scratch8 cc0_scratch9 cc0_scratch10 cc0_scratch11 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d : Dev nD, Cert.Proof.Spec.InRange (m (iLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (qt (Fin.cast nCore_zero c) (Fin.cast nSub_zero i)) (qt (Fin.cast nCore_zero c) (Fin.cast nSub_zero i))
    (lstOf m d) (m (xLoc d)) (m (oLoc d)) (lstVal_lt _ (hin d)) O W hO).trans (wp_mono frame _ _ fun _ => obl_post)

/-! ## A core's shares and rows split among its tasks, and join again -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (outOf m d))
          -∗ coreRes m d (Fin.cast nCore_zero c) (outOf m d)))
  generalize Fin.cast nCore_zero c = c'
  rw [bigSep_tasks (F := F) (fun i => tileRes m d c' i (m (oLoc d))), bigSep_tasks (F := F) (fun i => tileRes m d c' i (outOf m d))]
  unfold coreRes tileRes
  rw [bigSep_sep', bigSep_sep', bigSep_sep', bigSep_sep', oPts_tiles, oPts_tiles]
  iintro ⟨Hv, Hx, Ho⟩
  ihave Hv' := (Transfers.pointsTo_toks_split (qc c') 16) $$ Hv
  icases Hv' with ⟨Hvr, Hvs⟩
  ihave Hx' := (Transfers.pointsTo_toks_split (qc c') 16) $$ Hx
  icases Hx' with ⟨Hxr, Hxs⟩
  imodintro
  isplitl [Hvs Hxs Ho]
  · isplitl [Hvs]; · iexact Hvs
    isplitl [Hxs]; · iexact Hxs
    iexact Ho
  iintro ⟨Hvs, Hxs, Ho⟩
  isplitl [Hvr Hvs]
  · iapply (Transfers.pointsTo_toks_join (qc c') 16)
    isplitl [Hvr]; · iexact Hvr
    iexact Hvs
  isplitl [Hxr Hxs]
  · iapply (Transfers.pointsTo_toks_join (qc c') 16)
    isplitl [Hxr]; · iexact Hxr
    iexact Hxs
  iexact Ho

/-! ## The launch element: the handshakes' rounds; the transfers' counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev i' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev v' : DevRef τ sig := Proc.devRef .tc (main_v1 : Ref sig .tc)
abbrev o' : DevRef τ sig := Proc.devRef .tc (main_v2 : Ref sig .tc)

/-- The host's two operations: the row numbers transposed, the transpose regrouped into lists. -/
abbrev opT : HloOp τ sig (Elt F) :=
  StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opR : HloOp τ sig (Elt F) := StableHlo.reshape main_v0 main_v1 rfl shapeCasts_S50x4096_S50x32x128

/-- The TensorCore's arrays, all unscoped. -/
abbrev S5 : Finset (DevRef τ sig) := {i', x', t', v', o'}

omit [FloatOps F] in
theorem held_S5 (d : Dev nD) (W : Valuation τ sig (Elt F)) :
    (held (T d) S5 W : sProp 𝕄) = iprop((iLoc d ↦{fullShare} W i') ∗ (xLoc d ↦{fullShare} W x') ∗ (tLoc d ↦{fullShare} W t')
      ∗ (vLoc d ↦{fullShare} W v') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ (tLoc d ↦{fullShare} W main_v0)
      ∗ (vLoc d ↦{fullShare} W main_v1) ∗ (oLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
theorem unscoped_held (d : Dev nD) :
    (unscopedBufs d (fun b => m ((SparseCore.T d).loc b)) : sProp 𝕄) = held (T d) S5 (launchContents m d) := by
  rw [unscopedBufs_eq, held_S5]

theorem hT : (opT (F := F)).bufs ⊆ S5 := show ({i', t'} : Finset (DevRef τ sig)) ⊆ S5 by decide
theorem hR : (opR (F := F)).bufs ⊆ S5 := show ({t', v'} : Finset (DevRef τ sig)) ⊆ S5 by decide

/-- The arrays' contents after the two operations. -/
abbrev W2 (d : Dev nD) : Valuation τ sig (Elt F) := (opR (F := F)).result ((opT (F := F)).result (launchContents m d))

theorem W2_i (d : Dev nD) : W2 m d i' = m (iLoc d) := by
  show after [opT, opR] (launchContents m d) (Proc.devRef .tc main_arg0) = _
  after_results <;> rfl
theorem W2_x (d : Dev nD) : W2 m d x' = m (xLoc d) := by
  show after [opT, opR] (launchContents m d) (Proc.devRef .tc main_arg1) = _
  after_results <;> rfl
theorem W2_o (d : Dev nD) : W2 m d o' = m (oLoc d) := by
  show after [opT, opR] (launchContents m d) (Proc.devRef .tc main_v2) = _
  after_results <;> rfl
theorem W2_v (d : Dev nD) : W2 m d v' = lstOf m d := by
  show after [opT, opR] (launchContents m d) (Proc.devRef .tc main_v1) = _
  after_results <;> rfl

theorem held_W2 (d : Dev nD) :
    (held (T d) S5 (W2 m d) : sProp 𝕄) = iprop((iLoc d ↦{fullShare} m (iLoc d)) ∗ (xLoc d ↦{fullShare} m (xLoc d)) ∗ (tLoc d ↦{fullShare} W2 m d t')
      ∗ (vLoc d ↦{fullShare} lstOf m d) ∗ (oLoc d ↦{fullShare} m (oLoc d))) := by
  rw [held_S5, W2_i, W2_x, W2_v, W2_o]

omit [FloatOps F] in
/-- A whole array read by both cores: a part kept back, and each core's share. -/
theorem toks2 {ℓ : Loc nD τ sig} (f : Buf (Elt F) ℓ) :
    (ℓ ↦{fullShare} f : sProp 𝕄) ⊣⊢ iprop((ℓ ↦{Transfers.shareDrop fullShare 2} f) ∗ (ℓ ↦{qc 0} f) ∗ (ℓ ↦{qc 1} f)) := by
  have h := Transfers.pointsTo_toks (nD := nD) (τ := τ) (sig := sig) (Ix := HIx 1) (Val := Elt F) (Name := ℕ) (U := UU) (Lvl := ℕ)
    (ℓ := ℓ) (S := Finset.univ) (f := f) fullShare 2
  rw [bigSep_fin2] at h
  exact h

omit [FloatOps F] in
/-- What the call hands the two cores, and takes back. -/
theorem cores_eq (d : Dev nD) (fo : Buf (Elt F) (oLoc d)) :
    (bigSep Finset.univ fun c : Fin ((K (F := F)).nCore 0) => coreRes m d (Fin.cast nCore_zero c) fo)
      = iprop(((vLoc d ↦{qc 0} lstOf m d) ∗ (xLoc d ↦{qc 0} m (xLoc d)) ∗ (oLoc d ↦[coreSet 0]{fullShare} fo))
          ∗ ((vLoc d ↦{qc 1} lstOf m d) ∗ (xLoc d ↦{qc 1} m (xLoc d)) ∗ (oLoc d ↦[coreSet 1]{fullShare} fo))) := by
  show (bigSep (Finset.univ : Finset (Fin 2)) fun c => coreRes m d (Fin.cast nCore_zero c) fo) = _
  rw [bigSep_fin2]
  rfl

omit [FloatOps F] in
theorem st0_eq (d : Dev nD) : (bigSep Finset.univ fun c : Fin ((K (F := F)).nCore 0) => (P m).st 0 d c)
    = iprop(((vLoc d ↦{qc 0} lstOf m d) ∗ (xLoc d ↦{qc 0} m (xLoc d)) ∗ (oLoc d ↦[coreSet 0]{fullShare} m (oLoc d)))
        ∗ ((vLoc d ↦{qc 1} lstOf m d) ∗ (xLoc d ↦{qc 1} m (xLoc d)) ∗ (oLoc d ↦[coreSet 1]{fullShare} m (oLoc d)))) :=
  cores_eq m d (m (oLoc d))
omit [FloatOps F] in
theorem dn0_eq (d : Dev nD) : (bigSep Finset.univ fun c : Fin ((K (F := F)).nCore 0) => (P m).dn 0 d c)
    = iprop(((vLoc d ↦{qc 0} lstOf m d) ∗ (xLoc d ↦{qc 0} m (xLoc d)) ∗ (oLoc d ↦[coreSet 0]{fullShare} outOf m d))
        ∗ ((vLoc d ↦{qc 1} lstOf m d) ∗ (xLoc d ↦{qc 1} m (xLoc d)) ∗ (oLoc d ↦[coreSet 1]{fullShare} outOf m d))) :=
  cores_eq m d (outOf m d)

omit [FloatOps F] in
theorem oPts_two (d : Dev nD) (f : Buf (Elt F) (oLoc d)) :
    (oLoc d ↦{fullShare} f : sProp 𝕄) = iprop((oLoc d ↦[coreSet 0]{fullShare} f) ∗ (oLoc d ↦[coreSet 1]{fullShare} f)) :=
  (oPts_cores d f).trans (bigSep_fin2 _)

/-- What @main leaves the claim: the row numbers and the table at their launch contents, the result at the lookup. -/
abbrev FIN (d : Dev nD) : sProp 𝕄 :=
  iprop((iLoc d ↦{fullShare} m (iLoc d)) ∗ (xLoc d ↦{fullShare} m (xLoc d)) ∗ (oLoc d ↦{fullShare} outOf m d))

set_option maxRecDepth 16384 in
/-- @main on device `d`'s TensorCore: the two host operations over the five arrays held whole, then the one call — each
    core handed its share of the lists and of the table and its rows of the result — and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose
  iapply (wp_hlo_within 𝒱 (SparseCore.T d) none Set.univ (op := opT) (S := S5) hT (V := launchContents m d)) $$ [Hb Hheld]
  · isplitl [Hb]; · iexact Hb
    iexact Hheld
  iintro ⟨Hb, Hheld⟩
  rw [wp_ret]; imodintro
  -- the regrouping
  iapply (wp_hlo_within 𝒱 (SparseCore.T d) none Set.univ (op := opR) (S := S5) hR (V := (opT (F := F)).result (launchContents m d))) $$ [Hb Hheld]
  · isplitl [Hb]; · iexact Hb
    iexact Hheld
  iintro ⟨Hb, Hheld⟩
  rw [wp_ret]; imodintro
  ihave Hh := (Entails.of_eq (held_W2 (F := F) m d)) $$ Hheld
  icases Hh with ⟨Hi, Hx, Ht, Hv, Ho⟩
  -- the call
  ihave Hv' := (toks2 (F := F) _).1 $$ Hv
  icases Hv' with ⟨Hvr, Hv0, Hv1⟩
  ihave Hx' := (toks2 (F := F) _).1 $$ Hx
  icases Hx' with ⟨Hxr, Hx0, Hx1⟩
  ihave Ho' := (Entails.of_eq (oPts_two (F := F) d _)) $$ Ho
  icases Ho' with ⟨Ho0, Ho1⟩
  iapply ((K (F := F)).wp_run (D (F := F)) 𝒱 (EH := EH) (P := P m) κ d 0) $$ [Hst Hi Hvr Hxr Hv0 Hv1 Hx0 Hx1 Ho0 Ho1]
  isplitr; · iexact Hctx
  isplitl [Hst]; · iexact Hst
  isplitl [Hv0 Hv1 Hx0 Hx1 Ho0 Ho1]
  · rw [st0_eq]
    isplitl [Hv0 Hx0 Ho0]
    · isplitl [Hv0]; · iexact Hv0
      isplitl [Hx0]; · iexact Hx0
      iexact Ho0
    · isplitl [Hv1]; · iexact Hv1
      isplitl [Hx1]; · iexact Hx1
      iexact Ho1
  iintro ⟨Hst, Hdn⟩
  ihave Hdn' := (Entails.of_eq (dn0_eq m d)) $$ Hdn
  icases Hdn' with ⟨⟨Hv0, Hx0, Ho0⟩, Hv1, Hx1, Ho1⟩
  ihave Hv := (toks2 (F := F) _).2 $$ [Hvr Hv0 Hv1]
  · isplitl [Hvr]; · iexact Hvr
    isplitl [Hv0]; · iexact Hv0
    iexact Hv1
  ihave Hx := (toks2 (F := F) _).2 $$ [Hxr Hx0 Hx1]
  · isplitl [Hxr]; · iexact Hxr
    isplitl [Hx0]; · iexact Hx0
    iexact Hx1
  ihave Ho := (Entails.of_eq (oPts_two (F := F) d _).symm) $$ [Ho0 Ho1]
  · isplitl [Ho0]; · iexact Ho0
    iexact Ho1
  imodintro
  isplitl [Hst]; · iexact Hst
  isplitl [Hi]; · iexact Hi
  isplitl [Hx]; · iexact Hx
  iexact Ho

/-! ## The final memory -/

def fq (d : Dev nD) (s' : Phys nD τ sig (Elt F)) : Prop :=
  s'.mem.mem (oLoc d) = outOf m d ∧ s'.mem.mem (iLoc d) = m (iLoc d) ∧ s'.mem.mem (xLoc d) = m (xLoc d)

set_option maxRecDepth 16384 in
omit [FloatOps F] in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outOf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outOf m c ∧ r.2.mem (iLoc c) = m (iLoc c) ∧ r.2.mem (xLoc c) = m (xLoc c)

theorem run_sc [∀ e, Nonempty (Elt F e)] (hin : ∀ d : Dev nD, Cert.Proof.Spec.InRange (m (iLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- From any memory whose row numbers all name table rows: every weakly fair execution of the device's threads
    terminates, with the result at the lookup of the launch's row numbers and table, and both arguments unchanged. -/
theorem run_main {F : FTy → Type} [FloatOps F] [∀ e, Nonempty (Elt F e)] (m : (ℓ : Loc nD τ sig) → Buf (Elt F) ℓ) (ρ : Dev nD → PrngReg)
    (hin : ∀ c : Dev nD, Cert.Proof.Spec.InRange (m ((c.tc : Thread nD τ).loc main_arg0))) :
    θ_run (Cert.Kernel.defs (F := F)) (Cert.Kernel.threads (F := F)) ⟨m, fun _ => 0, ρ⟩
      (fun r => ∀ c : Dev nD,
        r.2.mem ((c.tc : Thread nD τ).loc main_v2)
          = Cert.Proof.Spec.G (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (Cert.Kernel.defs (F := F)) _ _).mono
    (fun _ h c => ⟨(h c).1.trans (Gk_lstVal (F := F) _ _), (h c).2⟩)
    (run_sc m ρ hin)

end Cert.Proof.KB

end
-- ==== Proof.lean ====
/-
  The lookup kernel computes the reference's lookup.
  Both programs, at the ideal instance, leave in the result the one function `Spec.G` of the arguments: entry
  (b, 128·j + e) is entry e of the table row that history b names at position j. The kernel's side: thirty-two tasks
  each fill their 128 rows of the result block by block, a block being the rows a gather brought into a row buffer,
  copied out; the table and the lists are only read. The reference's side: a gather on the host, its bounds mask all
  true where every row number names a row, then a reshape. The precondition gives that every row number names a row;
  the frames are the same runs with the value dropped; the ideal pass's ledger of rewrites is empty, so the claim that
  the idealized kernel is the kernel's sanctioned idealization is `True` as stated.
-/
import proofs.«206531_g4466765988671_cont_8to1c4_310_22_alg».proof.Defs
import proofs.«206531_g4466765988671_cont_8to1c4_310_22_alg».proof.Proof.Gen.Kernel
import proofs.«206531_g4466765988671_cont_8to1c4_310_22_alg».proof.Proof.Gen.Kernel.Skeleton
import proofs.«206531_g4466765988671_cont_8to1c4_310_22_alg».proof.Proof.Gen.KernelIdeal
import proofs.«206531_g4466765988671_cont_8to1c4_310_22_alg».proof.Proof.Gen.KernelIdeal.Skeleton
import proofs.«206531_g4466765988671_cont_8to1c4_310_22_alg».proof.Proof.Gen.ReferenceIdeal
import proofs.«206531_g4466765988671_cont_8to1c4_310_22_alg».proof.Proof.Gen.Pre_input_domain
import proofs.«206531_g4466765988671_cont_8to1c4_310_22_alg».proof.Proof.PreRange
import proofs.«206531_g4466765988671_cont_8to1c4_310_22_alg».proof.Proof.RefRun
import proofs.«206531_g4466765988671_cont_8to1c4_310_22_alg».proof.Proof.LaunchI
import proofs.«206531_g4466765988671_cont_8to1c4_310_22_alg».proof.Proof.LaunchB
import Idealize.ShloMosaic.Adequacy
import Idealize.ShloMosaic.Init

noncomputable section

namespace Cert.Proof

open Idealize.ShloMosaic Idealize.SL.Sem

/-- The kernel as printed runs to its end and leaves its arguments unchanged: its run with the value dropped. -/
theorem frame_k : Cert.frame_Kernel (hKernel := Cert.Kernel.Gen.facts) (hPre_input_domain := Cert.Pre_input_domain.Gen.facts) := fun m g hpre =>
  (θ_run (Cert.Kernel.defs (F := Bits)) _ _).mono (fun _ h c => (h c).2)
    (Cert.Proof.KB.run_main (F := Bits) m g (fun c => Cert.Proof.PreRange.inRange_of_pre _ _ (hpre c)))

/-- The same of the idealized kernel. -/
theorem frame_ki : Cert.frame_KernelIdeal (hKernelIdeal := Cert.KernelIdeal.Gen.facts) (hPre_input_domain := Cert.Pre_input_domain.Gen.facts) := fun m g hpre =>
  (θ_run (Cert.KernelIdeal.defs (F := Ideal)) _ _).mono (fun _ h c => (h c).2)
    (Cert.Proof.KI.run_main (F := Ideal) m g (fun c => Cert.Proof.PreRange.inRange_of_pre _ _ (hpre c)))

/-- The same of the idealized reference. -/
theorem frame_ri : Cert.frame_ReferenceIdeal (hReferenceIdeal := Cert.ReferenceIdeal.Gen.facts) (hPre_input_domain := Cert.Pre_input_domain.Gen.facts) := fun m g hpre =>
  (θ_run (Cert.ReferenceIdeal.defs (F := Ideal)) _ _).mono (fun _ h c => (h c).2)
    (Cert.Proof.RefSide.run m g (fun c => Cert.Proof.PreRange.inRange_of_pre _ _ (hpre c)))

/-- From memories agreeing on the arguments both idealized programs end with the result at the one lookup of them. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := fun m g m' g' hpre hag =>
  have hin : ∀ c : Dev Cert.KernelIdeal.nD, Cert.Proof.Spec.InRange (m ((c.tc : Thread Cert.KernelIdeal.nD Cert.KernelIdeal.τ).loc Cert.KernelIdeal.main_arg0)) :=
    fun c => Cert.Proof.PreRange.inRange_of_pre _ _ (hpre c)
  ⟨fun c => Cert.Proof.Spec.G (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run_main (F := Ideal) m g hin,
    (θ_run (Cert.ReferenceIdeal.defs (F := Ideal)) _ _).mono
      (fun _ h c => by
        obtain ⟨h1, h2, h3⟩ := h c
        refine ⟨?_, h2, h3⟩
        rw [h1, (hag c).1, (hag c).2])
      (Cert.Proof.RefSide.run m' g' (fun c => by rw [(hag c).1]; exact hin c))⟩

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
